-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S65x256 : Shape := ⟨2, ![65, 256]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S65x256 : S_.BroadcastsInDim S65x256 (![] : Fin 0 → Fin S65x256.rank)
  reducesTo_S65x256_S_d0_1 : S65x256.ReducesTo [0, 1] S_

variable [Facts]

def fn {F : FTy → Type} [FloatOps F] (main_arg0 : FVec F S8x512x256 .f32) (main_arg1 : FVec F S65x256 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S65x256 .f32 := Host.absf main_arg1
  let main_cst_0 : FVec F S_ .f32 := constant S_ .f32 0x7F800000#32
  let main_v5 : FVec F S65x256 .f32 := broadcastInDim S65x256 ![] bcast_S_S65x256 main_cst_0
  let main_v6 : IVec S65x256 1 := cmpf .olt main_v4 main_v5
  let main_c_1 : IVec S_ 1 := constantI S_ 1 1#1
  let main_v7 : IVec S_ 1 := (fun x v => Host.reduce IntOp.andi x v reducesTo_S65x256_S_d0_1 h_S_) main_v6 main_c_1
  let main_v8 : IVec S_ 1 := andi main_v3 main_v7
  main_v8
-- ==== Kernel.lean ====
abbrev S8x512x256 : Shape := ⟨3, ![8, 512, 256]⟩
abbrev S65x256 : Shape := ⟨2, ![65, 256]⟩
abbrev S16640 : Shape := ⟨1, ![16640]⟩
abbrev S270336 : Shape := ⟨1, ![270336]⟩
abbrev S8704 : Shape := ⟨1, ![8704]⟩
abbrev S8448 : Shape := ⟨1, ![8448]⟩
abbrev S_ : Shape := ⟨0, ![]⟩
abbrev S16 : Shape := ⟨1, ![16]⟩
abbrev S1056x256 : Shape := ⟨2, ![1056, 256]⟩
abbrev S512x512x256 : Shape := ⟨3, ![512, 512, 256]⟩
abbrev S8x1024x256 : Shape := ⟨3, ![8, 1024, 256]⟩
abbrev S1024x256 : Shape := ⟨2, ![1024, 256]⟩
abbrev S1x1024x256 : Shape := ⟨3, ![1, 1024, 256]⟩
abbrev S1x512x256 : Shape := ⟨3, ![1, 512, 256]⟩
abbrev S512x256 : Shape := ⟨2, ![512, 256]⟩

abbrev nBuf : Table → Nat
  | .hbm => 6
  | .local .tc .vmem => 4
  | .local .scVector .vmem => 2
  | _ => 0

abbrev bufTy : (tb : Table) → Fin (nBuf tb) → BufTy
  | .hbm, ⟨0, _⟩ => ⟨S8x512x256, .f32⟩
  | .hbm, ⟨1, _⟩ => ⟨S65x256, .f32⟩
  | .hbm, ⟨2, _⟩ => ⟨S16640, .f32⟩
  | .hbm, ⟨3, _⟩ => ⟨S270336, .f32⟩
  | .hbm, ⟨4, _⟩ => ⟨S1056x256, .f32⟩
  | .hbm, ⟨5, _⟩ => ⟨S512x512x256, .f32⟩
  | .local .tc .vmem, ⟨0, _⟩ => ⟨S1056x256, .f32⟩
  | .local .tc .vmem, ⟨1, _⟩ => ⟨S8x512x256, .f32⟩
  | .local .tc .vmem, ⟨2, _⟩ => ⟨S8x512x256, .f32⟩
  | .local .tc .vmem, ⟨3, _⟩ => ⟨S8x1024x256, .f32⟩
  | .local .scVector .vmem, ⟨0, _⟩ => ⟨S8704, .f32⟩
  | .local .scVector .vmem, ⟨1, _⟩ => ⟨S8448, .f32⟩
  | _, _ => ⟨S8x512x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => true
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_scratch0 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem1_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c31_i32 : BitVec 32 := 31#32
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c479_i32 : BitVec 32 := 479#32
  let v3 : BitVec 32 := Scalar.subi v2 c479_i32
  let v4 : BitVec 32 := Scalar.maxsi c0_i32 v3
  let v5 : BitVec 32 := Scalar.minsi c31_i32 v4
  let c256_i32 : BitVec 32 := 256#32
  let v6 : BitVec 32 := Scalar.muli v5 c256_i32
  ![v6.toNat]
def k0_off2 (i : grid0.Coords) (c0_i32_0 : BitVec 32) (c0_i32_4 : BitVec 32) : Fin 1 → Nat :=
  let c64_i32 : BitVec 32 := 64#32
  let c0_i32_2 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let v7 : BitVec 32 := Scalar.addi v2 c0_i32_0
  let c479_i32_1 : BitVec 32 := 479#32
  let v8 : BitVec 32 := Scalar.subi v7 c479_i32_1
  let v9 : BitVec 32 := Scalar.maxsi c0_i32_2 v8
  let v10 : BitVec 32 := Scalar.minsi c64_i32 v9
  let c31_i32 : BitVec 32 := 31#32
  let c0_i32 : BitVec 32 := 0#32
  let c479_i32 : BitVec 32 := 479#32
  let v3 : BitVec 32 := Scalar.subi v2 c479_i32
  let v4 : BitVec 32 := Scalar.maxsi c0_i32 v3
  let v5 : BitVec 32 := Scalar.minsi c31_i32 v4
  let v11 : BitVec 32 := Scalar.subi v10 v5
  let c256_i32_3 : BitVec 32 := 256#32
  let v12 : BitVec 32 := Scalar.muli v11 c256_i32_3
  let v13 : BitVec 32 := Scalar.addi v12 c0_i32_4
  let v14 : Index := Scalar.indexCast v13
  ![v14.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c256_i32_650 : BitVec 32 := 256#32
  let v3901 : BitVec 32 := Scalar.muli v2 c256_i32_650
  ![v3901.toNat]
abbrev grid1 : Pipeline.Grid := ⟨1, ![64], ![false]⟩

def k1_mult1 (i : grid1.Coords) : BitVec 32 :=
  let c512_i32 : BitVec 32 := 512#32
  let c8_i32 : BitVec 32 := 8#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.addi v4 c1_i32_2
  let v6 : BitVec 32 := Scalar.muli c8_i32 v5
  let v7 : BitVec 32 := Scalar.subi c512_i32 v6
  v7
def k1_off1 (i : grid1.Coords) : Fin 3 → Nat :=
  let c7 : Index := 7#32
  let c512_i32 : BitVec 32 := 512#32
  let c8_i32 : BitVec 32 := 8#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.addi v4 c1_i32_2
  let v6 : BitVec 32 := Scalar.muli c8_i32 v5
  let v7 : BitVec 32 := Scalar.subi c512_i32 v6
  let v8 : BitVec 32 := v7
  let v9 : Index := Scalar.indexCast v8
  let c0 : Index := 0#32
  ![7, v9.toNat, 0]
def k1_mult2 (i : grid1.Coords) : BitVec 32 :=
  let c512_i32_10 : BitVec 32 := 512#32
  let c8_i32_9 : BitVec 32 := 8#32
  let arg0 : BitVec 32 := BitVec.ofNat 32 (i 0).val
  let c1_i32_6 : BitVec 32 := 1#32
  let v15 : BitVec 32 := Scalar.muli arg0 c1_i32_6
  let c0_i32_7 : BitVec 32 := 0#32
  let v16 : BitVec 32 := Scalar.addi v15 c0_i32_7
  let c1_i32_8 : BitVec 32 := 1#32
  let v17 : BitVec 32 := Scalar.addi v16 c1_i32_8
  let v18 : BitVec 32 := Scalar.muli c8_i32_9 v17
  let v19 : BitVec 32 := Scalar.subi c512_i32_10 v18
  v19
def k1_off2 (i : grid1.Coords) : Fin 3 → Nat :=
  let c6 : Index := 6#32
  let c512_i32_10 : BitVec 32 := 512#32
  let c8_i32_9 : BitVec 32 := 8#32
  let arg0 : BitVec 32 := BitVec.ofNat 32 (i 0).val
  let c1_i32_6 : BitVec 32 := 1#32
  let v15 : BitVec 32 := Scalar.muli arg0 c1_i32_6
  let c0_i32_7 : BitVec 32 := 0#32
  let v16 : BitVec 32 := Scalar.addi v15 c0_i32_7
  let c1_i32_8 : BitVec 32 := 1#32
  let v17 : BitVec 32 := Scalar.addi v16 c1_i32_8
  let v18 : BitVec 32 := Scalar.muli c8_i32_9 v17
  let v19 : BitVec 32 := Scalar.subi c512_i32_10 v18
  let v20 : BitVec 32 := v19
  let v21 : Index := Scalar.indexCast v20
  let c0_11 : Index := 0#32
  ![6, v21.toNat, 0]
def k1_mult3 (i : grid1.Coords) : BitVec 32 :=
  let c512_i32_18 : BitVec 32 := 512#32
  let c8_i32_17 : BitVec 32 := 8#32
  let arg0 : BitVec 32 := BitVec.ofNat 32 (i 0).val
  let c1_i32_14 : BitVec 32 := 1#32
  let v27 : BitVec 32 := Scalar.muli arg0 c1_i32_14
  let c0_i32_15 : BitVec 32 := 0#32
  let v28 : BitVec 32 := Scalar.addi v27 c0_i32_15
  let c1_i32_16 : BitVec 32 := 1#32
  let v29 : BitVec 32 := Scalar.addi v28 c1_i32_16
  let v30 : BitVec 32 := Scalar.muli c8_i32_17 v29
  let v31 : BitVec 32 := Scalar.subi c512_i32_18 v30
  v31
def k1_off3 (i : grid1.Coords) : Fin 3 → Nat :=
  let c5 : Index := 5#32
  let c512_i32_18 : BitVec 32 := 512#32
  let c8_i32_17 : BitVec 32 := 8#32
  let arg0 : BitVec 32 := BitVec.ofNat 32 (i 0).val
  let c1_i32_14 : BitVec 32 := 1#32
  let v27 : BitVec 32 := Scalar.muli arg0 c1_i32_14
  let c0_i32_15 : BitVec 32 := 0#32
  let v28 : BitVec 32 := Scalar.addi v27 c0_i32_15
  let c1_i32_16 : BitVec 32 := 1#32
  let v29 : BitVec 32 := Scalar.addi v28 c1_i32_16
  let v30 : BitVec 32 := Scalar.muli c8_i32_17 v29
  let v31 : BitVec 32 := Scalar.subi c512_i32_18 v30
  let v32 : BitVec 32 := v31
  let v33 : Index := Scalar.indexCast v32
  let c0_19 : Index := 0#32
  ![5, v33.toNat, 0]
def k1_mult4 (i : grid1.Coords) : BitVec 32 :=
  let c512_i32_26 : BitVec 32 := 512#32
  let c8_i32_25 : BitVec 32 := 8#32
  let arg0 : BitVec 32 := BitVec.ofNat 32 (i 0).val
  let c1_i32_22 : BitVec 32 := 1#32
  let v39 : BitVec 32 := Scalar.muli arg0 c1_i32_22
  let c0_i32_23 : BitVec 32 := 0#32
  let v40 : BitVec 32 := Scalar.addi v39 c0_i32_23
  let c1_i32_24 : BitVec 32 := 1#32
  let v41 : BitVec 32 := Scalar.addi v40 c1_i32_24
  let v42 : BitVec 32 := Scalar.muli c8_i32_25 v41
  let v43 : BitVec 32 := Scalar.subi c512_i32_26 v42
  v43
def k1_off4 (i : grid1.Coords) : Fin 3 → Nat :=
  let c4 : Index := 4#32
  let c512_i32_26 : BitVec 32 := 512#32
  let c8_i32_25 : BitVec 32 := 8#32
  let arg0 : BitVec 32 := BitVec.ofNat 32 (i 0).val
  let c1_i32_22 : BitVec 32 := 1#32
  let v39 : BitVec 32 := Scalar.muli arg0 c1_i32_22
  let c0_i32_23 : BitVec 32 := 0#32
  let v40 : BitVec 32 := Scalar.addi v39 c0_i32_23
  let c1_i32_24 : BitVec 32 := 1#32
  let v41 : BitVec 32 := Scalar.addi v40 c1_i32_24
  let v42 : BitVec 32 := Scalar.muli c8_i32_25 v41
  let v43 : BitVec 32 := Scalar.subi c512_i32_26 v42
  let v44 : BitVec 32 := v43
  let v45 : Index := Scalar.indexCast v44
  let c0_27 : Index := 0#32
  ![4, v45.toNat, 0]
def k1_mult5 (i : grid1.Coords) : BitVec 32 :=
  let c512_i32_34 : BitVec 32 := 512#32
  let c8_i32_33 : BitVec 32 := 8#32
  let arg0 : BitVec 32 := BitVec.ofNat 32 (i 0).val
  let c1_i32_30 : BitVec 32 := 1#32
  let v51 : BitVec 32 := Scalar.muli arg0 c1_i32_30
  let c0_i32_31 : BitVec 32 := 0#32
  let v52 : BitVec 32 := Scalar.addi v51 c0_i32_31
  let c1_i32_32 : BitVec 32 := 1#32
  let v53 : BitVec 32 := Scalar.addi v52 c1_i32_32
  let v54 : BitVec 32 := Scalar.muli c8_i32_33 v53
  let v55 : BitVec 32 := Scalar.subi c512_i32_34 v54
  v55
def k1_off5 (i : grid1.Coords) : Fin 3 → Nat :=
  let c3_35 : Index := 3#32
  let c512_i32_34 : BitVec 32 := 512#32
  let c8_i32_33 : BitVec 32 := 8#32
  let arg0 : BitVec 32 := BitVec.ofNat 32 (i 0).val
  let c1_i32_30 : BitVec 32 := 1#32
  let v51 : BitVec 32 := Scalar.muli arg0 c1_i32_30
  let c0_i32_31 : BitVec 32 := 0#32
  let v52 : BitVec 32 := Scalar.addi v51 c0_i32_31
  let c1_i32_32 : BitVec 32 := 1#32
  let v53 : BitVec 32 := Scalar.addi v52 c1_i32_32
  let v54 : BitVec 32 := Scalar.muli c8_i32_33 v53
  let v55 : BitVec 32 := Scalar.subi c512_i32_34 v54
  let v56 : BitVec 32 := v55
  let v57 : Index := Scalar.indexCast v56
  let c0_36 : Index := 0#32
  ![3, v57.toNat, 0]
def k1_mult6 (i : grid1.Coords) : BitVec 32 :=
  let c512_i32_44 : BitVec 32 := 512#32
  let c8_i32_43 : BitVec 32 := 8#32
  let arg0 : BitVec 32 := BitVec.ofNat 32 (i 0).val
  let c1_i32_40 : BitVec 32 := 1#32
  let v63 : BitVec 32 := Scalar.muli arg0 c1_i32_40
  let c0_i32_41 : BitVec 32 := 0#32
  let v64 : BitVec 32 := Scalar.addi v63 c0_i32_41
  let c1_i32_42 : BitVec 32 := 1#32
  let v65 : BitVec 32 := Scalar.addi v64 c1_i32_42
  let v66 : BitVec 32 := Scalar.muli c8_i32_43 v65
  let v67 : BitVec 32 := Scalar.subi c512_i32_44 v66
  v67
def k1_off6 (i : grid1.Coords) : Fin 3 → Nat :=
  let c2_45 : Index := 2#32
  let c512_i32_44 : BitVec 32 := 512#32
  let c8_i32_43 : BitVec 32 := 8#32
  let arg0 : BitVec 32 := BitVec.ofNat 32 (i 0).val
  let c1_i32_40 : BitVec 32 := 1#32
  let v63 : BitVec 32 := Scalar.muli arg0 c1_i32_40
  let c0_i32_41 : BitVec 32 := 0#32
  let v64 : BitVec 32 := Scalar.addi v63 c0_i32_41
  let c1_i32_42 : BitVec 32 := 1#32
  let v65 : BitVec 32 := Scalar.addi v64 c1_i32_42
  let v66 : BitVec 32 := Scalar.muli c8_i32_43 v65
  let v67 : BitVec 32 := Scalar.subi c512_i32_44 v66
  let v68 : BitVec 32 := v67
  let v69 : Index := Scalar.indexCast v68
  let c0_46 : Index := 0#32
  ![2, v69.toNat, 0]
def k1_mult7 (i : grid1.Coords) : BitVec 32 :=
  let c512_i32_54 : BitVec 32 := 512#32
  let c8_i32_53 : BitVec 32 := 8#32
  let arg0 : BitVec 32 := BitVec.ofNat 32 (i 0).val
  let c1_i32_50 : BitVec 32 := 1#32
  let v75 : BitVec 32 := Scalar.muli arg0 c1_i32_50
  let c0_i32_51 : BitVec 32 := 0#32
  let v76 : BitVec 32 := Scalar.addi v75 c0_i32_51
  let c1_i32_52 : BitVec 32 := 1#32
  let v77 : BitVec 32 := Scalar.addi v76 c1_i32_52
  let v78 : BitVec 32 := Scalar.muli c8_i32_53 v77
  let v79 : BitVec 32 := Scalar.subi c512_i32_54 v78
  v79
def k1_off7 (i : grid1.Coords) : Fin 3 → Nat :=
  let c1_55 : Index := 1#32
  let c512_i32_54 : BitVec 32 := 512#32
  let c8_i32_53 : BitVec 32 := 8#32
  let arg0 : BitVec 32 := BitVec.ofNat 32 (i 0).val
  let c1_i32_50 : BitVec 32 := 1#32
  let v75 : BitVec 32 := Scalar.muli arg0 c1_i32_50
  let c0_i32_51 : BitVec 32 := 0#32
  let v76 : BitVec 32 := Scalar.addi v75 c0_i32_51
  let c1_i32_52 : BitVec 32 := 1#32
  let v77 : BitVec 32 := Scalar.addi v76 c1_i32_52
  let v78 : BitVec 32 := Scalar.muli c8_i32_53 v77
  let v79 : BitVec 32 := Scalar.subi c512_i32_54 v78
  let v80 : BitVec 32 := v79
  let v81 : Index := Scalar.indexCast v80
  let c0_56 : Index := 0#32
  ![1, v81.toNat, 0]
def k1_mult8 (i : grid1.Coords) : BitVec 32 :=
  let c512_i32_64 : BitVec 32 := 512#32
  let c8_i32_63 : BitVec 32 := 8#32
  let arg0 : BitVec 32 := BitVec.ofNat 32 (i 0).val
  let c1_i32_60 : BitVec 32 := 1#32
  let v87 : BitVec 32 := Scalar.muli arg0 c1_i32_60
  let c0_i32_61 : BitVec 32 := 0#32
  let v88 : BitVec 32 := Scalar.addi v87 c0_i32_61
  let c1_i32_62 : BitVec 32 := 1#32
  let v89 : BitVec 32 := Scalar.addi v88 c1_i32_62
  let v90 : BitVec 32 := Scalar.muli c8_i32_63 v89
  let v91 : BitVec 32 := Scalar.subi c512_i32_64 v90
  v91
def k1_off8 (i : grid1.Coords) : Fin 3 → Nat :=
  let c0_65 : Index := 0#32
  let c512_i32_64 : BitVec 32 := 512#32
  let c8_i32_63 : BitVec 32 := 8#32
  let arg0 : BitVec 32 := BitVec.ofNat 32 (i 0).val
  let c1_i32_60 : BitVec 32 := 1#32
  let v87 : BitVec 32 := Scalar.muli arg0 c1_i32_60
  let c0_i32_61 : BitVec 32 := 0#32
  let v88 : BitVec 32 := Scalar.addi v87 c0_i32_61
  let c1_i32_62 : BitVec 32 := 1#32
  let v89 : BitVec 32 := Scalar.addi v88 c1_i32_62
  let v90 : BitVec 32 := Scalar.muli c8_i32_63 v89
  let v91 : BitVec 32 := Scalar.subi c512_i32_64 v90
  let v92 : BitVec 32 := v91
  let v93 : Index := Scalar.indexCast v92
  let c0_66 : Index := 0#32
  ![0, v93.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1056x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S65x256_S16640 : S65x256.ShapeCasts S16640
  h_S16 : 0 < S16.numel
  shapeCasts_S16_S16 : S16.ShapeCasts S16
  inb_S8448_S16_0 : ∀ a, (![0] : Fin 1 → Nat) a + S16.size a ≤ S8448.size a
  inb_S8448_S16_16 : ∀ a, (![16] : Fin 1 → Nat) a + S16.size a ≤ S8448.size a
  inb_S8448_S16_32 : ∀ a, (![32] : Fin 1 → Nat) a + S16.size a ≤ S8448.size a
  inb_S8448_S16_48 : ∀ a, (![48] : Fin 1 → Nat) a + S16.size a ≤ S8448.size a
  inb_S8448_S16_64 : ∀ a, (![64] : Fin 1 → Nat) a + S16.size a ≤ S8448.size a
  inb_S8448_S16_80 : ∀ a, (![80] : Fin 1 → Nat) a + S16.size a ≤ S8448.size a
  inb_S8448_S16_96 : ∀ a, (![96] : Fin 1 → Nat) a + S16.size a ≤ S8448.size a
  inb_S8448_S16_112 : ∀ a, (![112] : Fin 1 → Nat) a + S16.size a ≤ S8448.size a
  inb_S8448_S16_128 : ∀ a, (![128] : Fin 1 → Nat) a + S16.size a ≤ S8448.size a
  inb_S8448_S16_144 : ∀ a, (![144] : Fin 1 → Nat) a + S16.size a ≤ S8448.size a
  inb_S8448_S16_160 : ∀ a, (![160] : Fin 1 → Nat) a + S16.size a ≤ S8448.size a
  inb_S8448_S16_176 : ∀ a, (![176] : Fin 1 → Nat) a + S16.size a ≤ S8448.size a
  inb_S8448_S16_192 : ∀ a, (![192] : Fin 1 → Nat) a + S16.size a ≤ S8448.size a
  inb_S8448_S16_208 : ∀ a, (![208] : Fin 1 → Nat) a + S16.size a ≤ S8448.size a
  inb_S8448_S16_224 : ∀ a, (![224] : Fin 1 → Nat) a + S16.size a ≤ S8448.size a
  inb_S8448_S16_240 : ∀ a, (![240] : Fin 1 → Nat) a + S16.size a ≤ S8448.size a
  inb_S8448_S16_256 : ∀ a, (![256] : Fin 1 → Nat) a + S16.size a ≤ S8448.size a
  inb_S8448_S16_272 : ∀ a, (![272] : Fin 1 → Nat) a + S16.size a ≤ S8448.size a
  inb_S8448_S16_288 : ∀ a, (![288] : Fin 1 → Nat) a + S16.size a ≤ S8448.size a
  inb_S8448_S16_304 : ∀ a, (![304] : Fin 1 → Nat) a + S16.size a ≤ S8448.size a
  inb_S8448_S16_320 : ∀ a, (![320] : Fin 1 → Nat) a + S16.size a ≤ S8448.size a
  inb_S8448_S16_336 : ∀ a, (![336] : Fin 1 → Nat) a + S16.size a ≤ S8448.size a
  inb_S8448_S16_352 : ∀ a, (![352] : Fin 1 → Nat) a + S16.size a ≤ S8448.size a
  inb_S8448_S16_368 : ∀ a, (![368] : Fin 1 → Nat) a + S16.size a ≤ S8448.size a
  inb_S8448_S16_384 : ∀ a, (![384] : Fin 1 → Nat) a + S16.size a ≤ S8448.size a
  inb_S8448_S16_400 : ∀ a, (![400] : Fin 1 → Nat) a + S16.size a ≤ S8448.size a
  inb_S8448_S16_416 : ∀ a, (![416] : Fin 1 → Nat) a + S16.size a ≤ S8448.size a
  inb_S8448_S16_432 : ∀ a, (![432] : Fin 1 → Nat) a + S16.size a ≤ S8448.size a
  inb_S8448_S16_448 : ∀ a, (![448] : Fin 1 → Nat) a + S16.size a ≤ S8448.size a
  inb_S8448_S16_464 : ∀ a, (![464] : Fin 1 → Nat) a + S16.size a ≤ S8448.size a
  inb_S8448_S16_480 : ∀ a, (![480] : Fin 1 → Nat) a + S16.size a ≤ S8448.size a
  inb_S8448_S16_496 : ∀ a, (![496] : Fin 1 → Nat) a + S16.size a ≤ S8448.size a
  inb_S8448_S16_512 : ∀ a, (![512] : Fin 1 → Nat) a + S16.size a ≤ S8448.size a
  inb_S8448_S16_528 : ∀ a, (![528] : Fin 1 → Nat) a + S16.size a ≤ S8448.size a
  inb_S8448_S16_544 : ∀ a, (![544] : Fin 1 → Nat) a + S16.size a ≤ S8448.size a
  inb_S8448_S16_560 : ∀ a, (![560] : Fin 1 → Nat) a + S16.size a ≤ S8448.size a
  inb_S8448_S16_576 : ∀ a, (![576] : Fin 1 → Nat) a + S16.size a ≤ S8448.size a
  inb_S8448_S16_592 : ∀ a, (![592] : Fin 1 → Nat) a + S16.size a ≤ S8448.size a
  inb_S8448_S16_608 : ∀ a, (![608] : Fin 1 → Nat) a + S16.size a ≤ S8448.size a
  inb_S8448_S16_624 : ∀ a, (![624] : Fin 1 → Nat) a + S16.size a ≤ S8448.size a
  inb_S8448_S16_640 : ∀ a, (![640] : Fin 1 → Nat) a + S16.size a ≤ S8448.size a
  inb_S8448_S16_656 : ∀ a, (![656] : Fin 1 → Nat) a + S16.size a ≤ S8448.size a
  inb_S8448_S16_672 : ∀ a, (![672] : Fin 1 → Nat) a + S16.size a ≤ S8448.size a
  inb_S8448_S16_688 : ∀ a, (![688] : Fin 1 → Nat) a + S16.size a ≤ S8448.size a
  inb_S8448_S16_704 : ∀ a, (![704] : Fin 1 → Nat) a + S16.size a ≤ S8448.size a
  inb_S8448_S16_720 : ∀ a, (![720] : Fin 1 → Nat) a + S16.size a ≤ S8448.size a
  inb_S8448_S16_736 : ∀ a, (![736] : Fin 1 → Nat) a + S16.size a ≤ S8448.size a
  inb_S8448_S16_752 : ∀ a, (![752] : Fin 1 → Nat) a + S16.size a ≤ S8448.size a
  inb_S8448_S16_768 : ∀ a, (![768] : Fin 1 → Nat) a + S16.size a ≤ S8448.size a
  inb_S8448_S16_784 : ∀ a, (![784] : Fin 1 → Nat) a + S16.size a ≤ S8448.size a
  inb_S8448_S16_800 : ∀ a, (![800] : Fin 1 → Nat) a + S16.size a ≤ S8448.size a
  inb_S8448_S16_816 : ∀ a, (![816] : Fin 1 → Nat) a + S16.size a ≤ S8448.size a
  inb_S8448_S16_832 : ∀ a, (![832] : Fin 1 → Nat) a + S16.size a ≤ S8448.size a
  inb_S8448_S16_848 : ∀ a, (![848] : Fin 1 → Nat) a + S16.size a ≤ S8448.size a
  inb_S8448_S16_864 : ∀ a, (![864] : Fin 1 → Nat) a + S16.size a ≤ S8448.size a
  inb_S8448_S16_880 : ∀ a, (![880] : Fin 1 → Nat) a + S16.size a ≤ S8448.size a
  inb_S8448_S16_896 : ∀ a, (![896] : Fin 1 → Nat) a + S16.size a ≤ S8448.size a
  inb_S8448_S16_912 : ∀ a, (![912] : Fin 1 → Nat) a + S16.size a ≤ S8448.size a
  inb_S8448_S16_928 : ∀ a, (![928] : Fin 1 → Nat) a + S16.size a ≤ S8448.size a
  inb_S8448_S16_944 : ∀ a, (![944] : Fin 1 → Nat) a + S16.size a ≤ S8448.size a
  inb_S8448_S16_960 : ∀ a, (![960] : Fin 1 → Nat) a + S16.size a ≤ S8448.size a
  inb_S8448_S16_976 : ∀ a, (![976] : Fin 1 → Nat) a + S16.size a ≤ S8448.size a
  inb_S8448_S16_992 : ∀ a, (![992] : Fin 1 → Nat) a + S16.size a ≤ S8448.size a
  inb_S8448_S16_1008 : ∀ a, (![1008] : Fin 1 → Nat) a + S16.size a ≤ S8448.size a
  inb_S8448_S16_1024 : ∀ a, (![1024] : Fin 1 → Nat) a + S16.size a ≤ S8448.size a
  inb_S8448_S16_1040 : ∀ a, (![1040] : Fin 1 → Nat) a + S16.size a ≤ S8448.size a
  inb_S8448_S16_1056 : ∀ a, (![1056] : Fin 1 → Nat) a + S16.size a ≤ S8448.size a
  inb_S8448_S16_1072 : ∀ a, (![1072] : Fin 1 → Nat) a + S16.size a ≤ S8448.size a
  inb_S8448_S16_1088 : ∀ a, (![1088] : Fin 1 → Nat) a + S16.size a ≤ S8448.size a
  inb_S8448_S16_1104 : ∀ a, (![1104] : Fin 1 → Nat) a + S16.size a ≤ S8448.size a
  inb_S8448_S16_1120 : ∀ a, (![1120] : Fin 1 → Nat) a + S16.size a ≤ S8448.size a
  inb_S8448_S16_1136 : ∀ a, (![1136] : Fin 1 → Nat) a + S16.size a ≤ S8448.size a
  inb_S8448_S16_1152 : ∀ a, (![1152] : Fin 1 → Nat) a + S16.size a ≤ S8448.size a
  inb_S8448_S16_1168 : ∀ a, (![1168] : Fin 1 → Nat) a + S16.size a ≤ S8448.size a
  inb_S8448_S16_1184 : ∀ a, (![1184] : Fin 1 → Nat) a + S16.size a ≤ S8448.size a
  inb_S8448_S16_1200 : ∀ a, (![1200] : Fin 1 → Nat) a + S16.size a ≤ S8448.size a
  inb_S8448_S16_1216 : ∀ a, (![1216] : Fin 1 → Nat) a + S16.size a ≤ S8448.size a
  inb_S8448_S16_1232 : ∀ a, (![1232] : Fin 1 → Nat) a + S16.size a ≤ S8448.size a
  inb_S8448_S16_1248 : ∀ a, (![1248] : Fin 1 → Nat) a + S16.size a ≤ S8448.size a
  inb_S8448_S16_1264 : ∀ a, (![1264] : Fin 1 → Nat) a + S16.size a ≤ S8448.size a
  inb_S8448_S16_1280 : ∀ a, (![1280] : Fin 1 → Nat) a + S16.size a ≤ S8448.size a
  inb_S8448_S16_1296 : ∀ a, (![1296] : Fin 1 → Nat) a + S16.size a ≤ S8448.size a
  inb_S8448_S16_1312 : ∀ a, (![1312] : Fin 1 → Nat) a + S16.size a ≤ S8448.size a
  inb_S8448_S16_1328 : ∀ a, (![1328] : Fin 1 → Nat) a + S16.size a ≤ S8448.size a
  inb_S8448_S16_1344 : ∀ a, (![1344] : Fin 1 → Nat) a + S16.size a ≤ S8448.size a
  inb_S8448_S16_1360 : ∀ a, (![1360] : Fin 1 → Nat) a + S16.size a ≤ S8448.size a
  inb_S8448_S16_1376 : ∀ a, (![1376] : Fin 1 → Nat) a + S16.size a ≤ S8448.size a
  inb_S8448_S16_1392 : ∀ a, (![1392] : Fin 1 → Nat) a + S16.size a ≤ S8448.size a
  inb_S8448_S16_1408 : ∀ a, (![1408] : Fin 1 → Nat) a + S16.size a ≤ S8448.size a
  inb_S8448_S16_1424 : ∀ a, (![1424] : Fin 1 → Nat) a + S16.size a ≤ S8448.size a
  inb_S8448_S16_1440 : ∀ a, (![1440] : Fin 1 → Nat) a + S16.size a ≤ S8448.size a
  inb_S8448_S16_1456 : ∀ a, (![1456] : Fin 1 → Nat) a + S16.size a ≤ S8448.size a
  inb_S8448_S16_1472 : ∀ a, (![1472] : Fin 1 → Nat) a + S16.size a ≤ S8448.size a
  inb_S8448_S16_1488 : ∀ a, (![1488] : Fin 1 → Nat) a + S16.size a ≤ S8448.size a
  inb_S8448_S16_1504 : ∀ a, (![1504] : Fin 1 → Nat) a + S16.size a ≤ S8448.size a
  inb_S8448_S16_1520 : ∀ a, (![1520] : Fin 1 → Nat) a + S16.size a ≤ S8448.size a
  inb_S8448_S16_1536 : ∀ a, (![1536] : Fin 1 → Nat) a + S16.size a ≤ S8448.size a
  inb_S8448_S16_1552 : ∀ a, (![1552] : Fin 1 → Nat) a + S16.size a ≤ S8448.size a
  inb_S8448_S16_1568 : ∀ a, (![1568] : Fin 1 → Nat) a + S16.size a ≤ S8448.size a
  inb_S8448_S16_1584 : ∀ a, (![1584] : Fin 1 → Nat) a + S16.size a ≤ S8448.size a
  inb_S8448_S16_1600 : ∀ a, (![1600] : Fin 1 → Nat) a + S16.size a ≤ S8448.size a
  inb_S8448_S16_1616 : ∀ a, (![1616] : Fin 1 → Nat) a + S16.size a ≤ S8448.size a
  inb_S8448_S16_1632 : ∀ a, (![1632] : Fin 1 → Nat) a + S16.size a ≤ S8448.size a
  inb_S8448_S16_1648 : ∀ a, (![1648] : Fin 1 → Nat) a + S16.size a ≤ S8448.size a
  inb_S8448_S16_1664 : ∀ a, (![1664] : Fin 1 → Nat) a + S16.size a ≤ S8448.size a
  inb_S8448_S16_1680 : ∀ a, (![1680] : Fin 1 → Nat) a + S16.size a ≤ S8448.size a
  inb_S8448_S16_1696 : ∀ a, (![1696] : Fin 1 → Nat) a + S16.size a ≤ S8448.size a
  inb_S8448_S16_1712 : ∀ a, (![1712] : Fin 1 → Nat) a + S16.size a ≤ S8448.size a
  inb_S8448_S16_1728 : ∀ a, (![1728] : Fin 1 → Nat) a + S16.size a ≤ S8448.size a
  inb_S8448_S16_1744 : ∀ a, (![1744] : Fin 1 → Nat) a + S16.size a ≤ S8448.size a
  inb_S8448_S16_1760 : ∀ a, (![1760] : Fin 1 → Nat) a + S16.size a ≤ S8448.size a
  inb_S8448_S16_1776 : ∀ a, (![1776] : Fin 1 → Nat) a + S16.size a ≤ S8448.size a
  inb_S8448_S16_1792 : ∀ a, (![1792] : Fin 1 → Nat) a + S16.size a ≤ S8448.size a
  inb_S8448_S16_1808 : ∀ a, (![1808] : Fin 1 → Nat) a + S16.size a ≤ S8448.size a
  inb_S8448_S16_1824 : ∀ a, (![1824] : Fin 1 → Nat) a + S16.size a ≤ S8448.size a
  inb_S8448_S16_1840 : ∀ a, (![1840] : Fin 1 → Nat) a + S16.size a ≤ S8448.size a
  inb_S8448_S16_1856 : ∀ a, (![1856] : Fin 1 → Nat) a + S16.size a ≤ S8448.size a
  inb_S8448_S16_1872 : ∀ a, (![1872] : Fin 1 → Nat) a + S16.size a ≤ S8448.size a
  inb_S8448_S16_1888 : ∀ a, (![1888] : Fin 1 → Nat) a + S16.size a ≤ S8448.size a
  inb_S8448_S16_1904 : ∀ a, (![1904] : Fin 1 → Nat) a + S16.size a ≤ S8448.size a
  inb_S8448_S16_1920 : ∀ a, (![1920] : Fin 1 → Nat) a + S16.size a ≤ S8448.size a
  inb_S8448_S16_1936 : ∀ a, (![1936] : Fin 1 → Nat) a + S16.size a ≤ S8448.size a
  inb_S8448_S16_1952 : ∀ a, (![1952] : Fin 1 → Nat) a + S16.size a ≤ S8448.size a
  inb_S8448_S16_1968 : ∀ a, (![1968] : Fin 1 → Nat) a + S16.size a ≤ S8448.size a
  inb_S8448_S16_1984 : ∀ a, (![1984] : Fin 1 → Nat) a + S16.size a ≤ S8448.size a
  inb_S8448_S16_2000 : ∀ a, (![2000] : Fin 1 → Nat) a + S16.size a ≤ S8448.size a
  inb_S8448_S16_2016 : ∀ a, (![2016] : Fin 1 → Nat) a + S16.size a ≤ S8448.size a
  inb_S8448_S16_2032 : ∀ a, (![2032] : Fin 1 → Nat) a + S16.size a ≤ S8448.size a
  inb_S8448_S16_2048 : ∀ a, (![2048] : Fin 1 → Nat) a + S16.size a ≤ S8448.size a
  inb_S8448_S16_2064 : ∀ a, (![2064] : Fin 1 → Nat) a + S16.size a ≤ S8448.size a
  inb_S8448_S16_2080 : ∀ a, (![2080] : Fin 1 → Nat) a + S16.size a ≤ S8448.size a
  inb_S8448_S16_2096 : ∀ a, (![2096] : Fin 1 → Nat) a + S16.size a ≤ S8448.size a
  inb_S8448_S16_2112 : ∀ a, (![2112] : Fin 1 → Nat) a + S16.size a ≤ S8448.size a
  inb_S8448_S16_2128 : ∀ a, (![2128] : Fin 1 → Nat) a + S16.size a ≤ S8448.size a
  inb_S8448_S16_2144 : ∀ a, (![2144] : Fin 1 → Nat) a + S16.size a ≤ S8448.size a
  inb_S8448_S16_2160 : ∀ a, (![2160] : Fin 1 → Nat) a + S16.size a ≤ S8448.size a
  inb_S8448_S16_2176 : ∀ a, (![2176] : Fin 1 → Nat) a + S16.size a ≤ S8448.size a
  inb_S8448_S16_2192 : ∀ a, (![2192] : Fin 1 → Nat) a + S16.size a ≤ S8448.size a
  inb_S8448_S16_2208 : ∀ a, (![2208] : Fin 1 → Nat) a + S16.size a ≤ S8448.size a
  inb_S8448_S16_2224 : ∀ a, (![2224] : Fin 1 → Nat) a + S16.size a ≤ S8448.size a
  inb_S8448_S16_2240 : ∀ a, (![2240] : Fin 1 → Nat) a + S16.size a ≤ S8448.size a
  inb_S8448_S16_2256 : ∀ a, (![2256] : Fin 1 → Nat) a + S16.size a ≤ S8448.size a
  inb_S8448_S16_2272 : ∀ a, (![2272] : Fin 1 → Nat) a + S16.size a ≤ S8448.size a
  inb_S8448_S16_2288 : ∀ a, (![2288] : Fin 1 → Nat) a + S16.size a ≤ S8448.size a
  inb_S8448_S16_2304 : ∀ a, (![2304] : Fin 1 → Nat) a + S16.size a ≤ S8448.size a
  inb_S8448_S16_2320 : ∀ a, (![2320] : Fin 1 → Nat) a + S16.size a ≤ S8448.size a
  inb_S8448_S16_2336 : ∀ a, (![2336] : Fin 1 → Nat) a + S16.size a ≤ S8448.size a
  inb_S8448_S16_2352 : ∀ a, (![2352] : Fin 1 → Nat) a + S16.size a ≤ S8448.size a
  inb_S8448_S16_2368 : ∀ a, (![2368] : Fin 1 → Nat) a + S16.size a ≤ S8448.size a
  inb_S8448_S16_2384 : ∀ a, (![2384] : Fin 1 → Nat) a + S16.size a ≤ S8448.size a
  inb_S8448_S16_2400 : ∀ a, (![2400] : Fin 1 → Nat) a + S16.size a ≤ S8448.size a
  inb_S8448_S16_2416 : ∀ a, (![2416] : Fin 1 → Nat) a + S16.size a ≤ S8448.size a
  inb_S8448_S16_2432 : ∀ a, (![2432] : Fin 1 → Nat) a + S16.size a ≤ S8448.size a
  inb_S8448_S16_2448 : ∀ a, (![2448] : Fin 1 → Nat) a + S16.size a ≤ S8448.size a
  inb_S8448_S16_2464 : ∀ a, (![2464] : Fin 1 → Nat) a + S16.size a ≤ S8448.size a
  inb_S8448_S16_2480 : ∀ a, (![2480] : Fin 1 → Nat) a + S16.size a ≤ S8448.size a
  inb_S8448_S16_2496 : ∀ a, (![2496] : Fin 1 → Nat) a + S16.size a ≤ S8448.size a
  inb_S8448_S16_2512 : ∀ a, (![2512] : Fin 1 → Nat) a + S16.size a ≤ S8448.size a
  inb_S8448_S16_2528 : ∀ a, (![2528] : Fin 1 → Nat) a + S16.size a ≤ S8448.size a
  inb_S8448_S16_2544 : ∀ a, (![2544] : Fin 1 → Nat) a + S16.size a ≤ S8448.size a
  inb_S8448_S16_2560 : ∀ a, (![2560] : Fin 1 → Nat) a + S16.size a ≤ S8448.size a
  inb_S8448_S16_2576 : ∀ a, (![2576] : Fin 1 → Nat) a + S16.size a ≤ S8448.size a
  inb_S8448_S16_2592 : ∀ a, (![2592] : Fin 1 → Nat) a + S16.size a ≤ S8448.size a
  inb_S8448_S16_2608 : ∀ a, (![2608] : Fin 1 → Nat) a + S16.size a ≤ S8448.size a
  inb_S8448_S16_2624 : ∀ a, (![2624] : Fin 1 → Nat) a + S16.size a ≤ S8448.size a
  inb_S8448_S16_2640 : ∀ a, (![2640] : Fin 1 → Nat) a + S16.size a ≤ S8448.size a
  inb_S8448_S16_2656 : ∀ a, (![2656] : Fin 1 → Nat) a + S16.size a ≤ S8448.size a
  inb_S8448_S16_2672 : ∀ a, (![2672] : Fin 1 → Nat) a + S16.size a ≤ S8448.size a
  inb_S8448_S16_2688 : ∀ a, (![2688] : Fin 1 → Nat) a + S16.size a ≤ S8448.size a
  inb_S8448_S16_2704 : ∀ a, (![2704] : Fin 1 → Nat) a + S16.size a ≤ S8448.size a
  inb_S8448_S16_2720 : ∀ a, (![2720] : Fin 1 → Nat) a + S16.size a ≤ S8448.size a
  inb_S8448_S16_2736 : ∀ a, (![2736] : Fin 1 → Nat) a + S16.size a ≤ S8448.size a
  inb_S8448_S16_2752 : ∀ a, (![2752] : Fin 1 → Nat) a + S16.size a ≤ S8448.size a
  inb_S8448_S16_2768 : ∀ a, (![2768] : Fin 1 → Nat) a + S16.size a ≤ S8448.size a
  inb_S8448_S16_2784 : ∀ a, (![2784] : Fin 1 → Nat) a + S16.size a ≤ S8448.size a
  inb_S8448_S16_2800 : ∀ a, (![2800] : Fin 1 → Nat) a + S16.size a ≤ S8448.size a
  inb_S8448_S16_2816 : ∀ a, (![2816] : Fin 1 → Nat) a + S16.size a ≤ S8448.size a
  inb_S8448_S16_2832 : ∀ a, (![2832] : Fin 1 → Nat) a + S16.size a ≤ S8448.size a
  inb_S8448_S16_2848 : ∀ a, (![2848] : Fin 1 → Nat) a + S16.size a ≤ S8448.size a
  inb_S8448_S16_2864 : ∀ a, (![2864] : Fin 1 → Nat) a + S16.size a ≤ S8448.size a
  inb_S8448_S16_2880 : ∀ a, (![2880] : Fin 1 → Nat) a + S16.size a ≤ S8448.size a
  inb_S8448_S16_2896 : ∀ a, (![2896] : Fin 1 → Nat) a + S16.size a ≤ S8448.size a
  inb_S8448_S16_2912 : ∀ a, (![2912] : Fin 1 → Nat) a + S16.size a ≤ S8448.size a
  inb_S8448_S16_2928 : ∀ a, (![2928] : Fin 1 → Nat) a + S16.size a ≤ S8448.size a
  inb_S8448_S16_2944 : ∀ a, (![2944] : Fin 1 → Nat) a + S16.size a ≤ S8448.size a
  inb_S8448_S16_2960 : ∀ a, (![2960] : Fin 1 → Nat) a + S16.size a ≤ S8448.size a
  inb_S8448_S16_2976 : ∀ a, (![2976] : Fin 1 → Nat) a + S16.size a ≤ S8448.size a
  inb_S8448_S16_2992 : ∀ a, (![2992] : Fin 1 → Nat) a + S16.size a ≤ S8448.size a
  inb_S8448_S16_3008 : ∀ a, (![3008] : Fin 1 → Nat) a + S16.size a ≤ S8448.size a
  inb_S8448_S16_3024 : ∀ a, (![3024] : Fin 1 → Nat) a + S16.size a ≤ S8448.size a
  inb_S8448_S16_3040 : ∀ a, (![3040] : Fin 1 → Nat) a + S16.size a ≤ S8448.size a
  inb_S8448_S16_3056 : ∀ a, (![3056] : Fin 1 → Nat) a + S16.size a ≤ S8448.size a
  inb_S8448_S16_3072 : ∀ a, (![3072] : Fin 1 → Nat) a + S16.size a ≤ S8448.size a
  inb_S8448_S16_3088 : ∀ a, (![3088] : Fin 1 → Nat) a + S16.size a ≤ S8448.size a
  inb_S8448_S16_3104 : ∀ a, (![3104] : Fin 1 → Nat) a + S16.size a ≤ S8448.size a
  inb_S8448_S16_3120 : ∀ a, (![3120] : Fin 1 → Nat) a + S16.size a ≤ S8448.size a
  inb_S8448_S16_3136 : ∀ a, (![3136] : Fin 1 → Nat) a + S16.size a ≤ S8448.size a
  inb_S8448_S16_3152 : ∀ a, (![3152] : Fin 1 → Nat) a + S16.size a ≤ S8448.size a
  inb_S8448_S16_3168 : ∀ a, (![3168] : Fin 1 → Nat) a + S16.size a ≤ S8448.size a
  inb_S8448_S16_3184 : ∀ a, (![3184] : Fin 1 → Nat) a + S16.size a ≤ S8448.size a
  inb_S8448_S16_3200 : ∀ a, (![3200] : Fin 1 → Nat) a + S16.size a ≤ S8448.size a
  inb_S8448_S16_3216 : ∀ a, (![3216] : Fin 1 → Nat) a + S16.size a ≤ S8448.size a
  inb_S8448_S16_3232 : ∀ a, (![3232] : Fin 1 → Nat) a + S16.size a ≤ S8448.size a
  inb_S8448_S16_3248 : ∀ a, (![3248] : Fin 1 → Nat) a + S16.size a ≤ S8448.size a
  inb_S8448_S16_3264 : ∀ a, (![3264] : Fin 1 → Nat) a + S16.size a ≤ S8448.size a
  inb_S8448_S16_3280 : ∀ a, (![3280] : Fin 1 → Nat) a + S16.size a ≤ S8448.size a
  inb_S8448_S16_3296 : ∀ a, (![3296] : Fin 1 → Nat) a + S16.size a ≤ S8448.size a
  inb_S8448_S16_3312 : ∀ a, (![3312] : Fin 1 → Nat) a + S16.size a ≤ S8448.size a
  inb_S8448_S16_3328 : ∀ a, (![3328] : Fin 1 → Nat) a + S16.size a ≤ S8448.size a
  inb_S8448_S16_3344 : ∀ a, (![3344] : Fin 1 → Nat) a + S16.size a ≤ S8448.size a
  inb_S8448_S16_3360 : ∀ a, (![3360] : Fin 1 → Nat) a + S16.size a ≤ S8448.size a
  inb_S8448_S16_3376 : ∀ a, (![3376] : Fin 1 → Nat) a + S16.size a ≤ S8448.size a
  inb_S8448_S16_3392 : ∀ a, (![3392] : Fin 1 → Nat) a + S16.size a ≤ S8448.size a
  inb_S8448_S16_3408 : ∀ a, (![3408] : Fin 1 → Nat) a + S16.size a ≤ S8448.size a
  inb_S8448_S16_3424 : ∀ a, (![3424] : Fin 1 → Nat) a + S16.size a ≤ S8448.size a
  inb_S8448_S16_3440 : ∀ a, (![3440] : Fin 1 → Nat) a + S16.size a ≤ S8448.size a
  inb_S8448_S16_3456 : ∀ a, (![3456] : Fin 1 → Nat) a + S16.size a ≤ S8448.size a
  inb_S8448_S16_3472 : ∀ a, (![3472] : Fin 1 → Nat) a + S16.size a ≤ S8448.size a
  inb_S8448_S16_3488 : ∀ a, (![3488] : Fin 1 → Nat) a + S16.size a ≤ S8448.size a
  inb_S8448_S16_3504 : ∀ a, (![3504] : Fin 1 → Nat) a + S16.size a ≤ S8448.size a
  inb_S8448_S16_3520 : ∀ a, (![3520] : Fin 1 → Nat) a + S16.size a ≤ S8448.size a
  inb_S8448_S16_3536 : ∀ a, (![3536] : Fin 1 → Nat) a + S16.size a ≤ S8448.size a
  inb_S8448_S16_3552 : ∀ a, (![3552] : Fin 1 → Nat) a + S16.size a ≤ S8448.size a
  inb_S8448_S16_3568 : ∀ a, (![3568] : Fin 1 → Nat) a + S16.size a ≤ S8448.size a
  inb_S8448_S16_3584 : ∀ a, (![3584] : Fin 1 → Nat) a + S16.size a ≤ S8448.size a
  inb_S8448_S16_3600 : ∀ a, (![3600] : Fin 1 → Nat) a + S16.size a ≤ S8448.size a
  inb_S8448_S16_3616 : ∀ a, (![3616] : Fin 1 → Nat) a + S16.size a ≤ S8448.size a
  inb_S8448_S16_3632 : ∀ a, (![3632] : Fin 1 → Nat) a + S16.size a ≤ S8448.size a
  inb_S8448_S16_3648 : ∀ a, (![3648] : Fin 1 → Nat) a + S16.size a ≤ S8448.size a
  inb_S8448_S16_3664 : ∀ a, (![3664] : Fin 1 → Nat) a + S16.size a ≤ S8448.size a
  inb_S8448_S16_3680 : ∀ a, (![3680] : Fin 1 → Nat) a + S16.size a ≤ S8448.size a
  inb_S8448_S16_3696 : ∀ a, (![3696] : Fin 1 → Nat) a + S16.size a ≤ S8448.size a
  inb_S8448_S16_3712 : ∀ a, (![3712] : Fin 1 → Nat) a + S16.size a ≤ S8448.size a
  inb_S8448_S16_3728 : ∀ a, (![3728] : Fin 1 → Nat) a + S16.size a ≤ S8448.size a
  inb_S8448_S16_3744 : ∀ a, (![3744] : Fin 1 → Nat) a + S16.size a ≤ S8448.size a
  inb_S8448_S16_3760 : ∀ a, (![3760] : Fin 1 → Nat) a + S16.size a ≤ S8448.size a
  inb_S8448_S16_3776 : ∀ a, (![3776] : Fin 1 → Nat) a + S16.size a ≤ S8448.size a
  inb_S8448_S16_3792 : ∀ a, (![3792] : Fin 1 → Nat) a + S16.size a ≤ S8448.size a
  inb_S8448_S16_3808 : ∀ a, (![3808] : Fin 1 → Nat) a + S16.size a ≤ S8448.size a
  inb_S8448_S16_3824 : ∀ a, (![3824] : Fin 1 → Nat) a + S16.size a ≤ S8448.size a
  inb_S8448_S16_3840 : ∀ a, (![3840] : Fin 1 → Nat) a + S16.size a ≤ S8448.size a
  inb_S8448_S16_3856 : ∀ a, (![3856] : Fin 1 → Nat) a + S16.size a ≤ S8448.size a
  inb_S8448_S16_3872 : ∀ a, (![3872] : Fin 1 → Nat) a + S16.size a ≤ S8448.size a
  inb_S8448_S16_3888 : ∀ a, (![3888] : Fin 1 → Nat) a + S16.size a ≤ S8448.size a
  inb_S8448_S16_3904 : ∀ a, (![3904] : Fin 1 → Nat) a + S16.size a ≤ S8448.size a
  inb_S8448_S16_3920 : ∀ a, (![3920] : Fin 1 → Nat) a + S16.size a ≤ S8448.size a
  inb_S8448_S16_3936 : ∀ a, (![3936] : Fin 1 → Nat) a + S16.size a ≤ S8448.size a
  inb_S8448_S16_3952 : ∀ a, (![3952] : Fin 1 → Nat) a + S16.size a ≤ S8448.size a
  inb_S8448_S16_3968 : ∀ a, (![3968] : Fin 1 → Nat) a + S16.size a ≤ S8448.size a
  inb_S8448_S16_3984 : ∀ a, (![3984] : Fin 1 → Nat) a + S16.size a ≤ S8448.size a
  inb_S8448_S16_4000 : ∀ a, (![4000] : Fin 1 → Nat) a + S16.size a ≤ S8448.size a
  inb_S8448_S16_4016 : ∀ a, (![4016] : Fin 1 → Nat) a + S16.size a ≤ S8448.size a
  inb_S8448_S16_4032 : ∀ a, (![4032] : Fin 1 → Nat) a + S16.size a ≤ S8448.size a
  inb_S8448_S16_4048 : ∀ a, (![4048] : Fin 1 → Nat) a + S16.size a ≤ S8448.size a
  inb_S8448_S16_4064 : ∀ a, (![4064] : Fin 1 → Nat) a + S16.size a ≤ S8448.size a
  inb_S8448_S16_4080 : ∀ a, (![4080] : Fin 1 → Nat) a + S16.size a ≤ S8448.size a
  inb_S8448_S16_4096 : ∀ a, (![4096] : Fin 1 → Nat) a + S16.size a ≤ S8448.size a
  inb_S8448_S16_4112 : ∀ a, (![4112] : Fin 1 → Nat) a + S16.size a ≤ S8448.size a
  inb_S8448_S16_4128 : ∀ a, (![4128] : Fin 1 → Nat) a + S16.size a ≤ S8448.size a
  inb_S8448_S16_4144 : ∀ a, (![4144] : Fin 1 → Nat) a + S16.size a ≤ S8448.size a
  inb_S8448_S16_4160 : ∀ a, (![4160] : Fin 1 → Nat) a + S16.size a ≤ S8448.size a
  inb_S8448_S16_4176 : ∀ a, (![4176] : Fin 1 → Nat) a + S16.size a ≤ S8448.size a
  inb_S8448_S16_4192 : ∀ a, (![4192] : Fin 1 → Nat) a + S16.size a ≤ S8448.size a
  inb_S8448_S16_4208 : ∀ a, (![4208] : Fin 1 → Nat) a + S16.size a ≤ S8448.size a
  inb_S8448_S16_4224 : ∀ a, (![4224] : Fin 1 → Nat) a + S16.size a ≤ S8448.size a
  inb_S8448_S16_4240 : ∀ a, (![4240] : Fin 1 → Nat) a + S16.size a ≤ S8448.size a
  inb_S8448_S16_4256 : ∀ a, (![4256] : Fin 1 → Nat) a + S16.size a ≤ S8448.size a
  inb_S8448_S16_4272 : ∀ a, (![4272] : Fin 1 → Nat) a + S16.size a ≤ S8448.size a
  inb_S8448_S16_4288 : ∀ a, (![4288] : Fin 1 → Nat) a + S16.size a ≤ S8448.size a
  inb_S8448_S16_4304 : ∀ a, (![4304] : Fin 1 → Nat) a + S16.size a ≤ S8448.size a
  inb_S8448_S16_4320 : ∀ a, (![4320] : Fin 1 → Nat) a + S16.size a ≤ S8448.size a
  inb_S8448_S16_4336 : ∀ a, (![4336] : Fin 1 → Nat) a + S16.size a ≤ S8448.size a
  inb_S8448_S16_4352 : ∀ a, (![4352] : Fin 1 → Nat) a + S16.size a ≤ S8448.size a
  inb_S8448_S16_4368 : ∀ a, (![4368] : Fin 1 → Nat) a + S16.size a ≤ S8448.size a
  inb_S8448_S16_4384 : ∀ a, (![4384] : Fin 1 → Nat) a + S16.size a ≤ S8448.size a
  inb_S8448_S16_4400 : ∀ a, (![4400] : Fin 1 → Nat) a + S16.size a ≤ S8448.size a
  inb_S8448_S16_4416 : ∀ a, (![4416] : Fin 1 → Nat) a + S16.size a ≤ S8448.size a
  inb_S8448_S16_4432 : ∀ a, (![4432] : Fin 1 → Nat) a + S16.size a ≤ S8448.size a
  inb_S8448_S16_4448 : ∀ a, (![4448] : Fin 1 → Nat) a + S16.size a ≤ S8448.size a
  inb_S8448_S16_4464 : ∀ a, (![4464] : Fin 1 → Nat) a + S16.size a ≤ S8448.size a
  inb_S8448_S16_4480 : ∀ a, (![4480] : Fin 1 → Nat) a + S16.size a ≤ S8448.size a
  inb_S8448_S16_4496 : ∀ a, (![4496] : Fin 1 → Nat) a + S16.size a ≤ S8448.size a
  inb_S8448_S16_4512 : ∀ a, (![4512] : Fin 1 → Nat) a + S16.size a ≤ S8448.size a
  inb_S8448_S16_4528 : ∀ a, (![4528] : Fin 1 → Nat) a + S16.size a ≤ S8448.size a
  inb_S8448_S16_4544 : ∀ a, (![4544] : Fin 1 → Nat) a + S16.size a ≤ S8448.size a
  inb_S8448_S16_4560 : ∀ a, (![4560] : Fin 1 → Nat) a + S16.size a ≤ S8448.size a
  inb_S8448_S16_4576 : ∀ a, (![4576] : Fin 1 → Nat) a + S16.size a ≤ S8448.size a
  inb_S8448_S16_4592 : ∀ a, (![4592] : Fin 1 → Nat) a + S16.size a ≤ S8448.size a
  inb_S8448_S16_4608 : ∀ a, (![4608] : Fin 1 → Nat) a + S16.size a ≤ S8448.size a
  inb_S8448_S16_4624 : ∀ a, (![4624] : Fin 1 → Nat) a + S16.size a ≤ S8448.size a
  inb_S8448_S16_4640 : ∀ a, (![4640] : Fin 1 → Nat) a + S16.size a ≤ S8448.size a
  inb_S8448_S16_4656 : ∀ a, (![4656] : Fin 1 → Nat) a + S16.size a ≤ S8448.size a
  inb_S8448_S16_4672 : ∀ a, (![4672] : Fin 1 → Nat) a + S16.size a ≤ S8448.size a
  inb_S8448_S16_4688 : ∀ a, (![4688] : Fin 1 → Nat) a + S16.size a ≤ S8448.size a
  inb_S8448_S16_4704 : ∀ a, (![4704] : Fin 1 → Nat) a + S16.size a ≤ S8448.size a
  inb_S8448_S16_4720 : ∀ a, (![4720] : Fin 1 → Nat) a + S16.size a ≤ S8448.size a
  inb_S8448_S16_4736 : ∀ a, (![4736] : Fin 1 → Nat) a + S16.size a ≤ S8448.size a
  inb_S8448_S16_4752 : ∀ a, (![4752] : Fin 1 → Nat) a + S16.size a ≤ S8448.size a
  inb_S8448_S16_4768 : ∀ a, (![4768] : Fin 1 → Nat) a + S16.size a ≤ S8448.size a
  inb_S8448_S16_4784 : ∀ a, (![4784] : Fin 1 → Nat) a + S16.size a ≤ S8448.size a
  inb_S8448_S16_4800 : ∀ a, (![4800] : Fin 1 → Nat) a + S16.size a ≤ S8448.size a
  inb_S8448_S16_4816 : ∀ a, (![4816] : Fin 1 → Nat) a + S16.size a ≤ S8448.size a
  inb_S8448_S16_4832 : ∀ a, (![4832] : Fin 1 → Nat) a + S16.size a ≤ S8448.size a
  inb_S8448_S16_4848 : ∀ a, (![4848] : Fin 1 → Nat) a + S16.size a ≤ S8448.size a
  inb_S8448_S16_4864 : ∀ a, (![4864] : Fin 1 → Nat) a + S16.size a ≤ S8448.size a
  inb_S8448_S16_4880 : ∀ a, (![4880] : Fin 1 → Nat) a + S16.size a ≤ S8448.size a
  inb_S8448_S16_4896 : ∀ a, (![4896] : Fin 1 → Nat) a + S16.size a ≤ S8448.size a
  inb_S8448_S16_4912 : ∀ a, (![4912] : Fin 1 → Nat) a + S16.size a ≤ S8448.size a
  inb_S8448_S16_4928 : ∀ a, (![4928] : Fin 1 → Nat) a + S16.size a ≤ S8448.size a
  inb_S8448_S16_4944 : ∀ a, (![4944] : Fin 1 → Nat) a + S16.size a ≤ S8448.size a
  inb_S8448_S16_4960 : ∀ a, (![4960] : Fin 1 → Nat) a + S16.size a ≤ S8448.size a
  inb_S8448_S16_4976 : ∀ a, (![4976] : Fin 1 → Nat) a + S16.size a ≤ S8448.size a
  inb_S8448_S16_4992 : ∀ a, (![4992] : Fin 1 → Nat) a + S16.size a ≤ S8448.size a
  inb_S8448_S16_5008 : ∀ a, (![5008] : Fin 1 → Nat) a + S16.size a ≤ S8448.size a
  inb_S8448_S16_5024 : ∀ a, (![5024] : Fin 1 → Nat) a + S16.size a ≤ S8448.size a
  inb_S8448_S16_5040 : ∀ a, (![5040] : Fin 1 → Nat) a + S16.size a ≤ S8448.size a
  inb_S8448_S16_5056 : ∀ a, (![5056] : Fin 1 → Nat) a + S16.size a ≤ S8448.size a
  inb_S8448_S16_5072 : ∀ a, (![5072] : Fin 1 → Nat) a + S16.size a ≤ S8448.size a
  inb_S8448_S16_5088 : ∀ a, (![5088] : Fin 1 → Nat) a + S16.size a ≤ S8448.size a
  inb_S8448_S16_5104 : ∀ a, (![5104] : Fin 1 → Nat) a + S16.size a ≤ S8448.size a
  inb_S8448_S16_5120 : ∀ a, (![5120] : Fin 1 → Nat) a + S16.size a ≤ S8448.size a
  inb_S8448_S16_5136 : ∀ a, (![5136] : Fin 1 → Nat) a + S16.size a ≤ S8448.size a
  inb_S8448_S16_5152 : ∀ a, (![5152] : Fin 1 → Nat) a + S16.size a ≤ S8448.size a
  inb_S8448_S16_5168 : ∀ a, (![5168] : Fin 1 → Nat) a + S16.size a ≤ S8448.size a
  inb_S8448_S16_5184 : ∀ a, (![5184] : Fin 1 → Nat) a + S16.size a ≤ S8448.size a
  inb_S8448_S16_5200 : ∀ a, (![5200] : Fin 1 → Nat) a + S16.size a ≤ S8448.size a
  inb_S8448_S16_5216 : ∀ a, (![5216] : Fin 1 → Nat) a + S16.size a ≤ S8448.size a
  inb_S8448_S16_5232 : ∀ a, (![5232] : Fin 1 → Nat) a + S16.size a ≤ S8448.size a
  inb_S8448_S16_5248 : ∀ a, (![5248] : Fin 1 → Nat) a + S16.size a ≤ S8448.size a
  inb_S8448_S16_5264 : ∀ a, (![5264] : Fin 1 → Nat) a + S16.size a ≤ S8448.size a
  inb_S8448_S16_5280 : ∀ a, (![5280] : Fin 1 → Nat) a + S16.size a ≤ S8448.size a
  inb_S8448_S16_5296 : ∀ a, (![5296] : Fin 1 → Nat) a + S16.size a ≤ S8448.size a
  inb_S8448_S16_5312 : ∀ a, (![5312] : Fin 1 → Nat) a + S16.size a ≤ S8448.size a
  inb_S8448_S16_5328 : ∀ a, (![5328] : Fin 1 → Nat) a + S16.size a ≤ S8448.size a
  inb_S8448_S16_5344 : ∀ a, (![5344] : Fin 1 → Nat) a + S16.size a ≤ S8448.size a
  inb_S8448_S16_5360 : ∀ a, (![5360] : Fin 1 → Nat) a + S16.size a ≤ S8448.size a
  inb_S8448_S16_5376 : ∀ a, (![5376] : Fin 1 → Nat) a + S16.size a ≤ S8448.size a
  inb_S8448_S16_5392 : ∀ a, (![5392] : Fin 1 → Nat) a + S16.size a ≤ S8448.size a
  inb_S8448_S16_5408 : ∀ a, (![5408] : Fin 1 → Nat) a + S16.size a ≤ S8448.size a
  inb_S8448_S16_5424 : ∀ a, (![5424] : Fin 1 → Nat) a + S16.size a ≤ S8448.size a
  inb_S8448_S16_5440 : ∀ a, (![5440] : Fin 1 → Nat) a + S16.size a ≤ S8448.size a
  inb_S8448_S16_5456 : ∀ a, (![5456] : Fin 1 → Nat) a + S16.size a ≤ S8448.size a
  inb_S8448_S16_5472 : ∀ a, (![5472] : Fin 1 → Nat) a + S16.size a ≤ S8448.size a
  inb_S8448_S16_5488 : ∀ a, (![5488] : Fin 1 → Nat) a + S16.size a ≤ S8448.size a
  inb_S8448_S16_5504 : ∀ a, (![5504] : Fin 1 → Nat) a + S16.size a ≤ S8448.size a
  inb_S8448_S16_5520 : ∀ a, (![5520] : Fin 1 → Nat) a + S16.size a ≤ S8448.size a
  inb_S8448_S16_5536 : ∀ a, (![5536] : Fin 1 → Nat) a + S16.size a ≤ S8448.size a
  inb_S8448_S16_5552 : ∀ a, (![5552] : Fin 1 → Nat) a + S16.size a ≤ S8448.size a
  inb_S8448_S16_5568 : ∀ a, (![5568] : Fin 1 → Nat) a + S16.size a ≤ S8448.size a
  inb_S8448_S16_5584 : ∀ a, (![5584] : Fin 1 → Nat) a + S16.size a ≤ S8448.size a
  inb_S8448_S16_5600 : ∀ a, (![5600] : Fin 1 → Nat) a + S16.size a ≤ S8448.size a
  inb_S8448_S16_5616 : ∀ a, (![5616] : Fin 1 → Nat) a + S16.size a ≤ S8448.size a
  inb_S8448_S16_5632 : ∀ a, (![5632] : Fin 1 → Nat) a + S16.size a ≤ S8448.size a
  inb_S8448_S16_5648 : ∀ a, (![5648] : Fin 1 → Nat) a + S16.size a ≤ S8448.size a
  inb_S8448_S16_5664 : ∀ a, (![5664] : Fin 1 → Nat) a + S16.size a ≤ S8448.size a
  inb_S8448_S16_5680 : ∀ a, (![5680] : Fin 1 → Nat) a + S16.size a ≤ S8448.size a
  inb_S8448_S16_5696 : ∀ a, (![5696] : Fin 1 → Nat) a + S16.size a ≤ S8448.size a
  inb_S8448_S16_5712 : ∀ a, (![5712] : Fin 1 → Nat) a + S16.size a ≤ S8448.size a
  inb_S8448_S16_5728 : ∀ a, (![5728] : Fin 1 → Nat) a + S16.size a ≤ S8448.size a
  inb_S8448_S16_5744 : ∀ a, (![5744] : Fin 1 → Nat) a + S16.size a ≤ S8448.size a
  inb_S8448_S16_5760 : ∀ a, (![5760] : Fin 1 → Nat) a + S16.size a ≤ S8448.size a
  inb_S8448_S16_5776 : ∀ a, (![5776] : Fin 1 → Nat) a + S16.size a ≤ S8448.size a
  inb_S8448_S16_5792 : ∀ a, (![5792] : Fin 1 → Nat) a + S16.size a ≤ S8448.size a
  inb_S8448_S16_5808 : ∀ a, (![5808] : Fin 1 → Nat) a + S16.size a ≤ S8448.size a
  inb_S8448_S16_5824 : ∀ a, (![5824] : Fin 1 → Nat) a + S16.size a ≤ S8448.size a
  inb_S8448_S16_5840 : ∀ a, (![5840] : Fin 1 → Nat) a + S16.size a ≤ S8448.size a
  inb_S8448_S16_5856 : ∀ a, (![5856] : Fin 1 → Nat) a + S16.size a ≤ S8448.size a
  inb_S8448_S16_5872 : ∀ a, (![5872] : Fin 1 → Nat) a + S16.size a ≤ S8448.size a
  inb_S8448_S16_5888 : ∀ a, (![5888] : Fin 1 → Nat) a + S16.size a ≤ S8448.size a
  inb_S8448_S16_5904 : ∀ a, (![5904] : Fin 1 → Nat) a + S16.size a ≤ S8448.size a
  inb_S8448_S16_5920 : ∀ a, (![5920] : Fin 1 → Nat) a + S16.size a ≤ S8448.size a
  inb_S8448_S16_5936 : ∀ a, (![5936] : Fin 1 → Nat) a + S16.size a ≤ S8448.size a
  inb_S8448_S16_5952 : ∀ a, (![5952] : Fin 1 → Nat) a + S16.size a ≤ S8448.size a
  inb_S8448_S16_5968 : ∀ a, (![5968] : Fin 1 → Nat) a + S16.size a ≤ S8448.size a
  inb_S8448_S16_5984 : ∀ a, (![5984] : Fin 1 → Nat) a + S16.size a ≤ S8448.size a
  inb_S8448_S16_6000 : ∀ a, (![6000] : Fin 1 → Nat) a + S16.size a ≤ S8448.size a
  inb_S8448_S16_6016 : ∀ a, (![6016] : Fin 1 → Nat) a + S16.size a ≤ S8448.size a
  inb_S8448_S16_6032 : ∀ a, (![6032] : Fin 1 → Nat) a + S16.size a ≤ S8448.size a
  inb_S8448_S16_6048 : ∀ a, (![6048] : Fin 1 → Nat) a + S16.size a ≤ S8448.size a
  inb_S8448_S16_6064 : ∀ a, (![6064] : Fin 1 → Nat) a + S16.size a ≤ S8448.size a
  inb_S8448_S16_6080 : ∀ a, (![6080] : Fin 1 → Nat) a + S16.size a ≤ S8448.size a
  inb_S8448_S16_6096 : ∀ a, (![6096] : Fin 1 → Nat) a + S16.size a ≤ S8448.size a
  inb_S8448_S16_6112 : ∀ a, (![6112] : Fin 1 → Nat) a + S16.size a ≤ S8448.size a
  inb_S8448_S16_6128 : ∀ a, (![6128] : Fin 1 → Nat) a + S16.size a ≤ S8448.size a
  inb_S8448_S16_6144 : ∀ a, (![6144] : Fin 1 → Nat) a + S16.size a ≤ S8448.size a
  inb_S8448_S16_6160 : ∀ a, (![6160] : Fin 1 → Nat) a + S16.size a ≤ S8448.size a
  inb_S8448_S16_6176 : ∀ a, (![6176] : Fin 1 → Nat) a + S16.size a ≤ S8448.size a
  inb_S8448_S16_6192 : ∀ a, (![6192] : Fin 1 → Nat) a + S16.size a ≤ S8448.size a
  inb_S8448_S16_6208 : ∀ a, (![6208] : Fin 1 → Nat) a + S16.size a ≤ S8448.size a
  inb_S8448_S16_6224 : ∀ a, (![6224] : Fin 1 → Nat) a + S16.size a ≤ S8448.size a
  inb_S8448_S16_6240 : ∀ a, (![6240] : Fin 1 → Nat) a + S16.size a ≤ S8448.size a
  inb_S8448_S16_6256 : ∀ a, (![6256] : Fin 1 → Nat) a + S16.size a ≤ S8448.size a
  inb_S8448_S16_6272 : ∀ a, (![6272] : Fin 1 → Nat) a + S16.size a ≤ S8448.size a
  inb_S8448_S16_6288 : ∀ a, (![6288] : Fin 1 → Nat) a + S16.size a ≤ S8448.size a
  inb_S8448_S16_6304 : ∀ a, (![6304] : Fin 1 → Nat) a + S16.size a ≤ S8448.size a
  inb_S8448_S16_6320 : ∀ a, (![6320] : Fin 1 → Nat) a + S16.size a ≤ S8448.size a
  inb_S8448_S16_6336 : ∀ a, (![6336] : Fin 1 → Nat) a + S16.size a ≤ S8448.size a
  inb_S8448_S16_6352 : ∀ a, (![6352] : Fin 1 → Nat) a + S16.size a ≤ S8448.size a
  inb_S8448_S16_6368 : ∀ a, (![6368] : Fin 1 → Nat) a + S16.size a ≤ S8448.size a
  inb_S8448_S16_6384 : ∀ a, (![6384] : Fin 1 → Nat) a + S16.size a ≤ S8448.size a
  inb_S8448_S16_6400 : ∀ a, (![6400] : Fin 1 → Nat) a + S16.size a ≤ S8448.size a
  inb_S8448_S16_6416 : ∀ a, (![6416] : Fin 1 → Nat) a + S16.size a ≤ S8448.size a
  inb_S8448_S16_6432 : ∀ a, (![6432] : Fin 1 → Nat) a + S16.size a ≤ S8448.size a
  inb_S8448_S16_6448 : ∀ a, (![6448] : Fin 1 → Nat) a + S16.size a ≤ S8448.size a
  inb_S8448_S16_6464 : ∀ a, (![6464] : Fin 1 → Nat) a + S16.size a ≤ S8448.size a
  inb_S8448_S16_6480 : ∀ a, (![6480] : Fin 1 → Nat) a + S16.size a ≤ S8448.size a
  inb_S8448_S16_6496 : ∀ a, (![6496] : Fin 1 → Nat) a + S16.size a ≤ S8448.size a
  inb_S8448_S16_6512 : ∀ a, (![6512] : Fin 1 → Nat) a + S16.size a ≤ S8448.size a
  inb_S8448_S16_6528 : ∀ a, (![6528] : Fin 1 → Nat) a + S16.size a ≤ S8448.size a
  inb_S8448_S16_6544 : ∀ a, (![6544] : Fin 1 → Nat) a + S16.size a ≤ S8448.size a
  inb_S8448_S16_6560 : ∀ a, (![6560] : Fin 1 → Nat) a + S16.size a ≤ S8448.size a
  inb_S8448_S16_6576 : ∀ a, (![6576] : Fin 1 → Nat) a + S16.size a ≤ S8448.size a
  inb_S8448_S16_6592 : ∀ a, (![6592] : Fin 1 → Nat) a + S16.size a ≤ S8448.size a
  inb_S8448_S16_6608 : ∀ a, (![6608] : Fin 1 → Nat) a + S16.size a ≤ S8448.size a
  inb_S8448_S16_6624 : ∀ a, (![6624] : Fin 1 → Nat) a + S16.size a ≤ S8448.size a
  inb_S8448_S16_6640 : ∀ a, (![6640] : Fin 1 → Nat) a + S16.size a ≤ S8448.size a
  inb_S8448_S16_6656 : ∀ a, (![6656] : Fin 1 → Nat) a + S16.size a ≤ S8448.size a
  inb_S8448_S16_6672 : ∀ a, (![6672] : Fin 1 → Nat) a + S16.size a ≤ S8448.size a
  inb_S8448_S16_6688 : ∀ a, (![6688] : Fin 1 → Nat) a + S16.size a ≤ S8448.size a
  inb_S8448_S16_6704 : ∀ a, (![6704] : Fin 1 → Nat) a + S16.size a ≤ S8448.size a
  inb_S8448_S16_6720 : ∀ a, (![6720] : Fin 1 → Nat) a + S16.size a ≤ S8448.size a
  inb_S8448_S16_6736 : ∀ a, (![6736] : Fin 1 → Nat) a + S16.size a ≤ S8448.size a
  inb_S8448_S16_6752 : ∀ a, (![6752] : Fin 1 → Nat) a + S16.size a ≤ S8448.size a
  inb_S8448_S16_6768 : ∀ a, (![6768] : Fin 1 → Nat) a + S16.size a ≤ S8448.size a
  inb_S8448_S16_6784 : ∀ a, (![6784] : Fin 1 → Nat) a + S16.size a ≤ S8448.size a
  inb_S8448_S16_6800 : ∀ a, (![6800] : Fin 1 → Nat) a + S16.size a ≤ S8448.size a
  inb_S8448_S16_6816 : ∀ a, (![6816] : Fin 1 → Nat) a + S16.size a ≤ S8448.size a
  inb_S8448_S16_6832 : ∀ a, (![6832] : Fin 1 → Nat) a + S16.size a ≤ S8448.size a
  inb_S8448_S16_6848 : ∀ a, (![6848] : Fin 1 → Nat) a + S16.size a ≤ S8448.size a
  inb_S8448_S16_6864 : ∀ a, (![6864] : Fin 1 → Nat) a + S16.size a ≤ S8448.size a
  inb_S8448_S16_6880 : ∀ a, (![6880] : Fin 1 → Nat) a + S16.size a ≤ S8448.size a
  inb_S8448_S16_6896 : ∀ a, (![6896] : Fin 1 → Nat) a + S16.size a ≤ S8448.size a
  inb_S8448_S16_6912 : ∀ a, (![6912] : Fin 1 → Nat) a + S16.size a ≤ S8448.size a
  inb_S8448_S16_6928 : ∀ a, (![6928] : Fin 1 → Nat) a + S16.size a ≤ S8448.size a
  inb_S8448_S16_6944 : ∀ a, (![6944] : Fin 1 → Nat) a + S16.size a ≤ S8448.size a
  inb_S8448_S16_6960 : ∀ a, (![6960] : Fin 1 → Nat) a + S16.size a ≤ S8448.size a
  inb_S8448_S16_6976 : ∀ a, (![6976] : Fin 1 → Nat) a + S16.size a ≤ S8448.size a
  inb_S8448_S16_6992 : ∀ a, (![6992] : Fin 1 → Nat) a + S16.size a ≤ S8448.size a
  inb_S8448_S16_7008 : ∀ a, (![7008] : Fin 1 → Nat) a + S16.size a ≤ S8448.size a
  inb_S8448_S16_7024 : ∀ a, (![7024] : Fin 1 → Nat) a + S16.size a ≤ S8448.size a
  inb_S8448_S16_7040 : ∀ a, (![7040] : Fin 1 → Nat) a + S16.size a ≤ S8448.size a
  inb_S8448_S16_7056 : ∀ a, (![7056] : Fin 1 → Nat) a + S16.size a ≤ S8448.size a
  inb_S8448_S16_7072 : ∀ a, (![7072] : Fin 1 → Nat) a + S16.size a ≤ S8448.size a
  inb_S8448_S16_7088 : ∀ a, (![7088] : Fin 1 → Nat) a + S16.size a ≤ S8448.size a
  inb_S8448_S16_7104 : ∀ a, (![7104] : Fin 1 → Nat) a + S16.size a ≤ S8448.size a
  inb_S8448_S16_7120 : ∀ a, (![7120] : Fin 1 → Nat) a + S16.size a ≤ S8448.size a
  inb_S8448_S16_7136 : ∀ a, (![7136] : Fin 1 → Nat) a + S16.size a ≤ S8448.size a
  inb_S8448_S16_7152 : ∀ a, (![7152] : Fin 1 → Nat) a + S16.size a ≤ S8448.size a
  inb_S8448_S16_7168 : ∀ a, (![7168] : Fin 1 → Nat) a + S16.size a ≤ S8448.size a
  inb_S8448_S16_7184 : ∀ a, (![7184] : Fin 1 → Nat) a + S16.size a ≤ S8448.size a
  inb_S8448_S16_7200 : ∀ a, (![7200] : Fin 1 → Nat) a + S16.size a ≤ S8448.size a
  inb_S8448_S16_7216 : ∀ a, (![7216] : Fin 1 → Nat) a + S16.size a ≤ S8448.size a
  inb_S8448_S16_7232 : ∀ a, (![7232] : Fin 1 → Nat) a + S16.size a ≤ S8448.size a
  inb_S8448_S16_7248 : ∀ a, (![7248] : Fin 1 → Nat) a + S16.size a ≤ S8448.size a
  inb_S8448_S16_7264 : ∀ a, (![7264] : Fin 1 → Nat) a + S16.size a ≤ S8448.size a
  inb_S8448_S16_7280 : ∀ a, (![7280] : Fin 1 → Nat) a + S16.size a ≤ S8448.size a
  inb_S8448_S16_7296 : ∀ a, (![7296] : Fin 1 → Nat) a + S16.size a ≤ S8448.size a
  inb_S8448_S16_7312 : ∀ a, (![7312] : Fin 1 → Nat) a + S16.size a ≤ S8448.size a
  inb_S8448_S16_7328 : ∀ a, (![7328] : Fin 1 → Nat) a + S16.size a ≤ S8448.size a
  inb_S8448_S16_7344 : ∀ a, (![7344] : Fin 1 → Nat) a + S16.size a ≤ S8448.size a
  inb_S8448_S16_7360 : ∀ a, (![7360] : Fin 1 → Nat) a + S16.size a ≤ S8448.size a
  inb_S8448_S16_7376 : ∀ a, (![7376] : Fin 1 → Nat) a + S16.size a ≤ S8448.size a
  inb_S8448_S16_7392 : ∀ a, (![7392] : Fin 1 → Nat) a + S16.size a ≤ S8448.size a
  inb_S8448_S16_7408 : ∀ a, (![7408] : Fin 1 → Nat) a + S16.size a ≤ S8448.size a
  inb_S8448_S16_7424 : ∀ a, (![7424] : Fin 1 → Nat) a + S16.size a ≤ S8448.size a
  inb_S8448_S16_7440 : ∀ a, (![7440] : Fin 1 → Nat) a + S16.size a ≤ S8448.size a
  inb_S8448_S16_7456 : ∀ a, (![7456] : Fin 1 → Nat) a + S16.size a ≤ S8448.size a
  inb_S8448_S16_7472 : ∀ a, (![7472] : Fin 1 → Nat) a + S16.size a ≤ S8448.size a
  inb_S8448_S16_7488 : ∀ a, (![7488] : Fin 1 → Nat) a + S16.size a ≤ S8448.size a
  inb_S8448_S16_7504 : ∀ a, (![7504] : Fin 1 → Nat) a + S16.size a ≤ S8448.size a
  inb_S8448_S16_7520 : ∀ a, (![7520] : Fin 1 → Nat) a + S16.size a ≤ S8448.size a
  inb_S8448_S16_7536 : ∀ a, (![7536] : Fin 1 → Nat) a + S16.size a ≤ S8448.size a
  inb_S8448_S16_7552 : ∀ a, (![7552] : Fin 1 → Nat) a + S16.size a ≤ S8448.size a
  inb_S8448_S16_7568 : ∀ a, (![7568] : Fin 1 → Nat) a + S16.size a ≤ S8448.size a
  inb_S8448_S16_7584 : ∀ a, (![7584] : Fin 1 → Nat) a + S16.size a ≤ S8448.size a
  inb_S8448_S16_7600 : ∀ a, (![7600] : Fin 1 → Nat) a + S16.size a ≤ S8448.size a
  inb_S8448_S16_7616 : ∀ a, (![7616] : Fin 1 → Nat) a + S16.size a ≤ S8448.size a
  inb_S8448_S16_7632 : ∀ a, (![7632] : Fin 1 → Nat) a + S16.size a ≤ S8448.size a
  inb_S8448_S16_7648 : ∀ a, (![7648] : Fin 1 → Nat) a + S16.size a ≤ S8448.size a
  inb_S8448_S16_7664 : ∀ a, (![7664] : Fin 1 → Nat) a + S16.size a ≤ S8448.size a
  inb_S8448_S16_7680 : ∀ a, (![7680] : Fin 1 → Nat) a + S16.size a ≤ S8448.size a
  inb_S8448_S16_7696 : ∀ a, (![7696] : Fin 1 → Nat) a + S16.size a ≤ S8448.size a
  inb_S8448_S16_7712 : ∀ a, (![7712] : Fin 1 → Nat) a + S16.size a ≤ S8448.size a
  inb_S8448_S16_7728 : ∀ a, (![7728] : Fin 1 → Nat) a + S16.size a ≤ S8448.size a
  inb_S8448_S16_7744 : ∀ a, (![7744] : Fin 1 → Nat) a + S16.size a ≤ S8448.size a
  inb_S8448_S16_7760 : ∀ a, (![7760] : Fin 1 → Nat) a + S16.size a ≤ S8448.size a
  inb_S8448_S16_7776 : ∀ a, (![7776] : Fin 1 → Nat) a + S16.size a ≤ S8448.size a
  inb_S8448_S16_7792 : ∀ a, (![7792] : Fin 1 → Nat) a + S16.size a ≤ S8448.size a
  inb_S8448_S16_7808 : ∀ a, (![7808] : Fin 1 → Nat) a + S16.size a ≤ S8448.size a
  inb_S8448_S16_7824 : ∀ a, (![7824] : Fin 1 → Nat) a + S16.size a ≤ S8448.size a
  inb_S8448_S16_7840 : ∀ a, (![7840] : Fin 1 → Nat) a + S16.size a ≤ S8448.size a
  inb_S8448_S16_7856 : ∀ a, (![7856] : Fin 1 → Nat) a + S16.size a ≤ S8448.size a
  inb_S8448_S16_7872 : ∀ a, (![7872] : Fin 1 → Nat) a + S16.size a ≤ S8448.size a
  inb_S8448_S16_7888 : ∀ a, (![7888] : Fin 1 → Nat) a + S16.size a ≤ S8448.size a
  inb_S8448_S16_7904 : ∀ a, (![7904] : Fin 1 → Nat) a + S16.size a ≤ S8448.size a
  inb_S8448_S16_7920 : ∀ a, (![7920] : Fin 1 → Nat) a + S16.size a ≤ S8448.size a
  inb_S8448_S16_7936 : ∀ a, (![7936] : Fin 1 → Nat) a + S16.size a ≤ S8448.size a
  inb_S8448_S16_7952 : ∀ a, (![7952] : Fin 1 → Nat) a + S16.size a ≤ S8448.size a
  inb_S8448_S16_7968 : ∀ a, (![7968] : Fin 1 → Nat) a + S16.size a ≤ S8448.size a
  inb_S8448_S16_7984 : ∀ a, (![7984] : Fin 1 → Nat) a + S16.size a ≤ S8448.size a
  inb_S8448_S16_8000 : ∀ a, (![8000] : Fin 1 → Nat) a + S16.size a ≤ S8448.size a
  inb_S8448_S16_8016 : ∀ a, (![8016] : Fin 1 → Nat) a + S16.size a ≤ S8448.size a
  inb_S8448_S16_8032 : ∀ a, (![8032] : Fin 1 → Nat) a + S16.size a ≤ S8448.size a
  inb_S8448_S16_8048 : ∀ a, (![8048] : Fin 1 → Nat) a + S16.size a ≤ S8448.size a
  inb_S8448_S16_8064 : ∀ a, (![8064] : Fin 1 → Nat) a + S16.size a ≤ S8448.size a
  inb_S8448_S16_8080 : ∀ a, (![8080] : Fin 1 → Nat) a + S16.size a ≤ S8448.size a
  inb_S8448_S16_8096 : ∀ a, (![8096] : Fin 1 → Nat) a + S16.size a ≤ S8448.size a
  inb_S8448_S16_8112 : ∀ a, (![8112] : Fin 1 → Nat) a + S16.size a ≤ S8448.size a
  inb_S8448_S16_8128 : ∀ a, (![8128] : Fin 1 → Nat) a + S16.size a ≤ S8448.size a
  inb_S8448_S16_8144 : ∀ a, (![8144] : Fin 1 → Nat) a + S16.size a ≤ S8448.size a
  inb_S8448_S16_8160 : ∀ a, (![8160] : Fin 1 → Nat) a + S16.size a ≤ S8448.size a
  inb_S8448_S16_8176 : ∀ a, (![8176] : Fin 1 → Nat) a + S16.size a ≤ S8448.size a
  inb_S8448_S16_8192 : ∀ a, (![8192] : Fin 1 → Nat) a + S16.size a ≤ S8448.size a
  inb_S8448_S16_8208 : ∀ a, (![8208] : Fin 1 → Nat) a + S16.size a ≤ S8448.size a
  inb_S8448_S16_8224 : ∀ a, (![8224] : Fin 1 → Nat) a + S16.size a ≤ S8448.size a
  inb_S8448_S16_8240 : ∀ a, (![8240] : Fin 1 → Nat) a + S16.size a ≤ S8448.size a
  inb_S8448_S16_8256 : ∀ a, (![8256] : Fin 1 → Nat) a + S16.size a ≤ S8448.size a
  inb_S8448_S16_8272 : ∀ a, (![8272] : Fin 1 → Nat) a + S16.size a ≤ S8448.size a
  inb_S8448_S16_8288 : ∀ a, (![8288] : Fin 1 → Nat) a + S16.size a ≤ S8448.size a
  inb_S8448_S16_8304 : ∀ a, (![8304] : Fin 1 → Nat) a + S16.size a ≤ S8448.size a
  inb_S8448_S16_8320 : ∀ a, (![8320] : Fin 1 → Nat) a + S16.size a ≤ S8448.size a
  inb_S8448_S16_8336 : ∀ a, (![8336] : Fin 1 → Nat) a + S16.size a ≤ S8448.size a
  inb_S8448_S16_8352 : ∀ a, (![8352] : Fin 1 → Nat) a + S16.size a ≤ S8448.size a
  inb_S8448_S16_8368 : ∀ a, (![8368] : Fin 1 → Nat) a + S16.size a ≤ S8448.size a
  inb_S8448_S16_8384 : ∀ a, (![8384] : Fin 1 → Nat) a + S16.size a ≤ S8448.size a
  inb_S8448_S16_8400 : ∀ a, (![8400] : Fin 1 → Nat) a + S16.size a ≤ S8448.size a
  inb_S8448_S16_8416 : ∀ a, (![8416] : Fin 1 → Nat) a + S16.size a ≤ S8448.size a
  inb_S8448_S16_8432 : ∀ a, (![8432] : Fin 1 → Nat) a + S16.size a ≤ S8448.size a
  shapeCasts_S270336_S1056x256 : S270336.ShapeCasts S1056x256
  inb_S1056x256_S1024x256_0_0 : ∀ a, (![0, 0] : Fin 2 → Nat) a + S1024x256.size a ≤ S1056x256.size a
  h_S1024x256 : 0 < S1024x256.numel
  shapeCasts_S1024x256_S1024x256 : S1024x256.ShapeCasts S1024x256
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1056x256_S1024x256_1_0 : ∀ a, (![1, 0] : Fin 2 → Nat) a + S1024x256.size a ≤ S1056x256.size a
  inb_S8x1024x256_S1x1024x256_1_0_0 : ∀ a, (![1, 0, 0] : Fin 3 → Nat) a + S1x1024x256.size a ≤ S8x1024x256.size a
  inb_S1056x256_S1024x256_2_0 : ∀ a, (![2, 0] : Fin 2 → Nat) a + S1024x256.size a ≤ S1056x256.size a
  inb_S8x1024x256_S1x1024x256_2_0_0 : ∀ a, (![2, 0, 0] : Fin 3 → Nat) a + S1x1024x256.size a ≤ S8x1024x256.size a
  inb_S1056x256_S1024x256_3_0 : ∀ a, (![3, 0] : Fin 2 → Nat) a + S1024x256.size a ≤ S1056x256.size a
  inb_S8x1024x256_S1x1024x256_3_0_0 : ∀ a, (![3, 0, 0] : Fin 3 → Nat) a + S1x1024x256.size a ≤ S8x1024x256.size a
  inb_S1056x256_S1024x256_4_0 : ∀ a, (![4, 0] : Fin 2 → Nat) a + S1024x256.size a ≤ S1056x256.size a
  inb_S8x1024x256_S1x1024x256_4_0_0 : ∀ a, (![4, 0, 0] : Fin 3 → Nat) a + S1x1024x256.size a ≤ S8x1024x256.size a
  inb_S1056x256_S1024x256_5_0 : ∀ a, (![5, 0] : Fin 2 → Nat) a + S1024x256.size a ≤ S1056x256.size a
  inb_S8x1024x256_S1x1024x256_5_0_0 : ∀ a, (![5, 0, 0] : Fin 3 → Nat) a + S1x1024x256.size a ≤ S8x1024x256.size a
  inb_S1056x256_S1024x256_6_0 : ∀ a, (![6, 0] : Fin 2 → Nat) a + S1024x256.size a ≤ S1056x256.size a
  inb_S8x1024x256_S1x1024x256_6_0_0 : ∀ a, (![6, 0, 0] : Fin 3 → Nat) a + S1x1024x256.size a ≤ S8x1024x256.size a
  inb_S1056x256_S1024x256_7_0 : ∀ a, (![7, 0] : Fin 2 → Nat) a + S1024x256.size a ≤ S1056x256.size a
  inb_S8x1024x256_S1x1024x256_7_0_0 : ∀ a, (![7, 0, 0] : Fin 3 → Nat) a + S1x1024x256.size a ≤ S8x1024x256.size a
  h_S1x512x256 : 0 < S1x512x256.numel
  shapeCasts_S1x512x256_S512x256 : S1x512x256.ShapeCasts S512x256
  inb_S8x512x256_S1x512x256_0_0_0 : ∀ a, (![0, 0, 0] : Fin 3 → Nat) a + S1x512x256.size a ≤ S8x512x256.size a
  shapeCasts_S512x256_S1x512x256 : S512x256.ShapeCasts S1x512x256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  hcc0_scoped0 : 0 + S_.numel ≤ 5
  hcc0_scoped1 : 1 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8704.size a ≤ S16640.size a
  k0_off2_inb : ∀ i : grid0.Coords, ∀ (r₁ : Fin 33) (r₂ : Fin 16), ∀ a, (k0_off2 i (BitVec.ofNat 32 r₁.val) (BitVec.ofNat 32 (16 * r₂.val))) a + S16.size a ≤ S8704.size a
  k0_off3_inb : ∀ i : grid0.Coords, ∀ a, (k0_off3 i) a + S8448.size a ≤ S270336.size a
  hrank1 : 0 < grid1.rank
  k1_mult1_dvd : ∀ i : grid1.Coords, 8 ∣ (k1_mult1 i).toNat
  k1_off1_inb : ∀ i : grid1.Coords, ∀ a, (k1_off1 i) a + S1x512x256.size a ≤ S8x1024x256.size a
  k1_mult2_dvd : ∀ i : grid1.Coords, 8 ∣ (k1_mult2 i).toNat
  k1_off2_inb : ∀ i : grid1.Coords, ∀ a, (k1_off2 i) a + S1x512x256.size a ≤ S8x1024x256.size a
  k1_mult3_dvd : ∀ i : grid1.Coords, 8 ∣ (k1_mult3 i).toNat
  k1_off3_inb : ∀ i : grid1.Coords, ∀ a, (k1_off3 i) a + S1x512x256.size a ≤ S8x1024x256.size a
  k1_mult4_dvd : ∀ i : grid1.Coords, 8 ∣ (k1_mult4 i).toNat
  k1_off4_inb : ∀ i : grid1.Coords, ∀ a, (k1_off4 i) a + S1x512x256.size a ≤ S8x1024x256.size a
  k1_mult5_dvd : ∀ i : grid1.Coords, 8 ∣ (k1_mult5 i).toNat
  k1_off5_inb : ∀ i : grid1.Coords, ∀ a, (k1_off5 i) a + S1x512x256.size a ≤ S8x1024x256.size a
  k1_mult6_dvd : ∀ i : grid1.Coords, 8 ∣ (k1_mult6 i).toNat
  k1_off6_inb : ∀ i : grid1.Coords, ∀ a, (k1_off6 i) a + S1x512x256.size a ≤ S8x1024x256.size a
  k1_mult7_dvd : ∀ i : grid1.Coords, 8 ∣ (k1_mult7 i).toNat
  k1_off7_inb : ∀ i : grid1.Coords, ∀ a, (k1_off7 i) a + S1x512x256.size a ≤ S8x1024x256.size a
  k1_mult8_dvd : ∀ i : grid1.Coords, 8 ∣ (k1_mult8 i).toNat
  k1_off8_inb : ∀ i : grid1.Coords, ∀ a, (k1_off8 i) a + S1x512x256.size a ≤ S8x1024x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1056x256.size a ≤ S1056x256.size a
  hwx1_0 : ∀ i : grid1.Coords, EltTy.bits .f32 = 32 ∨ (Rect.block (s := S1056x256) S1056x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x256.size a ≤ S512x512x256.size a
  hwx1_1 : ∀ i : grid1.Coords, EltTy.bits .f32 = 32 ∨ (Rect.block (s := S512x512x256) S8x512x256.size (cc1_transform_1 i) (hinb1_1 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_v2) S1056x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x512x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x512x256 : Shape := ⟨3, ![8, 512, 256]⟩
abbrev S65x256 : Shape := ⟨2, ![65, 256]⟩
abbrev S512 : Shape := ⟨1, ![512]⟩
abbrev S1x512 : Shape := ⟨2, ![1, 512]⟩
abbrev S1x1x1x512 : Shape := ⟨4, ![1, 1, 1, 512]⟩
abbrev S512x1x1x512 : Shape := ⟨4, ![512, 1, 1, 512]⟩
abbrev S512x512 : Shape := ⟨2, ![512, 512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S512x512x256 : Shape := ⟨3, ![512, 512, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S65x256, .f32⟩
  | .hbm, ⟨2, _⟩ => ⟨S512, .i32⟩
  | .hbm, ⟨3, _⟩ => ⟨S1x512, .i32⟩
  | .hbm, ⟨4, _⟩ => ⟨S1x1x1x512, .i32⟩
  | .hbm, ⟨5, _⟩ => ⟨S512x1x1x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512x1, .i32⟩
  | .hbm, ⟨28, _⟩ => ⟨S1, .i32⟩
  | .hbm, ⟨29, _⟩ => ⟨S_, .i32⟩
  | .hbm, ⟨30, _⟩ => ⟨S512x512x1, .i32⟩
  | .hbm, ⟨31, _⟩ => ⟨S512x512x1, .i1⟩
  | .hbm, ⟨32, _⟩ => ⟨S1x1x1, .i32⟩
  | .hbm, ⟨33, _⟩ => ⟨S512x512x1, .i32⟩
  | .hbm, ⟨34, _⟩ => ⟨S512x512x1, .i1⟩
  | .hbm, ⟨35, _⟩ => ⟨S512x512x1, .i1⟩
  | .hbm, ⟨36, _⟩ => ⟨S_, .i1⟩
  | .hbm, ⟨37, _⟩ => ⟨S512x512, .i1⟩
  | .hbm, ⟨38, _⟩ => ⟨S512x512x256, .f32⟩
  | .hbm, ⟨39, _⟩ => ⟨S512x512x256, .i1⟩
  | .hbm, ⟨40, _⟩ => ⟨S_, .f32⟩
  | .hbm, ⟨41, _⟩ => ⟨S512x512x256, .f32⟩
  | .hbm, ⟨42, _⟩ => ⟨S512x512x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v10 : Ref sig .tc := ⟨.hbm, 42, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  shapeCasts_S1x512_S1x1x1x512 : S1x512.ShapeCasts S1x1x1x512
  bcast_S1x1x1x512_S512x1x1x512_0_1_2_3 : S1x1x1x512.BroadcastsInDim S512x1x1x512 (![0, 1, 2, 3] : Fin 4 → Fin S512x1x1x512.rank)
  shapeCasts_S512x1x1x512_S512x512 : S512x1x1x512.ShapeCasts S512x512
  transposes_S512x512_S512x512_1_0 : S512x512.Transposes [1, 0] S512x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  h_S_ : 0 < S_.numel
  bcast_S512x512_S512x512x256_0_1 : S512x512.BroadcastsInDim S512x512x256 (![0, 1] : Fin 2 → Fin S512x512x256.rank)
  bcast_S_S512x512x256 : S_.BroadcastsInDim S512x512x256 (![] : Fin 0 → Fin S512x512x256.rank)
  gather_S65x256_S512x512x1_S512x512x256_2_0_n_n_0_2_1256_wf : GatherDims.WF S65x256 S512x512x1 S512x512x256 [2] [0] [] [0] [] 2 ![1, 256]

variable [Facts₀]

def gather_S65x256_S512x512x1_S512x512x256_2_0_n_n_0_2_1256 : GatherDims S65x256 S512x512x1 S512x512x256 where
  offsetDims := [2]
  collapsedSliceDims := [0]
  operandBatchingDims := []
  startIndicesBatchingDims := []
  startIndexMap := [0]
  indexVectorDim := 2
  sliceSizes := ![1, 256]
  wf := gather_S65x256_S512x512x1_S512x512x256_2_0_n_n_0_2_1256_wf

class Facts : Prop extends Facts₀ where

variable [Facts]
-- ==== Proof.Spec.lean ====
/-
  The mathematics of the relative-position lookup, with no program in sight.

  A table of 65 rows (offsets -32 … 32, stored at rows 0 … 64) of 256 numbers is expanded into
  a 512 × 512 × 256 array whose entry (i, j, ·) is the table's row for the clipped offset j − i:
  row  clip (j − i, −32, 32) + 32  =  min 64 (j + 32 − i)   (natural subtraction gives the lower clip).

  One road to that array goes through a STRIP of 1056 rows in which row g is the table's row
  min 64 (g − 479): reading the strip at row 511 − i + j gives back the same table row, because
  (511 − i + j) − 479 = j + 32 − i whenever i ≤ 511. `relRow_eq_stripRow` is that identity; it is the
  only arithmetic the two descriptions of the result differ by.

  Everything is stated over an arbitrary type of entries: nothing here adds, multiplies or compares
  the numbers, so the same functions describe the result at every reading of the floats.
-/
import Idealize.ShloMosaic.Lib.ValueIdx

namespace Cert.RelPos

open Idealize.ShloMosaic Idealize.ShloMosaic.ValueIdx

/-- The table row held by row `g` of the strip: `g − 479` clipped to `0 … 64`. -/
def stripRow (g : Nat) : Nat := min 64 (g - 479)

theorem stripRow_lt (g : Nat) : stripRow g < 65 := by unfold stripRow; omega

/-- The table row held by entry `(i, j)` of the result: `j − i` clipped to `−32 … 32`, shifted by 32. -/
def relRow (i j : Nat) : Nat := min 64 (j + 32 - i)

theorem relRow_lt (i j : Nat) : relRow i j < 65 := by unfold relRow; omega

/-- Row `511 − i + j` of the strip holds the table row of entry `(i, j)`. -/
theorem relRow_eq_stripRow (i j : Nat) (hi : i < 512) : relRow i j = stripRow (511 - i + j) := by
  unfold relRow stripRow; omega

/-- Row `g` of the strip, for `g` below 1056, as an index into the table's rows. -/
def stripRowFin (g : Nat) : Fin 65 := ⟨stripRow g, stripRow_lt g⟩

/-- The table row of entry `(i, j)`, as an index into the table's rows. -/
def relRowFin (i j : Nat) : Fin 65 := ⟨relRow i j, relRow_lt i j⟩

/-- The flat position, among the table's 16640 words, of word `d` of row `r`. -/
def flatTab (r : Fin 65) (d : Fin 256) : Fin 16640 := ⟨256 * r.val + d.val, by omega⟩

/-- The strip as 1056 rows of 256: entry `(g, d)` is the table's `(stripRow g, d)`. -/
def strip2 {α : Type} (tbl : (⟨2, ![65, 256]⟩ : Shape).Idx → α) : (⟨2, ![1056, 256]⟩ : Shape).Idx → α :=
  fun k => tbl (ix2 (stripRowFin (k 0).val) (k 1))

/-- The strip laid out flat, 270336 words, over the table laid out flat, 16640 words:
    word `256 g + d` is the table's word `256 (stripRow g) + d`. -/
def strip {α : Type} (tbl : (⟨1, ![16640]⟩ : Shape).Idx → α) : (⟨1, ![270336]⟩ : Shape).Idx → α :=
  fun k => tbl (ix1 (flatTab (stripRowFin ((k 0).val / 256)) ⟨(k 0).val % 256, Nat.mod_lt _ (by decide)⟩))

/-- The result: entry `(i, j, d)` is the table's `(relRow i j, d)`. -/
def rel {α : Type} (tbl : (⟨2, ![65, 256]⟩ : Shape).Idx → α) : (⟨3, ![512, 512, 256]⟩ : Shape).Idx → α :=
  fun k => tbl (ix2 (relRowFin (k 0).val (k 1).val) (k 2))

/-- The result read off the strip: entry `(i, j, d)` is the strip's `(511 − i + j, d)`. -/
def relOfStrip {α : Type} (e : (⟨2, ![1056, 256]⟩ : Shape).Idx → α) : (⟨3, ![512, 512, 256]⟩ : Shape).Idx → α :=
  fun k => e (ix2 ⟨511 - (k 0).val + (k 1).val, by have := (k 0).isLt; have := (k 1).isLt; simp only [Matrix.cons_val_zero, Matrix.cons_val_one] at *; omega⟩ (k 2))

/-- Reading the strip at row `511 − i + j` is reading the table at the clipped offset `j − i`. -/
theorem relOfStrip_strip2 {α : Type} (tbl : (⟨2, ![65, 256]⟩ : Shape).Idx → α) : relOfStrip (strip2 tbl) = rel tbl := by
  funext k
  have hi : (k 0).val < 512 := (k 0).isLt
  show tbl (ix2 (stripRowFin (511 - (k 0).val + (k 1).val)) (k 2)) = tbl (ix2 (relRowFin (k 0).val (k 1).val) (k 2))
  have e : stripRowFin (511 - (k 0).val + (k 1).val) = relRowFin (k 0).val (k 1).val :=
    Fin.ext (relRow_eq_stripRow (k 0).val (k 1).val hi).symm
  rw [e]

end Cert.RelPos
-- ==== Proof.Ideal.Common.lean ====
/-
  The program as the launch of its subcore kernel sees it, and the vocabulary the rest of the proof shares.

  The program is four steps on the main core: the 65 × 256 table laid out flat; thirty-two vector
  subcores (two cores of sixteen) each writing 33 consecutive rows of a 1056-row strip; the flat strip
  viewed as 1056 × 256; and a 64-point pipeline that reads the strip and writes the 512 × 512 × 256 result.

  Resources. The handshakes between the main core and the subcores need a rounds algebra; the pipeline's
  staging cells need a second copy; the subcores' own copies (each waited for at once) need only counters.
  The three sit side by side.

  The table is read by every subcore, through overlapping windows, so it cannot be divided among them:
  each subcore holds the WHOLE table at a fraction of the full share — the share is cut in two for the two
  cores and each half in sixteen. The strip is divided: subcore (c, s) owns words
  8448 (16 c + s) … 8448 (16 c + s) + 8447 outright.
-/
import proofs.«214700_g37623913513500_cont_8to1_b_1793_29_alg».proof.KernelIdeal
import proofs.«214700_g37623913513500_cont_8to1_b_1793_29_alg».proof.Proof.Gen.KernelIdeal
import proofs.«214700_g37623913513500_cont_8to1_b_1793_29_alg».proof.Proof.Gen.KernelIdeal.Skeleton
import proofs.«214700_g37623913513500_cont_8to1_b_1793_29_alg».proof.Proof.Gen.KernelIdeal.Launch
import proofs.«214700_g37623913513500_cont_8to1_b_1793_29_alg».proof.Proof.Gen.KernelIdeal.Points
import proofs.«214700_g37623913513500_cont_8to1_b_1793_29_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds, the pipeline's rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the left of the right component. -/
def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-! ## The arrays, as locations of a device -/

/-- The table laid out flat (16640 words), the strip laid out flat (270336 words), the strip as rows, the result. -/
abbrev tabLoc (d : Dev nD) : Loc nD τ sig := (SparseCore.T d).loc main_v0
abbrev stripLoc (d : Dev nD) : Loc nD τ sig := (SparseCore.T d).loc main_v1
abbrev rowsLoc (d : Dev nD) : Loc nD τ sig := (SparseCore.T d).loc main_v2
abbrev outLoc (d : Dev nD) : Loc nD τ sig := (SparseCore.T d).loc main_v3

/-- A point of the subcore kernel's grid from its two coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev cV (Lc : grid0.Coords) : Fin τ.nSC := (Lc 0).castLE hcore0
abbrev jV (Lc : grid0.Coords) : Fin τ.nSub := (Lc 1).castLE hsub0

/-- The 8448 words of the flat strip that the subcore at grid point `Lc` writes, as the kernel slices them. -/
abbrev partRect (Lc : grid0.Coords) : Rect S270336 := Rect.unit (s := S270336) (k0_off3 Lc) S8448.size (k0_off3_inb Lc)
abbrev partSet (Lc : grid0.Coords) : Finset S270336.Idx :=
  (((Memref.whole main_v1_scv : Memref sig .scVector .hbm S270336 .f32).slice (partRect Lc) (fun _ => rfl)).view).set

end Cert.KernelIdeal.Hand

end
-- ==== Proof.Ideal.Parts.lean ====
/-
  The strip's 270336 words fall into 32 consecutive parts of 8448, one per vector subcore:
  subcore (c, s) owns words 8448 (16 c + s) … 8448 (16 c + s) + 8447. The parts are pairwise
  disjoint and cover the strip, so the strip held whole is the 32 parts held side by side,
  and 32 parts held at ONE whole-array function join to the strip held at that function.
-/
import proofs.«214700_g37623913513500_cont_8to1_b_1793_29_alg».proof.Proof.Ideal.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The part of subcore `s` of core `c`. -/
abbrev ptSet (c : Fin 2) (s : Fin 16) : Finset S270336.Idx := partSet (coordsV c s)

theorem partSet_eq (Lc : grid0.Coords) : partSet Lc = (partRect Lc).set := by
  show ((View.whole (main_v1_scv : Ref sig .scVector)).slice (partRect Lc)).set = _
  rw [View.set_slice]; exact Finset.map_refl

/-- A word lies in the part of (c, s) exactly when it lies in that block of 8448. -/
theorem mem_ptSet (c : Fin 2) (s : Fin 16) (k : S270336.Idx) :
    k ∈ ptSet c s ↔ 8448 * (16 * c.val + s.val) ≤ (k 0).val ∧ (k 0).val < 8448 * (16 * c.val + s.val) + 8448 := by
  unfold ptSet
  rw [partSet_eq, Rect.mem_set_unit, k0_off3_eq]
  constructor
  · intro h
    have h0 := h 0
    simp only [coordsV, Matrix.cons_val_zero] at h0
    omega
  · intro h a
    have ha : a = 0 := Subsingleton.elim _ _
    subst ha
    simp only [coordsV, Matrix.cons_val_zero]
    omega

theorem ptSet_disjoint : ∀ x ∈ (Finset.univ : Finset (Fin 2 × Fin 16)), ∀ y ∈ (Finset.univ : Finset (Fin 2 × Fin 16)), x ≠ y →
    Disjoint (ptSet x.1 x.2) (ptSet y.1 y.2) := by
  rintro ⟨c, s⟩ - ⟨c', s'⟩ - hne
  rw [Finset.disjoint_left]
  intro k hk hk'
  rw [mem_ptSet] at hk hk'
  dsimp only at hk hk'
  apply hne
  have hc : c.val < 2 := c.isLt
  have hs : s.val < 16 := s.isLt
  have hc' : c'.val < 2 := c'.isLt
  have hs' : s'.val < 16 := s'.isLt
  have e : 16 * c.val + s.val = 16 * c'.val + s'.val := by omega
  exact Prod.ext (Fin.ext (show c.val = c'.val by omega)) (Fin.ext (show s.val = s'.val by omega))

theorem ptSet_cover : (Finset.univ : Finset (Fin 2 × Fin 16)).biUnion (fun x => ptSet x.1 x.2) = Finset.univ := by
  ext k
  simp only [Finset.mem_biUnion, Finset.mem_univ, true_and, iff_true]
  have hk : (k 0).val < 270336 := (k 0).isLt
  refine ⟨(⟨(k 0).val / 135168, by omega⟩, ⟨(k 0).val % 135168 / 8448, by omega⟩), ?_⟩
  rw [mem_ptSet]
  dsimp only
  omega

end Cert.KernelIdeal.Hand

end
-- ==== Proof.Ideal.Pay.lean ====
/-
  What the handshakes of the subcore launch carry.

  The main core hands each of the two cores the WHOLE flat table at half of the full share (less a
  remainder it keeps) and that core's sixteen parts of the strip; the core hands each of its sixteen
  subcores the whole table at a sixteenth of its half and the subcore's own part. Coming back, every
  part is held at ONE function of the whole strip — the strip computed from the table — so the parts
  join to the strip held at that function, and the table's shares join to the full share.
-/
import proofs.«214700_g37623913513500_cont_8to1_b_1793_29_alg».proof.Proof.Ideal.Parts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The table's share for core `c`, and for subcore `i` of core `c`. -/
abbrev qC (c : Fin 2) : PosShare TreeShare := Transfers.shareTok fullShare 2 c
abbrev qT (c : Fin 2) (i : Fin 16) : PosShare TreeShare := Transfers.shareTok (qC c) 16 i

variable (tab : (d : Dev nD) → Buf (Elt F) (tabLoc d))

/-- The strip computed from the flat table, as the strip's buffer. -/
abbrev stripOf (d : Dev nD) : Buf (Elt F) (stripLoc d) := Cert.RelPos.strip (tab d)

/-- What subcore (c, i) is handed, and what it hands back. -/
abbrev goRes (d : Dev nD) (c : Fin 2) (i : Fin 16) : sProp 𝕄 :=
  iprop((tabLoc d ↦{qT c i} tab d) ∗ ∃ f, stripLoc d ↦[ptSet c i]{fullShare} f)
abbrev tdRes (d : Dev nD) (c : Fin 2) (i : Fin 16) : sProp 𝕄 :=
  iprop((tabLoc d ↦{qT c i} tab d) ∗ stripLoc d ↦[ptSet c i]{fullShare} stripOf tab d)
/-- What core `c` is handed, and what it hands back. -/
abbrev stRes (d : Dev nD) (c : Fin 2) : sProp 𝕄 :=
  iprop((tabLoc d ↦{qC c} tab d) ∗ bigSep Finset.univ fun i : Fin 16 => iprop(∃ f, stripLoc d ↦[ptSet c i]{fullShare} f))
abbrev dnRes (d : Dev nD) (c : Fin 2) : sProp 𝕄 :=
  iprop((tabLoc d ↦{qC c} tab d) ∗ bigSep Finset.univ fun i : Fin 16 => stripLoc d ↦[ptSet c i]{fullShare} stripOf tab d)

/-- The one call's payloads; the subcores' own copies need no ghost state of the launch. -/
def P : (K (F := F)).Pay (nD := nD) (Val := Elt F) (Name := ℕ) (U := UU) where
  st := fun q d c => match q with | 0 => stRes tab d (Fin.cast nCore_zero c)
  dn := fun q d c => match q with | 0 => dnRes tab d (Fin.cast nCore_zero c)
  go := fun q d c i => match q with | 0 => goRes tab d (Fin.cast nCore_zero c) (Fin.cast nSub_zero i)
  td := fun q d c i => match q with | 0 => tdRes tab d (Fin.cast nCore_zero c) (Fin.cast nSub_zero i)
  x := fun _ _ => iprop(emp)

instance P_storable : (P (F := F) tab).IsStorable where
  st q d c := match q with | 0 => (inferInstance : BI.Storable (upEmb : UEmb _ 𝕄) (stRes tab d (Fin.cast nCore_zero c)))
  dn q d c := match q with | 0 => (inferInstance : BI.Storable (upEmb : UEmb _ 𝕄) (dnRes tab d (Fin.cast nCore_zero c)))
  go q d c i := match q with | 0 => (inferInstance : BI.Storable (upEmb : UEmb _ 𝕄) (goRes tab d (Fin.cast nCore_zero c) (Fin.cast nSub_zero i)))
  td q d c i := match q with | 0 => (inferInstance : BI.Storable (upEmb : UEmb _ 𝕄) (tdRes tab d (Fin.cast nCore_zero c) (Fin.cast nSub_zero i)))

omit tab in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's operands split among its sixteen subcores, and their results gather: the table's share is cut
    in sixteen (the remainder waits with the core), the parts are already apart. -/
theorem vecSplit : (K (F := F)).VecSplit' (P tab) 0 := by
  intro d c
  show stRes tab d (Fin.cast nCore_zero c) ⊢ |={Set.univ}=> iprop(
      (bigSep Finset.univ fun i : Fin ((K (F := F)).nSub 0) => goRes tab d (Fin.cast nCore_zero c) (Fin.cast nSub_zero i))
      ∗ ((bigSep Finset.univ fun i : Fin ((K (F := F)).nSub 0) => tdRes tab d (Fin.cast nCore_zero c) (Fin.cast nSub_zero i))
          -∗ dnRes tab d (Fin.cast nCore_zero c)))
  generalize Fin.cast nCore_zero c = c'
  rw [bigSep_tasks (F := F) (fun i => goRes tab d c' i), bigSep_tasks (F := F) (fun i => tdRes tab d c' i)]
  unfold stRes goRes tdRes dnRes
  rw [bigSep_sep', bigSep_sep']
  iintro ⟨Ht, Hs⟩
  ihave Ht' := (Transfers.pointsTo_toks_split (qC c') 16) $$ Ht
  icases Ht' with ⟨Hrest, Htoks⟩
  imodintro
  isplitl [Htoks Hs]
  · isplitl [Htoks]; · iexact Htoks
    iexact Hs
  iintro ⟨Htoks, Hs⟩
  isplitl [Hrest Htoks]
  · iapply (Transfers.pointsTo_toks_join (qC c') 16)
    isplitl [Hrest]; · iexact Hrest
    iexact Htoks
  iexact Hs

end Cert.KernelIdeal.Hand

end
-- ==== Proof.Ideal.TileObl.lean ====
/-
  The subcore call's obligation to the launch, from the body run once at a symbolic grid point.

  The launch asks, for every device, core and subcore of the call's grid, that the subcore's row of the
  body table — its kernel function at that grid point, on the whole arrays and its own scratch — takes what
  the go signal hands it to what the task-done signal hands back. That is the body's statement at the grid
  point (c, s), at the subcore's share of the table; the kernel has no protocol of its own, so it owes the
  launch nothing beyond the handshakes.
-/
import proofs.«214700_g37623913513500_cont_8to1_b_1793_29_alg».proof.Proof.Ideal.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The body's statement, at every grid point, share of the table and contents of the table: from the table
    (whole, at the share), the subcore's part of the strip and its scoped storage, to the part holding the
    strip computed from the table, everything else back. -/
def TileBodyStmt [FloatOps F] : Prop :=
  ∀ (d : Dev nD) (Lc : grid0.Coords) (q : PosShare TreeShare) (tab : Buf (Elt F) (tabLoc d))
    (O : CellTallies nD τ sig (HIx 1)) (W : Waits sig (HIx 1)), (∀ g, O g none = 0) →
    (iprop(levAts (K (F := F)).L (K (F := F)).lev
        ∗ ((tabLoc d ↦{q} tab) ∗ ∃ f, stripLoc d ↦[partSet Lc]{fullShare} f)
        ∗ scopedBufs (V d (cV Lc) (jV Lc)) ∗ scopedSems0 (V d (cV Lc) (jV Lc)) ∗ owes (V d (cV Lc) (jV Lc)) O W) : sProp 𝕄)
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(((tabLoc d ↦{q} tab) ∗ stripLoc d ↦[partSet Lc]{fullShare} (Cert.RelPos.strip tab))
            ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W')

variable [FloatOps F]

theorem defs₀_vector (c : Fin τ.nSC) (s : Fin τ.nSub) :
    defs₀ (F := F) (.scVector c s) 0 ()
      = SparseCore.onTile hcore0 hsub0 (fun c s => cc0__sc_expand (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's obligation: each subcore's task is the body at its grid point. -/
theorem tileObl (hb : TileBodyStmt (F := F)) (tab : (d : Dev nD) → Buf (Elt F) (tabLoc d)) :
    (K (F := F)).TileObl (D (F := F)) 𝒱 (P tab) v₀ 0 := by
  intro d c i O W hO _ _
  obtain ⟨cv, hcv⟩ := c
  obtain ⟨iv, hiv⟩ := i
  simp only [show (P tab).ox = fun _ _ => 0 from rfl, add_zero]
  change _ ⊢ wp _ _ _ (Pipeline.liftProg (defs₀ (F := F) (.scVector ((K (F := F)).core 0 ⟨cv, hcv⟩) ((K (F := F)).sub 0 ⟨iv, hiv⟩)) 0 ())) _
  refine BI.Entails.trans ?_ (Pipeline.wp_liftProg (D (F := F)) (Pipeline.defs_kernel pcfgs defs₀) 𝒱₀ _ Set.univ none _ _)
  have hc : ((K (F := F)).core 0 ⟨cv, hcv⟩).val < grid0.bound 0 ∧ ((K (F := F)).sub 0 ⟨iv, hiv⟩).val < grid0.bound 1 := ⟨hcv, hiv⟩
  rw [defs₀_vector]; simp only [SparseCore.onTile, hc, _root_.and_self, ↓reduceDIte]
  -- the grid point the payloads name is the one the launch names, so the part is the same set
  have eL : (coordsV (Fin.cast nCore_zero (⟨cv, hcv⟩ : Fin ((K (F := F)).nCore 0))) (Fin.cast nSub_zero (⟨iv, hiv⟩ : Fin ((K (F := F)).nSub 0))) : grid0.Coords)
      = coordsV ⟨((K (F := F)).core 0 ⟨cv, hcv⟩).val, hc.1⟩ ⟨((K (F := F)).sub 0 ⟨iv, hiv⟩).val, hc.2⟩ := rfl
  have eS : ptSet (Fin.cast nCore_zero (⟨cv, hcv⟩ : Fin ((K (F := F)).nCore 0))) (Fin.cast nSub_zero (⟨iv, hiv⟩ : Fin ((K (F := F)).nSub 0)))
      = partSet (coordsV ⟨((K (F := F)).core 0 ⟨cv, hcv⟩).val, hc.1⟩ ⟨((K (F := F)).sub 0 ⟨iv, hiv⟩).val, hc.2⟩) := congrArg partSet eL
  have hgo : (P tab).go 0 d ⟨cv, hcv⟩ ⟨iv, hiv⟩ = goRes tab d (Fin.cast nCore_zero ⟨cv, hcv⟩) (Fin.cast nSub_zero ⟨iv, hiv⟩) := rfl
  have htd : (P tab).td 0 d ⟨cv, hcv⟩ ⟨iv, hiv⟩ = tdRes tab d (Fin.cast nCore_zero ⟨cv, hcv⟩) (Fin.cast nSub_zero ⟨iv, hiv⟩) := rfl
  rw [hgo, htd]
  unfold goRes tdRes stripOf
  rw [eS]
  have h := hb d (coordsV ⟨((K (F := F)).core 0 ⟨cv, hcv⟩).val, hc.1⟩ ⟨((K (F := F)).sub 0 ⟨iv, hiv⟩).val, hc.2⟩)
    (qT (Fin.cast nCore_zero ⟨cv, hcv⟩) (Fin.cast nSub_zero ⟨iv, hiv⟩)) (tab d) O W hO
  -- the kernel function's call is the same term on both sides: name it, so that nothing looks inside it
  generalize cc0__sc_expand _ _ _ _ _ _ _ _ _ _ _ = prog at h ⊢
  refine BI.Entails.trans ?_ (h.trans (wp_mono frame _ _ fun _ => obl_post))
  show (iprop(_ ∗ _ ∗ _ ∗ _) : sProp 𝕄) ⊢ iprop(_ ∗ _ ∗ _)
  iintro ⟨Hlv, -, Hgo, Hrest⟩
  isplitl [Hlv]; · iexact Hlv
  isplitl [Hgo]; · iexact Hgo
  iexact Hrest

end Cert.KernelIdeal.Hand

end
-- ==== Proof.Ideal.Deal.lean ====
/-
  Dealing the arrays out to the two cores before the subcore call, and gathering them after it.

  Going out: the flat table's full share is cut in two halves and a remainder the main core keeps; the
  strip, held whole, is its 32 parts held side by side, each at whatever it holds. Coming back: the two
  halves and the remainder make the full share again, and the 32 parts — every one now holding the strip
  computed from the table, ONE function of the whole strip — are the strip held whole at that function.
-/
import proofs.«214700_g37623913513500_cont_8to1_b_1793_29_alg».proof.Proof.Ideal.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The strip held whole is its 32 parts held side by side. -/
theorem strip_parts (d : Dev nD) (f : Buf (Elt F) (stripLoc d)) :
    (stripLoc d ↦{fullShare} f : sProp 𝕄)
      = bigSep Finset.univ fun c : Fin 2 => bigSep Finset.univ fun i : Fin 16 => stripLoc d ↦[ptSet c i]{fullShare} f := by
  rw [← bigSep_univ_prod (fun x : Fin 2 × Fin 16 => (stripLoc d ↦[ptSet x.1 x.2]{fullShare} f : sProp 𝕄)),
    ← pointsTo_biUnion Finset.univ (ℓ := stripLoc d) (fun x : Fin 2 × Fin 16 => ptSet x.1 x.2) ptSet_disjoint, ptSet_cover]; try rfl

theorem part_some (d : Dev nD) (c : Fin 2) (i : Fin 16) (f : Buf (Elt F) (stripLoc d)) :
    (stripLoc d ↦[ptSet c i]{fullShare} f : sProp 𝕄) ⊢ iprop(∃ g, stripLoc d ↦[ptSet c i]{fullShare} g) := by
  iintro H; iexists f; iexact H

variable (tab : (d : Dev nD) → Buf (Elt F) (tabLoc d))

/-- Out: the table and the strip, whole, become the main core's remainder of the table and each core's operands. -/
theorem deal_out (d : Dev nD) (f0 : Buf (Elt F) (stripLoc d)) :
    (iprop((tabLoc d ↦{fullShare} tab d) ∗ (stripLoc d ↦{fullShare} f0)) : sProp 𝕄)
      ⊢ iprop((tabLoc d ↦{Transfers.shareDrop fullShare 2} tab d)
          ∗ bigSep Finset.univ fun c : Fin ((K (F := F)).nCore 0) => (P tab).st 0 d c) := by
  show _ ⊢ iprop(_ ∗ bigSep Finset.univ fun c : Fin ((K (F := F)).nCore 0) => stRes tab d (Fin.cast nCore_zero c))
  rw [bigSep_cores (F := F) (fun c => stRes tab d c), strip_parts]
  unfold stRes
  rw [bigSep_sep']
  iintro ⟨Ht, Hs⟩
  ihave Ht' := (Transfers.pointsTo_toks_split fullShare 2) $$ Ht
  icases Ht' with ⟨Hrest, Htoks⟩
  isplitl [Hrest]; · iexact Hrest
  isplitl [Htoks]; · iexact Htoks
  have hmono : (bigSep Finset.univ fun c : Fin 2 => bigSep Finset.univ fun i : Fin 16 => (stripLoc d ↦[ptSet c i]{fullShare} f0 : sProp 𝕄))
      ⊢ bigSep Finset.univ fun c : Fin 2 => bigSep Finset.univ fun i : Fin 16 => (iprop(∃ g, stripLoc d ↦[ptSet c i]{fullShare} g) : sProp 𝕄) :=
    bigSep_mono fun c _ => bigSep_mono fun i _ => part_some d c i f0
  iapply hmono
  iexact Hs

/-- Back: the remainder and each core's results become the table whole and the strip whole at the computed strip. -/
theorem deal_back (d : Dev nD) :
    (iprop((tabLoc d ↦{Transfers.shareDrop fullShare 2} tab d)
        ∗ bigSep Finset.univ fun c : Fin ((K (F := F)).nCore 0) => (P tab).dn 0 d c) : sProp 𝕄)
      ⊢ iprop((tabLoc d ↦{fullShare} tab d) ∗ (stripLoc d ↦{fullShare} stripOf tab d)) := by
  show iprop(_ ∗ bigSep Finset.univ fun c : Fin ((K (F := F)).nCore 0) => dnRes tab d (Fin.cast nCore_zero c)) ⊢ _
  rw [bigSep_cores (F := F) (fun c => dnRes tab d c), strip_parts]
  unfold dnRes
  rw [bigSep_sep']
  iintro ⟨Hrest, Htoks, Hs⟩
  isplitl [Hrest Htoks]
  · iapply (Transfers.pointsTo_toks_join fullShare 2)
    isplitl [Hrest]; · iexact Hrest
    iexact Htoks
  iexact Hs

end Cert.KernelIdeal.Hand

end
-- ==== Proof.Ideal.Arrays.lean ====
/-
  The main core's six arrays — the two arguments, the flat table, the flat strip, the strip as rows, the
  result — held together, and what each holds after each step of the main program.

  Laying the table out flat writes the flat table and touches nothing else; viewing the flat strip as rows
  writes the rows and touches nothing else. Each is the same entries at the same row-major positions.
-/
import proofs.«214700_g37623913513500_cont_8to1_b_1793_29_alg».proof.Proof.Ideal.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.StableHlo (held held_split held_sdiff_result wp_hlo_within)

local notation "𝕄" => MT nD τ sig (HIx 1) (Elt F) ℕ UU ℕ

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The six arrays. -/
abbrev S6 : Finset (DevRef τ sig) := {a0', a1', v0', v1', v2', v3'}

abbrev arg0Loc (d : Dev nD) : Loc nD τ sig := (SparseCore.T d).loc main_arg0
abbrev arg1Loc (d : Dev nD) : Loc nD τ sig := (SparseCore.T d).loc main_arg1

theorem held_S6 (d : Dev nD) (W : Valuation τ sig (Elt F)) :
    (held (T d) S6 W : sProp 𝕄) = iprop((arg0Loc d ↦{fullShare} W a0') ∗ (arg1Loc d ↦{fullShare} W a1') ∗ (tabLoc d ↦{fullShare} W v0')
      ∗ (stripLoc d ↦{fullShare} W v1') ∗ (rowsLoc d ↦{fullShare} W v2') ∗ (outLoc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (tabLoc d ↦{fullShare} W main_v0)
      ∗ (stripLoc d ↦{fullShare} W main_v1) ∗ (rowsLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ)

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

variable [FloatOps F]

/-- Laying the table out flat; viewing the flat strip as rows. -/
abbrev opFlat : HloOp τ sig (Elt F) := StableHlo.reshape main_arg1 main_v0 rfl shapeCasts_S65x256_S16640
abbrev opRows : HloOp τ sig (Elt F) := StableHlo.reshape main_v1 main_v2 rfl shapeCasts_S270336_S1056x256

theorem hFlat : (opFlat (F := F)).bufs ⊆ S6 := show ({a1', v0'} : Finset (DevRef τ sig)) ⊆ S6 by decide
theorem hRows : (opRows (F := F)).bufs ⊆ S6 := show ({v1', v2'} : Finset (DevRef τ sig)) ⊆ S6 by decide

/-- The flat table: the table argument's entries at their row-major positions. -/
def tabOf (d : Dev nD) : Buf (Elt F) (tabLoc d) :=
  fun i => shapeCast S16640 (m (arg1Loc d)) shapeCasts_S65x256_S16640 i

/-- The rows of the strip computed from the flat table. -/
def rowsOf (d : Dev nD) : Buf (Elt F) (rowsLoc d) :=
  fun i => shapeCast S1056x256 (stripOf (tabOf m) d) shapeCasts_S270336_S1056x256 i

/-- After the table is laid out flat. -/
def V1 (d : Dev nD) : Valuation τ sig (Elt F) := (opFlat (F := F)).result (V0 m d)

theorem V1_v0 (d : Dev nD) : V1 m d v0' = tabOf m d :=
  StableHlo.reshape_result main_arg1 main_v0 rfl shapeCasts_S65x256_S16640 _ _ (V0 m d)
theorem V1_of_ne (d : Dev nD) (b : DevRef τ sig) (hb : b ∉ ({v0'} : Finset (DevRef τ sig))) : V1 m d b = V0 m d b :=
  (opFlat (F := F)).result_of_not_mem (V0 m d) hb

/-- After the subcore call: the flat strip at the strip computed from the flat table. -/
def V2 (d : Dev nD) : Valuation τ sig (Elt F) := Function.update (V1 m d) v1' (stripOf (tabOf m) d)

theorem V2_v1 (d : Dev nD) : V2 m d v1' = stripOf (tabOf m) d := Function.update_self _ _ _
theorem V2_of_ne (d : Dev nD) (b : DevRef τ sig) (hb : b ≠ v1') : V2 m d b = V1 m d b := Function.update_of_ne hb _ _

/-- After the strip is viewed as rows. -/
def V3 (d : Dev nD) : Valuation τ sig (Elt F) := (opRows (F := F)).result (V2 m d)

theorem V3_v2 (d : Dev nD) : V3 m d v2' = rowsOf m d := by
  unfold V3
  rw [StableHlo.reshape_result main_v1 main_v2 rfl shapeCasts_S270336_S1056x256 _ _ (V2 m d), V2_v1]; rfl
theorem V3_of_ne (d : Dev nD) (b : DevRef τ sig) (hb : b ∉ ({v2'} : Finset (DevRef τ sig))) : V3 m d b = V2 m d b :=
  (opRows (F := F)).result_of_not_mem (V2 m d) hb

end Cert.KernelIdeal.Hand

end
-- ==== Proof.Ideal.TcData.lean ====
import proofs.«214700_g37623913513500_cont_8to1_b_1793_29_alg».proof.Proof.Ideal.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

/-! ## The strip's slabs and the result's blocks, as plain functions of the strip -/

/-- The eight overlapping slabs of the strip: slab `k` is its rows `k … k + 1023`. -/
def slabs {α : Type} (e : S1056x256.Idx → α) : S8x1024x256.Idx → α :=
  fun k => e (ValueIdx.ix2 ⟨(k 0).val + (k 1).val, by
    have h0 : (k 0).val < 8 := (k 0).isLt
    have h1 : (k 1).val < 1024 := (k 1).isLt
    omega⟩ (k 2))

/-- Block `t` of the result: the eight rows `i = 8 t + r`, entry `(i, j, ·)` read off the strip at row `511 − i + j`
    (below 1056 whenever `t < 64`; the remainder keeps the definition total). -/
def outBlk {α : Type} (e : S1056x256.Idx → α) (t : Nat) : S8x512x256.Idx → α :=
  fun j => e (ValueIdx.ix2 ⟨(511 - (8 * t + (j 0).val) + (j 1).val) % 1056, Nat.mod_lt _ (by decide)⟩ (j 2))

/-! ## The pipeline's parameters and proof data -/

/-- No prefetched table: the one admissible contents. -/
abbrev adm : (p : Fin 1) → (pcfgs (F := F) p).Adm := fun p => (cfgs p).toPCfg_adm

/-- The scratch the kernel keeps between points. -/
abbrev scrLoc (c : Dev nD) : Loc nD τ sig := (SparseCore.T c).loc cc1_scratch0

/-- The invariant between points: before the first point the scratch holds anything; after it, the strip's slabs. -/
def PhiT (rows : (c : Dev nD) → Buf (Elt F) (rowsLoc c)) (c : Dev nD) : ℕ → sProp 𝕄
  | 0 => iprop(∃ f : Buf (Elt F) (scrLoc c), scrLoc c ↦{fullShare} f)
  | _ + 1 => scrLoc c ↦{fullShare} (slabs (rows c) : Buf (Elt F) (scrLoc c))

theorem PhiT_zero (rows : (c : Dev nD) → Buf (Elt F) (rowsLoc c)) (c : Dev nD) :
    PhiT rows c 0 = iprop(∃ f : Buf (Elt F) (scrLoc c), scrLoc c ↦{fullShare} f) := rfl
theorem PhiT_succ (rows : (c : Dev nD) → Buf (Elt F) (rowsLoc c)) (c : Dev nD) (n : ℕ) :
    PhiT rows c (n + 1) = (scrLoc c ↦{fullShare} (slabs (rows c) : Buf (Elt F) (scrLoc c))) := rfl
theorem PhiT_pos (rows : (c : Dev nD) → Buf (Elt F) (rowsLoc c)) (c : Dev nD) (n : ℕ) (h : n ≠ 0) :
    PhiT rows c n = (scrLoc c ↦{fullShare} (slabs (rows c) : Buf (Elt F) (scrLoc c))) := by
  cases n with
  | zero => exact absurd rfl h
  | succ n => rfl

/-- The proof data on core `c`: the strip as found and the result at its entry contents; after the body at point `t` the
    strip's staging buffer still at the strip, the result's at block `t`; the carried scratch; the full share; the
    core owing the constant tally `O c` throughout, the pairs its waits have recorded all at level 8 or below. -/
def tcDats (rows : (c : Dev nD) → Buf (Elt F) (rowsLoc c)) (out₀ : (c : Dev nD) → Buf (Elt F) (outLoc c))
    (O : Dev nD → CellTallies nD τ sig (HIx 1)) (_ : Fin 1) (c : Dev nD) :
    Dat τ (Elt F) (HIx 1) ℕ UU ℕ cfg1 c where
  A w := match w with
    | ⟨0, _⟩ => rows c
    | ⟨1, _⟩ => out₀ c
  after w t := match w with
    | ⟨0, _⟩ => (rows c : S1056x256.Idx → Elt F .f32)
    | ⟨1, _⟩ => outBlk (rows c : S1056x256.Idx → Elt F .f32) t.val
  Φ t := PhiT rows c t.val
  q _ := fullShare
  owed _ := O c
  recorded _ := {p | (K (F := F)).lev (SparseCore.T c, p.1) p.2 ≤ 8}

section
variable (rows : (c : Dev nD) → Buf (Elt F) (rowsLoc c)) (out₀ : (c : Dev nD) → Buf (Elt F) (outLoc c))
  (O : Dev nD → CellTallies nD τ sig (HIx 1)) (c : Dev nD)

theorem tcDats_A0 : (tcDats rows out₀ O 0 c).A 0 = rows c := by dsimp only [tcDats]
theorem tcDats_A1 : (tcDats rows out₀ O 0 c).A 1 = out₀ c := by dsimp only [tcDats]
theorem tcDats_after0 (t : Fin cfg1.N) : (tcDats rows out₀ O 0 c).after 0 t = (rows c : S1056x256.Idx → Elt F .f32) := by dsimp only [tcDats]
theorem tcDats_after1 (t : Fin cfg1.N) : (tcDats rows out₀ O 0 c).after 1 t = outBlk (rows c : S1056x256.Idx → Elt F .f32) t.val := by dsimp only [tcDats]
theorem tcDats_Phi (t : Fin (cfg1.N + 1)) : (tcDats rows out₀ O 0 c).Φ t = PhiT rows c t.val := rfl
theorem tcDats_owed (t : Fin (cfg1.N + 1)) : (tcDats rows out₀ O 0 c).owed t = O c := rfl
theorem tcDats_recorded (t : Fin (cfg1.N + 1)) :
    (tcDats rows out₀ O 0 c).recorded t = {p | (K (F := F)).lev (SparseCore.T c, p.1) p.2 ≤ 8} := rfl
theorem tcDats_share (w : Fin cfg1.W) : (tcDats rows out₀ O 0 c).share w = fullShare :=
  (tcDats rows out₀ O 0 c).share_full (fun _ => rfl) w
end

end Cert.KernelIdeal.Hand

end
-- ==== Proof.Ideal.Elem.lean ====
/-
  The launch element of the ghost state.

  Three components side by side: the handshakes' rounds at their launch state; the pipeline's rounds at the
  launch state of its staging cells, from which every device gets the ghost state and duty tokens its
  pipeline region is entered with; and the counters' unit, which nothing needs at launch (each subcore's
  copies allocate their own when they start). The subcores' kernel has no protocol of its own, so nothing
  is dealt to its proofs.
-/
import proofs.«214700_g37623913513500_cont_8to1_b_1793_29_alg».proof.Proof.Ideal.Pay
import proofs.«214700_g37623913513500_cont_8to1_b_1793_29_alg».proof.Proof.Ideal.TcData

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipeline's staging cells are pairwise distinct. -/
theorem hinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) hinj) (Pipeline.launchToks (Pipeline.pin (pcfgs (F := F)) adm) hinj), 1))

/-- What the launch deals the main program on device `d`: its pipeline's ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

/-- Owning an element through the left of the right component is owning it through the pipeline's embedding. -/
theorem own_EP (x : UP) :
    (BI.own (((Emb.inl : Emb UP (UP × Counters)).trans (embR (A := UH) (B := UP × Counters))) x) : sProp 𝕄) ⊢ BI.own ((EP : Emb UP 𝕄) x) :=
  BI.Entails.refl _

theorem hu₀ (tab : (d : Dev nD) → Buf (Elt F) (tabLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tab).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP0, -⟩
  ihave HP := (own_EP (F := F) _) $$ HP0
  imod (Pipeline.fund_ghost (Pipeline.pin (pcfgs (F := F)) adm) EP hinj) $$ HP with ⟨Hg, Ht⟩
  imodintro
  isplitl [HH]; · iexact HH
  isplitl [Hg Ht]
  · unfold G
    rw [bigSep_sep']
    rw [show (Finset.univ : Finset (Fin 1)) = {0} by decide] at *
    simp only [bigSep_singleton]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.KernelIdeal.Hand

end
-- ==== Proof.Ideal.Main.lean ====
/-
  The main program on the main core, run from what the launch deals it.

  Four steps. Laying the table out flat writes the flat table. The subcore call takes, for each core, the
  whole flat table at half the share and that core's parts of the strip, and brings back every part at the
  strip computed from the flat table: the parts join to the strip held whole. Viewing the strip as rows
  writes the rows. The pipeline region takes the rows and the result array and brings the result back as
  the rows read at 511 − i + j. Throughout, the two argument arrays are held and never written.
-/
import proofs.«214700_g37623913513500_cont_8to1_b_1793_29_alg».proof.Proof.Ideal.TileObl
import proofs.«214700_g37623913513500_cont_8to1_b_1793_29_alg».proof.Proof.Ideal.Deal
import proofs.«214700_g37623913513500_cont_8to1_b_1793_29_alg».proof.Proof.Ideal.Arrays
import proofs.«214700_g37623913513500_cont_8to1_b_1793_29_alg».proof.Proof.Ideal.Elem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.StableHlo (held held_split held_sdiff_result wp_hlo_within)

local notation "𝕄" => MT nD τ sig (HIx 1) (Elt F) ℕ UU ℕ

/-- The pipeline region, for given rows of the strip, entry contents of the result and tally of the main core:
    the library's record of a region, entered from the rows, the result array and what the core owes, and
    left with the result at the rows read at 511 − i + j. -/
structure RegionFor (rows : (c : Dev nD) → Buf (Elt F) (rowsLoc c)) (out₀ : (c : Dev nD) → Buf (Elt F) (outLoc c))
    (O : Dev nD → CellTallies nD τ sig (HIx 1)) where
  R : Pipeline.RegionSeg (pcfgs (F := F)) adm (tcDats rows out₀ O) (none : HIx 1) (defs₀ (F := F)) 𝒱₀
    (K (F := F)).L (K (F := F)).lev (0 : Fin 1)
  pre_eq : ∀ c, R.pre c = iprop((rowsLoc c ↦{fullShare} rows c) ∗ (outLoc c ↦{fullShare} out₀ c)
    ∗ ∃ W, ⌜(K (F := F)).WBelow (SparseCore.T c) W 8⌝ ∗ owes (SparseCore.T c) (O c) W)
  post_eq : ∀ c, R.post c = iprop((rowsLoc c ↦{fullShare} rows c) ∗ (outLoc c ↦{fullShare} Cert.RelPos.relOfStrip (rows c))
    ∗ ∃ W, ⌜(K (F := F)).WBelow (SparseCore.T c) W 8⌝ ∗ owes (SparseCore.T c) (O c) W)

variable (m : (ℓ : Loc nD τ sig) → Buf (Elt F) ℓ) (ρ : Dev nD → PrngReg)
variable [FloatOps F]

/-- What the main program leaves the claim: the arguments at their launch contents, the result at the rows
    (of the strip computed from the flat table) read at 511 − i + j. -/
abbrev FIN (d : Dev nD) : sProp 𝕄 :=
  iprop((arg0Loc d ↦{fullShare} m (arg0Loc d)) ∗ (arg1Loc d ↦{fullShare} m (arg1Loc d))
    ∗ (outLoc d ↦{fullShare} Cert.RelPos.relOfStrip (rowsOf m d)))

/-- The main program on device `d`'s main core, from what the launch deals it, given the pipeline region's record. -/
theorem hmain (hR : ∀ rows out₀ O, (∀ c g, O c g none = 0) → RegionFor (F := F) rows out₀ O)
    (κ : GSem nD τ sig → ℕ) (d : Dev nD) :
    iprop((K (F := F)).ctx EH (P (tabOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- 1. the table laid out flat
  iapply (wp_hlo_within 𝒱 (SparseCore.T d) none Set.univ (op := opFlat) (S := S6) hFlat (V := V0 m d)) $$ [Hb Hheld]
  · isplitl [Hb]; · iexact Hb
    iexact Hheld
  iintro ⟨Hb, Hheld⟩
  ihave Hh := (Entails.of_eq (held_S6 (F := F) d _)) $$ Hheld
  icases Hh with ⟨Ha0, Ha1, Hv0, Hv1, Hv2, Hv3⟩
  rw [wp_ret]
  imodintro
  -- the flat table is the table's entries at their row-major positions
  have eTab : (opFlat (F := F)).result (V0 m d) v0' = tabOf m d := V1_v0 m d
  ihave Hv0 := (Entails.of_eq (congrArg (fun f => (tabLoc d ↦{fullShare} f : sProp 𝕄)) eTab)) $$ Hv0
  -- 2. the subcore call: deal out, run, gather
  ihave Hdeal := (deal_out (tabOf m) d _) $$ [Hv0 Hv1]
  · isplitl [Hv0]; · iexact Hv0
    iexact Hv1
  icases Hdeal with ⟨Hrest, Hsts⟩
  iapply ((K (F := F)).wp_run (D (F := F)) 𝒱 (EH := EH) (P := P (tabOf m)) κ d 0) $$ [Hst Hsts Hb Ha0 Ha1 Hv2 Hv3 Hrest Hg]
  isplitr; · iexact Hctx
  isplitl [Hst]; · iexact Hst
  isplitl [Hsts]; · iexact Hsts
  unfold SparseCore.Cfg.tcSt
  iintro ⟨⟨⟨%W1, %hW1, HO⟩, Htail⟩, Hdn⟩
  ihave Hback := (deal_back (tabOf m) d) $$ [Hrest Hdn]
  · isplitl [Hrest]; · iexact Hrest
    iexact Hdn
  icases Hback with ⟨Hv0, Hv1⟩
  -- 3. the strip viewed as rows
  have e0 : V2 m d a0' = (opFlat (F := F)).result (V0 m d) a0' := V2_of_ne m d a0' (by decide)
  have e1 : V2 m d a1' = (opFlat (F := F)).result (V0 m d) a1' := V2_of_ne m d a1' (by decide)
  have e2 : V2 m d v0' = tabOf m d := (V2_of_ne m d v0' (by decide)).trans (V1_v0 m d)
  have e3 : V2 m d v1' = stripOf (tabOf m) d := V2_v1 m d
  have e4 : V2 m d v2' = (opFlat (F := F)).result (V0 m d) v2' := V2_of_ne m d v2' (by decide)
  have e5 : V2 m d v3' = (opFlat (F := F)).result (V0 m d) v3' := V2_of_ne m d v3' (by decide)
  iapply (wp_hlo_within 𝒱 (SparseCore.T d) none Set.univ (op := opRows) (S := S6) hRows (V := V2 m d)) $$ [Hb Ha0 Ha1 Hv0 Hv1 Hv2 Hv3]
  · isplitl [Hb]; · iexact Hb
    rw [held_S6, e0, e1, e2, e3, e4, e5]
    isplitl [Ha0]; · iexact Ha0
    isplitl [Ha1]; · iexact Ha1
    isplitl [Hv0]; · iexact Hv0
    isplitl [Hv1]; · iexact Hv1
    isplitl [Hv2]; · iexact Hv2
    iexact Hv3
  iintro ⟨Hb, Hheld⟩
  ihave Hh := (Entails.of_eq (held_S6 (F := F) d _)) $$ Hheld
  icases Hh with ⟨Ha0, Ha1, Hv0, Hv1, Hv2, Hv3⟩
  rw [wp_ret]
  imodintro
  -- 4. the pipeline region: from the rows and the result array to the result at the rows read at 511 − i + j
  have eRows : (opRows (F := F)).result (V2 m d) v2' = rowsOf m d := V3_v2 m d
  have eOut : (opRows (F := F)).result (V2 m d) v3' = m (outLoc d) :=
    (V3_of_ne m d v3' (by decide)).trans ((V2_of_ne m d v3' (by decide)).trans (V1_of_ne m d v3' (by decide)))
  have eA0 : (opRows (F := F)).result (V2 m d) a0' = m (arg0Loc d) :=
    (V3_of_ne m d a0' (by decide)).trans ((V2_of_ne m d a0' (by decide)).trans (V1_of_ne m d a0' (by decide)))
  have eA1 : (opRows (F := F)).result (V2 m d) a1' = m (arg1Loc d) :=
    (V3_of_ne m d a1' (by decide)).trans ((V2_of_ne m d a1' (by decide)).trans (V1_of_ne m d a1' (by decide)))
  ihave Hv2 := (Entails.of_eq (congrArg (fun f => (rowsLoc d ↦{fullShare} f : sProp 𝕄)) eRows)) $$ Hv2
  ihave Hv3 := (Entails.of_eq (congrArg (fun f => (outLoc d ↦{fullShare} f : sProp 𝕄)) eOut)) $$ Hv3
  ihave Ha0 := (Entails.of_eq (congrArg (fun f => (arg0Loc d ↦{fullShare} f : sProp 𝕄)) eA0)) $$ Ha0
  ihave Ha1 := (Entails.of_eq (congrArg (fun f => (arg1Loc d ↦{fullShare} f : sProp 𝕄)) eA1)) $$ Ha1
  have hO : ∀ (c : Dev nD) (g : GSem nD τ sig), ((K (F := F)).Otc c 1) g none = 0 := fun c g => by
    rw [(K (F := F)).Otc_end c le_rfl]; rfl
  obtain ⟨R, hpre, hpost⟩ := hR (rowsOf m) (fun c => m (outLoc c)) (fun c => (K (F := F)).Otc c 1) hO
  ihave Hlv := (SparseCore.Cfg.ctx_levAts (K := K (F := F)) (EH := EH) (P := P (tabOf m)) κ) $$ Hctx
  iapply ((K (F := F)).wp_liftProg (D (F := F)) 𝒱 (SparseCore.T d) Set.univ none
    (Prog.op (TpuEff.customCall (Pipeline.entry (0 : Fin 1)) ()) Prog.ret) _)
  iapply (Pipeline.RegionSeg.wp (pcfgs (F := F)) adm (tcDats (rowsOf m) (fun c => m (outLoc c)) fun c => (K (F := F)).Otc c 1)
    (none : HIx 1) hinj EP (defs₀ (F := F)) 𝒱₀ (K (F := F)).L (K (F := F)).lev R d none (by intro u hu; cases hu) Prog.ret _)
    $$ [Hb Hv2 Hv3 HO Hg Hlv Ha0 Ha1 Htail Hv0 Hv1]
  isplitl [Ha0 Ha1 Htail]
  · iintro ⟨Hb, Hpost⟩
    ihave Hpost := (Entails.of_eq (hpost d)) $$ Hpost
    icases Hpost with ⟨Hv2, Hv3, %W2, %hW2, HO⟩
    rw [wp_ret]
    imodintro
    imodintro
    isplitl [HO Htail]
    · isplitl [HO]
      · iexists W2; isplitr
        · ipureintro; exact hW2
        · iexact HO
      · iexact Htail
    isplitl [Ha0]; · iexact Ha0
    isplitl [Ha1]; · iexact Ha1
    iexact Hv3
  isplitl [Hb]; · iexact Hb
  isplitl [Hv2 Hv3 HO]
  · rw [hpre d]
    isplitl [Hv2]; · iexact Hv2
    isplitl [Hv3]; · iexact Hv3
    iexists W1; isplitr
    · ipureintro; exact hW1
    · iexact HO
  isplitl [Hlv]; · iexact Hlv
  iexact Hg

/-- What the final memory must show on device `d`. -/
def fq (d : Dev nD) (s' : Phys nD τ sig (Elt F)) : Prop :=
  s'.mem.mem (arg0Loc d) = m (arg0Loc d) ∧ s'.mem.mem (arg1Loc d) = m (arg1Loc d)
    ∧ s'.mem.mem (outLoc d) = Cert.RelPos.relOfStrip (rowsOf m d)

theorem hfin (d : Dev nD) (s' : Phys nD τ sig (Elt F)) : iprop(FIN m d ∗ SI s') ⊢ (⌜fq m d s'⌝ : sProp 𝕄) := by
  iintro ⟨⟨Ha0, Ha1, Hv3⟩, HSI⟩
  ihave H := (persistent_entails_right (SI_pointsTo_agree (st := s') (ℓ := arg0Loc d) (I := Finset.univ) (q := fullShare) (f := m (arg0Loc d)))) $$ [HSI Ha0]
  · isplitl [HSI] <;> iassumption
  icases H with ⟨%h0, HSI, -⟩
  ihave H := (persistent_entails_right (SI_pointsTo_agree (st := s') (ℓ := arg1Loc d) (I := Finset.univ) (q := fullShare) (f := m (arg1Loc d)))) $$ [HSI Ha1]
  · isplitl [HSI] <;> iassumption
  icases H with ⟨%h1, HSI, -⟩
  ihave H := (SI_pointsTo_agree (st := s') (ℓ := outLoc d) (I := Finset.univ) (q := fullShare) (f := Cert.RelPos.relOfStrip (rowsOf m d))) $$ [HSI Hv3]
  · isplitl [HSI] <;> iassumption
  icases H with %h3
  ipureintro
  exact ⟨funext fun i => h0 i (Finset.mem_univ i), funext fun i => h1 i (Finset.mem_univ i), funext fun i => h3 i (Finset.mem_univ i)⟩

/-- The run's claim: on every device the arguments end as they began, and the result is the rows read at 511 − i + j. -/
def QC : PUnit × MemSt nD τ sig (Elt F) → Prop := fun r => ∀ c : Dev nD,
  r.2.mem (arg0Loc c) = m (arg0Loc c) ∧ r.2.mem (arg1Loc c) = m (arg1Loc c)
    ∧ r.2.mem (outLoc c) = Cert.RelPos.relOfStrip (rowsOf m c)

/-- Every weakly fair execution of the main core and all the subcores terminates, nothing faulting, with the claim. -/
theorem run_main [∀ e, Nonempty (Elt F e)] (hb : TileBodyStmt (F := F))
    (hR : ∀ rows out₀ O, (∀ c g, O c g none = 0) → RegionFor (F := F) rows out₀ O) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (tabOf m)) facts v₀
    (fun q hq => match q with | 0 => nomatch hq)
    (fun q _ => match q with | 0 => tileObl hb (tabOf m))
    (fun q _ => match q with | 0 => SparseCore.Cfg.VecSplit.of_plain (vecSplit (tabOf m)))
    m ρ main (fun d => G (F := F) d) (FIN m) (u₀ (F := F)) (sep_elim_left.trans (hu₀ (tabOf m))) (hmain m ρ hR) (fq m) (hfin m) (QC m)
    (fun _ h => h)

end Cert.KernelIdeal.Hand

end
-- ==== Proof.Bits.Common.lean ====
/-
  The program as the launch of its subcore kernel sees it, and the vocabulary the rest of the proof shares.

  The program is four steps on the main core: the 65 × 256 table laid out flat; thirty-two vector
  subcores (two cores of sixteen) each writing 33 consecutive rows of a 1056-row strip; the flat strip
  viewed as 1056 × 256; and a 64-point pipeline that reads the strip and writes the 512 × 512 × 256 result.

  Resources. The handshakes between the main core and the subcores need a rounds algebra; the pipeline's
  staging cells need a second copy; the subcores' own copies (each waited for at once) need only counters.
  The three sit side by side.

  The table is read by every subcore, through overlapping windows, so it cannot be divided among them:
  each subcore holds the WHOLE table at a fraction of the full share — the share is cut in two for the two
  cores and each half in sixteen. The strip is divided: subcore (c, s) owns words
  8448 (16 c + s) … 8448 (16 c + s) + 8447 outright.
-/
import proofs.«214700_g37623913513500_cont_8to1_b_1793_29_alg».proof.Kernel
import proofs.«214700_g37623913513500_cont_8to1_b_1793_29_alg».proof.Proof.Gen.Kernel
import proofs.«214700_g37623913513500_cont_8to1_b_1793_29_alg».proof.Proof.Gen.Kernel.Skeleton
import proofs.«214700_g37623913513500_cont_8to1_b_1793_29_alg».proof.Proof.Gen.Kernel.Launch
import proofs.«214700_g37623913513500_cont_8to1_b_1793_29_alg».proof.Proof.Gen.Kernel.Points
import proofs.«214700_g37623913513500_cont_8to1_b_1793_29_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds, the pipeline's rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the left of the right component. -/
def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-! ## The arrays, as locations of a device -/

/-- The table laid out flat (16640 words), the strip laid out flat (270336 words), the strip as rows, the result. -/
abbrev tabLoc (d : Dev nD) : Loc nD τ sig := (SparseCore.T d).loc main_v0
abbrev stripLoc (d : Dev nD) : Loc nD τ sig := (SparseCore.T d).loc main_v1
abbrev rowsLoc (d : Dev nD) : Loc nD τ sig := (SparseCore.T d).loc main_v2
abbrev outLoc (d : Dev nD) : Loc nD τ sig := (SparseCore.T d).loc main_v3

/-- A point of the subcore kernel's grid from its two coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev cV (Lc : grid0.Coords) : Fin τ.nSC := (Lc 0).castLE hcore0
abbrev jV (Lc : grid0.Coords) : Fin τ.nSub := (Lc 1).castLE hsub0

/-- The 8448 words of the flat strip that the subcore at grid point `Lc` writes, as the kernel slices them. -/
abbrev partRect (Lc : grid0.Coords) : Rect S270336 := Rect.unit (s := S270336) (k0_off3 Lc) S8448.size (k0_off3_inb Lc)
abbrev partSet (Lc : grid0.Coords) : Finset S270336.Idx :=
  (((Memref.whole main_v1_scv : Memref sig .scVector .hbm S270336 .f32).slice (partRect Lc) (fun _ => rfl)).view).set

end Cert.Kernel.Hand

end
-- ==== Proof.Bits.Parts.lean ====
/-
  The strip's 270336 words fall into 32 consecutive parts of 8448, one per vector subcore:
  subcore (c, s) owns words 8448 (16 c + s) … 8448 (16 c + s) + 8447. The parts are pairwise
  disjoint and cover the strip, so the strip held whole is the 32 parts held side by side,
  and 32 parts held at ONE whole-array function join to the strip held at that function.
-/
import proofs.«214700_g37623913513500_cont_8to1_b_1793_29_alg».proof.Proof.Bits.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The part of subcore `s` of core `c`. -/
abbrev ptSet (c : Fin 2) (s : Fin 16) : Finset S270336.Idx := partSet (coordsV c s)

theorem partSet_eq (Lc : grid0.Coords) : partSet Lc = (partRect Lc).set := by
  show ((View.whole (main_v1_scv : Ref sig .scVector)).slice (partRect Lc)).set = _
  rw [View.set_slice]; exact Finset.map_refl

/-- A word lies in the part of (c, s) exactly when it lies in that block of 8448. -/
theorem mem_ptSet (c : Fin 2) (s : Fin 16) (k : S270336.Idx) :
    k ∈ ptSet c s ↔ 8448 * (16 * c.val + s.val) ≤ (k 0).val ∧ (k 0).val < 8448 * (16 * c.val + s.val) + 8448 := by
  unfold ptSet
  rw [partSet_eq, Rect.mem_set_unit, k0_off3_eq]
  constructor
  · intro h
    have h0 := h 0
    simp only [coordsV, Matrix.cons_val_zero] at h0
    omega
  · intro h a
    have ha : a = 0 := Subsingleton.elim _ _
    subst ha
    simp only [coordsV, Matrix.cons_val_zero]
    omega

theorem ptSet_disjoint : ∀ x ∈ (Finset.univ : Finset (Fin 2 × Fin 16)), ∀ y ∈ (Finset.univ : Finset (Fin 2 × Fin 16)), x ≠ y →
    Disjoint (ptSet x.1 x.2) (ptSet y.1 y.2) := by
  rintro ⟨c, s⟩ - ⟨c', s'⟩ - hne
  rw [Finset.disjoint_left]
  intro k hk hk'
  rw [mem_ptSet] at hk hk'
  dsimp only at hk hk'
  apply hne
  have hc : c.val < 2 := c.isLt
  have hs : s.val < 16 := s.isLt
  have hc' : c'.val < 2 := c'.isLt
  have hs' : s'.val < 16 := s'.isLt
  have e : 16 * c.val + s.val = 16 * c'.val + s'.val := by omega
  exact Prod.ext (Fin.ext (show c.val = c'.val by omega)) (Fin.ext (show s.val = s'.val by omega))

theorem ptSet_cover : (Finset.univ : Finset (Fin 2 × Fin 16)).biUnion (fun x => ptSet x.1 x.2) = Finset.univ := by
  ext k
  simp only [Finset.mem_biUnion, Finset.mem_univ, true_and, iff_true]
  have hk : (k 0).val < 270336 := (k 0).isLt
  refine ⟨(⟨(k 0).val / 135168, by omega⟩, ⟨(k 0).val % 135168 / 8448, by omega⟩), ?_⟩
  rw [mem_ptSet]
  dsimp only
  omega

end Cert.Kernel.Hand

end
-- ==== Proof.Bits.Pay.lean ====
/-
  What the handshakes of the subcore launch carry.

  The main core hands each of the two cores the WHOLE flat table at half of the full share (less a
  remainder it keeps) and that core's sixteen parts of the strip; the core hands each of its sixteen
  subcores the whole table at a sixteenth of its half and the subcore's own part. Coming back, every
  part is held at ONE function of the whole strip — the strip computed from the table — so the parts
  join to the strip held at that function, and the table's shares join to the full share.
-/
import proofs.«214700_g37623913513500_cont_8to1_b_1793_29_alg».proof.Proof.Bits.Parts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The table's share for core `c`, and for subcore `i` of core `c`. -/
abbrev qC (c : Fin 2) : PosShare TreeShare := Transfers.shareTok fullShare 2 c
abbrev qT (c : Fin 2) (i : Fin 16) : PosShare TreeShare := Transfers.shareTok (qC c) 16 i

variable (tab : (d : Dev nD) → Buf (Elt F) (tabLoc d))

/-- The strip computed from the flat table, as the strip's buffer. -/
abbrev stripOf (d : Dev nD) : Buf (Elt F) (stripLoc d) := Cert.RelPos.strip (tab d)

/-- What subcore (c, i) is handed, and what it hands back. -/
abbrev goRes (d : Dev nD) (c : Fin 2) (i : Fin 16) : sProp 𝕄 :=
  iprop((tabLoc d ↦{qT c i} tab d) ∗ ∃ f, stripLoc d ↦[ptSet c i]{fullShare} f)
abbrev tdRes (d : Dev nD) (c : Fin 2) (i : Fin 16) : sProp 𝕄 :=
  iprop((tabLoc d ↦{qT c i} tab d) ∗ stripLoc d ↦[ptSet c i]{fullShare} stripOf tab d)
/-- What core `c` is handed, and what it hands back. -/
abbrev stRes (d : Dev nD) (c : Fin 2) : sProp 𝕄 :=
  iprop((tabLoc d ↦{qC c} tab d) ∗ bigSep Finset.univ fun i : Fin 16 => iprop(∃ f, stripLoc d ↦[ptSet c i]{fullShare} f))
abbrev dnRes (d : Dev nD) (c : Fin 2) : sProp 𝕄 :=
  iprop((tabLoc d ↦{qC c} tab d) ∗ bigSep Finset.univ fun i : Fin 16 => stripLoc d ↦[ptSet c i]{fullShare} stripOf tab d)

/-- The one call's payloads; the subcores' own copies need no ghost state of the launch. -/
def P : (K (F := F)).Pay (nD := nD) (Val := Elt F) (Name := ℕ) (U := UU) where
  st := fun q d c => match q with | 0 => stRes tab d (Fin.cast nCore_zero c)
  dn := fun q d c => match q with | 0 => dnRes tab d (Fin.cast nCore_zero c)
  go := fun q d c i => match q with | 0 => goRes tab d (Fin.cast nCore_zero c) (Fin.cast nSub_zero i)
  td := fun q d c i => match q with | 0 => tdRes tab d (Fin.cast nCore_zero c) (Fin.cast nSub_zero i)
  x := fun _ _ => iprop(emp)

instance P_storable : (P (F := F) tab).IsStorable where
  st q d c := match q with | 0 => (inferInstance : BI.Storable (upEmb : UEmb _ 𝕄) (stRes tab d (Fin.cast nCore_zero c)))
  dn q d c := match q with | 0 => (inferInstance : BI.Storable (upEmb : UEmb _ 𝕄) (dnRes tab d (Fin.cast nCore_zero c)))
  go q d c i := match q with | 0 => (inferInstance : BI.Storable (upEmb : UEmb _ 𝕄) (goRes tab d (Fin.cast nCore_zero c) (Fin.cast nSub_zero i)))
  td q d c i := match q with | 0 => (inferInstance : BI.Storable (upEmb : UEmb _ 𝕄) (tdRes tab d (Fin.cast nCore_zero c) (Fin.cast nSub_zero i)))

omit tab in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's operands split among its sixteen subcores, and their results gather: the table's share is cut
    in sixteen (the remainder waits with the core), the parts are already apart. -/
theorem vecSplit : (K (F := F)).VecSplit' (P tab) 0 := by
  intro d c
  show stRes tab d (Fin.cast nCore_zero c) ⊢ |={Set.univ}=> iprop(
      (bigSep Finset.univ fun i : Fin ((K (F := F)).nSub 0) => goRes tab d (Fin.cast nCore_zero c) (Fin.cast nSub_zero i))
      ∗ ((bigSep Finset.univ fun i : Fin ((K (F := F)).nSub 0) => tdRes tab d (Fin.cast nCore_zero c) (Fin.cast nSub_zero i))
          -∗ dnRes tab d (Fin.cast nCore_zero c)))
  generalize Fin.cast nCore_zero c = c'
  rw [bigSep_tasks (F := F) (fun i => goRes tab d c' i), bigSep_tasks (F := F) (fun i => tdRes tab d c' i)]
  unfold stRes goRes tdRes dnRes
  rw [bigSep_sep', bigSep_sep']
  iintro ⟨Ht, Hs⟩
  ihave Ht' := (Transfers.pointsTo_toks_split (qC c') 16) $$ Ht
  icases Ht' with ⟨Hrest, Htoks⟩
  imodintro
  isplitl [Htoks Hs]
  · isplitl [Htoks]; · iexact Htoks
    iexact Hs
  iintro ⟨Htoks, Hs⟩
  isplitl [Hrest Htoks]
  · iapply (Transfers.pointsTo_toks_join (qC c') 16)
    isplitl [Hrest]; · iexact Hrest
    iexact Htoks
  iexact Hs

end Cert.Kernel.Hand

end
-- ==== Proof.Bits.TileObl.lean ====
/-
  The subcore call's obligation to the launch, from the body run once at a symbolic grid point.

  The launch asks, for every device, core and subcore of the call's grid, that the subcore's row of the
  body table — its kernel function at that grid point, on the whole arrays and its own scratch — takes what
  the go signal hands it to what the task-done signal hands back. That is the body's statement at the grid
  point (c, s), at the subcore's share of the table; the kernel has no protocol of its own, so it owes the
  launch nothing beyond the handshakes.
-/
import proofs.«214700_g37623913513500_cont_8to1_b_1793_29_alg».proof.Proof.Bits.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The body's statement, at every grid point, share of the table and contents of the table: from the table
    (whole, at the share), the subcore's part of the strip and its scoped storage, to the part holding the
    strip computed from the table, everything else back. -/
def TileBodyStmt [FloatOps F] : Prop :=
  ∀ (d : Dev nD) (Lc : grid0.Coords) (q : PosShare TreeShare) (tab : Buf (Elt F) (tabLoc d))
    (O : CellTallies nD τ sig (HIx 1)) (W : Waits sig (HIx 1)), (∀ g, O g none = 0) →
    (iprop(levAts (K (F := F)).L (K (F := F)).lev
        ∗ ((tabLoc d ↦{q} tab) ∗ ∃ f, stripLoc d ↦[partSet Lc]{fullShare} f)
        ∗ scopedBufs (V d (cV Lc) (jV Lc)) ∗ scopedSems0 (V d (cV Lc) (jV Lc)) ∗ owes (V d (cV Lc) (jV Lc)) O W) : sProp 𝕄)
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(((tabLoc d ↦{q} tab) ∗ stripLoc d ↦[partSet Lc]{fullShare} (Cert.RelPos.strip tab))
            ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W')

variable [FloatOps F]

theorem defs₀_vector (c : Fin τ.nSC) (s : Fin τ.nSub) :
    defs₀ (F := F) (.scVector c s) 0 ()
      = SparseCore.onTile hcore0 hsub0 (fun c s => cc0__sc_expand (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's obligation: each subcore's task is the body at its grid point. -/
theorem tileObl (hb : TileBodyStmt (F := F)) (tab : (d : Dev nD) → Buf (Elt F) (tabLoc d)) :
    (K (F := F)).TileObl (D (F := F)) 𝒱 (P tab) v₀ 0 := by
  intro d c i O W hO _ _
  obtain ⟨cv, hcv⟩ := c
  obtain ⟨iv, hiv⟩ := i
  simp only [show (P tab).ox = fun _ _ => 0 from rfl, add_zero]
  change _ ⊢ wp _ _ _ (Pipeline.liftProg (defs₀ (F := F) (.scVector ((K (F := F)).core 0 ⟨cv, hcv⟩) ((K (F := F)).sub 0 ⟨iv, hiv⟩)) 0 ())) _
  refine BI.Entails.trans ?_ (Pipeline.wp_liftProg (D (F := F)) (Pipeline.defs_kernel pcfgs defs₀) 𝒱₀ _ Set.univ none _ _)
  have hc : ((K (F := F)).core 0 ⟨cv, hcv⟩).val < grid0.bound 0 ∧ ((K (F := F)).sub 0 ⟨iv, hiv⟩).val < grid0.bound 1 := ⟨hcv, hiv⟩
  rw [defs₀_vector]; simp only [SparseCore.onTile, hc, _root_.and_self, ↓reduceDIte]
  -- the grid point the payloads name is the one the launch names, so the part is the same set
  have eL : (coordsV (Fin.cast nCore_zero (⟨cv, hcv⟩ : Fin ((K (F := F)).nCore 0))) (Fin.cast nSub_zero (⟨iv, hiv⟩ : Fin ((K (F := F)).nSub 0))) : grid0.Coords)
      = coordsV ⟨((K (F := F)).core 0 ⟨cv, hcv⟩).val, hc.1⟩ ⟨((K (F := F)).sub 0 ⟨iv, hiv⟩).val, hc.2⟩ := rfl
  have eS : ptSet (Fin.cast nCore_zero (⟨cv, hcv⟩ : Fin ((K (F := F)).nCore 0))) (Fin.cast nSub_zero (⟨iv, hiv⟩ : Fin ((K (F := F)).nSub 0)))
      = partSet (coordsV ⟨((K (F := F)).core 0 ⟨cv, hcv⟩).val, hc.1⟩ ⟨((K (F := F)).sub 0 ⟨iv, hiv⟩).val, hc.2⟩) := congrArg partSet eL
  have hgo : (P tab).go 0 d ⟨cv, hcv⟩ ⟨iv, hiv⟩ = goRes tab d (Fin.cast nCore_zero ⟨cv, hcv⟩) (Fin.cast nSub_zero ⟨iv, hiv⟩) := rfl
  have htd : (P tab).td 0 d ⟨cv, hcv⟩ ⟨iv, hiv⟩ = tdRes tab d (Fin.cast nCore_zero ⟨cv, hcv⟩) (Fin.cast nSub_zero ⟨iv, hiv⟩) := rfl
  rw [hgo, htd]
  unfold goRes tdRes stripOf
  rw [eS]
  have h := hb d (coordsV ⟨((K (F := F)).core 0 ⟨cv, hcv⟩).val, hc.1⟩ ⟨((K (F := F)).sub 0 ⟨iv, hiv⟩).val, hc.2⟩)
    (qT (Fin.cast nCore_zero ⟨cv, hcv⟩) (Fin.cast nSub_zero ⟨iv, hiv⟩)) (tab d) O W hO
  -- the kernel function's call is the same term on both sides: name it, so that nothing looks inside it
  generalize cc0__sc_expand _ _ _ _ _ _ _ _ _ _ _ = prog at h ⊢
  refine BI.Entails.trans ?_ (h.trans (wp_mono frame _ _ fun _ => obl_post))
  show (iprop(_ ∗ _ ∗ _ ∗ _) : sProp 𝕄) ⊢ iprop(_ ∗ _ ∗ _)
  iintro ⟨Hlv, -, Hgo, Hrest⟩
  isplitl [Hlv]; · iexact Hlv
  isplitl [Hgo]; · iexact Hgo
  iexact Hrest

end Cert.Kernel.Hand

end
-- ==== Proof.Bits.Deal.lean ====
/-
  Dealing the arrays out to the two cores before the subcore call, and gathering them after it.

  Going out: the flat table's full share is cut in two halves and a remainder the main core keeps; the
  strip, held whole, is its 32 parts held side by side, each at whatever it holds. Coming back: the two
  halves and the remainder make the full share again, and the 32 parts — every one now holding the strip
  computed from the table, ONE function of the whole strip — are the strip held whole at that function.
-/
import proofs.«214700_g37623913513500_cont_8to1_b_1793_29_alg».proof.Proof.Bits.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The strip held whole is its 32 parts held side by side. -/
theorem strip_parts (d : Dev nD) (f : Buf (Elt F) (stripLoc d)) :
    (stripLoc d ↦{fullShare} f : sProp 𝕄)
      = bigSep Finset.univ fun c : Fin 2 => bigSep Finset.univ fun i : Fin 16 => stripLoc d ↦[ptSet c i]{fullShare} f := by
  rw [← bigSep_univ_prod (fun x : Fin 2 × Fin 16 => (stripLoc d ↦[ptSet x.1 x.2]{fullShare} f : sProp 𝕄)),
    ← pointsTo_biUnion Finset.univ (ℓ := stripLoc d) (fun x : Fin 2 × Fin 16 => ptSet x.1 x.2) ptSet_disjoint, ptSet_cover]; try rfl

theorem part_some (d : Dev nD) (c : Fin 2) (i : Fin 16) (f : Buf (Elt F) (stripLoc d)) :
    (stripLoc d ↦[ptSet c i]{fullShare} f : sProp 𝕄) ⊢ iprop(∃ g, stripLoc d ↦[ptSet c i]{fullShare} g) := by
  iintro H; iexists f; iexact H

variable (tab : (d : Dev nD) → Buf (Elt F) (tabLoc d))

/-- Out: the table and the strip, whole, become the main core's remainder of the table and each core's operands. -/
theorem deal_out (d : Dev nD) (f0 : Buf (Elt F) (stripLoc d)) :
    (iprop((tabLoc d ↦{fullShare} tab d) ∗ (stripLoc d ↦{fullShare} f0)) : sProp 𝕄)
      ⊢ iprop((tabLoc d ↦{Transfers.shareDrop fullShare 2} tab d)
          ∗ bigSep Finset.univ fun c : Fin ((K (F := F)).nCore 0) => (P tab).st 0 d c) := by
  show _ ⊢ iprop(_ ∗ bigSep Finset.univ fun c : Fin ((K (F := F)).nCore 0) => stRes tab d (Fin.cast nCore_zero c))
  rw [bigSep_cores (F := F) (fun c => stRes tab d c), strip_parts]
  unfold stRes
  rw [bigSep_sep']
  iintro ⟨Ht, Hs⟩
  ihave Ht' := (Transfers.pointsTo_toks_split fullShare 2) $$ Ht
  icases Ht' with ⟨Hrest, Htoks⟩
  isplitl [Hrest]; · iexact Hrest
  isplitl [Htoks]; · iexact Htoks
  have hmono : (bigSep Finset.univ fun c : Fin 2 => bigSep Finset.univ fun i : Fin 16 => (stripLoc d ↦[ptSet c i]{fullShare} f0 : sProp 𝕄))
      ⊢ bigSep Finset.univ fun c : Fin 2 => bigSep Finset.univ fun i : Fin 16 => (iprop(∃ g, stripLoc d ↦[ptSet c i]{fullShare} g) : sProp 𝕄) :=
    bigSep_mono fun c _ => bigSep_mono fun i _ => part_some d c i f0
  iapply hmono
  iexact Hs

/-- Back: the remainder and each core's results become the table whole and the strip whole at the computed strip. -/
theorem deal_back (d : Dev nD) :
    (iprop((tabLoc d ↦{Transfers.shareDrop fullShare 2} tab d)
        ∗ bigSep Finset.univ fun c : Fin ((K (F := F)).nCore 0) => (P tab).dn 0 d c) : sProp 𝕄)
      ⊢ iprop((tabLoc d ↦{fullShare} tab d) ∗ (stripLoc d ↦{fullShare} stripOf tab d)) := by
  show iprop(_ ∗ bigSep Finset.univ fun c : Fin ((K (F := F)).nCore 0) => dnRes tab d (Fin.cast nCore_zero c)) ⊢ _
  rw [bigSep_cores (F := F) (fun c => dnRes tab d c), strip_parts]
  unfold dnRes
  rw [bigSep_sep']
  iintro ⟨Hrest, Htoks, Hs⟩
  isplitl [Hrest Htoks]
  · iapply (Transfers.pointsTo_toks_join fullShare 2)
    isplitl [Hrest]; · iexact Hrest
    iexact Htoks
  iexact Hs

end Cert.Kernel.Hand

end
-- ==== Proof.Bits.Arrays.lean ====
/-
  The main core's six arrays — the two arguments, the flat table, the flat strip, the strip as rows, the
  result — held together, and what each holds after each step of the main program.

  Laying the table out flat writes the flat table and touches nothing else; viewing the flat strip as rows
  writes the rows and touches nothing else. Each is the same entries at the same row-major positions.
-/
import proofs.«214700_g37623913513500_cont_8to1_b_1793_29_alg».proof.Proof.Bits.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.StableHlo (held held_split held_sdiff_result wp_hlo_within)

local notation "𝕄" => MT nD τ sig (HIx 1) (Elt F) ℕ UU ℕ

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The six arrays. -/
abbrev S6 : Finset (DevRef τ sig) := {a0', a1', v0', v1', v2', v3'}

abbrev arg0Loc (d : Dev nD) : Loc nD τ sig := (SparseCore.T d).loc main_arg0
abbrev arg1Loc (d : Dev nD) : Loc nD τ sig := (SparseCore.T d).loc main_arg1

theorem held_S6 (d : Dev nD) (W : Valuation τ sig (Elt F)) :
    (held (T d) S6 W : sProp 𝕄) = iprop((arg0Loc d ↦{fullShare} W a0') ∗ (arg1Loc d ↦{fullShare} W a1') ∗ (tabLoc d ↦{fullShare} W v0')
      ∗ (stripLoc d ↦{fullShare} W v1') ∗ (rowsLoc d ↦{fullShare} W v2') ∗ (outLoc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (tabLoc d ↦{fullShare} W main_v0)
      ∗ (stripLoc d ↦{fullShare} W main_v1) ∗ (rowsLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ)

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

variable [FloatOps F]

/-- Laying the table out flat; viewing the flat strip as rows. -/
abbrev opFlat : HloOp τ sig (Elt F) := StableHlo.reshape main_arg1 main_v0 rfl shapeCasts_S65x256_S16640
abbrev opRows : HloOp τ sig (Elt F) := StableHlo.reshape main_v1 main_v2 rfl shapeCasts_S270336_S1056x256

theorem hFlat : (opFlat (F := F)).bufs ⊆ S6 := show ({a1', v0'} : Finset (DevRef τ sig)) ⊆ S6 by decide
theorem hRows : (opRows (F := F)).bufs ⊆ S6 := show ({v1', v2'} : Finset (DevRef τ sig)) ⊆ S6 by decide

/-- The flat table: the table argument's entries at their row-major positions. -/
def tabOf (d : Dev nD) : Buf (Elt F) (tabLoc d) :=
  fun i => shapeCast S16640 (m (arg1Loc d)) shapeCasts_S65x256_S16640 i

/-- The rows of the strip computed from the flat table. -/
def rowsOf (d : Dev nD) : Buf (Elt F) (rowsLoc d) :=
  fun i => shapeCast S1056x256 (stripOf (tabOf m) d) shapeCasts_S270336_S1056x256 i

/-- After the table is laid out flat. -/
def V1 (d : Dev nD) : Valuation τ sig (Elt F) := (opFlat (F := F)).result (V0 m d)

theorem V1_v0 (d : Dev nD) : V1 m d v0' = tabOf m d :=
  StableHlo.reshape_result main_arg1 main_v0 rfl shapeCasts_S65x256_S16640 _ _ (V0 m d)
theorem V1_of_ne (d : Dev nD) (b : DevRef τ sig) (hb : b ∉ ({v0'} : Finset (DevRef τ sig))) : V1 m d b = V0 m d b :=
  (opFlat (F := F)).result_of_not_mem (V0 m d) hb

/-- After the subcore call: the flat strip at the strip computed from the flat table. -/
def V2 (d : Dev nD) : Valuation τ sig (Elt F) := Function.update (V1 m d) v1' (stripOf (tabOf m) d)

theorem V2_v1 (d : Dev nD) : V2 m d v1' = stripOf (tabOf m) d := Function.update_self _ _ _
theorem V2_of_ne (d : Dev nD) (b : DevRef τ sig) (hb : b ≠ v1') : V2 m d b = V1 m d b := Function.update_of_ne hb _ _

/-- After the strip is viewed as rows. -/
def V3 (d : Dev nD) : Valuation τ sig (Elt F) := (opRows (F := F)).result (V2 m d)

theorem V3_v2 (d : Dev nD) : V3 m d v2' = rowsOf m d := by
  unfold V3
  rw [StableHlo.reshape_result main_v1 main_v2 rfl shapeCasts_S270336_S1056x256 _ _ (V2 m d), V2_v1]; rfl
theorem V3_of_ne (d : Dev nD) (b : DevRef τ sig) (hb : b ∉ ({v2'} : Finset (DevRef τ sig))) : V3 m d b = V2 m d b :=
  (opRows (F := F)).result_of_not_mem (V2 m d) hb

end Cert.Kernel.Hand

end
-- ==== Proof.Bits.TcData.lean ====
import proofs.«214700_g37623913513500_cont_8to1_b_1793_29_alg».proof.Proof.Bits.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

/-! ## The strip's slabs and the result's blocks, as plain functions of the strip -/

/-- The eight overlapping slabs of the strip: slab `k` is its rows `k … k + 1023`. -/
def slabs {α : Type} (e : S1056x256.Idx → α) : S8x1024x256.Idx → α :=
  fun k => e (ValueIdx.ix2 ⟨(k 0).val + (k 1).val, by
    have h0 : (k 0).val < 8 := (k 0).isLt
    have h1 : (k 1).val < 1024 := (k 1).isLt
    omega⟩ (k 2))

/-- Block `t` of the result: the eight rows `i = 8 t + r`, entry `(i, j, ·)` read off the strip at row `511 − i + j`
    (below 1056 whenever `t < 64`; the remainder keeps the definition total). -/
def outBlk {α : Type} (e : S1056x256.Idx → α) (t : Nat) : S8x512x256.Idx → α :=
  fun j => e (ValueIdx.ix2 ⟨(511 - (8 * t + (j 0).val) + (j 1).val) % 1056, Nat.mod_lt _ (by decide)⟩ (j 2))

/-! ## The pipeline's parameters and proof data -/

/-- No prefetched table: the one admissible contents. -/
abbrev adm : (p : Fin 1) → (pcfgs (F := F) p).Adm := fun p => (cfgs p).toPCfg_adm

/-- The scratch the kernel keeps between points. -/
abbrev scrLoc (c : Dev nD) : Loc nD τ sig := (SparseCore.T c).loc cc1_scratch0

/-- The invariant between points: before the first point the scratch holds anything; after it, the strip's slabs. -/
def PhiT (rows : (c : Dev nD) → Buf (Elt F) (rowsLoc c)) (c : Dev nD) : ℕ → sProp 𝕄
  | 0 => iprop(∃ f : Buf (Elt F) (scrLoc c), scrLoc c ↦{fullShare} f)
  | _ + 1 => scrLoc c ↦{fullShare} (slabs (rows c) : Buf (Elt F) (scrLoc c))

theorem PhiT_zero (rows : (c : Dev nD) → Buf (Elt F) (rowsLoc c)) (c : Dev nD) :
    PhiT rows c 0 = iprop(∃ f : Buf (Elt F) (scrLoc c), scrLoc c ↦{fullShare} f) := rfl
theorem PhiT_succ (rows : (c : Dev nD) → Buf (Elt F) (rowsLoc c)) (c : Dev nD) (n : ℕ) :
    PhiT rows c (n + 1) = (scrLoc c ↦{fullShare} (slabs (rows c) : Buf (Elt F) (scrLoc c))) := rfl
theorem PhiT_pos (rows : (c : Dev nD) → Buf (Elt F) (rowsLoc c)) (c : Dev nD) (n : ℕ) (h : n ≠ 0) :
    PhiT rows c n = (scrLoc c ↦{fullShare} (slabs (rows c) : Buf (Elt F) (scrLoc c))) := by
  cases n with
  | zero => exact absurd rfl h
  | succ n => rfl

/-- The proof data on core `c`: the strip as found and the result at its entry contents; after the body at point `t` the
    strip's staging buffer still at the strip, the result's at block `t`; the carried scratch; the full share; the
    core owing the constant tally `O c` throughout, the pairs its waits have recorded all at level 8 or below. -/
def tcDats (rows : (c : Dev nD) → Buf (Elt F) (rowsLoc c)) (out₀ : (c : Dev nD) → Buf (Elt F) (outLoc c))
    (O : Dev nD → CellTallies nD τ sig (HIx 1)) (_ : Fin 1) (c : Dev nD) :
    Dat τ (Elt F) (HIx 1) ℕ UU ℕ cfg1 c where
  A w := match w with
    | ⟨0, _⟩ => rows c
    | ⟨1, _⟩ => out₀ c
  after w t := match w with
    | ⟨0, _⟩ => (rows c : S1056x256.Idx → Elt F .f32)
    | ⟨1, _⟩ => outBlk (rows c : S1056x256.Idx → Elt F .f32) t.val
  Φ t := PhiT rows c t.val
  q _ := fullShare
  owed _ := O c
  recorded _ := {p | (K (F := F)).lev (SparseCore.T c, p.1) p.2 ≤ 8}

section
variable (rows : (c : Dev nD) → Buf (Elt F) (rowsLoc c)) (out₀ : (c : Dev nD) → Buf (Elt F) (outLoc c))
  (O : Dev nD → CellTallies nD τ sig (HIx 1)) (c : Dev nD)

theorem tcDats_A0 : (tcDats rows out₀ O 0 c).A 0 = rows c := by dsimp only [tcDats]
theorem tcDats_A1 : (tcDats rows out₀ O 0 c).A 1 = out₀ c := by dsimp only [tcDats]
theorem tcDats_after0 (t : Fin cfg1.N) : (tcDats rows out₀ O 0 c).after 0 t = (rows c : S1056x256.Idx → Elt F .f32) := by dsimp only [tcDats]
theorem tcDats_after1 (t : Fin cfg1.N) : (tcDats rows out₀ O 0 c).after 1 t = outBlk (rows c : S1056x256.Idx → Elt F .f32) t.val := by dsimp only [tcDats]
theorem tcDats_Phi (t : Fin (cfg1.N + 1)) : (tcDats rows out₀ O 0 c).Φ t = PhiT rows c t.val := rfl
theorem tcDats_owed (t : Fin (cfg1.N + 1)) : (tcDats rows out₀ O 0 c).owed t = O c := rfl
theorem tcDats_recorded (t : Fin (cfg1.N + 1)) :
    (tcDats rows out₀ O 0 c).recorded t = {p | (K (F := F)).lev (SparseCore.T c, p.1) p.2 ≤ 8} := rfl
theorem tcDats_share (w : Fin cfg1.W) : (tcDats rows out₀ O 0 c).share w = fullShare :=
  (tcDats rows out₀ O 0 c).share_full (fun _ => rfl) w
end

end Cert.Kernel.Hand

end
-- ==== Proof.Bits.Elem.lean ====
/-
  The launch element of the ghost state.

  Three components side by side: the handshakes' rounds at their launch state; the pipeline's rounds at the
  launch state of its staging cells, from which every device gets the ghost state and duty tokens its
  pipeline region is entered with; and the counters' unit, which nothing needs at launch (each subcore's
  copies allocate their own when they start). The subcores' kernel has no protocol of its own, so nothing
  is dealt to its proofs.
-/
import proofs.«214700_g37623913513500_cont_8to1_b_1793_29_alg».proof.Proof.Bits.Pay
import proofs.«214700_g37623913513500_cont_8to1_b_1793_29_alg».proof.Proof.Bits.TcData

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipeline's staging cells are pairwise distinct. -/
theorem hinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) hinj) (Pipeline.launchToks (Pipeline.pin (pcfgs (F := F)) adm) hinj), 1))

/-- What the launch deals the main program on device `d`: its pipeline's ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

/-- Owning an element through the left of the right component is owning it through the pipeline's embedding. -/
theorem own_EP (x : UP) :
    (BI.own (((Emb.inl : Emb UP (UP × Counters)).trans (embR (A := UH) (B := UP × Counters))) x) : sProp 𝕄) ⊢ BI.own ((EP : Emb UP 𝕄) x) :=
  BI.Entails.refl _

theorem hu₀ (tab : (d : Dev nD) → Buf (Elt F) (tabLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tab).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP0, -⟩
  ihave HP := (own_EP (F := F) _) $$ HP0
  imod (Pipeline.fund_ghost (Pipeline.pin (pcfgs (F := F)) adm) EP hinj) $$ HP with ⟨Hg, Ht⟩
  imodintro
  isplitl [HH]; · iexact HH
  isplitl [Hg Ht]
  · unfold G
    rw [bigSep_sep']
    rw [show (Finset.univ : Finset (Fin 1)) = {0} by decide] at *
    simp only [bigSep_singleton]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Kernel.Hand

end
-- ==== Proof.Bits.Main.lean ====
/-
  The main program on the main core, run from what the launch deals it.

  Four steps. Laying the table out flat writes the flat table. The subcore call takes, for each core, the
  whole flat table at half the share and that core's parts of the strip, and brings back every part at the
  strip computed from the flat table: the parts join to the strip held whole. Viewing the strip as rows
  writes the rows. The pipeline region takes the rows and the result array and brings the result back as
  the rows read at 511 − i + j. Throughout, the two argument arrays are held and never written.
-/
import proofs.«214700_g37623913513500_cont_8to1_b_1793_29_alg».proof.Proof.Bits.TileObl
import proofs.«214700_g37623913513500_cont_8to1_b_1793_29_alg».proof.Proof.Bits.Deal
import proofs.«214700_g37623913513500_cont_8to1_b_1793_29_alg».proof.Proof.Bits.Arrays
import proofs.«214700_g37623913513500_cont_8to1_b_1793_29_alg».proof.Proof.Bits.Elem

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.StableHlo (held held_split held_sdiff_result wp_hlo_within)

local notation "𝕄" => MT nD τ sig (HIx 1) (Elt F) ℕ UU ℕ

/-- The pipeline region, for given rows of the strip, entry contents of the result and tally of the main core:
    the library's record of a region, entered from the rows, the result array and what the core owes, and
    left with the result at the rows read at 511 − i + j. -/
structure RegionFor (rows : (c : Dev nD) → Buf (Elt F) (rowsLoc c)) (out₀ : (c : Dev nD) → Buf (Elt F) (outLoc c))
    (O : Dev nD → CellTallies nD τ sig (HIx 1)) where
  R : Pipeline.RegionSeg (pcfgs (F := F)) adm (tcDats rows out₀ O) (none : HIx 1) (defs₀ (F := F)) 𝒱₀
    (K (F := F)).L (K (F := F)).lev (0 : Fin 1)
  pre_eq : ∀ c, R.pre c = iprop((rowsLoc c ↦{fullShare} rows c) ∗ (outLoc c ↦{fullShare} out₀ c)
    ∗ ∃ W, ⌜(K (F := F)).WBelow (SparseCore.T c) W 8⌝ ∗ owes (SparseCore.T c) (O c) W)
  post_eq : ∀ c, R.post c = iprop((rowsLoc c ↦{fullShare} rows c) ∗ (outLoc c ↦{fullShare} Cert.RelPos.relOfStrip (rows c))
    ∗ ∃ W, ⌜(K (F := F)).WBelow (SparseCore.T c) W 8⌝ ∗ owes (SparseCore.T c) (O c) W)

variable (m : (ℓ : Loc nD τ sig) → Buf (Elt F) ℓ) (ρ : Dev nD → PrngReg)
variable [FloatOps F]

/-- What the main program leaves the claim: the arguments at their launch contents, the result at the rows
    (of the strip computed from the flat table) read at 511 − i + j. -/
abbrev FIN (d : Dev nD) : sProp 𝕄 :=
  iprop((arg0Loc d ↦{fullShare} m (arg0Loc d)) ∗ (arg1Loc d ↦{fullShare} m (arg1Loc d))
    ∗ (outLoc d ↦{fullShare} Cert.RelPos.relOfStrip (rowsOf m d)))

/-- The main program on device `d`'s main core, from what the launch deals it, given the pipeline region's record. -/
theorem hmain (hR : ∀ rows out₀ O, (∀ c g, O c g none = 0) → RegionFor (F := F) rows out₀ O)
    (κ : GSem nD τ sig → ℕ) (d : Dev nD) :
    iprop((K (F := F)).ctx EH (P (tabOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- 1. the table laid out flat
  iapply (wp_hlo_within 𝒱 (SparseCore.T d) none Set.univ (op := opFlat) (S := S6) hFlat (V := V0 m d)) $$ [Hb Hheld]
  · isplitl [Hb]; · iexact Hb
    iexact Hheld
  iintro ⟨Hb, Hheld⟩
  ihave Hh := (Entails.of_eq (held_S6 (F := F) d _)) $$ Hheld
  icases Hh with ⟨Ha0, Ha1, Hv0, Hv1, Hv2, Hv3⟩
  rw [wp_ret]
  imodintro
  -- the flat table is the table's entries at their row-major positions
  have eTab : (opFlat (F := F)).result (V0 m d) v0' = tabOf m d := V1_v0 m d
  ihave Hv0 := (Entails.of_eq (congrArg (fun f => (tabLoc d ↦{fullShare} f : sProp 𝕄)) eTab)) $$ Hv0
  -- 2. the subcore call: deal out, run, gather
  ihave Hdeal := (deal_out (tabOf m) d _) $$ [Hv0 Hv1]
  · isplitl [Hv0]; · iexact Hv0
    iexact Hv1
  icases Hdeal with ⟨Hrest, Hsts⟩
  iapply ((K (F := F)).wp_run (D (F := F)) 𝒱 (EH := EH) (P := P (tabOf m)) κ d 0) $$ [Hst Hsts Hb Ha0 Ha1 Hv2 Hv3 Hrest Hg]
  isplitr; · iexact Hctx
  isplitl [Hst]; · iexact Hst
  isplitl [Hsts]; · iexact Hsts
  unfold SparseCore.Cfg.tcSt
  iintro ⟨⟨⟨%W1, %hW1, HO⟩, Htail⟩, Hdn⟩
  ihave Hback := (deal_back (tabOf m) d) $$ [Hrest Hdn]
  · isplitl [Hrest]; · iexact Hrest
    iexact Hdn
  icases Hback with ⟨Hv0, Hv1⟩
  -- 3. the strip viewed as rows
  have e0 : V2 m d a0' = (opFlat (F := F)).result (V0 m d) a0' := V2_of_ne m d a0' (by decide)
  have e1 : V2 m d a1' = (opFlat (F := F)).result (V0 m d) a1' := V2_of_ne m d a1' (by decide)
  have e2 : V2 m d v0' = tabOf m d := (V2_of_ne m d v0' (by decide)).trans (V1_v0 m d)
  have e3 : V2 m d v1' = stripOf (tabOf m) d := V2_v1 m d
  have e4 : V2 m d v2' = (opFlat (F := F)).result (V0 m d) v2' := V2_of_ne m d v2' (by decide)
  have e5 : V2 m d v3' = (opFlat (F := F)).result (V0 m d) v3' := V2_of_ne m d v3' (by decide)
  iapply (wp_hlo_within 𝒱 (SparseCore.T d) none Set.univ (op := opRows) (S := S6) hRows (V := V2 m d)) $$ [Hb Ha0 Ha1 Hv0 Hv1 Hv2 Hv3]
  · isplitl [Hb]; · iexact Hb
    rw [held_S6, e0, e1, e2, e3, e4, e5]
    isplitl [Ha0]; · iexact Ha0
    isplitl [Ha1]; · iexact Ha1
    isplitl [Hv0]; · iexact Hv0
    isplitl [Hv1]; · iexact Hv1
    isplitl [Hv2]; · iexact Hv2
    iexact Hv3
  iintro ⟨Hb, Hheld⟩
  ihave Hh := (Entails.of_eq (held_S6 (F := F) d _)) $$ Hheld
  icases Hh with ⟨Ha0, Ha1, Hv0, Hv1, Hv2, Hv3⟩
  rw [wp_ret]
  imodintro
  -- 4. the pipeline region: from the rows and the result array to the result at the rows read at 511 − i + j
  have eRows : (opRows (F := F)).result (V2 m d) v2' = rowsOf m d := V3_v2 m d
  have eOut : (opRows (F := F)).result (V2 m d) v3' = m (outLoc d) :=
    (V3_of_ne m d v3' (by decide)).trans ((V2_of_ne m d v3' (by decide)).trans (V1_of_ne m d v3' (by decide)))
  have eA0 : (opRows (F := F)).result (V2 m d) a0' = m (arg0Loc d) :=
    (V3_of_ne m d a0' (by decide)).trans ((V2_of_ne m d a0' (by decide)).trans (V1_of_ne m d a0' (by decide)))
  have eA1 : (opRows (F := F)).result (V2 m d) a1' = m (arg1Loc d) :=
    (V3_of_ne m d a1' (by decide)).trans ((V2_of_ne m d a1' (by decide)).trans (V1_of_ne m d a1' (by decide)))
  ihave Hv2 := (Entails.of_eq (congrArg (fun f => (rowsLoc d ↦{fullShare} f : sProp 𝕄)) eRows)) $$ Hv2
  ihave Hv3 := (Entails.of_eq (congrArg (fun f => (outLoc d ↦{fullShare} f : sProp 𝕄)) eOut)) $$ Hv3
  ihave Ha0 := (Entails.of_eq (congrArg (fun f => (arg0Loc d ↦{fullShare} f : sProp 𝕄)) eA0)) $$ Ha0
  ihave Ha1 := (Entails.of_eq (congrArg (fun f => (arg1Loc d ↦{fullShare} f : sProp 𝕄)) eA1)) $$ Ha1
  have hO : ∀ (c : Dev nD) (g : GSem nD τ sig), ((K (F := F)).Otc c 1) g none = 0 := fun c g => by
    rw [(K (F := F)).Otc_end c le_rfl]; rfl
  obtain ⟨R, hpre, hpost⟩ := hR (rowsOf m) (fun c => m (outLoc c)) (fun c => (K (F := F)).Otc c 1) hO
  ihave Hlv := (SparseCore.Cfg.ctx_levAts (K := K (F := F)) (EH := EH) (P := P (tabOf m)) κ) $$ Hctx
  iapply ((K (F := F)).wp_liftProg (D (F := F)) 𝒱 (SparseCore.T d) Set.univ none
    (Prog.op (TpuEff.customCall (Pipeline.entry (0 : Fin 1)) ()) Prog.ret) _)
  iapply (Pipeline.RegionSeg.wp (pcfgs (F := F)) adm (tcDats (rowsOf m) (fun c => m (outLoc c)) fun c => (K (F := F)).Otc c 1)
    (none : HIx 1) hinj EP (defs₀ (F := F)) 𝒱₀ (K (F := F)).L (K (F := F)).lev R d none (by intro u hu; cases hu) Prog.ret _)
    $$ [Hb Hv2 Hv3 HO Hg Hlv Ha0 Ha1 Htail Hv0 Hv1]
  isplitl [Ha0 Ha1 Htail]
  · iintro ⟨Hb, Hpost⟩
    ihave Hpost := (Entails.of_eq (hpost d)) $$ Hpost
    icases Hpost with ⟨Hv2, Hv3, %W2, %hW2, HO⟩
    rw [wp_ret]
    imodintro
    imodintro
    isplitl [HO Htail]
    · isplitl [HO]
      · iexists W2; isplitr
        · ipureintro; exact hW2
        · iexact HO
      · iexact Htail
    isplitl [Ha0]; · iexact Ha0
    isplitl [Ha1]; · iexact Ha1
    iexact Hv3
  isplitl [Hb]; · iexact Hb
  isplitl [Hv2 Hv3 HO]
  · rw [hpre d]
    isplitl [Hv2]; · iexact Hv2
    isplitl [Hv3]; · iexact Hv3
    iexists W1; isplitr
    · ipureintro; exact hW1
    · iexact HO
  isplitl [Hlv]; · iexact Hlv
  iexact Hg

/-- What the final memory must show on device `d`. -/
def fq (d : Dev nD) (s' : Phys nD τ sig (Elt F)) : Prop :=
  s'.mem.mem (arg0Loc d) = m (arg0Loc d) ∧ s'.mem.mem (arg1Loc d) = m (arg1Loc d)
    ∧ s'.mem.mem (outLoc d) = Cert.RelPos.relOfStrip (rowsOf m d)

theorem hfin (d : Dev nD) (s' : Phys nD τ sig (Elt F)) : iprop(FIN m d ∗ SI s') ⊢ (⌜fq m d s'⌝ : sProp 𝕄) := by
  iintro ⟨⟨Ha0, Ha1, Hv3⟩, HSI⟩
  ihave H := (persistent_entails_right (SI_pointsTo_agree (st := s') (ℓ := arg0Loc d) (I := Finset.univ) (q := fullShare) (f := m (arg0Loc d)))) $$ [HSI Ha0]
  · isplitl [HSI] <;> iassumption
  icases H with ⟨%h0, HSI, -⟩
  ihave H := (persistent_entails_right (SI_pointsTo_agree (st := s') (ℓ := arg1Loc d) (I := Finset.univ) (q := fullShare) (f := m (arg1Loc d)))) $$ [HSI Ha1]
  · isplitl [HSI] <;> iassumption
  icases H with ⟨%h1, HSI, -⟩
  ihave H := (SI_pointsTo_agree (st := s') (ℓ := outLoc d) (I := Finset.univ) (q := fullShare) (f := Cert.RelPos.relOfStrip (rowsOf m d))) $$ [HSI Hv3]
  · isplitl [HSI] <;> iassumption
  icases H with %h3
  ipureintro
  exact ⟨funext fun i => h0 i (Finset.mem_univ i), funext fun i => h1 i (Finset.mem_univ i), funext fun i => h3 i (Finset.mem_univ i)⟩

/-- The run's claim: on every device the arguments end as they began, and the result is the rows read at 511 − i + j. -/
def QC : PUnit × MemSt nD τ sig (Elt F) → Prop := fun r => ∀ c : Dev nD,
  r.2.mem (arg0Loc c) = m (arg0Loc c) ∧ r.2.mem (arg1Loc c) = m (arg1Loc c)
    ∧ r.2.mem (outLoc c) = Cert.RelPos.relOfStrip (rowsOf m c)

/-- Every weakly fair execution of the main core and all the subcores terminates, nothing faulting, with the claim. -/
theorem run_main [∀ e, Nonempty (Elt F e)] (hb : TileBodyStmt (F := F))
    (hR : ∀ rows out₀ O, (∀ c g, O c g none = 0) → RegionFor (F := F) rows out₀ O) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (tabOf m)) facts v₀
    (fun q hq => match q with | 0 => nomatch hq)
    (fun q _ => match q with | 0 => tileObl hb (tabOf m))
    (fun q _ => match q with | 0 => SparseCore.Cfg.VecSplit.of_plain (vecSplit (tabOf m)))
    m ρ main (fun d => G (F := F) d) (FIN m) (u₀ (F := F)) (sep_elim_left.trans (hu₀ (tabOf m))) (hmain m ρ hR) (fq m) (hfin m) (QC m)
    (fun _ h => h)

end Cert.Kernel.Hand

end
-- ==== Proof.RefTerm.lean ====
/-
  The reference's result as a composition of named stages, each a plain function of the one before.

  Column numbers j (an iota laid along the rows), minus their transpose i, give the offset j − i as 32-bit words;
  the offset is clipped to −32 … 32 by a signed maximum and minimum, shifted by 32 into a row number 0 … 64;
  the lookup then wraps negative row numbers by 65, lays the row numbers out with a trailing unit axis, gathers the
  table's rows at them, and keeps a gathered row only where 0 ≤ row number ≤ 64, a NaN word elsewhere.
-/
import proofs.«214700_g37623913513500_cont_8to1_b_1793_29_alg».proof.Proof.Gen.ReferenceIdeal

noncomputable section

namespace Cert.ReferenceIdeal.RefValue

open Cert.ReferenceIdeal Cert.ReferenceIdeal.Gen Idealize.ShloMosaic

variable {F : FTy → Type} [FloatOps F]

/-- Entry (i, j) is the column number j: an iota along one row, the row repeated 512 times. -/
def cols : IVec S512x512 32 :=
  shapeCast S512x512
    (broadcastInDim S512x1x1x512 ![0, 1, 2, 3] bcast_S1x1x1x512_S512x1x1x512_0_1_2_3
      (shapeCast S1x1x1x512 (broadcastInDim S1x512 ![1] bcast_S512_S1x512_1 (iotaInDim S512 32 0))
        shapeCasts_S1x512_S1x1x1x512))
    shapeCasts_S512x1x1x512_S512x512

/-- Entry (i, j) is the offset j − i. -/
def offs : IVec S512x512 32 := subi cols (transpose S512x512 [1, 0] cols transposes_S512x512_S512x512_1_0)

/-- The offset clipped to −32 … 32 (signed). -/
def clipped : IVec S512x512 32 :=
  minsi (broadcastInDim S512x512 ![] bcast_S_S512x512 (constantI S_ 32 32#32))
    (maxsi (broadcastInDim S512x512 ![] bcast_S_S512x512 (constantI S_ 32 4294967264#32)) offs)

/-- The clipped offset shifted by 32: a row number of the table. -/
def rowIdx : IVec S512x512 32 :=
  addi clipped (broadcastInDim S512x512 ![] bcast_S_S512x512 (constantI S_ 32 32#32))

/-- The row number with 65 added where it is negative. -/
def wrapped : IVec S512x512 32 :=
  select (cmpi .slt rowIdx (broadcastInDim S512x512 ![] bcast_S_S512x512 (constantI S_ 32 0#32)))
    (addi rowIdx (broadcastInDim S512x512 ![] bcast_S_S512x512 (constantI S_ 32 65#32))) rowIdx

/-- The row numbers with a trailing unit axis: the lookup's start indices. -/
def idx3 : IVec S512x512x1 32 := broadcastInDim S512x512x1 ![0, 1] bcast_S512x512_S512x512x1_0_1 wrapped

/-- Where the row number lies in 0 … 64. -/
def inRange : IVec S512x512 1 :=
  Host.reduce IntOp.andi
    (andi (cmpi .sge idx3 (broadcastInDim S512x512x1 ![] bcast_S_S512x512x1 (constantI S_ 32 0#32)))
      (cmpi .sle idx3
        (broadcastInDim S512x512x1 ![0, 1, 2] bcast_S1x1x1_S512x512x1_0_1_2
          (broadcastInDim S1x1x1 ![2] bcast_S1_S1x1x1_2 (constantI S1 32 64#32)))))
    (constantI S_ 1 1#1) reducesTo_S512x512x1_S512x512_d2 h_S_

/-- The result: the gathered rows where the row number is in range, the NaN word elsewhere. -/
def result (tbl : FVec F S65x256 .f32) : FVec F S512x512x256 .f32 :=
  select (broadcastInDim S512x512x256 ![0, 1] bcast_S512x512_S512x512x256_0_1 inRange)
    (Host.gather gather_S65x256_S512x512x1_S512x512x256_2_0_n_n_0_2_1256 tbl idx3)
    (broadcastInDim S512x512x256 ![] bcast_S_S512x512x256 (constant S_ .f32 0x7FC00000#32))

end Cert.ReferenceIdeal.RefValue

end
-- ==== Proof.RefOps.lean ====
/-
  The reference program as a straight line of operations, and its run.

  The main function calls three outlined functions (the clip, the lookup, and inside the lookup the wrap's select);
  with their bodies written out at the calls it is one list of forty-one operations, each writing one buffer of its own.
  Run in order from any launch contents, the result buffer ends at the composition of the stages of the lookup over the
  table's contents, and the two argument buffers are never written.
-/
import proofs.«214700_g37623913513500_cont_8to1_b_1793_29_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the three functions' bodies written out at their calls: nine of the main
    function (the offsets and the two clip bounds), six of the clip, three more of the main function (the shift by 32),
    then the lookup's twenty-three, the wrap's select among them. -/
abbrev ops : List (HloOp τ sig (Elt F)) :=
  [ nullary main_v0 (iotaInDim S512 32 0),
    unary main_v0 main_v1 (broadcastInDim S1x512 ![1] bcast_S512_S1x512_1 : (⟨S512, .i32⟩ : BufTy).Contents (Elt F) → (⟨S1x512, .i32⟩ : BufTy).Contents (Elt F)),
    reshape main_v1 main_v2 rfl shapeCasts_S1x512_S1x1x1x512,
    unary main_v2 main_v3 (broadcastInDim S512x1x1x512 ![0, 1, 2, 3] bcast_S1x1x1x512_S512x1x1x512_0_1_2_3 : (⟨S1x1x1x512, .i32⟩ : BufTy).Contents (Elt F) → (⟨S512x1x1x512, .i32⟩ : BufTy).Contents (Elt F)),
    reshape main_v3 main_v4 rfl shapeCasts_S512x1x1x512_S512x512,
    unary main_v4 main_v5 ((transpose S512x512 [1, 0] · transposes_S512x512_S512x512_1_0) : (⟨S512x512, .i32⟩ : BufTy).Contents (Elt F) → (⟨S512x512, .i32⟩ : BufTy).Contents (Elt F)),
    binary main_v4 main_v5 main_v6 (subi : (⟨S512x512, .i32⟩ : BufTy).Contents (Elt F) → (⟨S512x512, .i32⟩ : BufTy).Contents (Elt F) → (⟨S512x512, .i32⟩ : BufTy).Contents (Elt F)),
    nullary main_c (constantI S_ 32 4294967264#32),
    nullary main_c_0 (constantI S_ 32 32#32),
    TRef.unary (.of main_c) main_call0.v0 id,
    TRef.unary main_call0.v0 main_call0.v1 (broadcastInDim S512x512 ![] bcast_S_S512x512),
    TRef.binary main_call0.v1 (.of main_v6) main_call0.v2 maxsi,
    TRef.unary (.of main_c_0) main_call0.v3 id,
    TRef.unary main_call0.v3 main_call0.v4 (broadcastInDim S512x512 ![] bcast_S_S512x512),
    TRef.binary main_call0.v4 main_call0.v2 main_call0.v5 minsi,
    nullary main_c_1 (constantI S_ 32 32#32),
    unary main_c_1 main_v8 (broadcastInDim S512x512 ![] bcast_S_S512x512 : (⟨S_, .i32⟩ : BufTy).Contents (Elt F) → (⟨S512x512, .i32⟩ : BufTy).Contents (Elt F)),
    binary main_v7 main_v8 main_v9 (addi : (⟨S512x512, .i32⟩ : BufTy).Contents (Elt F) → (⟨S512x512, .i32⟩ : BufTy).Contents (Elt F) → (⟨S512x512, .i32⟩ : BufTy).Contents (Elt F)),
    TRef.nullary main_call1.c (constantI S_ 32 0#32),
    TRef.unary main_call1.c main_call1.v0 (broadcastInDim S512x512 ![] bcast_S_S512x512),
    TRef.binary (.of main_v9) main_call1.v0 main_call1.v1 (cmpi .slt),
    TRef.nullary main_call1.c_0 (constantI S_ 32 65#32),
    TRef.unary main_call1.c_0 main_call1.v2 (broadcastInDim S512x512 ![] bcast_S_S512x512),
    TRef.binary (.of main_v9) main_call1.v2 main_call1.v3 addi,
    TRef.ternary main_call1.v1 main_call1.v3 (.of main_v9) main_call1.call0.v0 select,
    TRef.unary main_call1.call0.v0 main_call1.v5 (broadcastInDim S512x512x1 ![0, 1] bcast_S512x512_S512x512x1_0_1),
    TRef.nullary main_call1.c_1 (constantI S1 32 64#32),
    TRef.nullary main_call1.c_2 (constantI S_ 32 0#32),
    TRef.unary main_call1.c_2 main_call1.v6 (broadcastInDim S512x512x1 ![] bcast_S_S512x512x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S512x512x1 ![0, 1, 2] bcast_S1x1x1_S512x512x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S512x512x1_S512x512_d2 h_S_),
    TRef.binary (.of main_arg1) main_call1.v5 main_call1.v13 (fun x i => Host.gather gather_S65x256_S512x512x1_S512x512x256_2_0_n_n_0_2_1256 x i),
    TRef.unary main_call1.v12 main_call1.v14 (broadcastInDim S512x512x256 ![0, 1] bcast_S512x512_S512x512x256_0_1),
    TRef.nullary main_call1.cst (constant S_ .f32 0x7FC00000#32),
    TRef.unary main_call1.cst main_call1.v15 (broadcastInDim S512x512x256 ![] bcast_S_S512x512x256),
    TRef.ternary main_call1.v14 main_call1.v13 main_call1.v15 main_call1.v16 select ]

set_option maxRecDepth 4096 in
/-- The main function is that straight line: the functions' definitions opened at their calls, sequencing
    re-associated. -/
theorem main_eq (c : Dev nD) : main (F := F) c = seq ops := by
  simp only [main, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., unary_bufs_sub ..,
    binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
/-- After the line, the result buffer holds the stages' composition over the table's launch contents: each operation's
    result read at its own buffer, the typed references' transports (identities at these literal references) removed,
    and the stages opened; the two sides then differ by one eta-expansion per reshape. -/
theorem after_result (V : Valuation τ sig (Elt F)) :
    after ops V (main_v10 : DevRef τ sig) = result (V (main_arg1 : DevRef τ sig)) := by
  after_results_simp
  simp only [TRef.ofBuf, TRef.toBuf, cast_eq, id_eq]
  unfold result inRange idx3 wrapped rowIdx clipped offs cols
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

/-- On every device, for any float values, from any memory with zero counters: every weakly fair execution of the
    main function terminates with the result buffer at the stages' composition over the table and both arguments
    unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (after_result _), (h c main_arg0).trans (after_arg0 _),
      (h c main_arg1).trans (after_arg1 _)⟩)
    (run_seq scopedRefs_eq scopedSems_eq defs main (fun _ => ops) main_eq (fun _ => ops_sub) m ρ)

end Cert.ReferenceIdeal.RefValue

end
-- ==== Proof.RefWords.lean ====
/-
  The 32-bit arithmetic of the row number, with no program in sight.

  For a row i and a column j below 512 the words j and i subtract without wrapping, so the difference read as a signed
  integer is j − i; the signed maximum with −32 and minimum with 32 clip it, and adding 32 gives a word whose value is
  min 64 (j + 32 − i) (natural subtraction). Such a word is not negative and is at most 64.
-/
import Idealize.ShloMosaic.Lib.WordArith

namespace Cert.ReferenceIdeal.RefValue

open Idealize.ShloMosaic Idealize.ShloMosaic.WordArith

/-- A signed maximum read as an integer. -/
theorem toInt_maxsi (x y : BitVec 32) : (IntOp.maxsi x y).toInt = max x.toInt y.toInt := by
  unfold IntOp.maxsi
  by_cases h : y.slt x = true
  · rw [if_pos h]; have := BitVec.slt_iff_toInt_lt.mp h; omega
  · rw [if_neg h]; have : ¬ y.toInt < x.toInt := fun h' => h (BitVec.slt_iff_toInt_lt.mpr h'); omega

/-- A signed minimum read as an integer. -/
theorem toInt_minsi (x y : BitVec 32) : (IntOp.minsi x y).toInt = min x.toInt y.toInt := by
  unfold IntOp.minsi
  by_cases h : x.slt y = true
  · rw [if_pos h]; have := BitVec.slt_iff_toInt_lt.mp h; omega
  · rw [if_neg h]; have : ¬ x.toInt < y.toInt := fun h' => h (BitVec.slt_iff_toInt_lt.mpr h'); omega

/-- The row number as the words compute it from row `p` and column `q`: the difference of the two words, clipped
    (signed) to −32 … 32, plus 32. -/
def rowWord (p q : Nat) : BitVec 32 :=
  IntOp.addi (IntOp.minsi 32#32 (IntOp.maxsi 4294967264#32 (IntOp.subi (BitVec.ofNat 32 q) (BitVec.ofNat 32 p)))) 32#32

/-- Below 512 nothing wraps: the word is the number min 64 (q + 32 − p). -/
theorem rowWord_eq (p q : Nat) (hp : p < 512) (hq : q < 512) : rowWord p q = BitVec.ofNat 32 (min 64 (q + 32 - p)) := by
  have hq' := toInt_ofNat_small q (by omega)
  have hp' := toInt_ofNat_small p (by omega)
  have hsub : (IntOp.subi (BitVec.ofNat 32 q) (BitVec.ofNat 32 p)).toInt = (q : Int) - p := by
    unfold IntOp.subi
    rw [toInt_sub_of_bounds _ _ (by omega) (by omega), hq', hp']
  have hlo : (4294967264#32 : BitVec 32).toInt = -32 := by decide
  have hhi : (32#32 : BitVec 32).toInt = 32 := by decide
  have hclip : (IntOp.minsi 32#32 (IntOp.maxsi 4294967264#32 (IntOp.subi (BitVec.ofNat 32 q) (BitVec.ofNat 32 p)))).toInt
      = min 32 (max (-32) ((q : Int) - p)) := by
    rw [toInt_minsi, toInt_maxsi, hsub, hlo, hhi]
  apply BitVec.eq_of_toInt_eq
  unfold rowWord IntOp.addi
  rw [toInt_add_of_bounds _ _ (by rw [hclip, hhi]; omega) (by rw [hclip, hhi]; omega), hclip, hhi,
    toInt_ofNat_small _ (by omega)]
  omega

/-- A small number's word is not negative … -/
theorem cmpi_slt_zero_ofNat (n : Nat) (h : n < 2 ^ 31) : IntOp.cmpi .slt (BitVec.ofNat 32 n) 0#32 = 0#1 := by
  have e : (BitVec.ofNat 32 n).slt 0#32 = false := by
    rw [Bool.eq_false_iff]
    intro hs
    have h1 := BitVec.slt_iff_toInt_lt.mp hs
    rw [toInt_ofNat_small n h, toInt_ofNat_small 0 (by omega)] at h1
    omega
  show BitVec.ofBool ((BitVec.ofNat 32 n).slt 0#32) = 0#1
  rw [e]; rfl

/-- … it is at least zero … -/
theorem cmpi_sge_zero_ofNat (n : Nat) (h : n < 2 ^ 31) : IntOp.cmpi .sge (BitVec.ofNat 32 n) 0#32 = 1#1 := by
  have e : (0#32 : BitVec 32).sle (BitVec.ofNat 32 n) = true := by
    rw [BitVec.sle_iff_toInt_le, toInt_ofNat_small n h, toInt_ofNat_small 0 (by omega)]
    omega
  show BitVec.ofBool ((0#32 : BitVec 32).sle (BitVec.ofNat 32 n)) = 1#1
  rw [e]; rfl

/-- … and a number up to 64 is at most the word 64. -/
theorem cmpi_sle_64_ofNat (n : Nat) (h : n ≤ 64) : IntOp.cmpi .sle (BitVec.ofNat 32 n) 64#32 = 1#1 := by
  have e : (BitVec.ofNat 32 n).sle 64#32 = true := by
    rw [BitVec.sle_iff_toInt_le, toInt_ofNat_small n (by omega), toInt_ofNat_small 64 (by omega)]
    omega
  show BitVec.ofBool ((BitVec.ofNat 32 n).sle 64#32) = 1#1
  rw [e]; rfl

/-- Read as a signed integer and clamped into 0 … 64, a number up to 64 is itself. -/
theorem toNat_toInt_ofNat (n : Nat) (h : n < 2 ^ 31) : (BitVec.ofNat 32 n).toInt.toNat = n := by
  rw [toInt_ofNat_small n h]; exact Int.toNat_natCast n

end Cert.ReferenceIdeal.RefValue
-- ==== Proof.LibTakeRows.lean ====
/-
  General lemma: a lookup of whole rows of a table through a three-axis index array, read at an index.

  `jnp.take(x, idx, axis=0)` of an n × k table `x` at an index array of shape R × C lowers to a gather whose start
  indices have shape R × C × 1 (the last axis the index vector's), whose one start-index component names the table's
  axis 0, which collapses that axis and keeps axis 1 whole as the result's last axis. Its result element (t, j, b) is
  the table's element (r, b), where r is the index word at (t, j, 0) read as a signed integer and clamped into
  [0, n − 1].
-/
import Idealize.ShloMosaic.PureOps
import Idealize.ShloMosaic.Lib.ValueIdx

noncomputable section

open Idealize.ShloMosaic Idealize.ShloMosaic.ValueIdx

namespace Cert.Lib

/-- The table row an index word names: the word read as a signed integer, clamped into [0, n − 1]. -/
def takeRow (n : ℕ) (hn : 0 < n) (w : BitVec 32) : Fin n := ⟨min w.toInt.toNat (n - 1), by omega⟩

theorem takeRow_val (n : ℕ) (hn : 0 < n) (w : BitVec 32) : (takeRow n hn w).val = min w.toInt.toNat (n - 1) := rfl

/-- A word that, read unsigned, is below n names its own row. -/
theorem takeRow_of_lt (n : ℕ) (hn : 0 < n) (hn' : n ≤ 2 ^ 31) (w : BitVec 32) (h : w.toNat < n) :
    (takeRow n hn w).val = w.toNat := by
  rw [takeRow_val]
  have h1 : w.toInt = (w.toNat : ℤ) := by
    rw [BitVec.toInt_eq_toNat_cond]
    split
    · rfl
    · omega
  rw [h1]
  simp only [Int.toNat_natCast]
  omega

/-- THE LOOKUP READ AT (t, j, b): the table at the row the index word at (t, j, 0) names, column b. -/
theorem take_rows_apply {α : Type} {n k R C : ℕ} (hn : 0 < n)
    (d : GatherDims ⟨2, ![n, k]⟩ ⟨3, ![R, C, 1]⟩ ⟨3, ![R, C, k]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, k])
    (x : (⟨2, ![n, k]⟩ : Shape).Idx → α) (idx : IVec ⟨3, ![R, C, 1]⟩ 32) (t : Fin R) (j : Fin C) (b : Fin k) :
    Host.gather d x idx (ix3 t j b) = x (ix2 (takeRow n hn (idx (ix3 t j 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix3 t j b) idx 0 + GatherDims.batchCoord _ (ix3 t j b) 0 + GatherDims.offCoord _ (ix3 t j b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨3, ![R, C, 1]⟩ ⟨3, ![R, C, k]⟩)
        (hD : D = ⟨[2], [0], [], [], [0], 2, ![1, k], wf⟩) (c : Fin D.startIndexMap.length),
        D.siIdx (ix3 t j b) c = ix3 t j 0 := by
      intro D hD c
      subst hD
      funext q; refine Fin.ext ?_
      match q with
      | ⟨0, _⟩ => rfl
      | ⟨1, _⟩ => rfl
      | ⟨2, _⟩ =>
        have := c.isLt
        show c.val = 0
        simpa using this
    rw [hsi _ rfl]
    rfl
  | ⟨1, _⟩ =>
    show GatherDims.start _ (ix3 t j b) idx 1 + GatherDims.batchCoord _ (ix3 t j b) 1 + GatherDims.offCoord _ (ix3 t j b) 1 = _
    rw [GatherDims.batchCoord_eq_zero _ _ _ List.not_mem_nil]
    have hst : GatherDims.start (⟨[2], [0], [], [], [0], 2, ![1, k], wf⟩ :
        GatherDims ⟨2, ![n, k]⟩ ⟨3, ![R, C, 1]⟩ ⟨3, ![R, C, k]⟩) (ix3 t j b) idx 1 = 0 := by
      unfold GatherDims.start
      rw [dif_neg (fun h => absurd (congrArg Fin.val (List.mem_singleton.mp h)) Nat.one_ne_zero)]
    have hoff : GatherDims.offCoord (⟨[2], [0], [], [], [0], 2, ![1, k], wf⟩ :
        GatherDims ⟨2, ![n, k]⟩ ⟨3, ![R, C, 1]⟩ ⟨3, ![R, C, k]⟩) (ix3 t j b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

end Cert.Lib

end
-- ==== Proof.RefRead.lean ====
/-
  The stages read at an index: the composed result is the table's row for the clipped offset.

  Read at (i, j) the column-number array gives the word j and its transpose the word i, so the offset stage is the
  word difference and the row-number stage is the word `rowWord i j`, which is the number relRow i j = min 64 (j + 32 − i).
  That word is not negative, so the wrap leaves it alone; it lies in 0 … 64, so the range mask is 1 at every entry,
  and the reduction by "and" over the unit axis is 1 everywhere. The gather at (i, j, d) reads the table at the row the
  word names, clamped into 0 … 64: row relRow i j, column d. Hence the select keeps the gathered value.
-/
import proofs.«214700_g37623913513500_cont_8to1_b_1793_29_alg».proof.Proof.RefTerm
import proofs.«214700_g37623913513500_cont_8to1_b_1793_29_alg».proof.Proof.RefWords
import proofs.«214700_g37623913513500_cont_8to1_b_1793_29_alg».proof.Proof.LibTakeRows
import proofs.«214700_g37623913513500_cont_8to1_b_1793_29_alg».proof.Proof.Spec
import Idealize.ShloMosaic.Lib.ValueLayout
import Idealize.ShloMosaic.Lib.IdealHost
import Idealize.ShloMosaic.PureOps.Reduce

noncomputable section

namespace Cert.ReferenceIdeal.RefValue

open Cert.ReferenceIdeal Cert.ReferenceIdeal.Gen Idealize.ShloMosaic Idealize.ShloMosaic.ValueIdx Cert.RelPos Cert.Lib

variable {F : FTy → Type} [FloatOps F]

/-- The column-number array at (p, q) is the word q. -/
theorem cols_apply (p q : Fin 512) : cols (ix2 p q) = BitVec.ofNat 32 q.val := by
  unfold cols
  refine (shapeCast_apply _ _ (ix2 p q) (ix4 p (0 : Fin 1) (0 : Fin 1) q) (by
    rw [Shape.rowMajor_val_four, Shape.rowMajor_val_two]
    show ((p.val * 1 + 0) * 1 + 0) * 512 + q.val = p.val * 512 + q.val
    omega)).trans ?_
  refine (broadcastInDim_apply _ _ _ (ix4 p (0 : Fin 1) (0 : Fin 1) q) (ix4 (0 : Fin 1) (0 : Fin 1) (0 : Fin 1) q)
    (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) q) (ix2 (0 : Fin 1) q) (by
    rw [Shape.rowMajor_val_four, Shape.rowMajor_val_two]
    show 0 * 512 + q.val = ((0 * 1 + 0) * 1 + 0) * 512 + q.val
    omega)).trans ?_
  refine (broadcastInDim_apply _ _ _ (ix2 (0 : Fin 1) q) (ix1 q)
    (fun a => match a with | ⟨0, _⟩ => rfl)).trans ?_
  rfl

/-- The offset stage at (p, q) is the word difference q − p. -/
theorem offs_apply (p q : Fin 512) :
    offs (ix2 p q) = IntOp.subi (BitVec.ofNat 32 q.val) (BitVec.ofNat 32 p.val) := by
  unfold offs
  show IntOp.subi (cols (ix2 p q)) (transpose S512x512 [1, 0] cols transposes_S512x512_S512x512_1_0 (ix2 p q)) = _
  rw [transpose_ix2_apply, cols_apply, cols_apply]

/-- The row-number stage at (p, q) is the word `rowWord p q`. -/
theorem rowIdx_apply (p q : Fin 512) : rowIdx (ix2 p q) = rowWord p.val q.val := by
  show IntOp.addi (IntOp.minsi 32#32 (IntOp.maxsi 4294967264#32 (offs (ix2 p q)))) 32#32 = _
  rw [offs_apply]
  rfl

/-- The wrap leaves the row number alone: it is the number relRow p q as a word. -/
theorem wrapped_apply (p q : Fin 512) : wrapped (ix2 p q) = BitVec.ofNat 32 (relRow p.val q.val) := by
  show Scalar.select (IntOp.cmpi .slt (rowIdx (ix2 p q)) 0#32) (IntOp.addi (rowIdx (ix2 p q)) 65#32) (rowIdx (ix2 p q)) = _
  rw [rowIdx_apply, rowWord_eq p.val q.val p.isLt q.isLt]
  show Scalar.select (IntOp.cmpi .slt (BitVec.ofNat 32 (relRow p.val q.val)) 0#32) _ _ = _
  rw [cmpi_slt_zero_ofNat _ (by have := relRow_lt p.val q.val; omega), select_zero]
  rfl

/-- The start indices at (p, q, ·) are that word. -/
theorem idx3_apply (p q : Fin 512) (u : Fin 1) : idx3 (ix3 p q u) = BitVec.ofNat 32 (relRow p.val q.val) := by
  unfold idx3
  refine (broadcastInDim_apply _ _ _ (ix3 p q u) (ix2 p q)
    (fun a => match a with | ⟨0, _⟩ => rfl | ⟨1, _⟩ => rfl)).trans ?_
  exact wrapped_apply p q

/-- A left fold by "and" over one-bit words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The range mask is 1 at every entry. -/
theorem inRange_apply (j : S512x512.Idx) : inRange j = 1#1 := by
  unfold inRange
  rw [Host.reduce_eq_foldl]
  refine foldl_andi_ones _ (fun i => ?_) _
  obtain ⟨p, q, u, rfl⟩ : ∃ (p q : Fin 512) (u : Fin 1), i = ix3 p q u := ⟨i 0, i 1, i 2, eq_ix3 i⟩
  show IntOp.andi (IntOp.cmpi .sge (idx3 (ix3 p q u)) 0#32) (IntOp.cmpi .sle (idx3 (ix3 p q u)) 64#32) = 1#1
  rw [idx3_apply, cmpi_sge_zero_ofNat _ (by have := relRow_lt p.val q.val; omega),
    cmpi_sle_64_ofNat _ (by have := relRow_lt p.val q.val; omega)]
  rfl

/-- The row a start index names is the row relRow p q. -/
theorem takeRow_relRow (p q : Fin 512) :
    takeRow 65 (by decide) (BitVec.ofNat 32 (relRow p.val q.val)) = relRowFin p.val q.val := by
  refine Fin.ext ?_
  have h := relRow_lt p.val q.val
  rw [takeRow_val, toNat_toInt_ofNat _ (by omega)]
  show min (relRow p.val q.val) 64 = relRow p.val q.val
  omega

/-- THE RESULT READ AT (p, q, d): the table's row relRow p q, column d. -/
theorem result_apply (tbl : FVec F S65x256 .f32) (p q : Fin 512) (d : Fin 256) :
    result tbl (ix3 p q d) = tbl (ix2 (relRowFin p.val q.val) d) := by
  unfold result
  rw [select_apply, broadcastInDim_apply _ _ inRange (ix3 p q d) (ix2 p q)
    (fun a => match a with | ⟨0, _⟩ => rfl | ⟨1, _⟩ => rfl), inRange_apply, select_one,
    take_rows_apply (by decide) gather_S65x256_S512x512x1_S512x512x256_2_0_n_n_0_2_1256 rfl rfl rfl rfl rfl rfl rfl tbl idx3 p q d,
    idx3_apply, takeRow_relRow]

/-- The composed result is the specification's array. -/
theorem result_eq (tbl : FVec F S65x256 .f32) : result tbl = rel tbl := by
  funext k
  obtain ⟨p, q, d, rfl⟩ : ∃ (p q : Fin 512) (d : Fin 256), k = ix3 p q d := ⟨k 0, k 1, k 2, eq_ix3 k⟩
  rw [result_apply]
  rfl

end Cert.ReferenceIdeal.RefValue

end
-- ==== Proof.RefRun.lean ====
/-
  The reference's run against the specification: every weakly fair execution of the reference terminates with the
  result buffer holding, at (i, j, ·), the table's row for the offset j − i clipped to −32 … 32, and with both
  argument buffers unchanged. The run gives the result as the stages' composition; read index by index that
  composition is the specification's array.
-/
import proofs.«214700_g37623913513500_cont_8to1_b_1793_29_alg».proof.Proof.RefOps
import proofs.«214700_g37623913513500_cont_8to1_b_1793_29_alg».proof.Proof.RefRead

noncomputable section

namespace Cert.ReferenceIdeal.RefValue

open Idealize.ShloMosaic Idealize.SL.Sem

theorem run
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = Cert.RelPos.rel (m ((c.tc : Thread Cert.ReferenceIdeal.nD Cert.ReferenceIdeal.τ).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans (result_eq _), (h c).2.1, (h c).2.2⟩) (run_stages (F := Ideal) m ρ)

end Cert.ReferenceIdeal.RefValue

end
-- ==== Proof.Bridge.lean ====
/-
  The strip, built flat from the table laid out flat, and then viewed as 1056 rows of 256, is the strip
  of rows: row g holds the table's row min 64 (g − 479).

  Laying an array out flat, or viewing a flat array as rows, keeps every entry at its row-major position:
  entry (g, x) of 1056 × 256 is flat word 256 g + x, and flat word 256 r + x of the table is its entry (r, x).
  Word 256 g + x of the flat strip is the flat table's word 256 (stripRow g) + x, since (256 g + x) / 256 = g
  and (256 g + x) mod 256 = x for x < 256.
-/
import proofs.«214700_g37623913513500_cont_8to1_b_1793_29_alg».proof.Proof.Spec
import Idealize.ShloMosaic.Lib.Pipeline.Value

namespace Cert.RelPos

open Idealize.ShloMosaic Idealize.ShloMosaic.ValueIdx Idealize.ShloMosaic.Pipeline

/-- The flat strip of the flat table, viewed as rows, is the strip of rows of the table. -/
theorem strip_as_rows {α : Type} (tbl : (⟨2, ![65, 256]⟩ : Shape).Idx → α)
    (h1 : (⟨2, ![65, 256]⟩ : Shape).ShapeCasts ⟨1, ![16640]⟩) (h2 : (⟨1, ![270336]⟩ : Shape).ShapeCasts ⟨2, ![1056, 256]⟩) :
    shapeCast ⟨2, ![1056, 256]⟩ (strip (shapeCast ⟨1, ![16640]⟩ tbl h1)) h2 = strip2 tbl := by
  funext j
  obtain ⟨g, x, rfl⟩ : ∃ (g : Fin 1056) (x : Fin 256), j = ix2 g x := ⟨j 0, j 1, eq_ix2 j⟩
  have hg : g.val < 1056 := g.isLt
  have hx : x.val < 256 := x.isLt
  have ediv : (256 * g.val + x.val) / 256 = g.val := by omega
  have emod : (256 * g.val + x.val) % 256 = x.val := by omega
  rw [shapeCast_apply _ h2 (ix2 g x) (ix1 (⟨256 * g.val + x.val, by omega⟩ : Fin 270336))
    (by rw [Shape.rowMajor_val_one, Shape.rowMajor_val_two]; show 256 * g.val + x.val = g.val * 256 + x.val; omega)]
  show shapeCast ⟨1, ![16640]⟩ tbl h1
      (ix1 (flatTab (stripRowFin ((256 * g.val + x.val) / 256)) ⟨(256 * g.val + x.val) % 256, Nat.mod_lt _ (by decide)⟩))
    = tbl (ix2 (stripRowFin g.val) x)
  refine shapeCast_apply tbl h1 _ (ix2 (stripRowFin g.val) x) ?_
  rw [Shape.rowMajor_val_one, Shape.rowMajor_val_two]
  show (stripRowFin g.val).val * 256 + x.val
    = (flatTab (stripRowFin ((256 * g.val + x.val) / 256)) ⟨(256 * g.val + x.val) % 256, Nat.mod_lt _ (by decide)⟩).val
  show stripRow g.val * 256 + x.val = 256 * stripRow ((256 * g.val + x.val) / 256) + (256 * g.val + x.val) % 256
  rw [ediv, emod]; omega

/-- So the result read off that strip of rows is the table read at the clipped offsets. -/
theorem rel_of_flat_strip {α : Type} (tbl : (⟨2, ![65, 256]⟩ : Shape).Idx → α)
    (h1 : (⟨2, ![65, 256]⟩ : Shape).ShapeCasts ⟨1, ![16640]⟩) (h2 : (⟨1, ![270336]⟩ : Shape).ShapeCasts ⟨2, ![1056, 256]⟩) :
    relOfStrip (shapeCast ⟨2, ![1056, 256]⟩ (strip (shapeCast ⟨1, ![16640]⟩ tbl h1)) h2) = rel tbl := by
  rw [strip_as_rows, relOfStrip_strip2]

end Cert.RelPos
-- ==== Proof.Assemble.lean ====
/-
  The five conjuncts, from the two programs' runs and the reference's run.

  Both readings of the kernel's program — floats as words, floats as extended reals — run to the end with the
  arguments unchanged and the result holding the rows (of the strip computed from the flat table) read at
  511 − i + j; that array is the table read at the clipped offsets j − i (the bridge), which is what the
  reference's run leaves. So the frames are the runs with the result forgotten, and the two idealized
  programs end with equal results, entry by entry, from memories that agree on the arguments. Nothing is
  computed with the entries, so finiteness of the inputs is never used.
-/
import proofs.«214700_g37623913513500_cont_8to1_b_1793_29_alg».proof.Defs
import proofs.«214700_g37623913513500_cont_8to1_b_1793_29_alg».proof.Proof.Gen.Kernel
import proofs.«214700_g37623913513500_cont_8to1_b_1793_29_alg».proof.Proof.Gen.KernelIdeal
import proofs.«214700_g37623913513500_cont_8to1_b_1793_29_alg».proof.Proof.Gen.ReferenceIdeal
import proofs.«214700_g37623913513500_cont_8to1_b_1793_29_alg».proof.Proof.Gen.Pre_finite_inputs
import proofs.«214700_g37623913513500_cont_8to1_b_1793_29_alg».proof.Proof.Ideal.Main
import proofs.«214700_g37623913513500_cont_8to1_b_1793_29_alg».proof.Proof.Bits.Main
import proofs.«214700_g37623913513500_cont_8to1_b_1793_29_alg».proof.Proof.RefRun
import proofs.«214700_g37623913513500_cont_8to1_b_1793_29_alg».proof.Proof.Bridge

noncomputable section

namespace Cert.Proof.Assemble

open Idealize.ShloMosaic Idealize.ShloMosaic.TcCoe Idealize.SL.Sem

/-- What is asked of the word-level program's two kernels: the subcore body's statement and the pipeline region. -/
abbrev BodyK : Prop := Cert.Kernel.Hand.TileBodyStmt (F := Bits)
abbrev RegionK : Type 1 := ∀ rows out₀ O, (∀ c g, O c g none = 0) → Cert.Kernel.Hand.RegionFor (F := Bits) rows out₀ O
/-- The same of the idealized program's. -/
abbrev BodyI : Prop := Cert.KernelIdeal.Hand.TileBodyStmt (F := Ideal)
abbrev RegionI : Type 1 := ∀ rows out₀ O, (∀ c g, O c g none = 0) → Cert.KernelIdeal.Hand.RegionFor (F := Ideal) rows out₀ O

theorem frame_k (hb : BodyK) (hR : RegionK) : Cert.frame_Kernel := fun m ρ _ =>
  (θ_run Cert.Kernel.defs _ _).mono (fun _ h c => ⟨(h c).1, (h c).2.1⟩) (Cert.Kernel.Hand.run_main (F := Bits) m ρ hb hR)

theorem frame_ki (hb : BodyI) (hR : RegionI) : Cert.frame_KernelIdeal := fun m ρ _ =>
  (θ_run Cert.KernelIdeal.defs _ _).mono (fun _ h c => ⟨(h c).1, (h c).2.1⟩) (Cert.KernelIdeal.Hand.run_main (F := Ideal) m ρ hb hR)

theorem frame_ri : Cert.frame_ReferenceIdeal := fun m ρ _ =>
  (θ_run Cert.ReferenceIdeal.defs _ _).mono (fun _ h c => ⟨(h c).2.1, (h c).2.2⟩) (Cert.ReferenceIdeal.RefValue.run m ρ)

/-- The idealized kernel's result and the idealized reference's are the table read at the clipped offsets. -/
theorem algebraic (hb : BodyI) (hR : RegionI) : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.RelPos.rel (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Hand.run_main (F := Ideal) m ρ hb hR)
    obtain ⟨h0, h1, h3⟩ := h c
    exact ⟨h0, h3.trans (Cert.RelPos.rel_of_flat_strip _ _ _), h0, h1⟩
  · refine (θ_run Cert.ReferenceIdeal.defs _ _).mono (fun r h c => ?_) (Cert.ReferenceIdeal.RefValue.run m' ρ')
    obtain ⟨hv, ha0, ha1⟩ := h c
    exact ⟨ha0.trans (hagree c).1, hv.trans (congrArg Cert.RelPos.rel (hagree c).2), ha0, ha1⟩

/-- The claim, given the kernels' two pieces at each reading. -/
theorem claim_of (hbK : BodyK) (hRK : RegionK) (hbI : BodyI) (hRI : RegionI) : Cert.Claim :=
  ⟨Cert.Kernel.Gen.facts, Cert.KernelIdeal.Gen.facts, Cert.ReferenceIdeal.Gen.facts, Cert.Pre_finite_inputs.Gen.facts,
    frame_k hbK hRK, frame_ki hbI hRI, frame_ri, trivial, algebraic hbI hRI⟩

end Cert.Proof.Assemble

end
-- ==== Proof.Ideal.TileOpen.lean ====
/-
  One vector subcore at a symbolic grid point: its thread, the two semaphores and the two scratch buffers
  that are its own (singled out of everything the thread owns), and the four arrays the body touches as
  the subcore's memrefs address them — the table and the strip are the main core's arrays, the share of
  the strip is the program's own slice of it.
-/
import proofs.«214700_g37623913513500_cont_8to1_b_1793_29_alg».proof.Proof.Ideal.Common
import Idealize.ShloMosaic.Lib.SparseCore.Launch
import Idealize.ShloMosaic.Lib.Transfers
import Idealize.ShloMosaic.Lib.Writes
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own semaphores and scratch buffers, singled out -/

section Tile

local notation "𝕄" => MT nD τ sig (HIx 1) (Elt F) ℕ UU ℕ

variable (d : Dev nD) (Lc : grid0.Coords)

/-- The thread of the subcore at a grid point. -/
abbrev thrV : Thread nD τ := V d (cV Lc) (jV Lc)

/-- The semaphore of the copy in, and of the copy out. -/
abbrev inCell : GSem nD τ sig := (thrV d Lc, .dma cc0_scoped0.sem)
abbrev outCell : GSem nD τ sig := (thrV d Lc, .dma cc0_scoped1.sem)

theorem ownSems0_tile :
    (ownSems0 (thrV d Lc) : sProp 𝕄)
      = iprop(semVal (inCell d Lc) 0 ∗ semVal (outCell d Lc) 0
          ∗ bigSep (((ownCells (thrV d Lc)).erase (inCell d Lc)).erase (outCell d Lc)) fun g => semVal g 0) := by
  unfold SparseCore.Cfg.ownSems0
  rw [SparseCore.bigSep_erase' ((mem_ownCells (g := inCell d Lc)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d Lc)).mpr ⟨rfl, by
      show (SemLoc.dma cc0_scoped1.sem : SemLoc sig).isScoped .scVector = true; decide⟩⟩)]

/-- The two scratch buffers are among the subcore's own: they are them, at some contents, and the rest. -/
theorem ownBufs_tile :
    (ownBufs (thrV d Lc) : sProp 𝕄)
      = iprop((∃ f, (thrV d Lc).loc cc0_scratch0 ↦{fullShare} f) ∗ (∃ f, (thrV d Lc).loc cc0_scratch1 ↦{fullShare} f)
          ∗ bigSep (((ownRefs (τ := τ) (.scVector (cV Lc) (jV Lc))).erase ((Proc.scVector (cV Lc) (jV Lc)).devRef cc0_scratch0)).erase
              ((Proc.scVector (cV Lc) (jV Lc)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV Lc) (jV Lc))
    (b := (Proc.scVector (cV Lc) (jV Lc)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV Lc) (jV Lc)) (b := (Proc.scVector (cV Lc) (jV Lc)).devRef cc0_scratch1) rfl⟩)]

/-- The program's memrefs. -/
abbrev tabM : Memref sig .scVector .hbm S16640 .f32 := Memref.whole main_v0_scv
abbrev stripM : Memref sig .scVector .hbm S270336 .f32 := Memref.whole main_v1_scv
abbrev winM : Memref sig .scVector .vmem S8704 .f32 := Memref.whole cc0_scratch0
abbrev rowsM : Memref sig .scVector .vmem S8448 .f32 := Memref.whole cc0_scratch1
/-- The subcore's share of the strip, as the program slices it. -/
abbrev partM : Memref sig .scVector .hbm S8448 .f32 := (stripM).slice (partRect Lc) (fun _ => rfl)

/-- The arrays as the subcore's memrefs address them are the main core's arrays. -/
theorem pts_tab (q : PosShare TreeShare) (f : Buf (Elt F) (tabLoc d)) :
    ((tabM).view.loc (thrV d Lc) ↦{q} f : sProp 𝕄) = tabLoc d ↦{q} f := by
  simp only [Memref.view_whole, View.set_whole]
theorem pts_part (f : Buf (Elt F) (stripLoc d)) :
    ((partM Lc).view.loc (thrV d Lc) ↦[(partM Lc).view.set]{fullShare} f : sProp 𝕄) = stripLoc d ↦[partSet Lc]{fullShare} f := rfl
theorem pts_win (f : Buf (Elt F) ((thrV d Lc).loc cc0_scratch0)) :
    ((winM).view.loc (thrV d Lc) ↦{fullShare} f : sProp 𝕄) = (thrV d Lc).loc cc0_scratch0 ↦{fullShare} f := rfl
theorem pts_rows (f : Buf (Elt F) ((thrV d Lc).loc cc0_scratch1)) :
    ((rowsM).view.loc (thrV d Lc) ↦{fullShare} f : sProp 𝕄) = (thrV d Lc).loc cc0_scratch1 ↦{fullShare} f := rfl

end Tile

end Cert.KernelIdeal.Hand

end
-- ==== Proof.Ideal.TileRun.lean ====
/-
  The subcore's body, run once at a symbolic grid point from its buffers held at arbitrary contents:
  the copy of the 34-row window into the first scratch, the 528 blocks of sixteen words moved from it
  into the second scratch, and the copy of the second scratch onto the subcore's share of the strip.
  What the share holds afterwards is read off the run — a term over the table, found, not stated — and
  kept as the witness of a subtype; the next module reads it back as one function of the share's index.
-/
import proofs.«214700_g37623913513500_cont_8to1_b_1793_29_alg».proof.Proof.Ideal.TileOpen
import Idealize.ShloMosaic.Lib.SparseCore.Launch
import Idealize.ShloMosaic.Lib.Transfers
import Idealize.ShloMosaic.Lib.Writes
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

/-- What the run starts from: the levels' word, the table at a share `q`, the share of the strip and the two
    scratch buffers held outright at `f0`, `fa`, `fb`, both semaphores at zero, what the subcore owes. -/
def runPre (q : PosShare TreeShare) (tab : Buf (Elt F) (tabLoc d)) (O : CellTallies nD τ sig (HIx 1)) (W : Waits sig (HIx 1))
    (f0 : Buf (Elt F) (stripLoc d)) (fa : Buf (Elt F) ((thrV d Lc).loc cc0_scratch0)) (fb : Buf (Elt F) ((thrV d Lc).loc cc0_scratch1)) : sProp 𝕄 :=
  iprop(levAts (K (F := F)).L (K (F := F)).lev
    ∗ ((tabM).view.loc (thrV d Lc) ↦{q} tab)
    ∗ ((partM Lc).view.loc (thrV d Lc) ↦[(partM Lc).view.set]{fullShare} f0)
    ∗ ((winM).view.loc (thrV d Lc) ↦{fullShare} fa)
    ∗ ((rowsM).view.loc (thrV d Lc) ↦{fullShare} fb)
    ∗ semVal (inCell d Lc) 0 ∗ semVal (outCell d Lc) 0
    ∗ owes (V d (cV Lc) (jV Lc)) O W)

/-- What the run ends with: the table as it was, the share of the strip at `g`, the scratch buffers at
    something, both semaphores at zero again, the two waits recorded. -/
def runPost (q : PosShare TreeShare) (tab : Buf (Elt F) (tabLoc d)) (O : CellTallies nD τ sig (HIx 1)) (W : Waits sig (HIx 1))
    (g : Buf (Elt F) (stripLoc d)) : sProp 𝕄 :=
  iprop(((tabM).view.loc (thrV d Lc) ↦{q} tab)
    ∗ ((partM Lc).view.loc (thrV d Lc) ↦[(partM Lc).view.set]{fullShare} g)
    ∗ (∃ f, (winM).view.loc (thrV d Lc) ↦{fullShare} f)
    ∗ (∃ f, (rowsM).view.loc (thrV d Lc) ↦{fullShare} f)
    ∗ semVal (inCell d Lc) 0 ∗ semVal (outCell d Lc) 0
    ∗ owes (V d (cV Lc) (jV Lc)) O (insert (SemLoc.dma cc0_scoped1.sem, (default : HIx 1)) (insert (SemLoc.dma cc0_scoped0.sem, (default : HIx 1)) W)))

-- the run is one elaboration step over 5673 printed statements in 96 parts
set_option maxHeartbeats 4000000 in
/-- What the body leaves on the subcore's share of the strip (over the table, and over what the share and
    the two scratch buffers held before), WITH the proof that from `runPre` the body runs to its return
    holding `runPost` at that witness — handed to whatever runs next (`Q`). -/
noncomputable def tileRun [FloatOps F] (q : PosShare TreeShare) (tab : Buf (Elt F) (tabLoc d)) :
    { Wt : Buf (Elt F) (stripLoc d) → Buf (Elt F) ((thrV d Lc).loc cc0_scratch0) → Buf (Elt F) ((thrV d Lc).loc cc0_scratch1)
          → Buf (Elt F) (stripLoc d) //
      ∀ (O : CellTallies nD τ sig (HIx 1)) (W : Waits sig (HIx 1)) (hO : ∀ g, O g none = 0)
        (f0 : Buf (Elt F) (stripLoc d)) (fa : Buf (Elt F) ((thrV d Lc).loc cc0_scratch0)) (fb : Buf (Elt F) ((thrV d Lc).loc cc0_scratch1))
        (Q : PUnit → sProp 𝕄),
        iprop(runPre (F := F) d Lc q tab O W f0 fa fb ∗ (runPost (F := F) d Lc q tab O W (Wt f0 fa fb) -∗ Q ⟨⟩))
        ⊢ wp frame (wpE (defs₀ (F := F)) 𝒱₀ (V d (cV Lc) (jV Lc)) none) Set.univ
            (cc0__sc_expand Lc (Memref.whole main_v0_scv) (Memref.isWhole_whole _) (Memref.whole main_v1_scv) (Memref.isWhole_whole _)
              (Memref.whole cc0_scratch0) (Memref.isWhole_whole _) (Memref.whole cc0_scratch1) (Memref.isWhole_whole _) cc0_scoped0 cc0_scoped1)
            Q } := by
  -- the share's contents are the witness the run finds: a metavariable until the closing step assigns it
  refine ⟨?_, fun O W hO f0 fa fb Q => ?run⟩
  case run =>
    -- the program over its skeleton first, the held buffers still folded in `runPre`
    simp only [cc0__sc_expand_eq_skeleton]; unfold cc0__sc_expand_skel
    rw [runPre, runPost]
    iintro ⟨⟨#Hlv, Htab', Hout', Ha', Hb', HsemA, HsemB, HO⟩, Hk⟩
    ihave Hmw := ((K (F := F)).mayWaits_none (thr := V d (cV Lc) (jV Lc)) hO) $$ Hlv
    sl_exec_parts
    sl_step
    iapply Hk
    isplitl [Htab']; · iexact Htab'
    isplitl [Hout']; · iexact Hout'
    isplitl [Ha']; · iexists _; iexact Ha'
    isplitl [Hb']; · iexists _; iexact Hb'
    isplitl [HsemA]; · iexact HsemA
    isplitl [HsemB]; · iexact HsemB
    iexact HO

end Tile

end Cert.KernelIdeal.Hand

end
-- ==== Proof.Ideal.TileGeom.lean ====
/-
  One subcore's share of the strip, in numbers.

  The thirty-two subcores are numbered 16 c + s. Subcore w writes rows 33 w … 33 w + 32 of the 1056-row
  strip; row g of the strip is the table's row  min 64 (g − 479).  The subcore first copies a window of 34
  consecutive table rows, starting at row  min 31 (33 w − 479)  (at most 31, so that the 34 rows fit in the
  table's 65), and every table row it needs lies in that window.
-/
import proofs.«214700_g37623913513500_cont_8to1_b_1793_29_alg».proof.Proof.Gen.KernelIdeal
import proofs.«214700_g37623913513500_cont_8to1_b_1793_29_alg».proof.Proof.Spec

namespace Cert.KernelIdeal.Hand

open Cert.KernelIdeal Cert.KernelIdeal.Gen
open Idealize.ShloMosaic

/-- The number of the subcore at a grid point: sixteen subcores to a core. -/
def tileNo (i : grid0.Coords) : Nat := 16 * (i 0).val + (i 1).val

theorem tileNo_lt (i : grid0.Coords) : tileNo i < 32 := by
  have h0 : (i 0).val < 2 := (i 0).isLt
  have h1 : (i 1).val < 16 := (i 1).isLt
  unfold tileNo; omega

/-- The first table row of the window of 34 rows the subcore copies. -/
def winRow (i : grid0.Coords) : Nat := min 31 (33 * tileNo i - 479)

theorem winRow_le (i : grid0.Coords) : winRow i ≤ 31 := by unfold winRow; omega

/-- The table row that row `r` of the subcore's share holds lies in the window: at or after its first row, -/
theorem winRow_le_stripRow (i : grid0.Coords) (r : Nat) : winRow i ≤ Cert.RelPos.stripRow (33 * tileNo i + r) := by
  unfold winRow Cert.RelPos.stripRow; omega

/-- and fewer than 34 rows after it. -/
theorem stripRow_lt_winRow (i : grid0.Coords) (r : Nat) (hr : r < 33) : Cert.RelPos.stripRow (33 * tileNo i + r) < winRow i + 34 := by
  unfold winRow Cert.RelPos.stripRow; omega

end Cert.KernelIdeal.Hand
-- ==== Proof.Ideal.TileOff1.lean ====
/-
  Where the window starts among the table's 16640 words: the program's own chain of 32-bit operations,
  evaluated at each of the thirty-two grid points, gives 256 times the window's first row.
-/
import proofs.«214700_g37623913513500_cont_8to1_b_1793_29_alg».proof.Proof.Ideal.TileGeom

set_option Elab.async false

namespace Cert.KernelIdeal.Hand

open Cert.KernelIdeal Cert.KernelIdeal.Gen
open Idealize.ShloMosaic

theorem off1_eq : ∀ i : grid0.Coords, k0_off1 i = ![256 * winRow i] := by decide +kernel

end Cert.KernelIdeal.Hand
-- ==== Proof.Ideal.TileOff2.lean ====
/-
  Where each block of sixteen words is read from the copied window: block `v` of row `r` of the subcore's
  share is read at word  256 (t − w) + 16 v  of the window, `t` the table row that strip row 33 (16 c + s) + r
  holds and `w` the window's first row. The program's own chain of 32-bit operations, evaluated at every
  grid point, row and block.
-/
import proofs.«214700_g37623913513500_cont_8to1_b_1793_29_alg».proof.Proof.Ideal.TileGeom

set_option Elab.async false

namespace Cert.KernelIdeal.Hand

open Cert.KernelIdeal Cert.KernelIdeal.Gen
open Idealize.ShloMosaic

theorem off2_eq : ∀ i : grid0.Coords, ∀ (r : Fin 33) (v : Fin 16),
    k0_off2 i (BitVec.ofNat 32 r.val) (BitVec.ofNat 32 (16 * v.val))
      = ![256 * (Cert.RelPos.stripRow (33 * tileNo i + r.val) - winRow i) + 16 * v.val] := by decide +kernel

end Cert.KernelIdeal.Hand
-- ==== Proof.Ideal.TileMath.lean ====
/-
  The arithmetic of the value, with no program in sight.

  The subcore's share of the strip is words 8448 w … 8448 w + 8447 (`w` its number), and word `j` of it is
  to hold word `j % 256` of the table row that strip row 33 w + j / 256 holds (`rowFn`): written whole with
  that function, the share holds the strip (`strip_of_rows`). After the copy in, the first scratch holds the
  table's words from the window's first row on (`win_eq`); one block of sixteen words read from it at the
  program's own offset is a block of `rowFn` (`chunk_eq`); and pieces that are all blocks of `rowFn` and tile
  the second scratch make it, read back as one function, `rowFn` — so the share ends holding the strip
  (`share_of_pieces`).
-/
import proofs.«214700_g37623913513500_cont_8to1_b_1793_29_alg».proof.Proof.Ideal.TileOpen
import proofs.«214700_g37623913513500_cont_8to1_b_1793_29_alg».proof.Proof.Ideal.TileOff1
import proofs.«214700_g37623913513500_cont_8to1_b_1793_29_alg».proof.Proof.Ideal.TileOff2
import Idealize.ShloMosaic.Lib.SparseCore.Launch
import Idealize.ShloMosaic.Lib.Transfers
import Idealize.ShloMosaic.Lib.Writes
import Idealize.ShloMosaic.Lib.Tactic
import Idealize.ShloMosaic.Lib.Pipeline.Value
import Idealize.ShloMosaic.Lib.ValueIdx
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The value: index arithmetic -/

section Value

local notation "𝕄" => MT nD τ sig (HIx 1) (Elt F) ℕ UU ℕ

variable (Lc : grid0.Coords)

/-- The subcore's share of the strip is words 8448 w … 8448 w + 8447, `w` the subcore's number. -/
theorem mem_partSet (k : S270336.Idx) :
    k ∈ partSet Lc ↔ 8448 * tileNo Lc ≤ (k 0).val ∧ (k 0).val < 8448 * tileNo Lc + 8448 := by
  have e : partSet Lc = (partRect Lc).set := View.set_slice_whole main_v1_scv (partRect Lc)
  rw [e, Rect.mem_set_unit, k0_off3_eq]
  simp only [Fin.forall_fin_one, Matrix.cons_val_zero]
  show (135168 * (Lc 0).val + 8448 * (Lc 1).val ≤ (k 0).val ∧ (k 0).val < 135168 * (Lc 0).val + 8448 * (Lc 1).val + 8448) ↔ _
  unfold tileNo; omega

/-- Word `j` of the share sits at word 8448 w + j of the strip. -/
theorem partM_emb (j : S8448.Idx) : (((partM Lc).view.emb j) 0).val = 8448 * tileNo Lc + (j 0).val := by
  show (k0_off3 Lc) 0 + 1 * (j 0).val = _
  rw [k0_off3_eq]
  show 135168 * (Lc 0).val + 8448 * (Lc 1).val + 1 * (j 0).val = _
  unfold tileNo; omega

/-- What word `j` of the subcore's share is to hold: word `j % 256` of the table row that strip row
    33 w + j / 256 holds. -/
def rowFn {α : Type} (tab : S16640.Idx → α) : S8448.Idx → α :=
  fun j => tab (ValueIdx.ix1 ⟨256 * Cert.RelPos.stripRow (33 * tileNo Lc + (j 0).val / 256) + (j 0).val % 256, by
    have := Cert.RelPos.stripRow_lt (33 * tileNo Lc + (j 0).val / 256)
    have := Nat.mod_lt (j 0).val (show 0 < 256 by decide); omega⟩)

/-- The share written whole with `rowFn` is the strip on the share's words. -/
theorem strip_of_rows (tab : S16640.Idx → Elt F .f32) (f0 : S270336.Idx → Elt F .f32) (P : S8448.Idx → Elt F .f32)
    (hP : ∀ j, P j = rowFn Lc tab j) (k : S270336.Idx) (hk : k ∈ partSet Lc) :
    (partM Lc).view.writes (Elt F) f0 [⟨Rect.whole S8448, P⟩] k = Cert.RelPos.strip tab k := by
  rw [mem_partSet] at hk
  have hj : (k 0).val - 8448 * tileNo Lc < 8448 := by omega
  obtain ⟨j, hjv⟩ : ∃ j : S8448.Idx, (j 0).val = (k 0).val - 8448 * tileNo Lc := ⟨ValueIdx.ix1 ⟨(k 0).val - 8448 * tileNo Lc, hj⟩, rfl⟩
  have hke : (partM Lc).view.emb ((Rect.whole S8448).emb j) = k := by
    funext a
    match a with
    | ⟨0, _⟩ =>
      apply Fin.ext
      rw [Rect.emb_whole_apply]
      have := partM_emb Lc j
      show ((partM Lc).view.emb j 0).val = (k 0).val
      rw [this, hjv]; omega
  have hw := View.read_writes_cons_emb (partM Lc).view f0 (Rect.whole S8448) P [] j
  rw [View.read_apply, cast_eq, hke] at hw
  rw [hw, hP]
  unfold rowFn Cert.RelPos.strip
  refine congrArg tab (congrArg ValueIdx.ix1 (Fin.ext ?_))
  show 256 * Cert.RelPos.stripRow (33 * tileNo Lc + (j 0).val / 256) + (j 0).val % 256
      = 256 * Cert.RelPos.stripRow ((k 0).val / 256) + (k 0).val % 256
  rw [hjv]
  have h1 : 33 * tileNo Lc + ((k 0).val - 8448 * tileNo Lc) / 256 = (k 0).val / 256 := by omega
  have h2 : ((k 0).val - 8448 * tileNo Lc) % 256 = (k 0).val % 256 := by omega
  rw [h1, h2]

end Value

section Win

variable (Lc : grid0.Coords)

/-- After the copy in, the first scratch holds the table's words from word 256 w on (`w` the window's first row). -/
theorem win_eq (tab : S16640.Idx → Elt F .f32) (fa : S8704.Idx → Elt F .f32) (m : S8704.Idx) :
    View.write (Elt F) (Memref.whole cc0_scratch0 : Memref sig .scVector .vmem S8704 .f32).view fa
        (((tabM).slice (Rect.unit (s := S16640) (k0_off1 Lc) S8704.size (k0_off1_inb Lc)) (fun _ => rfl)).view.read (Elt F) tab) Finset.univ m
      = tab (ValueIdx.ix1 ⟨256 * winRow Lc + (m 0).val, by
          have := winRow_le Lc; have : (m 0).val < 8704 := (m 0).isLt; omega⟩) := by
  show (View.whole cc0_scratch0).write (Elt F) fa _ Finset.univ m = _
  rw [View.write_whole_univ, View.read_apply, cast_eq]
  refine congrArg tab ?_
  funext a
  match a with
  | ⟨0, _⟩ =>
    apply Fin.ext
    show (k0_off1 Lc) 0 + 1 * (m 0).val = 256 * winRow Lc + (m 0).val
    rw [off1_eq]
    show 256 * winRow Lc + 1 * (m 0).val = _
    omega

end Win

section Chunk

variable (Lc : grid0.Coords)

/-- One block of sixteen words. If the window holds the table's words from word 256 w on (`w` the
    window's first row), the block read from the window at the program's own offset for row `c / 256`,
    block `c % 256 / 16`, is the block of `rowFn` at word `c` of the share: the row's table row lies
    in the window, 256 (t − w) words after its start. -/
theorem chunk_eq (tab : S16640.Idx → Elt F .f32) (A : S8704.Idx → Elt F .f32)
    (hA : ∀ m : S8704.Idx, A m = tab (ValueIdx.ix1 ⟨256 * winRow Lc + (m 0).val, by
      have := winRow_le Lc; have : (m 0).val < 8704 := (m 0).isLt; omega⟩))
    (a b : BitVec 32) (c : Nat)
    (inbL : ∀ a', (k0_off2 Lc a b) a' + S16.size a' ≤ S8704.size a')
    (inbS : ∀ a', (![c] : Fin 1 → Nat) a' + S16.size a' ≤ S8448.size a')
    (hc : c % 16 = 0) (ha : a = BitVec.ofNat 32 (c / 256)) (hb : b = BitVec.ofNat 32 (c % 256)) (x : S16.Idx) :
    shapeCast S16 (shapeCast S16 ((winM).view.readAt (Elt F) (Rect.unit (s := S8704) (k0_off2 Lc a b) S16.size inbL).toLoadRect A)
        shapeCasts_S16_S16) shapeCasts_S16_S16 x
      = rowFn Lc tab ((Rect.unit (s := S8448) ![c] S16.size inbS).emb x) := by
  subst ha hb
  have hx : (x 0).val < 16 := (x 0).isLt
  have hc8 : c + 16 ≤ 8448 := inbS 0
  have hr : c / 256 < 33 := by omega
  have hv : c % 256 / 16 < 16 := by omega
  have e : 16 * (c % 256 / 16) = c % 256 := by omega
  have h0 : k0_off2 Lc (BitVec.ofNat 32 (c / 256)) (BitVec.ofNat 32 (16 * (c % 256 / 16))) 0
      = 256 * (Cert.RelPos.stripRow (33 * tileNo Lc + c / 256) - winRow Lc) + 16 * (c % 256 / 16) :=
    congrFun (off2_eq Lc ⟨c / 256, hr⟩ ⟨c % 256 / 16, hv⟩) 0
  rw [e] at h0
  rw [shapeCast_apply _ _ x x rfl, shapeCast_apply _ _ x x rfl, View.readAt_apply, View.read_apply, cast_eq, hA]
  unfold rowFn
  refine congrArg tab (congrArg ValueIdx.ix1 (Fin.ext ?_))
  show 256 * winRow Lc + (k0_off2 Lc (BitVec.ofNat 32 (c / 256)) (BitVec.ofNat 32 (c % 256)) 0 + 1 * (x 0).val)
      = 256 * Cert.RelPos.stripRow (33 * tileNo Lc + (c + 1 * (x 0).val) / 256) + (c + 1 * (x 0).val) % 256
  rw [h0]
  have hle := winRow_le_stripRow Lc (c / 256)
  have hd : (c + 1 * (x 0).val) / 256 = c / 256 := by omega
  have hm : (c + 1 * (x 0).val) % 256 = c % 256 + (x 0).val := by omega
  rw [hd, hm]
  omega

end Chunk

section Pieces

variable (Lc : grid0.Coords)

/-- Block `n` of the second scratch (sixteen words from word 16 n) lies in it. -/
theorem pieceInb (n : Nat) (h : n < 528) : ∀ a', (![16 * n] : Fin 1 → ℕ) a' + S16.size a' ≤ S8448.size a' := by
  intro a'
  match a' with
  | ⟨0, _⟩ => show 16 * n + 16 ≤ 8448; omega

/-- The `n`-th piece written into the second scratch: block `n % 16` of row `n / 16`, read from the window
    (contents `A`) at the program's own offset, stored at word 16 n. -/
def pieceAt (A : S8704.Idx → Elt F .f32) (n : Nat) (h : n < 528) : View.Piece (Elt F) S8448 .f32 :=
  ⟨Rect.unit (s := S8448) ![16 * n] S16.size (pieceInb n h),
    shapeCast S16 (shapeCast S16 ((winM).view.readAt (Elt F)
      (Rect.unit (s := S8704) (k0_off2 Lc (BitVec.ofNat 32 (n / 16)) (BitVec.ofNat 32 (16 * (n % 16)))) S16.size
        (k0_off2_inb Lc ⟨n / 16, by omega⟩ ⟨n % 16, Nat.mod_lt _ (by decide)⟩)).toLoadRect A) shapeCasts_S16_S16) shapeCasts_S16_S16⟩

/-- The first `n` pieces, the last written first. -/
def piecesBelow (A : S8704.Idx → Elt F .f32) : (n : Nat) → n ≤ 528 → List (View.Piece (Elt F) S8448 .f32)
  | 0, _ => []
  | n + 1, h => pieceAt Lc A n (by omega) :: piecesBelow A n (by omega)

/-- Every one of them is a block of `rowFn`, when the window holds the table from its first row on. -/
theorem piecesBelow_spec (tab : S16640.Idx → Elt F .f32) (A : S8704.Idx → Elt F .f32)
    (hA : ∀ m : S8704.Idx, A m = tab (ValueIdx.ix1 ⟨256 * winRow Lc + (m 0).val, by
      have := winRow_le Lc; have : (m 0).val < 8704 := (m 0).isLt; omega⟩)) :
    ∀ (n : Nat) (h : n ≤ 528), ∀ p ∈ piecesBelow Lc A n h, ∀ x : p.1.shape.Idx, p.2 x = rowFn Lc tab (p.1.emb x)
  | 0, _ => fun p hp => absurd hp List.not_mem_nil
  | n + 1, h => fun p hp => by
    rcases List.mem_cons.mp hp with rfl | hp
    · intro x
      exact chunk_eq Lc tab A hA (BitVec.ofNat 32 (n / 16)) (BitVec.ofNat 32 (16 * (n % 16))) (16 * n)
        (k0_off2_inb Lc ⟨n / 16, by omega⟩ ⟨n % 16, Nat.mod_lt _ (by decide)⟩) (pieceInb n (by omega)) (by omega)
        (congrArg (BitVec.ofNat 32) (by omega)) (congrArg (BitVec.ofNat 32) (by omega)) x
    · exact piecesBelow_spec tab A hA n (by omega) p hp

end Pieces

section Share

variable (Lc : grid0.Coords)

/-- The second scratch written by pieces that are all blocks of `rowFn` and tile it, then copied whole
    onto the share: the share holds the strip. The pieces are read back as ONE function, never one by one. -/
theorem share_of_pieces (tab : S16640.Idx → Elt F .f32) (f0 : S270336.Idx → Elt F .f32) (fb : S8448.Idx → Elt F .f32)
    (L : List (View.Piece (Elt F) S8448 .f32))
    (hL : ∀ p ∈ L, ∀ x : p.1.shape.Idx, p.2 x = rowFn Lc tab (p.1.emb x))
    (hcov : View.Piece.tiledL L ![16] = true)
    (P1 : S8448.Idx → Elt F .f32) (hP1 : P1 = (rowsM).view.read (Elt F) ((rowsM).view.writes (Elt F) fb L)) :
    ∀ k ∈ partSet Lc, (partM Lc).view.writes (Elt F) f0 [⟨Rect.whole S8448, P1⟩] k = Cert.RelPos.strip tab k := by
  intro k hk
  refine strip_of_rows Lc tab f0 P1 (fun j => ?_) k hk
  rw [hP1]
  exact View.read_writes_apply_of_pieces (rowsM).view fb (rowFn Lc tab) L hL j (View.cover_of_tiledL L ![16] hcov j)

end Share

end Cert.KernelIdeal.Hand

end
-- ==== Proof.Ideal.TileValue.lean ====
/-
  What the run left on the subcore's share, read back: the strip.

  The run's witness is the share written whole with what the second scratch held, and the second scratch
  had been written by 528 pieces of sixteen words. The pieces the run listed ARE the 528 blocks of
  `piecesBelow` (one evaluation compares the two closed lists), each a block of ONE function of the
  scratch's index — word `j` is word `j % 256` of the table row that strip row 33 w + j / 256 holds — because
  the window copied first holds the table from its first row on; they tile the scratch (one more
  evaluation, on the rectangles alone); so the scratch reads back as that function, and the share written
  with it holds the strip.
-/
import proofs.«214700_g37623913513500_cont_8to1_b_1793_29_alg».proof.Proof.Ideal.TileRun
import proofs.«214700_g37623913513500_cont_8to1_b_1793_29_alg».proof.Proof.Ideal.TileMath
import Idealize.ShloMosaic.Lib.SparseCore.Launch
import Idealize.ShloMosaic.Lib.Transfers
import Idealize.ShloMosaic.Lib.Writes
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Value

local notation "𝕄" => MT nD τ sig (HIx 1) (Elt F) ℕ UU ℕ

variable (d : Dev nD) (Lc : grid0.Coords)

set_option maxRecDepth 65536

/-- What the run left on the share: the share written whole with what was copied out. The witness is the
    run's own term; the two sides are compared by evaluation. -/
theorem run_share [FloatOps F] (q : PosShare TreeShare) (tab : Buf (Elt F) (tabLoc d))
    (f0 : Buf (Elt F) (stripLoc d)) (fa : Buf (Elt F) ((thrV d Lc).loc cc0_scratch0)) (fb : Buf (Elt F) ((thrV d Lc).loc cc0_scratch1)) :
    (tileRun (F := F) d Lc q tab).1 f0 fa fb
      = (partM Lc).view.writes (Elt F) f0 [⟨Rect.whole S8448, tileRun.sl.dma1584 d Lc tab fa fb⟩] := by
  sl_kernel_rfl

/-- What was copied out is the second scratch read whole after its listed writes. -/
theorem run_copied [FloatOps F] (tab : Buf (Elt F) (tabLoc d))
    (fa : Buf (Elt F) ((thrV d Lc).loc cc0_scratch0)) (fb : Buf (Elt F) ((thrV d Lc).loc cc0_scratch1)) :
    tileRun.sl.dma1584 d Lc tab fa fb
      = (rowsM).view.read (Elt F) ((rowsM).view.writes (Elt F) fb (tileRun.sl.Hb'_528 d Lc tab fa)) := by
  delta tileRun.sl.dma1584
  exact ReadAs.apply_same _

/-- After the copy in the first scratch holds the table from the window's first row on: `win_eq` at the
    run's own name for what was copied. -/
theorem win_run [FloatOps F] (tab : Buf (Elt F) (tabLoc d)) (fa : Buf (Elt F) ((thrV d Lc).loc cc0_scratch0)) (m : S8704.Idx) :
    View.write (Elt F) (Memref.whole cc0_scratch0 : Memref sig .scVector .vmem S8704 .f32).view fa (tileRun.sl.dma0 d Lc tab) Finset.univ m
      = tab (ValueIdx.ix1 ⟨256 * winRow Lc + (m 0).val, by
          have := winRow_le Lc; have : (m 0).val < 8704 := (m 0).isLt; omega⟩) := by
  delta tileRun.sl.dma0
  rw [ReadAs.apply_same]
  exact win_eq Lc tab fa m

/-- The pieces the run listed for the second scratch are the 528 blocks of `piecesBelow`, over the first
    scratch as the copy in left it: both sides are closed lists over the same variables, compared by evaluation. -/
theorem run_pieces [FloatOps F] (tab : Buf (Elt F) (tabLoc d)) (fa : Buf (Elt F) ((thrV d Lc).loc cc0_scratch0)) :
    tileRun.sl.Hb'_528 d Lc tab fa
      = piecesBelow Lc (View.write (Elt F) (Memref.whole cc0_scratch0 : Memref sig .scVector .vmem S8704 .f32).view fa
          (tileRun.sl.dma0 d Lc tab) Finset.univ) 528 (Nat.le_refl _) := by
  sl_kernel_rfl

/-- They tile the scratch in blocks of sixteen words: decided on the rectangles alone. -/
theorem run_tiled [FloatOps F] (tab : Buf (Elt F) (tabLoc d)) (fa : Buf (Elt F) ((thrV d Lc).loc cc0_scratch0)) :
    View.Piece.tiledL (tileRun.sl.Hb'_528 d Lc tab fa) ![16] = true := by
  sl_kernel_rfl

/-- On the share's own words, what the run leaves is the strip laid out flat over the table. -/
theorem tileRun_strip [FloatOps F] (q : PosShare TreeShare) (tab : Buf (Elt F) (tabLoc d))
    (f0 : Buf (Elt F) (stripLoc d)) (fa : Buf (Elt F) ((thrV d Lc).loc cc0_scratch0)) (fb : Buf (Elt F) ((thrV d Lc).loc cc0_scratch1)) :
    ∀ k ∈ partSet Lc, (tileRun (F := F) d Lc q tab).1 f0 fa fb k = Cert.RelPos.strip tab k := by
  rw [run_share]
  refine share_of_pieces Lc tab f0 fb (tileRun.sl.Hb'_528 d Lc tab fa) ?_ (run_tiled d Lc tab fa) _ (run_copied d Lc tab fa fb)
  rw [run_pieces]
  exact piecesBelow_spec Lc tab _ (win_run d Lc tab fa) 528 (Nat.le_refl _)

end Value

end Cert.KernelIdeal.Hand

end
-- ==== Proof.Ideal.TileSpec.lean ====
/-
  The run's triple with its two ends spelt out: what the previous module folded into two definitions so
  that the executor met the held buffers untouched, unfolded again for the modules that use the run.
-/
import proofs.«214700_g37623913513500_cont_8to1_b_1793_29_alg».proof.Proof.Ideal.TileRun
import Idealize.ShloMosaic.Lib.SparseCore.Launch
import Idealize.ShloMosaic.Lib.Transfers
import Idealize.ShloMosaic.Lib.Writes
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

/-- The run's triple with its two ends spelt out. -/
theorem tileRun_spec [FloatOps F] (q : PosShare TreeShare) (tab : Buf (Elt F) (tabLoc d))
    (O : CellTallies nD τ sig (HIx 1)) (W : Waits sig (HIx 1)) (hO : ∀ g, O g none = 0)
    (f0 : Buf (Elt F) (stripLoc d)) (fa : Buf (Elt F) ((thrV d Lc).loc cc0_scratch0)) (fb : Buf (Elt F) ((thrV d Lc).loc cc0_scratch1))
    (Q : PUnit → sProp 𝕄) :
    iprop((levAts (K (F := F)).L (K (F := F)).lev
        ∗ ((tabM).view.loc (thrV d Lc) ↦{q} tab)
        ∗ ((partM Lc).view.loc (thrV d Lc) ↦[(partM Lc).view.set]{fullShare} f0)
        ∗ ((winM).view.loc (thrV d Lc) ↦{fullShare} fa)
        ∗ ((rowsM).view.loc (thrV d Lc) ↦{fullShare} fb)
        ∗ semVal (inCell d Lc) 0 ∗ semVal (outCell d Lc) 0
        ∗ owes (V d (cV Lc) (jV Lc)) O W)
      ∗ (iprop(((tabM).view.loc (thrV d Lc) ↦{q} tab)
          ∗ ((partM Lc).view.loc (thrV d Lc) ↦[(partM Lc).view.set]{fullShare} (tileRun (F := F) d Lc q tab).1 f0 fa fb)
          ∗ (∃ f, (winM).view.loc (thrV d Lc) ↦{fullShare} f)
          ∗ (∃ f, (rowsM).view.loc (thrV d Lc) ↦{fullShare} f)
          ∗ semVal (inCell d Lc) 0 ∗ semVal (outCell d Lc) 0
          ∗ owes (V d (cV Lc) (jV Lc)) O (insert (SemLoc.dma cc0_scoped1.sem, (default : HIx 1)) (insert (SemLoc.dma cc0_scoped0.sem, (default : HIx 1)) W)))
        -∗ Q ⟨⟩))
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          Q := by
  have h := (tileRun (F := F) d Lc q tab).2 O W hO f0 fa fb Q
  rw [runPre, runPost] at h
  exact h

end Tile

end Cert.KernelIdeal.Hand

end
-- ==== Proof.Ideal.TileBody.lean ====
/-
  The subcore's body at a symbolic grid point, with its value: from the table held at a share, the
  subcore's share of the strip held outright at anything, and what the launch hands every subcore (its own
  buffers and semaphores, what it owes), the body ends with the table as it was and the share holding the
  strip — the whole-array function, on the share's 8448 words. The run is the previous modules'; here its
  context is opened from the launch's spelling and closed again.
-/
import proofs.«214700_g37623913513500_cont_8to1_b_1793_29_alg».proof.Proof.Ideal.TileValue
import proofs.«214700_g37623913513500_cont_8to1_b_1793_29_alg».proof.Proof.Ideal.TileSpec
import Idealize.ShloMosaic.Lib.SparseCore.Launch
import Idealize.ShloMosaic.Lib.Transfers
import Idealize.ShloMosaic.Lib.Writes
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

theorem tile_body [FloatOps F] (q : PosShare TreeShare)
      (tab : Buf (Elt F) (tabLoc d)) (O : CellTallies nD τ sig (HIx 1)) (W : Waits sig (HIx 1)) (hO : ∀ g, O g none = 0) :
    (iprop(levAts (K (F := F)).L (K (F := F)).lev
        ∗ ((tabLoc d ↦{q} tab) ∗ ∃ f, stripLoc d ↦[partSet Lc]{fullShare} f)
        ∗ scopedBufs (V d (cV Lc) (jV Lc)) ∗ scopedSems0 (V d (cV Lc) (jV Lc)) ∗ owes (V d (cV Lc) (jV Lc)) O W) : sProp 𝕄)
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(((tabLoc d ↦{q} tab) ∗ stripLoc d ↦[partSet Lc]{fullShare} (Cert.RelPos.strip tab))
            ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W') := by
  rw [(K (F := F)).scopedBufs_V facts d (cV Lc) (jV Lc), SparseCore.Cfg.scopedSems0_V (Val := Elt F) d (cV Lc) (jV Lc),
    ownSems0_tile, ownBufs_tile]
  iintro ⟨#Hlv, ⟨Htab, %f0, Hout⟩, ⟨⟨%fa, Ha⟩, ⟨%fb, Hb⟩, Hbufs⟩, ⟨HsemA, HsemB, Hsems⟩, HO⟩
  iapply (tileRun_spec (F := F) d Lc q tab O W hO f0 fa fb _)
  isplitl [Htab Hout Ha Hb HsemA HsemB HO]
  · isplitr; · iexact Hlv
    isplitl [Htab]; · iapply (Entails.of_eq (pts_tab (F := F) d Lc q tab).symm); iexact Htab
    isplitl [Hout]; · iapply (Entails.of_eq (pts_part (F := F) d Lc f0).symm); iexact Hout
    isplitl [Ha]; · iexact Ha
    isplitl [Hb]; · iexact Hb
    isplitl [HsemA]; · iexact HsemA
    isplitl [HsemB]; · iexact HsemB
    iexact HO
  iintro ⟨Htab', Hout', ⟨%fa', Ha'⟩, ⟨%fb', Hb'⟩, HsemA, HsemB, HO⟩
  isplitl [Htab' Hout']
  · isplitl [Htab']
    · iapply (Entails.of_eq (pts_tab (F := F) d Lc q tab)); iexact Htab'
    · iapply (Entails.of_eq ((pts_part (F := F) d Lc _).trans (pointsTo_congr (tileRun_strip (F := F) d Lc q tab f0 fa fb))))
      iexact Hout'
  isplitl [Ha' Hb' Hbufs]
  · isplitl [Ha']
    · iexists _; iexact Ha'
    isplitl [Hb']
    · iexists _; iexact Hb'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Tile

end Cert.KernelIdeal.Hand

end
-- ==== Proof.Ideal.TcPieces.lean ====
import proofs.«214700_g37623913513500_cont_8to1_b_1793_29_alg».proof.Proof.Ideal.TcData
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

/-! ## The strip's slabs and the result's blocks, entry by entry

Every statement here is over an arbitrary strip `X` and plain index arithmetic: a load through a unit-stride rectangle
reads the buffer at offset + index, and the two shape casts around each load only add or drop a leading axis of
extent one. -/

open ValueIdx in
theorem ix2_congr {n0 n1 : ℕ} {a a' : Fin n0} {b b' : Fin n1} (ha : a.val = a'.val) (hb : b.val = b'.val) :
    ix2 a b = ix2 a' b' := by
  rw [Fin.ext ha, Fin.ext hb]

/-- Entry `y` of the slabs is the strip's entry `(y₀ + y₁, y₂)`. -/
theorem slabs_eq {α : Type} (X : S1056x256.Idx → α) (y : S8x1024x256.Idx) (g : S1056x256.Idx)
    (h0 : (g 0).val = (y 0).val + (y 1).val) (h1 : (g 1).val = (y 2).val) : slabs X y = X g := by
  unfold slabs
  refine congrArg X (funext fun a => ?_)
  match a with
  | ⟨0, _⟩ => exact Fin.ext h0.symm
  | ⟨1, _⟩ => exact Fin.ext h1.symm

/-- Entry `j` of block `t` of the result is the strip's entry `(511 − (8 t + j₀) + j₁, j₂)`. -/
theorem outBlk_eq {α : Type} (X : S1056x256.Idx → α) (t : ℕ) (j : S8x512x256.Idx) (g : S1056x256.Idx)
    (h0 : (g 0).val = 511 - (8 * t + (j 0).val) + (j 1).val) (h1 : (g 1).val = (j 2).val) : outBlk X t j = X g := by
  unfold outBlk
  refine congrArg X (funext fun a => ?_)
  have hg : (g 0).val < 1056 := (g 0).isLt
  match a with
  | ⟨0, _⟩ => exact Fin.ext (by show (511 - (8 * t + (j 0).val) + (j 1).val) % 1056 = (g 0).val; rw [← h0, Nat.mod_eq_of_lt hg])
  | ⟨1, _⟩ => exact Fin.ext h1.symm

/-- A vector cast to its own shape and then given a leading unit axis reads, at `(u, i, j)`, the vector at `(i, j)`. -/
theorem cast_ab_1ab {α : Type} {a b : ℕ} (v : (⟨2, ![a, b]⟩ : Shape).Idx → α)
    (h : (⟨2, ![a, b]⟩ : Shape).ShapeCasts ⟨2, ![a, b]⟩) (h' : (⟨2, ![a, b]⟩ : Shape).ShapeCasts ⟨3, ![1, a, b]⟩)
    (x : (⟨3, ![1, a, b]⟩ : Shape).Idx) :
    shapeCast ⟨3, ![1, a, b]⟩ (shapeCast ⟨2, ![a, b]⟩ v h) h' x = v (ValueIdx.ix2 (x 1) (x 2)) := by
  rw [shapeCast_self]
  have hx : x = ValueIdx.ix3 (x 0) (x 1) (x 2) := funext fun c => by
    match c with
    | ⟨0, _⟩ => rfl
    | ⟨1, _⟩ => rfl
    | ⟨2, _⟩ => rfl
  rw [hx]
  exact ValueIdx.shapeCast_ab_1ab_apply v h' (x 0) (x 1) (x 2)

/-- A vector with a leading unit axis, the axis dropped and restored, is the vector. -/
theorem cast_1ab_ab_1ab {α : Type} {a b : ℕ} (v : (⟨3, ![1, a, b]⟩ : Shape).Idx → α)
    (h : (⟨3, ![1, a, b]⟩ : Shape).ShapeCasts ⟨2, ![a, b]⟩) (h' : (⟨2, ![a, b]⟩ : Shape).ShapeCasts ⟨3, ![1, a, b]⟩)
    (x : (⟨3, ![1, a, b]⟩ : Shape).Idx) :
    shapeCast ⟨3, ![1, a, b]⟩ (shapeCast ⟨2, ![a, b]⟩ v h) h' x = v x :=
  congrFun (shapeCast_shapeCast v h h') x

/-- SLAB `k` OF THE SCRATCH: rows `k … k + 1023` of the strip, loaded as one 1024 × 256 vector and stored with a
    leading unit axis at slab `k`, are the slabs' entries there. -/
theorem scrPiece (X : Vec F S1056x256 .f32) (k : ℕ) (hk : k < 8)
    (inb : ∀ a, (![k, 0] : Fin 2 → ℕ) a + S1024x256.size a ≤ S1056x256.size a)
    (inb' : ∀ a, (![k, 0, 0] : Fin 3 → ℕ) a + S1x1024x256.size a ≤ S8x1024x256.size a)
    (h : S1024x256.ShapeCasts S1024x256) (h' : S1024x256.ShapeCasts S1x1024x256) (x : S1x1024x256.Idx) :
    shapeCast S1x1024x256 (shapeCast S1024x256 (View.ld (Val := Elt F) X (Rect.unit (s := S1056x256) ![k, 0] S1024x256.size inb)) h) h' x
      = slabs X ((Rect.unit (s := S8x1024x256) ![k, 0, 0] S1x1024x256.size inb').emb x) := by
  have h0 : (x 0).val < 1 := (x 0).isLt
  refine (cast_ab_1ab (a := 1024) (b := 256) (View.ld (Val := Elt F) X (Rect.unit (s := S1056x256) ![k, 0] S1024x256.size inb)) h h' x).trans ?_
  symm
  refine slabs_eq X _ _ ?_ ?_
  · show k + 1 * (x 1).val = (k + 1 * (x 0).val) + (0 + 1 * (x 1).val)
    omega
  · show 0 + 1 * (x 2).val = 0 + 1 * (x 2).val
    rfl

/-- ROW `r` OF BLOCK `t`: the 512 × 256 window of slab `7 − r` starting at row `504 − 8 t`, loaded with its leading unit
    axis, dropped and restored, and stored at row `r` of the block, is the block's entries there. -/
theorem outPiece (X : Vec F S1056x256 .f32) (fs : Vec F S8x1024x256 .f32) (hfs : ∀ y, fs y = slabs X y)
    (off : Fin 3 → ℕ) (r t : ℕ) (hr : r < 8) (ht : t < 64) (hoff : off = ![7 - r, 504 - 8 * t, 0])
    (inb : ∀ a, off a + S1x512x256.size a ≤ S8x1024x256.size a)
    (inb' : ∀ a, (![r, 0, 0] : Fin 3 → ℕ) a + S1x512x256.size a ≤ S8x512x256.size a)
    (h : S1x512x256.ShapeCasts S512x256) (h' : S512x256.ShapeCasts S1x512x256) (x : S1x512x256.Idx) :
    shapeCast S1x512x256 (shapeCast S512x256 (View.ld (Val := Elt F) fs (Rect.unit (s := S8x1024x256) off S1x512x256.size inb)) h) h' x
      = outBlk X t ((Rect.unit (s := S8x512x256) ![r, 0, 0] S1x512x256.size inb').emb x) := by
  subst hoff
  refine (cast_1ab_ab_1ab (a := 512) (b := 256) (View.ld (Val := Elt F) fs (Rect.unit (s := S8x1024x256) ![7 - r, 504 - 8 * t, 0] S1x512x256.size inb)) h h' x).trans ?_
  have h0 : (x 0).val < 1 := (x 0).isLt
  have h1 : (x 1).val < 512 := (x 1).isLt
  show fs _ = _
  rw [hfs]
  refine (slabs_eq X _ (ValueIdx.ix2 ⟨511 - (8 * t + r) + (x 1).val, by omega⟩ (x 2)) ?_ ?_).trans
    (outBlk_eq X t _ (ValueIdx.ix2 ⟨511 - (8 * t + r) + (x 1).val, by omega⟩ (x 2)) ?_ ?_).symm
  · show 511 - (8 * t + r) + (x 1).val = ((7 - r) + 1 * (x 0).val) + ((504 - 8 * t) + 1 * (x 1).val)
    omega
  · show (x 2).val = 0 + 1 * (x 2).val
    omega
  · show 511 - (8 * t + r) + (x 1).val = 511 - (8 * t + (r + 1 * (x 0).val)) + (0 + 1 * (x 1).val)
    omega
  · show (x 2).val = 0 + 1 * (x 2).val
    omega

end Cert.KernelIdeal.Hand

end
-- ==== Proof.Ideal.TcBodyN.lean ====
import proofs.«214700_g37623913513500_cont_8to1_b_1793_29_alg».proof.Proof.Ideal.TcPieces
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

/-- The kernel's branch condition, over the grid: it holds at the first point only. -/
theorem tc_cond : ∀ i : grid1.Coords,
    (Scalar.cmpi .ne (Scalar.extui (Scalar.cmpi .eq (BitVec.ofNat 32 (i 0).val) 0#32)) 0#32 = 1#1) ↔ (i 0).val = 0 := by decide +kernel

set_option maxHeartbeats 1600000 in
/-- THE BODY AT A LATER POINT. The branch is not taken; each of the eight stores writes row `r` of the block from slab
    `7 − r` of the scratch, which holds the strip's slabs and is left as it was. -/
theorem tc_runN (c : Dev nD) (i : grid1.Coords) (hi : (i 0).val ≠ 0)
    (M1 : Memref sig .tc .vmem S1056x256 .f32) (h1 : M1.IsWhole) (M2 : Memref sig .tc .vmem S8x512x256 .f32) (h2 : M2.IsWhole)
    (X : Vec F S1056x256 .f32)
    (f1 : Buf (Elt F) (M1.view.loc (SparseCore.T c))) (f2 : Buf (Elt F) (M2.view.loc (SparseCore.T c))) (Q : PUnit → sProp 𝕄) :
    iprop((M1.view.loc (SparseCore.T c) ↦[M1.view.set]{fullShare} f1) ∗ (M2.view.loc (SparseCore.T c) ↦[M2.view.set]{fullShare} f2)
      ∗ ((Memref.whole cc1_scratch0).view.loc (SparseCore.T c) ↦{fullShare} (slabs X : Buf (Elt F) ((Memref.whole cc1_scratch0).view.loc (SparseCore.T c))))
      ∗ (iprop((M1.view.loc (SparseCore.T c) ↦[M1.view.set]{fullShare} f1) ∗ owns (SparseCore.T c) M2 fullShare (outBlk X (i 0).val)
          ∗ ((Memref.whole cc1_scratch0).view.loc (SparseCore.T c) ↦{fullShare} (slabs X : Buf (Elt F) ((Memref.whole cc1_scratch0).view.loc (SparseCore.T c))))) -∗ Q ⟨⟩))
    ⊢ wp frame (wpE (defs₀ (F := F)) 𝒱₀ (SparseCore.T c) none) Set.univ
        (cc1__tc_stream i M1 h1 M2 h2 (Memref.whole cc1_scratch0) (Memref.isWhole_whole _)) Q := by
  have hc : ¬ (Scalar.cmpi .ne (Scalar.extui (Scalar.cmpi .eq (BitVec.ofNat 32 (i 0).val) 0#32)) 0#32 = 1#1) := fun h => hi ((tc_cond i).mp h)
  have ht : (i 0).val < 64 := (i 0).isLt
  rw [cc1__tc_stream_eq_skeleton]; unfold cc1__tc_stream_skel
  iintro ⟨H1, H2, Hs, Hk⟩
  sl_exec
  sl_step
  iapply Hk
  isplitl [H1]; · iexact H1
  isplitr [Hs]; swap; · iexact Hs
  unfold owns; iexists _; isplitr; swap; · iexact H2
  ipureintro
  funext y
  refine View.read_writes_apply_of_pieces _ _ (outBlk X (i 0).val) _ ?_ y (View.cover_of_tiledL (s := S8x512x256) _ S1x512x256.size (by sl_kernel_rfl) y)
  intro p hp
  simp only [List.mem_cons, List.mem_nil_iff, or_false] at hp
  rcases hp with rfl | rfl | rfl | rfl | rfl | rfl | rfl | rfl <;> intro x
  · exact outPiece X (slabs X) (fun _ => rfl) (k1_off8 i) 7 (i 0).val (by omega) ht (k1_off8_eq i) (Gen.k1_off8_inb i) Gen.inb_S8x512x256_S1x512x256_7_0_0 Gen.shapeCasts_S1x512x256_S512x256 Gen.shapeCasts_S512x256_S1x512x256 x
  · exact outPiece X (slabs X) (fun _ => rfl) (k1_off7 i) 6 (i 0).val (by omega) ht (k1_off7_eq i) (Gen.k1_off7_inb i) Gen.inb_S8x512x256_S1x512x256_6_0_0 Gen.shapeCasts_S1x512x256_S512x256 Gen.shapeCasts_S512x256_S1x512x256 x
  · exact outPiece X (slabs X) (fun _ => rfl) (k1_off6 i) 5 (i 0).val (by omega) ht (k1_off6_eq i) (Gen.k1_off6_inb i) Gen.inb_S8x512x256_S1x512x256_5_0_0 Gen.shapeCasts_S1x512x256_S512x256 Gen.shapeCasts_S512x256_S1x512x256 x
  · exact outPiece X (slabs X) (fun _ => rfl) (k1_off5 i) 4 (i 0).val (by omega) ht (k1_off5_eq i) (Gen.k1_off5_inb i) Gen.inb_S8x512x256_S1x512x256_4_0_0 Gen.shapeCasts_S1x512x256_S512x256 Gen.shapeCasts_S512x256_S1x512x256 x
  · exact outPiece X (slabs X) (fun _ => rfl) (k1_off4 i) 3 (i 0).val (by omega) ht (k1_off4_eq i) (Gen.k1_off4_inb i) Gen.inb_S8x512x256_S1x512x256_3_0_0 Gen.shapeCasts_S1x512x256_S512x256 Gen.shapeCasts_S512x256_S1x512x256 x
  · exact outPiece X (slabs X) (fun _ => rfl) (k1_off3 i) 2 (i 0).val (by omega) ht (k1_off3_eq i) (Gen.k1_off3_inb i) Gen.inb_S8x512x256_S1x512x256_2_0_0 Gen.shapeCasts_S1x512x256_S512x256 Gen.shapeCasts_S512x256_S1x512x256 x
  · exact outPiece X (slabs X) (fun _ => rfl) (k1_off2 i) 1 (i 0).val (by omega) ht (k1_off2_eq i) (Gen.k1_off2_inb i) Gen.inb_S8x512x256_S1x512x256_1_0_0 Gen.shapeCasts_S1x512x256_S512x256 Gen.shapeCasts_S512x256_S1x512x256 x
  · exact outPiece X (slabs X) (fun _ => rfl) (k1_off1 i) 0 (i 0).val (by omega) ht (k1_off1_eq i) (Gen.k1_off1_inb i) Gen.inb_S8x512x256_S1x512x256_0_0_0 Gen.shapeCasts_S1x512x256_S512x256 Gen.shapeCasts_S512x256_S1x512x256 x

end Cert.KernelIdeal.Hand

end
-- ==== Proof.Ideal.TcBody0.lean ====
import proofs.«214700_g37623913513500_cont_8to1_b_1793_29_alg».proof.Proof.Ideal.TcPieces
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

/-- The kernel's branch condition at the first point. -/
theorem tc_cond0 : ∀ i : grid1.Coords, (i 0).val = 0 →
    Scalar.cmpi .ne (Scalar.extui (Scalar.cmpi .eq (BitVec.ofNat 32 (i 0).val) 0#32)) 0#32 = 1#1 := by decide +kernel

/-- `outPiece` for a load through any view of a buffer whose contents READ the strip's slabs. -/
theorem outPieceAt {κ : Kind} {sp : Space} (v : View sig κ sp S8x1024x256 .f32) (g : v.ty.Contents (Elt F)) (X : Vec F S1056x256 .f32)
    (hfs : ∀ y, v.read (Elt F) g y = slabs X y)
    (off : Fin 3 → ℕ) (r t : ℕ) (hr : r < 8) (ht : t < 64) (hoff : off = ![7 - r, 504 - 8 * t, 0])
    (inb : ∀ a, off a + S1x512x256.size a ≤ S8x1024x256.size a)
    (inb' : ∀ a, (![r, 0, 0] : Fin 3 → ℕ) a + S1x512x256.size a ≤ S8x512x256.size a)
    (h : S1x512x256.ShapeCasts S512x256) (h' : S512x256.ShapeCasts S1x512x256) (x : S1x512x256.Idx) :
    shapeCast S1x512x256 (shapeCast S512x256 (v.readAt (Elt F) (Rect.unit (s := S8x1024x256) off S1x512x256.size inb).toLoadRect g) h) h' x
      = outBlk X t ((Rect.unit (s := S8x512x256) ![r, 0, 0] S1x512x256.size inb').emb x) :=
  outPiece X (v.read (Elt F) g) hfs off r t hr ht hoff inb inb' h h' x

set_option maxHeartbeats 3200000 in
/-- THE BODY AT THE FIRST POINT. The branch is taken: the eight stores into the scratch write the strip's eight slabs over
    whatever it held; then, as at every point, the eight stores into the block read those slabs back. -/
theorem tc_run0 (c : Dev nD) (i : grid1.Coords) (hi : (i 0).val = 0)
    (M1 : Memref sig .tc .vmem S1056x256 .f32) (h1 : M1.IsWhole) (M2 : Memref sig .tc .vmem S8x512x256 .f32) (h2 : M2.IsWhole)
    (f1 : Buf (Elt F) (M1.view.loc (SparseCore.T c))) (f2 : Buf (Elt F) (M2.view.loc (SparseCore.T c)))
    (fs : Buf (Elt F) ((Memref.whole cc1_scratch0).view.loc (SparseCore.T c))) (Q : PUnit → sProp 𝕄) :
    iprop((M1.view.loc (SparseCore.T c) ↦[M1.view.set]{fullShare} f1) ∗ (M2.view.loc (SparseCore.T c) ↦[M2.view.set]{fullShare} f2)
      ∗ ((Memref.whole cc1_scratch0).view.loc (SparseCore.T c) ↦{fullShare} fs)
      ∗ (iprop((M1.view.loc (SparseCore.T c) ↦[M1.view.set]{fullShare} f1)
          ∗ owns (SparseCore.T c) M2 fullShare (outBlk (M1.view.read (Elt F) f1) (i 0).val)
          ∗ (∃ g : Buf (Elt F) ((Memref.whole cc1_scratch0).view.loc (SparseCore.T c)), ⌜g = slabs (M1.view.read (Elt F) f1)⌝
              ∗ ((Memref.whole cc1_scratch0).view.loc (SparseCore.T c) ↦{fullShare} g))) -∗ Q ⟨⟩))
    ⊢ wp frame (wpE (defs₀ (F := F)) 𝒱₀ (SparseCore.T c) none) Set.univ
        (cc1__tc_stream i M1 h1 M2 h2 (Memref.whole cc1_scratch0) (Memref.isWhole_whole _)) Q := by
  have hc : (Scalar.cmpi .ne (Scalar.extui (Scalar.cmpi .eq (BitVec.ofNat 32 (i 0).val) 0#32)) 0#32 = 1#1) := tc_cond0 i hi
  have ht : (i 0).val < 64 := (i 0).isLt
  rw [cc1__tc_stream_eq_skeleton]; unfold cc1__tc_stream_skel
  iintro ⟨H1, H2, Hs, Hk⟩
  sl_exec
  sl_step
  -- the scratch after the eight stores: the strip's slabs, entry by entry
  have hS : ∀ y, (Memref.whole cc1_scratch0).view.read (Elt F)
      ((Memref.whole cc1_scratch0).view.writes (Elt F) (Memref.whole cc1_scratch0).view.junk (tc_run0.sl.Hs_8 c M1 f1)) y
        = slabs (M1.view.read (Elt F) f1) y := by
    intro y
    refine View.read_writes_apply_of_pieces _ _ (slabs (M1.view.read (Elt F) f1)) _ ?_ y
      (View.cover_of_tiledL (s := S8x1024x256) _ S1x1024x256.size (by sl_kernel_rfl) y)
    intro p hp
    unfold tc_run0.sl.Hs_8 at hp
    simp only [List.mem_cons, List.mem_nil_iff, _root_.or_false] at hp
    rcases hp with rfl | rfl | rfl | rfl | rfl | rfl | rfl | rfl <;> intro x
    · exact scrPiece (M1.view.read (Elt F) f1) 7 (by omega) Gen.inb_S1056x256_S1024x256_7_0 Gen.inb_S8x1024x256_S1x1024x256_7_0_0 Gen.shapeCasts_S1024x256_S1024x256 Gen.shapeCasts_S1024x256_S1x1024x256 x
    · exact scrPiece (M1.view.read (Elt F) f1) 6 (by omega) Gen.inb_S1056x256_S1024x256_6_0 Gen.inb_S8x1024x256_S1x1024x256_6_0_0 Gen.shapeCasts_S1024x256_S1024x256 Gen.shapeCasts_S1024x256_S1x1024x256 x
    · exact scrPiece (M1.view.read (Elt F) f1) 5 (by omega) Gen.inb_S1056x256_S1024x256_5_0 Gen.inb_S8x1024x256_S1x1024x256_5_0_0 Gen.shapeCasts_S1024x256_S1024x256 Gen.shapeCasts_S1024x256_S1x1024x256 x
    · exact scrPiece (M1.view.read (Elt F) f1) 4 (by omega) Gen.inb_S1056x256_S1024x256_4_0 Gen.inb_S8x1024x256_S1x1024x256_4_0_0 Gen.shapeCasts_S1024x256_S1024x256 Gen.shapeCasts_S1024x256_S1x1024x256 x
    · exact scrPiece (M1.view.read (Elt F) f1) 3 (by omega) Gen.inb_S1056x256_S1024x256_3_0 Gen.inb_S8x1024x256_S1x1024x256_3_0_0 Gen.shapeCasts_S1024x256_S1024x256 Gen.shapeCasts_S1024x256_S1x1024x256 x
    · exact scrPiece (M1.view.read (Elt F) f1) 2 (by omega) Gen.inb_S1056x256_S1024x256_2_0 Gen.inb_S8x1024x256_S1x1024x256_2_0_0 Gen.shapeCasts_S1024x256_S1024x256 Gen.shapeCasts_S1024x256_S1x1024x256 x
    · exact scrPiece (M1.view.read (Elt F) f1) 1 (by omega) Gen.inb_S1056x256_S1024x256_1_0 Gen.inb_S8x1024x256_S1x1024x256_1_0_0 Gen.shapeCasts_S1024x256_S1024x256 Gen.shapeCasts_S1024x256_S1x1024x256 x
    · exact scrPiece (M1.view.read (Elt F) f1) 0 (by omega) Gen.inb_S1056x256_S1024x256_0_0 Gen.inb_S8x1024x256_S1x1024x256_0_0_0 Gen.shapeCasts_S1024x256_S1024x256 Gen.shapeCasts_S1024x256_S1x1024x256 x
  -- from here on the scratch's contents are a name: every later load reads them through that name
  sl_unfold_run_names
  revert hS
  unfold tc_run0.sl.Hs_8
  sl_unfold_run_names
  generalize (Memref.whole cc1_scratch0).view.writes (Elt F) (Memref.whole cc1_scratch0).view.junk _ = W
  intro hS
  have hS' : W = (slabs (M1.view.read (Elt F) f1) : S8x1024x256.Idx → Elt F .f32) := funext hS
  iapply Hk
  isplitl [H1]; · iexact H1
  isplitr [Hs]; swap
  · iexists _; isplitr; swap; · iexact Hs
    ipureintro; exact hS'
  unfold owns; iexists _; isplitr; swap; · iexact H2
  ipureintro
  funext y
  refine View.read_writes_apply_of_pieces _ _ (outBlk (M1.view.read (Elt F) f1) (i 0).val) _ ?_ y
    (View.cover_of_tiledL (s := S8x512x256) _ S1x512x256.size (by sl_kernel_rfl) y)
  intro p hp
  simp only [List.mem_cons, List.mem_nil_iff, _root_.or_false] at hp
  rcases hp with rfl | rfl | rfl | rfl | rfl | rfl | rfl | rfl <;> intro x
  · exact outPieceAt (Memref.whole cc1_scratch0).view W (M1.view.read (Elt F) f1) hS (k1_off8 i) 7 (i 0).val (by omega) ht (k1_off8_eq i) (Gen.k1_off8_inb i) Gen.inb_S8x512x256_S1x512x256_7_0_0 Gen.shapeCasts_S1x512x256_S512x256 Gen.shapeCasts_S512x256_S1x512x256 x
  · exact outPieceAt (Memref.whole cc1_scratch0).view W (M1.view.read (Elt F) f1) hS (k1_off7 i) 6 (i 0).val (by omega) ht (k1_off7_eq i) (Gen.k1_off7_inb i) Gen.inb_S8x512x256_S1x512x256_6_0_0 Gen.shapeCasts_S1x512x256_S512x256 Gen.shapeCasts_S512x256_S1x512x256 x
  · exact outPieceAt (Memref.whole cc1_scratch0).view W (M1.view.read (Elt F) f1) hS (k1_off6 i) 5 (i 0).val (by omega) ht (k1_off6_eq i) (Gen.k1_off6_inb i) Gen.inb_S8x512x256_S1x512x256_5_0_0 Gen.shapeCasts_S1x512x256_S512x256 Gen.shapeCasts_S512x256_S1x512x256 x
  · exact outPieceAt (Memref.whole cc1_scratch0).view W (M1.view.read (Elt F) f1) hS (k1_off5 i) 4 (i 0).val (by omega) ht (k1_off5_eq i) (Gen.k1_off5_inb i) Gen.inb_S8x512x256_S1x512x256_4_0_0 Gen.shapeCasts_S1x512x256_S512x256 Gen.shapeCasts_S512x256_S1x512x256 x
  · exact outPieceAt (Memref.whole cc1_scratch0).view W (M1.view.read (Elt F) f1) hS (k1_off4 i) 3 (i 0).val (by omega) ht (k1_off4_eq i) (Gen.k1_off4_inb i) Gen.inb_S8x512x256_S1x512x256_3_0_0 Gen.shapeCasts_S1x512x256_S512x256 Gen.shapeCasts_S512x256_S1x512x256 x
  · exact outPieceAt (Memref.whole cc1_scratch0).view W (M1.view.read (Elt F) f1) hS (k1_off3 i) 2 (i 0).val (by omega) ht (k1_off3_eq i) (Gen.k1_off3_inb i) Gen.inb_S8x512x256_S1x512x256_2_0_0 Gen.shapeCasts_S1x512x256_S512x256 Gen.shapeCasts_S512x256_S1x512x256 x
  · exact outPieceAt (Memref.whole cc1_scratch0).view W (M1.view.read (Elt F) f1) hS (k1_off2 i) 1 (i 0).val (by omega) ht (k1_off2_eq i) (Gen.k1_off2_inb i) Gen.inb_S8x512x256_S1x512x256_1_0_0 Gen.shapeCasts_S1x512x256_S512x256 Gen.shapeCasts_S512x256_S1x512x256 x
  · exact outPieceAt (Memref.whole cc1_scratch0).view W (M1.view.read (Elt F) f1) hS (k1_off1 i) 0 (i 0).val (by omega) ht (k1_off1_eq i) (Gen.k1_off1_inb i) Gen.inb_S8x512x256_S1x512x256_0_0_0 Gen.shapeCasts_S1x512x256_S512x256 Gen.shapeCasts_S512x256_S1x512x256 x

end Cert.KernelIdeal.Hand

end
-- ==== Proof.Ideal.TcBody.lean ====
import proofs.«214700_g37623913513500_cont_8to1_b_1793_29_alg».proof.Proof.Ideal.TcBodyN
import proofs.«214700_g37623913513500_cont_8to1_b_1793_29_alg».proof.Proof.Ideal.TcBody0
import Idealize.ShloMosaic.Lib.Pipeline.FrameBody
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

theorem tc_coord : ∀ t : Fin grid1.N, ((grid1.coords t) 0).val = t.val := by decide +kernel
theorem tc_index0 : ∀ t : Fin grid1.N, win1_0.index t = ![0, 0] := by decide +kernel

section
variable (rows : (c : Dev nD) → Buf (Elt F) (rowsLoc c)) (out₀ : (c : Dev nD) → Buf (Elt F) (outLoc c))
  (O : Dev nD → CellTallies nD τ sig (HIx 1))

/-- Window 0's one block is the whole strip. -/
theorem tc_blk0 (c : Dev nD) (t : Fin cfg1.N) :
    ((cfg1.win (0 : Fin 2)).blk t).view.read (Elt F) (rows c) = (rows c : S1056x256.Idx → Elt F .f32) := by
  have hz : (fun a => win1_0.index t a * main_v2.ty.shape.size a) = fun _ => 0 := funext fun a => by
    rw [tc_index0]
    match a with
    | ⟨0, _⟩ => rfl
    | ⟨1, _⟩ => rfl
  exact Memref.read_access_unit_zero (Elt F) main_v2 hz (fun a => by rw [congrFun hz a]; simp) (rows c)

/-- The strip's staging buffer holds the strip at every point: fetched at the first, kept since. -/
theorem tc_before0 (c : Dev nD) (t : Fin cfg1.N) (d : (cfg1.win (0 : Fin 2)).block.Idx → Elt F (cfg1.win (0 : Fin 2)).elt) :
    (tcDats rows out₀ O 0 c).before (0 : Fin 2) t d = (rows c : S1056x256.Idx → Elt F .f32) := by
  have hA : (tcDats rows out₀ O 0 c).A (0 : Fin 2) = rows c := by dsimp only [tcDats]
  have hafter : ∀ t, (tcDats rows out₀ O 0 c).after (0 : Fin 2) t = (rows c : S1056x256.Idx → Elt F .f32) := fun t => by dsimp only [tcDats]
  refine ((tcDats rows out₀ O 0 c).before_in_eq_fetched (0 : Fin 2) rfl (fun _ => rfl) (fun _ _ _ => rfl) (fun t => ?_) t d).trans ?_
  · rw [hafter]; unfold Dat.blockOf; rw [hA]; exact (tc_blk0 rows c t).symm
  · unfold Dat.fetched Dat.blockOf; rw [hA]; exact tc_blk0 rows c t

/-- The result's staging buffer holds anything when the body runs: every point writes it back. -/
theorem tc_before1 (c : Dev nD) (t : Fin cfg1.N) (d : (cfg1.win (1 : Fin 2)).block.Idx → Elt F (cfg1.win (1 : Fin 2)).elt) :
    (tcDats rows out₀ O 0 c).before (1 : Fin 2) t d = d :=
  (tcDats rows out₀ O 0 c).before_out_reset (1 : Fin 2) rfl t
    (by by_cases h : t.val = 0
        · exact .inl h
        · exact .inr ⟨h, flush1_1 _⟩) d

set_option maxHeartbeats 1600000 in
/-- THE BODY OBLIGATION, at every point: the first point by the run that fills the scratch, the others by the run that reads it. -/
theorem tc_body (c : Dev nD) : Pipeline.BodyObligationLoose (tcDats rows out₀ O 0 c) (defs₀ (F := F)) 𝒱₀ (none : HIx 1) Set.univ := fun t => by
  rw [bigSep_W1, bigSep_W1]
  show iprop((tcDats rows out₀ O 0 c).Φ t.castSucc ∗ (tcDats rows out₀ O 0 c).owesAt (none : HIx 1) t.castSucc
      ∗ (∃ d, owns (SparseCore.T c) (st1_0 t) fullShare ((tcDats rows out₀ O 0 c).before (0 : Fin 2) t d))
      ∗ (∃ d, owns (SparseCore.T c) (st1_1 t) fullShare ((tcDats rows out₀ O 0 c).before (1 : Fin 2) t d)))
    ⊢ wp frame (wpE (defs₀ (F := F)) 𝒱₀ (SparseCore.T c) none) Set.univ (bodyAt1 t) fun _ =>
      iprop((tcDats rows out₀ O 0 c).Φ t.succ ∗ (tcDats rows out₀ O 0 c).owesAt (none : HIx 1) t.castSucc
        ∗ owns (SparseCore.T c) (st1_0 t) fullShare ((tcDats rows out₀ O 0 c).after (0 : Fin 2) t)
        ∗ owns (SparseCore.T c) (st1_1 t) fullShare ((tcDats rows out₀ O 0 c).after (1 : Fin 2) t))
  have ha0 : (tcDats rows out₀ O 0 c).after (0 : Fin 2) t = (rows c : S1056x256.Idx → Elt F .f32) := by dsimp only [tcDats]
  have ha1 : (tcDats rows out₀ O 0 c).after (1 : Fin 2) t = outBlk (rows c : S1056x256.Idx → Elt F .f32) t.val := by dsimp only [tcDats]
  have hco : ((grid1.coords t) 0).val = t.val := tc_coord t
  rw [ha0, ha1, tcDats_Phi, tcDats_Phi, show (t.succ : Fin (cfg1.N + 1)).val = t.val + 1 from rfl, PhiT_succ,
    show (t.castSucc : Fin (cfg1.N + 1)).val = t.val from rfl]
  unfold owns
  by_cases hz : t.val = 0
  · rw [hz, PhiT_zero]
    iintro ⟨⟨%fs, Hs⟩, HO, ⟨%d0, %f0, %hf0, H0⟩, ⟨%d1, %f1, %hf1, H1⟩⟩
    rw [tc_before0] at hf0
    iapply (tc_run0 c (grid1.coords t) (hco.trans hz) (st1_0 t) _ (st1_1 t) _ f0 f1 fs _)
    isplitl [H0]; · iexact H0
    isplitl [H1]; · iexact H1
    isplitl [Hs]; · iexact Hs
    iintro ⟨H0, H2, ⟨%g, %hg, Hs⟩⟩
    subst hg
    rw [hf0, hco, hz]
    isplitl [Hs]; · iexact Hs
    isplitl [HO]; · iexact HO
    isplitl [H0]
    · iexists f0; isplitr; · ipureintro; exact hf0
      iexact H0
    · unfold owns; iexact H2
  · rw [PhiT_pos rows c _ hz]
    iintro ⟨Hs, HO, ⟨%d0, %f0, %hf0, H0⟩, ⟨%d1, %f1, %hf1, H1⟩⟩
    rw [tc_before0] at hf0
    iapply (tc_runN c (grid1.coords t) (fun h => hz (hco.symm.trans h)) (st1_0 t) _ (st1_1 t) _ (rows c) f0 f1 _)
    isplitl [H0]; · iexact H0
    isplitl [H1]; · iexact H1
    isplitl [Hs]; · iexact Hs
    iintro ⟨H0, H2, Hs⟩
    rw [hco]
    isplitl [Hs]; · iexact Hs
    isplitl [HO]; · iexact HO
    isplitl [H0]
    · iexists f0; isplitr; · ipureintro; exact hf0
      iexact H0
    · unfold owns; iexact H2
end

end Cert.KernelIdeal.Hand

end
-- ==== Proof.Ideal.TcValue.lean ====
import proofs.«214700_g37623913513500_cont_8to1_b_1793_29_alg».proof.Proof.Ideal.TcPieces
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

variable [FloatOps F]

/-- Window 1's block index at point `t` is `(t, 0, 0`), and its blocks are never cut. -/
theorem tc_index1 : ∀ t : Fin grid1.N, win1_1.index t = ![t.val, 0, 0] := by decide +kernel
theorem tc_xsize1 : ∀ t : Fin grid1.N, win1_1.xsize (grid1.coords t) = ![8, 512, 256] := by decide +kernel

section
variable (rows : (c : Dev nD) → Buf (Elt F) (rowsLoc c)) (out₀ : (c : Dev nD) → Buf (Elt F) (outLoc c))
  (O : Dev nD → CellTallies nD τ sig (HIx 1))

/-- What point `t` writes back is block `t` of the result read off the strip. -/
theorem tc_flushed (c : Dev nD) (t : Fin cfg1.N) (hf : (cfg1.win (1 : Fin 2)).flush t = true) :
    (tcDats rows out₀ O 0 c).flushed (1 : Fin 2) t
      = ((cfg1.win (1 : Fin 2)).blk t).view.read (Elt F) (Cert.RelPos.relOfStrip (rows c) : Buf (Elt F) (outLoc c)) := by
  show (cfg1.win (1 : Fin 2)).cut (grid1.coords t) ((tcDats rows out₀ O 0 c).after (1 : Fin 2) t) = _
  have ha : (tcDats rows out₀ O 0 c).after (1 : Fin 2) t = outBlk (rows c : S1056x256.Idx → Elt F .f32) t.val := by dsimp only [tcDats]
  rw [ha]
  funext j
  rw [View.read_apply]
  have ht : t.val < 64 := t.isLt
  have h0 : (j 0).val < 8 := lt_of_lt_of_eq (j 0).isLt (congrFun (tc_xsize1 t) 0)
  have h1 : (j 1).val < 512 := lt_of_lt_of_eq (j 1).isLt (congrFun (tc_xsize1 t) 1)
  refine outBlk_eq (rows c) t.val _ _ ?_ ?_
  · show 511 - (win1_1.index t 0 * 8 + 1 * (j 0).val) + (win1_1.index t 1 * 512 + 1 * (j 1).val) = 511 - (8 * t.val + (j 0).val) + (j 1).val
    rw [tc_index1]
    show 511 - (t.val * 8 + 1 * (j 0).val) + (0 * 512 + 1 * (j 1).val) = _
    omega
  · show win1_1.index t 2 * 256 + 1 * (j 2).val = (j 2).val
    rw [tc_index1]
    show 0 * 256 + 1 * (j 2).val = _
    omega

/-- THE VALUE: the sixty-four blocks written back tile the result, so after the last point it is the strip read at
    row `511 − i + j`. -/
theorem tc_value (c : Dev nD) :
    (tcDats rows out₀ O 0 c).arrAt (1 : Fin 2) cfg1.N = (Cert.RelPos.relOfStrip (rows c) : Buf (Elt F) (outLoc c)) :=
  (tcDats rows out₀ O 0 c).arrAt_eq_of_cover (1 : Fin 2) _ (tc_flushed rows out₀ O c) fun i => by
    have h0 : (i 0).val < 512 := (i 0).isLt
    have h1 : (i 1).val < 512 := (i 1).isLt
    have h2 : (i 2).val < 256 := (i 2).isLt
    have ht : (i 0).val / 8 < 64 := by omega
    let t' : Fin cfg1.N := ⟨(i 0).val / 8, ht⟩
    have ht' : t'.val = (i 0).val / 8 := rfl
    refine ⟨t', flush1_1 t', ?_⟩
    show i ∈ ((View.whole main_v3).slice (win1_1.rect t')).set
    rw [View.set_slice_whole, Rect.mem_set_unit]
    intro a
    match a with
    | ⟨0, _⟩ =>
      show win1_1.index t' 0 * 8 ≤ (i 0).val ∧ (i 0).val < win1_1.index t' 0 * 8 + win1_1.xsize (grid1.coords t') 0
      rw [tc_index1, tc_xsize1]
      show t'.val * 8 ≤ (i 0).val ∧ (i 0).val < t'.val * 8 + 8
      omega
    | ⟨1, _⟩ =>
      show win1_1.index t' 1 * 512 ≤ (i 1).val ∧ (i 1).val < win1_1.index t' 1 * 512 + win1_1.xsize (grid1.coords t') 1
      rw [tc_index1, tc_xsize1]
      show 0 * 512 ≤ (i 1).val ∧ (i 1).val < 0 * 512 + 512
      omega
    | ⟨2, _⟩ =>
      show win1_1.index t' 2 * 256 ≤ (i 2).val ∧ (i 2).val < win1_1.index t' 2 * 256 + win1_1.xsize (grid1.coords t') 2
      rw [tc_index1, tc_xsize1]
      show 0 * 256 ≤ (i 2).val ∧ (i 2).val < 0 * 256 + 256
      omega
end

end Cert.KernelIdeal.Hand

end
-- ==== Proof.Ideal.TcRegion.lean ====
import proofs.«214700_g37623913513500_cont_8to1_b_1793_29_alg».proof.Proof.Ideal.TcBody
import proofs.«214700_g37623913513500_cont_8to1_b_1793_29_alg».proof.Proof.Ideal.TcValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

variable [FloatOps F]

/-- A whole buffer held at some contents, restated at an equal location. -/
theorem pt_congr {ℓ ℓ' : Loc nD τ sig} (h : ℓ = ℓ') {f : Buf (Elt F) ℓ} {f' : Buf (Elt F) ℓ'} (hf : HEq f f') :
    ((ℓ ↦{fullShare} f : sProp 𝕄)) = (ℓ' ↦{fullShare} f') := by
  subst h; rw [eq_of_heq hf]

section
variable (rows : (c : Dev nD) → Buf (Elt F) (rowsLoc c)) (out₀ : (c : Dev nD) → Buf (Elt F) (outLoc c))
  (O : Dev nD → CellTallies nD τ sig (HIx 1))

/-- The windows' arrays are the strip and the result. -/
theorem tc_loc0 (c : Dev nD) : (c.tc : Thread nD τ).loc (Pipeline.arrRef (Pipeline.pin (pcfgs (F := F)) adm 0).spec (0 : Fin 2)) = rowsLoc c := rfl
theorem tc_loc1 (c : Dev nD) : (c.tc : Thread nD τ).loc (Pipeline.arrRef (Pipeline.pin (pcfgs (F := F)) adm 0).spec (1 : Fin 2)) = outLoc c := rfl

theorem tc_entry0 (c : Dev nD) : (tcDats rows out₀ O 0 c).arrAt (0 : Fin 2) 0 = rows c := by
  show (tcDats rows out₀ O 0 c).A (0 : Fin 2) = rows c
  dsimp only [tcDats]
theorem tc_entry1 (c : Dev nD) : (tcDats rows out₀ O 0 c).arrAt (1 : Fin 2) 0 = out₀ c := by
  show (tcDats rows out₀ O 0 c).A (1 : Fin 2) = out₀ c
  dsimp only [tcDats]

/-- The strip is an input: never written. -/
theorem tc_rows_kept (c : Dev nD) (n : ℕ) : (tcDats rows out₀ O 0 c).arrAt (0 : Fin 2) n = rows c :=
  ((tcDats rows out₀ O 0 c).arrAt_in (0 : Fin 2) rfl n).trans (by dsimp only [tcDats])

/-- ENTRY: the strip and the result's array, held apart, are the pipeline's arrays at the proof data's entry contents. -/
theorem tc_arrays_entry (c : Dev nD) :
    iprop((rowsLoc c ↦{fullShare} rows c) ∗ (outLoc c ↦{fullShare} out₀ c))
      ⊢ ((tcDats rows out₀ O 0 c).arrays ((tcDats rows out₀ O 0 c).arrAt · 0) : sProp 𝕄) := by
  rw [Pipeline.arrays_eq (Pipeline.pin pcfgs adm) (tcDats rows out₀ O) 0 c launch1.arr_whole (tcDats_share rows out₀ O c), bigSep_W1]
  exact BIClass.sep_mono (Entails.of_eq (pt_congr (tc_loc0 (F := F) c) (heq_of_eq (tc_entry0 rows out₀ O c))).symm)
    (Entails.of_eq (pt_congr (tc_loc1 (F := F) c) (heq_of_eq (tc_entry1 rows out₀ O c))).symm)

/-- EXIT: the pipeline's arrays after the last write-back are the strip as it was and the result's array at `G`, once the
    blocks written back are known to make up `G`. -/
theorem tc_arrays_exit (c : Dev nD) (G : Buf (Elt F) (outLoc c)) (hG : (tcDats rows out₀ O 0 c).arrAt (1 : Fin 2) cfg1.N = G) :
    ((tcDats rows out₀ O 0 c).arrays ((tcDats rows out₀ O 0 c).arrAt · cfg1.N) : sProp 𝕄)
      ⊢ iprop((rowsLoc c ↦{fullShare} rows c) ∗ (outLoc c ↦{fullShare} G)) := by
  rw [Pipeline.arrays_eq (Pipeline.pin pcfgs adm) (tcDats rows out₀ O) 0 c launch1.arr_whole (tcDats_share rows out₀ O c), bigSep_W1]
  exact BIClass.sep_mono (Entails.of_eq (pt_congr (tc_loc0 (F := F) c) (heq_of_eq (tc_rows_kept rows out₀ O c cfg1.N))))
    (Entails.of_eq (pt_congr (tc_loc1 (F := F) c) (heq_of_eq hG)))
/-- What the TensorCore owes, as the pipeline's rule holds it: the recorded pairs within the bound are the pairs at
    level 8 or below (the pipeline's own waits sit at level 0). -/
theorem tc_owesAt (c : Dev nD) (t : Fin (cfg1.N + 1)) :
    ((tcDats rows out₀ O 0 c).owesAt (none : HIx 1) t : sProp 𝕄)
      ⊣⊢ iprop(∃ W, ⌜(K (F := F)).WBelow (SparseCore.T c) W 8⌝ ∗ owes (SparseCore.T c) (O c) W) := by
  unfold Pipeline.Dat.owesAt Pipeline.owesWithin
  rw [tcDats_owed]
  constructor
  · iintro ⟨%W, %hW, HO⟩; iexists W; isplitr
    · ipureintro
      intro p hp
      rcases hW hp with h | ⟨w, s, rfl⟩
      · exact h
      · exact Nat.zero_le _
    · iexact HO
  · iintro ⟨%W, %hW, HO⟩; iexists W; isplitr
    · ipureintro; exact fun p hp => Or.inl (hW p hp)
    · iexact HO

set_option maxHeartbeats 1600000 in
/-- THE REGION. Entered holding the strip, the result's array and what the TensorCore owes; left holding the strip as it
    was, the result read off the strip, and the same debt. Nothing else enters or leaves: the scratch and the staging
    buffers are the region boundary's. -/
def tcRegion (hO : ∀ c g, O c g none = 0) :
    Pipeline.RegionSeg (pcfgs (F := F)) adm (tcDats rows out₀ O) (none : HIx 1) (defs₀ (F := F)) 𝒱₀ (K (F := F)).L (K (F := F)).lev (0 : Fin 1) where
  win := launch1.win.to₀
  block_pos := launch1.block_pos
  stage_whole := launch1.stage_whole
  K := PEmpty
  osem := fun k => k.elim
  ho := Pipeline.OwnSemFacts.none _
  hbody c := tc_body rows out₀ O c
  hwaits c := Pipeline.cellsWaits_intro (Pipeline.pin pcfgs adm) (tcDats rows out₀ O) (none : HIx 1) 0 c
    fun w s t => (K (F := F)).mayWait_none _ (hO c)
  pre c := iprop((rowsLoc c ↦{fullShare} rows c) ∗ (outLoc c ↦{fullShare} out₀ c) ∗ (∃ W, ⌜(K (F := F)).WBelow (SparseCore.T c) W 8⌝ ∗ owes (SparseCore.T c) (O c) W))
  post c := iprop((rowsLoc c ↦{fullShare} rows c)
    ∗ (outLoc c ↦{fullShare} (Cert.RelPos.relOfStrip (rows c) : Buf (Elt F) (outLoc c))) ∗ (∃ W, ⌜(K (F := F)).WBelow (SparseCore.T c) W 8⌝ ∗ owes (SparseCore.T c) (O c) W))
  X _ := iprop(emp)
  Y _ := iprop(emp)
  Z _ := iprop(emp)
  hentry c := by
    iintro ⟨⟨Hr, Ho, HO⟩, -, -⟩
    imodintro
    isplitl [Hr Ho]
    · iapply (tc_arrays_entry rows out₀ O c)
      isplitl [Hr]
      · iexact Hr
      · iexact Ho
    isplitr
    · unfold Pipeline.prefHeld; rw [show (Finset.univ : Finset (Fin 0)) = ∅ from rfl, BI.bigSep_empty]; iempintro
    isplitl [HO]
    · iapply (tc_owesAt rows out₀ O c 0).2; iexact HO
    isplitr <;> iempintro
  hin c := by
    rw [tcDats_Phi, show ((0 : Fin (cfg1.N + 1)) : ℕ) = 0 from rfl, PhiT_zero]
    refine (show _ ⊢ (Pipeline.scopedRest (Ix := HIx 1) (Name := ℕ) (U := UU) (Lvl := ℕ) (Val := Elt F) spec1 c : sProp 𝕄) from ?_).trans
      (Entails.of_eq (scopedRest1_eq c))
    iintro ⟨-, -, Hr⟩; iexact Hr
  hout c := by
    rw [Pipeline.ownSems0_none, tcDats_Phi, PhiT_pos rows c _ (by rw [Fin.val_last]; exact (by decide : cfg1.N ≠ 0))]
    refine (show _ ⊢ iprop(emp ∗ emp ∗ (∃ f : Buf (Elt F) (scrLoc c), scrLoc c ↦{fullShare} f)) from ?_).trans
      (sep_mono .rfl (sep_mono .rfl (Entails.of_eq (scopedRest1_eq (Ix := HIx 1) (Name := ℕ) (U := UU) (Lvl := ℕ) (Val := Elt F) c).symm)))
    iintro Hs
    isplitr; · iempintro
    isplitr; · iempintro
    iexists _; iexact Hs
  hexit c := by
    iintro ⟨Ha, HO, -, -⟩
    ihave Hb := (tc_arrays_exit rows out₀ O c (Cert.RelPos.relOfStrip (rows c)) (tc_value rows out₀ O c)) $$ Ha
    icases Hb with ⟨Hr, Ho⟩
    imodintro
    isplitl [Hr]; · iexact Hr
    isplitl [Ho]; · iexact Ho
    iapply (tc_owesAt rows out₀ O c _).1; iexact HO

/-- What the region is entered from, -/
theorem tcRegion_pre (hO : ∀ c g, O c g none = 0) (c : Dev nD) :
    (tcRegion rows out₀ O hO).pre c
      = iprop((rowsLoc c ↦{fullShare} rows c) ∗ (outLoc c ↦{fullShare} out₀ c) ∗ (∃ W, ⌜(K (F := F)).WBelow (SparseCore.T c) W 8⌝ ∗ owes (SparseCore.T c) (O c) W)) := rfl
/-- and what it leaves. -/
theorem tcRegion_post (hO : ∀ c g, O c g none = 0) (c : Dev nD) :
    (tcRegion rows out₀ O hO).post c
      = iprop((rowsLoc c ↦{fullShare} rows c)
        ∗ (outLoc c ↦{fullShare} (Cert.RelPos.relOfStrip (rows c) : Buf (Elt F) (outLoc c))) ∗ (∃ W, ⌜(K (F := F)).WBelow (SparseCore.T c) W 8⌝ ∗ owes (SparseCore.T c) (O c) W)) := rfl

end

end Cert.KernelIdeal.Hand

end
-- ==== Proof.Bits.TileOpen.lean ====
/-
  One vector subcore at a symbolic grid point: its thread, the two semaphores and the two scratch buffers
  that are its own (singled out of everything the thread owns), and the four arrays the body touches as
  the subcore's memrefs address them — the table and the strip are the main core's arrays, the share of
  the strip is the program's own slice of it.
-/
import proofs.«214700_g37623913513500_cont_8to1_b_1793_29_alg».proof.Proof.Bits.Common
import Idealize.ShloMosaic.Lib.SparseCore.Launch
import Idealize.ShloMosaic.Lib.Transfers
import Idealize.ShloMosaic.Lib.Writes
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own semaphores and scratch buffers, singled out -/

section Tile

local notation "𝕄" => MT nD τ sig (HIx 1) (Elt F) ℕ UU ℕ

variable (d : Dev nD) (Lc : grid0.Coords)

/-- The thread of the subcore at a grid point. -/
abbrev thrV : Thread nD τ := V d (cV Lc) (jV Lc)

/-- The semaphore of the copy in, and of the copy out. -/
abbrev inCell : GSem nD τ sig := (thrV d Lc, .dma cc0_scoped0.sem)
abbrev outCell : GSem nD τ sig := (thrV d Lc, .dma cc0_scoped1.sem)

theorem ownSems0_tile :
    (ownSems0 (thrV d Lc) : sProp 𝕄)
      = iprop(semVal (inCell d Lc) 0 ∗ semVal (outCell d Lc) 0
          ∗ bigSep (((ownCells (thrV d Lc)).erase (inCell d Lc)).erase (outCell d Lc)) fun g => semVal g 0) := by
  unfold SparseCore.Cfg.ownSems0
  rw [SparseCore.bigSep_erase' ((mem_ownCells (g := inCell d Lc)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d Lc)).mpr ⟨rfl, by
      show (SemLoc.dma cc0_scoped1.sem : SemLoc sig).isScoped .scVector = true; decide⟩⟩)]

/-- The two scratch buffers are among the subcore's own: they are them, at some contents, and the rest. -/
theorem ownBufs_tile :
    (ownBufs (thrV d Lc) : sProp 𝕄)
      = iprop((∃ f, (thrV d Lc).loc cc0_scratch0 ↦{fullShare} f) ∗ (∃ f, (thrV d Lc).loc cc0_scratch1 ↦{fullShare} f)
          ∗ bigSep (((ownRefs (τ := τ) (.scVector (cV Lc) (jV Lc))).erase ((Proc.scVector (cV Lc) (jV Lc)).devRef cc0_scratch0)).erase
              ((Proc.scVector (cV Lc) (jV Lc)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV Lc) (jV Lc))
    (b := (Proc.scVector (cV Lc) (jV Lc)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV Lc) (jV Lc)) (b := (Proc.scVector (cV Lc) (jV Lc)).devRef cc0_scratch1) rfl⟩)]

/-- The program's memrefs. -/
abbrev tabM : Memref sig .scVector .hbm S16640 .f32 := Memref.whole main_v0_scv
abbrev stripM : Memref sig .scVector .hbm S270336 .f32 := Memref.whole main_v1_scv
abbrev winM : Memref sig .scVector .vmem S8704 .f32 := Memref.whole cc0_scratch0
abbrev rowsM : Memref sig .scVector .vmem S8448 .f32 := Memref.whole cc0_scratch1
/-- The subcore's share of the strip, as the program slices it. -/
abbrev partM : Memref sig .scVector .hbm S8448 .f32 := (stripM).slice (partRect Lc) (fun _ => rfl)

/-- The arrays as the subcore's memrefs address them are the main core's arrays. -/
theorem pts_tab (q : PosShare TreeShare) (f : Buf (Elt F) (tabLoc d)) :
    ((tabM).view.loc (thrV d Lc) ↦{q} f : sProp 𝕄) = tabLoc d ↦{q} f := by
  simp only [Memref.view_whole, View.set_whole]
theorem pts_part (f : Buf (Elt F) (stripLoc d)) :
    ((partM Lc).view.loc (thrV d Lc) ↦[(partM Lc).view.set]{fullShare} f : sProp 𝕄) = stripLoc d ↦[partSet Lc]{fullShare} f := rfl
theorem pts_win (f : Buf (Elt F) ((thrV d Lc).loc cc0_scratch0)) :
    ((winM).view.loc (thrV d Lc) ↦{fullShare} f : sProp 𝕄) = (thrV d Lc).loc cc0_scratch0 ↦{fullShare} f := rfl
theorem pts_rows (f : Buf (Elt F) ((thrV d Lc).loc cc0_scratch1)) :
    ((rowsM).view.loc (thrV d Lc) ↦{fullShare} f : sProp 𝕄) = (thrV d Lc).loc cc0_scratch1 ↦{fullShare} f := rfl

end Tile

end Cert.Kernel.Hand

end
-- ==== Proof.Bits.TileRun.lean ====
/-
  The subcore's body, run once at a symbolic grid point from its buffers held at arbitrary contents:
  the copy of the 34-row window into the first scratch, the 528 blocks of sixteen words moved from it
  into the second scratch, and the copy of the second scratch onto the subcore's share of the strip.
  What the share holds afterwards is read off the run — a term over the table, found, not stated — and
  kept as the witness of a subtype; the next module reads it back as one function of the share's index.
-/
import proofs.«214700_g37623913513500_cont_8to1_b_1793_29_alg».proof.Proof.Bits.TileOpen
import Idealize.ShloMosaic.Lib.SparseCore.Launch
import Idealize.ShloMosaic.Lib.Transfers
import Idealize.ShloMosaic.Lib.Writes
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

/-- What the run starts from: the levels' word, the table at a share `q`, the share of the strip and the two
    scratch buffers held outright at `f0`, `fa`, `fb`, both semaphores at zero, what the subcore owes. -/
def runPre (q : PosShare TreeShare) (tab : Buf (Elt F) (tabLoc d)) (O : CellTallies nD τ sig (HIx 1)) (W : Waits sig (HIx 1))
    (f0 : Buf (Elt F) (stripLoc d)) (fa : Buf (Elt F) ((thrV d Lc).loc cc0_scratch0)) (fb : Buf (Elt F) ((thrV d Lc).loc cc0_scratch1)) : sProp 𝕄 :=
  iprop(levAts (K (F := F)).L (K (F := F)).lev
    ∗ ((tabM).view.loc (thrV d Lc) ↦{q} tab)
    ∗ ((partM Lc).view.loc (thrV d Lc) ↦[(partM Lc).view.set]{fullShare} f0)
    ∗ ((winM).view.loc (thrV d Lc) ↦{fullShare} fa)
    ∗ ((rowsM).view.loc (thrV d Lc) ↦{fullShare} fb)
    ∗ semVal (inCell d Lc) 0 ∗ semVal (outCell d Lc) 0
    ∗ owes (V d (cV Lc) (jV Lc)) O W)

/-- What the run ends with: the table as it was, the share of the strip at `g`, the scratch buffers at
    something, both semaphores at zero again, the two waits recorded. -/
def runPost (q : PosShare TreeShare) (tab : Buf (Elt F) (tabLoc d)) (O : CellTallies nD τ sig (HIx 1)) (W : Waits sig (HIx 1))
    (g : Buf (Elt F) (stripLoc d)) : sProp 𝕄 :=
  iprop(((tabM).view.loc (thrV d Lc) ↦{q} tab)
    ∗ ((partM Lc).view.loc (thrV d Lc) ↦[(partM Lc).view.set]{fullShare} g)
    ∗ (∃ f, (winM).view.loc (thrV d Lc) ↦{fullShare} f)
    ∗ (∃ f, (rowsM).view.loc (thrV d Lc) ↦{fullShare} f)
    ∗ semVal (inCell d Lc) 0 ∗ semVal (outCell d Lc) 0
    ∗ owes (V d (cV Lc) (jV Lc)) O (insert (SemLoc.dma cc0_scoped1.sem, (default : HIx 1)) (insert (SemLoc.dma cc0_scoped0.sem, (default : HIx 1)) W)))

-- the run is one elaboration step over 5673 printed statements in 96 parts
set_option maxHeartbeats 4000000 in
/-- What the body leaves on the subcore's share of the strip (over the table, and over what the share and
    the two scratch buffers held before), WITH the proof that from `runPre` the body runs to its return
    holding `runPost` at that witness — handed to whatever runs next (`Q`). -/
noncomputable def tileRun [FloatOps F] (q : PosShare TreeShare) (tab : Buf (Elt F) (tabLoc d)) :
    { Wt : Buf (Elt F) (stripLoc d) → Buf (Elt F) ((thrV d Lc).loc cc0_scratch0) → Buf (Elt F) ((thrV d Lc).loc cc0_scratch1)
          → Buf (Elt F) (stripLoc d) //
      ∀ (O : CellTallies nD τ sig (HIx 1)) (W : Waits sig (HIx 1)) (hO : ∀ g, O g none = 0)
        (f0 : Buf (Elt F) (stripLoc d)) (fa : Buf (Elt F) ((thrV d Lc).loc cc0_scratch0)) (fb : Buf (Elt F) ((thrV d Lc).loc cc0_scratch1))
        (Q : PUnit → sProp 𝕄),
        iprop(runPre (F := F) d Lc q tab O W f0 fa fb ∗ (runPost (F := F) d Lc q tab O W (Wt f0 fa fb) -∗ Q ⟨⟩))
        ⊢ wp frame (wpE (defs₀ (F := F)) 𝒱₀ (V d (cV Lc) (jV Lc)) none) Set.univ
            (cc0__sc_expand Lc (Memref.whole main_v0_scv) (Memref.isWhole_whole _) (Memref.whole main_v1_scv) (Memref.isWhole_whole _)
              (Memref.whole cc0_scratch0) (Memref.isWhole_whole _) (Memref.whole cc0_scratch1) (Memref.isWhole_whole _) cc0_scoped0 cc0_scoped1)
            Q } := by
  -- the share's contents are the witness the run finds: a metavariable until the closing step assigns it
  refine ⟨?_, fun O W hO f0 fa fb Q => ?run⟩
  case run =>
    -- the program over its skeleton first, the held buffers still folded in `runPre`
    simp only [cc0__sc_expand_eq_skeleton]; unfold cc0__sc_expand_skel
    rw [runPre, runPost]
    iintro ⟨⟨#Hlv, Htab', Hout', Ha', Hb', HsemA, HsemB, HO⟩, Hk⟩
    ihave Hmw := ((K (F := F)).mayWaits_none (thr := V d (cV Lc) (jV Lc)) hO) $$ Hlv
    sl_exec_parts
    sl_step
    iapply Hk
    isplitl [Htab']; · iexact Htab'
    isplitl [Hout']; · iexact Hout'
    isplitl [Ha']; · iexists _; iexact Ha'
    isplitl [Hb']; · iexists _; iexact Hb'
    isplitl [HsemA]; · iexact HsemA
    isplitl [HsemB]; · iexact HsemB
    iexact HO

end Tile

end Cert.Kernel.Hand

end
-- ==== Proof.Bits.TileGeom.lean ====
/-
  One subcore's share of the strip, in numbers.

  The thirty-two subcores are numbered 16 c + s. Subcore w writes rows 33 w … 33 w + 32 of the 1056-row
  strip; row g of the strip is the table's row  min 64 (g − 479).  The subcore first copies a window of 34
  consecutive table rows, starting at row  min 31 (33 w − 479)  (at most 31, so that the 34 rows fit in the
  table's 65), and every table row it needs lies in that window.
-/
import proofs.«214700_g37623913513500_cont_8to1_b_1793_29_alg».proof.Proof.Gen.Kernel
import proofs.«214700_g37623913513500_cont_8to1_b_1793_29_alg».proof.Proof.Spec

namespace Cert.Kernel.Hand

open Cert.Kernel Cert.Kernel.Gen
open Idealize.ShloMosaic

/-- The number of the subcore at a grid point: sixteen subcores to a core. -/
def tileNo (i : grid0.Coords) : Nat := 16 * (i 0).val + (i 1).val

theorem tileNo_lt (i : grid0.Coords) : tileNo i < 32 := by
  have h0 : (i 0).val < 2 := (i 0).isLt
  have h1 : (i 1).val < 16 := (i 1).isLt
  unfold tileNo; omega

/-- The first table row of the window of 34 rows the subcore copies. -/
def winRow (i : grid0.Coords) : Nat := min 31 (33 * tileNo i - 479)

theorem winRow_le (i : grid0.Coords) : winRow i ≤ 31 := by unfold winRow; omega

/-- The table row that row `r` of the subcore's share holds lies in the window: at or after its first row, -/
theorem winRow_le_stripRow (i : grid0.Coords) (r : Nat) : winRow i ≤ Cert.RelPos.stripRow (33 * tileNo i + r) := by
  unfold winRow Cert.RelPos.stripRow; omega

/-- and fewer than 34 rows after it. -/
theorem stripRow_lt_winRow (i : grid0.Coords) (r : Nat) (hr : r < 33) : Cert.RelPos.stripRow (33 * tileNo i + r) < winRow i + 34 := by
  unfold winRow Cert.RelPos.stripRow; omega

end Cert.Kernel.Hand
-- ==== Proof.Bits.TileOff1.lean ====
/-
  Where the window starts among the table's 16640 words: the program's own chain of 32-bit operations,
  evaluated at each of the thirty-two grid points, gives 256 times the window's first row.
-/
import proofs.«214700_g37623913513500_cont_8to1_b_1793_29_alg».proof.Proof.Bits.TileGeom

set_option Elab.async false

namespace Cert.Kernel.Hand

open Cert.Kernel Cert.Kernel.Gen
open Idealize.ShloMosaic

theorem off1_eq : ∀ i : grid0.Coords, k0_off1 i = ![256 * winRow i] := by decide +kernel

end Cert.Kernel.Hand
-- ==== Proof.Bits.TileOff2.lean ====
/-
  Where each block of sixteen words is read from the copied window: block `v` of row `r` of the subcore's
  share is read at word  256 (t − w) + 16 v  of the window, `t` the table row that strip row 33 (16 c + s) + r
  holds and `w` the window's first row. The program's own chain of 32-bit operations, evaluated at every
  grid point, row and block.
-/
import proofs.«214700_g37623913513500_cont_8to1_b_1793_29_alg».proof.Proof.Bits.TileGeom

set_option Elab.async false

namespace Cert.Kernel.Hand

open Cert.Kernel Cert.Kernel.Gen
open Idealize.ShloMosaic

theorem off2_eq : ∀ i : grid0.Coords, ∀ (r : Fin 33) (v : Fin 16),
    k0_off2 i (BitVec.ofNat 32 r.val) (BitVec.ofNat 32 (16 * v.val))
      = ![256 * (Cert.RelPos.stripRow (33 * tileNo i + r.val) - winRow i) + 16 * v.val] := by decide +kernel

end Cert.Kernel.Hand
-- ==== Proof.Bits.TileMath.lean ====
/-
  The arithmetic of the value, with no program in sight.

  The subcore's share of the strip is words 8448 w … 8448 w + 8447 (`w` its number), and word `j` of it is
  to hold word `j % 256` of the table row that strip row 33 w + j / 256 holds (`rowFn`): written whole with
  that function, the share holds the strip (`strip_of_rows`). After the copy in, the first scratch holds the
  table's words from the window's first row on (`win_eq`); one block of sixteen words read from it at the
  program's own offset is a block of `rowFn` (`chunk_eq`); and pieces that are all blocks of `rowFn` and tile
  the second scratch make it, read back as one function, `rowFn` — so the share ends holding the strip
  (`share_of_pieces`).
-/
import proofs.«214700_g37623913513500_cont_8to1_b_1793_29_alg».proof.Proof.Bits.TileOpen
import proofs.«214700_g37623913513500_cont_8to1_b_1793_29_alg».proof.Proof.Bits.TileOff1
import proofs.«214700_g37623913513500_cont_8to1_b_1793_29_alg».proof.Proof.Bits.TileOff2
import Idealize.ShloMosaic.Lib.SparseCore.Launch
import Idealize.ShloMosaic.Lib.Transfers
import Idealize.ShloMosaic.Lib.Writes
import Idealize.ShloMosaic.Lib.Tactic
import Idealize.ShloMosaic.Lib.Pipeline.Value
import Idealize.ShloMosaic.Lib.ValueIdx
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The value: index arithmetic -/

section Value

local notation "𝕄" => MT nD τ sig (HIx 1) (Elt F) ℕ UU ℕ

variable (Lc : grid0.Coords)

/-- The subcore's share of the strip is words 8448 w … 8448 w + 8447, `w` the subcore's number. -/
theorem mem_partSet (k : S270336.Idx) :
    k ∈ partSet Lc ↔ 8448 * tileNo Lc ≤ (k 0).val ∧ (k 0).val < 8448 * tileNo Lc + 8448 := by
  have e : partSet Lc = (partRect Lc).set := View.set_slice_whole main_v1_scv (partRect Lc)
  rw [e, Rect.mem_set_unit, k0_off3_eq]
  simp only [Fin.forall_fin_one, Matrix.cons_val_zero]
  show (135168 * (Lc 0).val + 8448 * (Lc 1).val ≤ (k 0).val ∧ (k 0).val < 135168 * (Lc 0).val + 8448 * (Lc 1).val + 8448) ↔ _
  unfold tileNo; omega

/-- Word `j` of the share sits at word 8448 w + j of the strip. -/
theorem partM_emb (j : S8448.Idx) : (((partM Lc).view.emb j) 0).val = 8448 * tileNo Lc + (j 0).val := by
  show (k0_off3 Lc) 0 + 1 * (j 0).val = _
  rw [k0_off3_eq]
  show 135168 * (Lc 0).val + 8448 * (Lc 1).val + 1 * (j 0).val = _
  unfold tileNo; omega

/-- What word `j` of the subcore's share is to hold: word `j % 256` of the table row that strip row
    33 w + j / 256 holds. -/
def rowFn {α : Type} (tab : S16640.Idx → α) : S8448.Idx → α :=
  fun j => tab (ValueIdx.ix1 ⟨256 * Cert.RelPos.stripRow (33 * tileNo Lc + (j 0).val / 256) + (j 0).val % 256, by
    have := Cert.RelPos.stripRow_lt (33 * tileNo Lc + (j 0).val / 256)
    have := Nat.mod_lt (j 0).val (show 0 < 256 by decide); omega⟩)

/-- The share written whole with `rowFn` is the strip on the share's words. -/
theorem strip_of_rows (tab : S16640.Idx → Elt F .f32) (f0 : S270336.Idx → Elt F .f32) (P : S8448.Idx → Elt F .f32)
    (hP : ∀ j, P j = rowFn Lc tab j) (k : S270336.Idx) (hk : k ∈ partSet Lc) :
    (partM Lc).view.writes (Elt F) f0 [⟨Rect.whole S8448, P⟩] k = Cert.RelPos.strip tab k := by
  rw [mem_partSet] at hk
  have hj : (k 0).val - 8448 * tileNo Lc < 8448 := by omega
  obtain ⟨j, hjv⟩ : ∃ j : S8448.Idx, (j 0).val = (k 0).val - 8448 * tileNo Lc := ⟨ValueIdx.ix1 ⟨(k 0).val - 8448 * tileNo Lc, hj⟩, rfl⟩
  have hke : (partM Lc).view.emb ((Rect.whole S8448).emb j) = k := by
    funext a
    match a with
    | ⟨0, _⟩ =>
      apply Fin.ext
      rw [Rect.emb_whole_apply]
      have := partM_emb Lc j
      show ((partM Lc).view.emb j 0).val = (k 0).val
      rw [this, hjv]; omega
  have hw := View.read_writes_cons_emb (partM Lc).view f0 (Rect.whole S8448) P [] j
  rw [View.read_apply, cast_eq, hke] at hw
  rw [hw, hP]
  unfold rowFn Cert.RelPos.strip
  refine congrArg tab (congrArg ValueIdx.ix1 (Fin.ext ?_))
  show 256 * Cert.RelPos.stripRow (33 * tileNo Lc + (j 0).val / 256) + (j 0).val % 256
      = 256 * Cert.RelPos.stripRow ((k 0).val / 256) + (k 0).val % 256
  rw [hjv]
  have h1 : 33 * tileNo Lc + ((k 0).val - 8448 * tileNo Lc) / 256 = (k 0).val / 256 := by omega
  have h2 : ((k 0).val - 8448 * tileNo Lc) % 256 = (k 0).val % 256 := by omega
  rw [h1, h2]

end Value

section Win

variable (Lc : grid0.Coords)

/-- After the copy in, the first scratch holds the table's words from word 256 w on (`w` the window's first row). -/
theorem win_eq (tab : S16640.Idx → Elt F .f32) (fa : S8704.Idx → Elt F .f32) (m : S8704.Idx) :
    View.write (Elt F) (Memref.whole cc0_scratch0 : Memref sig .scVector .vmem S8704 .f32).view fa
        (((tabM).slice (Rect.unit (s := S16640) (k0_off1 Lc) S8704.size (k0_off1_inb Lc)) (fun _ => rfl)).view.read (Elt F) tab) Finset.univ m
      = tab (ValueIdx.ix1 ⟨256 * winRow Lc + (m 0).val, by
          have := winRow_le Lc; have : (m 0).val < 8704 := (m 0).isLt; omega⟩) := by
  show (View.whole cc0_scratch0).write (Elt F) fa _ Finset.univ m = _
  rw [View.write_whole_univ, View.read_apply, cast_eq]
  refine congrArg tab ?_
  funext a
  match a with
  | ⟨0, _⟩ =>
    apply Fin.ext
    show (k0_off1 Lc) 0 + 1 * (m 0).val = 256 * winRow Lc + (m 0).val
    rw [off1_eq]
    show 256 * winRow Lc + 1 * (m 0).val = _
    omega

end Win

section Chunk

variable (Lc : grid0.Coords)

/-- One block of sixteen words. If the window holds the table's words from word 256 w on (`w` the
    window's first row), the block read from the window at the program's own offset for row `c / 256`,
    block `c % 256 / 16`, is the block of `rowFn` at word `c` of the share: the row's table row lies
    in the window, 256 (t − w) words after its start. -/
theorem chunk_eq (tab : S16640.Idx → Elt F .f32) (A : S8704.Idx → Elt F .f32)
    (hA : ∀ m : S8704.Idx, A m = tab (ValueIdx.ix1 ⟨256 * winRow Lc + (m 0).val, by
      have := winRow_le Lc; have : (m 0).val < 8704 := (m 0).isLt; omega⟩))
    (a b : BitVec 32) (c : Nat)
    (inbL : ∀ a', (k0_off2 Lc a b) a' + S16.size a' ≤ S8704.size a')
    (inbS : ∀ a', (![c] : Fin 1 → Nat) a' + S16.size a' ≤ S8448.size a')
    (hc : c % 16 = 0) (ha : a = BitVec.ofNat 32 (c / 256)) (hb : b = BitVec.ofNat 32 (c % 256)) (x : S16.Idx) :
    shapeCast S16 (shapeCast S16 ((winM).view.readAt (Elt F) (Rect.unit (s := S8704) (k0_off2 Lc a b) S16.size inbL).toLoadRect A)
        shapeCasts_S16_S16) shapeCasts_S16_S16 x
      = rowFn Lc tab ((Rect.unit (s := S8448) ![c] S16.size inbS).emb x) := by
  subst ha hb
  have hx : (x 0).val < 16 := (x 0).isLt
  have hc8 : c + 16 ≤ 8448 := inbS 0
  have hr : c / 256 < 33 := by omega
  have hv : c % 256 / 16 < 16 := by omega
  have e : 16 * (c % 256 / 16) = c % 256 := by omega
  have h0 : k0_off2 Lc (BitVec.ofNat 32 (c / 256)) (BitVec.ofNat 32 (16 * (c % 256 / 16))) 0
      = 256 * (Cert.RelPos.stripRow (33 * tileNo Lc + c / 256) - winRow Lc) + 16 * (c % 256 / 16) :=
    congrFun (off2_eq Lc ⟨c / 256, hr⟩ ⟨c % 256 / 16, hv⟩) 0
  rw [e] at h0
  rw [shapeCast_apply _ _ x x rfl, shapeCast_apply _ _ x x rfl, View.readAt_apply, View.read_apply, cast_eq, hA]
  unfold rowFn
  refine congrArg tab (congrArg ValueIdx.ix1 (Fin.ext ?_))
  show 256 * winRow Lc + (k0_off2 Lc (BitVec.ofNat 32 (c / 256)) (BitVec.ofNat 32 (c % 256)) 0 + 1 * (x 0).val)
      = 256 * Cert.RelPos.stripRow (33 * tileNo Lc + (c + 1 * (x 0).val) / 256) + (c + 1 * (x 0).val) % 256
  rw [h0]
  have hle := winRow_le_stripRow Lc (c / 256)
  have hd : (c + 1 * (x 0).val) / 256 = c / 256 := by omega
  have hm : (c + 1 * (x 0).val) % 256 = c % 256 + (x 0).val := by omega
  rw [hd, hm]
  omega

end Chunk

section Pieces

variable (Lc : grid0.Coords)

/-- Block `n` of the second scratch (sixteen words from word 16 n) lies in it. -/
theorem pieceInb (n : Nat) (h : n < 528) : ∀ a', (![16 * n] : Fin 1 → ℕ) a' + S16.size a' ≤ S8448.size a' := by
  intro a'
  match a' with
  | ⟨0, _⟩ => show 16 * n + 16 ≤ 8448; omega

/-- The `n`-th piece written into the second scratch: block `n % 16` of row `n / 16`, read from the window
    (contents `A`) at the program's own offset, stored at word 16 n. -/
def pieceAt (A : S8704.Idx → Elt F .f32) (n : Nat) (h : n < 528) : View.Piece (Elt F) S8448 .f32 :=
  ⟨Rect.unit (s := S8448) ![16 * n] S16.size (pieceInb n h),
    shapeCast S16 (shapeCast S16 ((winM).view.readAt (Elt F)
      (Rect.unit (s := S8704) (k0_off2 Lc (BitVec.ofNat 32 (n / 16)) (BitVec.ofNat 32 (16 * (n % 16)))) S16.size
        (k0_off2_inb Lc ⟨n / 16, by omega⟩ ⟨n % 16, Nat.mod_lt _ (by decide)⟩)).toLoadRect A) shapeCasts_S16_S16) shapeCasts_S16_S16⟩

/-- The first `n` pieces, the last written first. -/
def piecesBelow (A : S8704.Idx → Elt F .f32) : (n : Nat) → n ≤ 528 → List (View.Piece (Elt F) S8448 .f32)
  | 0, _ => []
  | n + 1, h => pieceAt Lc A n (by omega) :: piecesBelow A n (by omega)

/-- Every one of them is a block of `rowFn`, when the window holds the table from its first row on. -/
theorem piecesBelow_spec (tab : S16640.Idx → Elt F .f32) (A : S8704.Idx → Elt F .f32)
    (hA : ∀ m : S8704.Idx, A m = tab (ValueIdx.ix1 ⟨256 * winRow Lc + (m 0).val, by
      have := winRow_le Lc; have : (m 0).val < 8704 := (m 0).isLt; omega⟩)) :
    ∀ (n : Nat) (h : n ≤ 528), ∀ p ∈ piecesBelow Lc A n h, ∀ x : p.1.shape.Idx, p.2 x = rowFn Lc tab (p.1.emb x)
  | 0, _ => fun p hp => absurd hp List.not_mem_nil
  | n + 1, h => fun p hp => by
    rcases List.mem_cons.mp hp with rfl | hp
    · intro x
      exact chunk_eq Lc tab A hA (BitVec.ofNat 32 (n / 16)) (BitVec.ofNat 32 (16 * (n % 16))) (16 * n)
        (k0_off2_inb Lc ⟨n / 16, by omega⟩ ⟨n % 16, Nat.mod_lt _ (by decide)⟩) (pieceInb n (by omega)) (by omega)
        (congrArg (BitVec.ofNat 32) (by omega)) (congrArg (BitVec.ofNat 32) (by omega)) x
    · exact piecesBelow_spec tab A hA n (by omega) p hp

end Pieces

section Share

variable (Lc : grid0.Coords)

/-- The second scratch written by pieces that are all blocks of `rowFn` and tile it, then copied whole
    onto the share: the share holds the strip. The pieces are read back as ONE function, never one by one. -/
theorem share_of_pieces (tab : S16640.Idx → Elt F .f32) (f0 : S270336.Idx → Elt F .f32) (fb : S8448.Idx → Elt F .f32)
    (L : List (View.Piece (Elt F) S8448 .f32))
    (hL : ∀ p ∈ L, ∀ x : p.1.shape.Idx, p.2 x = rowFn Lc tab (p.1.emb x))
    (hcov : View.Piece.tiledL L ![16] = true)
    (P1 : S8448.Idx → Elt F .f32) (hP1 : P1 = (rowsM).view.read (Elt F) ((rowsM).view.writes (Elt F) fb L)) :
    ∀ k ∈ partSet Lc, (partM Lc).view.writes (Elt F) f0 [⟨Rect.whole S8448, P1⟩] k = Cert.RelPos.strip tab k := by
  intro k hk
  refine strip_of_rows Lc tab f0 P1 (fun j => ?_) k hk
  rw [hP1]
  exact View.read_writes_apply_of_pieces (rowsM).view fb (rowFn Lc tab) L hL j (View.cover_of_tiledL L ![16] hcov j)

end Share

end Cert.Kernel.Hand

end
-- ==== Proof.Bits.TileValue.lean ====
/-
  What the run left on the subcore's share, read back: the strip.

  The run's witness is the share written whole with what the second scratch held, and the second scratch
  had been written by 528 pieces of sixteen words. The pieces the run listed ARE the 528 blocks of
  `piecesBelow` (one evaluation compares the two closed lists), each a block of ONE function of the
  scratch's index — word `j` is word `j % 256` of the table row that strip row 33 w + j / 256 holds — because
  the window copied first holds the table from its first row on; they tile the scratch (one more
  evaluation, on the rectangles alone); so the scratch reads back as that function, and the share written
  with it holds the strip.
-/
import proofs.«214700_g37623913513500_cont_8to1_b_1793_29_alg».proof.Proof.Bits.TileRun
import proofs.«214700_g37623913513500_cont_8to1_b_1793_29_alg».proof.Proof.Bits.TileMath
import Idealize.ShloMosaic.Lib.SparseCore.Launch
import Idealize.ShloMosaic.Lib.Transfers
import Idealize.ShloMosaic.Lib.Writes
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Value

local notation "𝕄" => MT nD τ sig (HIx 1) (Elt F) ℕ UU ℕ

variable (d : Dev nD) (Lc : grid0.Coords)

set_option maxRecDepth 65536

/-- What the run left on the share: the share written whole with what was copied out. The witness is the
    run's own term; the two sides are compared by evaluation. -/
theorem run_share [FloatOps F] (q : PosShare TreeShare) (tab : Buf (Elt F) (tabLoc d))
    (f0 : Buf (Elt F) (stripLoc d)) (fa : Buf (Elt F) ((thrV d Lc).loc cc0_scratch0)) (fb : Buf (Elt F) ((thrV d Lc).loc cc0_scratch1)) :
    (tileRun (F := F) d Lc q tab).1 f0 fa fb
      = (partM Lc).view.writes (Elt F) f0 [⟨Rect.whole S8448, tileRun.sl.dma1584 d Lc tab fa fb⟩] := by
  sl_kernel_rfl

/-- What was copied out is the second scratch read whole after its listed writes. -/
theorem run_copied [FloatOps F] (tab : Buf (Elt F) (tabLoc d))
    (fa : Buf (Elt F) ((thrV d Lc).loc cc0_scratch0)) (fb : Buf (Elt F) ((thrV d Lc).loc cc0_scratch1)) :
    tileRun.sl.dma1584 d Lc tab fa fb
      = (rowsM).view.read (Elt F) ((rowsM).view.writes (Elt F) fb (tileRun.sl.Hb'_528 d Lc tab fa)) := by
  delta tileRun.sl.dma1584
  exact ReadAs.apply_same _

/-- After the copy in the first scratch holds the table from the window's first row on: `win_eq` at the
    run's own name for what was copied. -/
theorem win_run [FloatOps F] (tab : Buf (Elt F) (tabLoc d)) (fa : Buf (Elt F) ((thrV d Lc).loc cc0_scratch0)) (m : S8704.Idx) :
    View.write (Elt F) (Memref.whole cc0_scratch0 : Memref sig .scVector .vmem S8704 .f32).view fa (tileRun.sl.dma0 d Lc tab) Finset.univ m
      = tab (ValueIdx.ix1 ⟨256 * winRow Lc + (m 0).val, by
          have := winRow_le Lc; have : (m 0).val < 8704 := (m 0).isLt; omega⟩) := by
  delta tileRun.sl.dma0
  rw [ReadAs.apply_same]
  exact win_eq Lc tab fa m

/-- The pieces the run listed for the second scratch are the 528 blocks of `piecesBelow`, over the first
    scratch as the copy in left it: both sides are closed lists over the same variables, compared by evaluation. -/
theorem run_pieces [FloatOps F] (tab : Buf (Elt F) (tabLoc d)) (fa : Buf (Elt F) ((thrV d Lc).loc cc0_scratch0)) :
    tileRun.sl.Hb'_528 d Lc tab fa
      = piecesBelow Lc (View.write (Elt F) (Memref.whole cc0_scratch0 : Memref sig .scVector .vmem S8704 .f32).view fa
          (tileRun.sl.dma0 d Lc tab) Finset.univ) 528 (Nat.le_refl _) := by
  sl_kernel_rfl

/-- They tile the scratch in blocks of sixteen words: decided on the rectangles alone. -/
theorem run_tiled [FloatOps F] (tab : Buf (Elt F) (tabLoc d)) (fa : Buf (Elt F) ((thrV d Lc).loc cc0_scratch0)) :
    View.Piece.tiledL (tileRun.sl.Hb'_528 d Lc tab fa) ![16] = true := by
  sl_kernel_rfl

/-- On the share's own words, what the run leaves is the strip laid out flat over the table. -/
theorem tileRun_strip [FloatOps F] (q : PosShare TreeShare) (tab : Buf (Elt F) (tabLoc d))
    (f0 : Buf (Elt F) (stripLoc d)) (fa : Buf (Elt F) ((thrV d Lc).loc cc0_scratch0)) (fb : Buf (Elt F) ((thrV d Lc).loc cc0_scratch1)) :
    ∀ k ∈ partSet Lc, (tileRun (F := F) d Lc q tab).1 f0 fa fb k = Cert.RelPos.strip tab k := by
  rw [run_share]
  refine share_of_pieces Lc tab f0 fb (tileRun.sl.Hb'_528 d Lc tab fa) ?_ (run_tiled d Lc tab fa) _ (run_copied d Lc tab fa fb)
  rw [run_pieces]
  exact piecesBelow_spec Lc tab _ (win_run d Lc tab fa) 528 (Nat.le_refl _)

end Value

end Cert.Kernel.Hand

end
-- ==== Proof.Bits.TileSpec.lean ====
/-
  The run's triple with its two ends spelt out: what the previous module folded into two definitions so
  that the executor met the held buffers untouched, unfolded again for the modules that use the run.
-/
import proofs.«214700_g37623913513500_cont_8to1_b_1793_29_alg».proof.Proof.Bits.TileRun
import Idealize.ShloMosaic.Lib.SparseCore.Launch
import Idealize.ShloMosaic.Lib.Transfers
import Idealize.ShloMosaic.Lib.Writes
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

/-- The run's triple with its two ends spelt out. -/
theorem tileRun_spec [FloatOps F] (q : PosShare TreeShare) (tab : Buf (Elt F) (tabLoc d))
    (O : CellTallies nD τ sig (HIx 1)) (W : Waits sig (HIx 1)) (hO : ∀ g, O g none = 0)
    (f0 : Buf (Elt F) (stripLoc d)) (fa : Buf (Elt F) ((thrV d Lc).loc cc0_scratch0)) (fb : Buf (Elt F) ((thrV d Lc).loc cc0_scratch1))
    (Q : PUnit → sProp 𝕄) :
    iprop((levAts (K (F := F)).L (K (F := F)).lev
        ∗ ((tabM).view.loc (thrV d Lc) ↦{q} tab)
        ∗ ((partM Lc).view.loc (thrV d Lc) ↦[(partM Lc).view.set]{fullShare} f0)
        ∗ ((winM).view.loc (thrV d Lc) ↦{fullShare} fa)
        ∗ ((rowsM).view.loc (thrV d Lc) ↦{fullShare} fb)
        ∗ semVal (inCell d Lc) 0 ∗ semVal (outCell d Lc) 0
        ∗ owes (V d (cV Lc) (jV Lc)) O W)
      ∗ (iprop(((tabM).view.loc (thrV d Lc) ↦{q} tab)
          ∗ ((partM Lc).view.loc (thrV d Lc) ↦[(partM Lc).view.set]{fullShare} (tileRun (F := F) d Lc q tab).1 f0 fa fb)
          ∗ (∃ f, (winM).view.loc (thrV d Lc) ↦{fullShare} f)
          ∗ (∃ f, (rowsM).view.loc (thrV d Lc) ↦{fullShare} f)
          ∗ semVal (inCell d Lc) 0 ∗ semVal (outCell d Lc) 0
          ∗ owes (V d (cV Lc) (jV Lc)) O (insert (SemLoc.dma cc0_scoped1.sem, (default : HIx 1)) (insert (SemLoc.dma cc0_scoped0.sem, (default : HIx 1)) W)))
        -∗ Q ⟨⟩))
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          Q := by
  have h := (tileRun (F := F) d Lc q tab).2 O W hO f0 fa fb Q
  rw [runPre, runPost] at h
  exact h

end Tile

end Cert.Kernel.Hand

end
-- ==== Proof.Bits.TileBody.lean ====
/-
  The subcore's body at a symbolic grid point, with its value: from the table held at a share, the
  subcore's share of the strip held outright at anything, and what the launch hands every subcore (its own
  buffers and semaphores, what it owes), the body ends with the table as it was and the share holding the
  strip — the whole-array function, on the share's 8448 words. The run is the previous modules'; here its
  context is opened from the launch's spelling and closed again.
-/
import proofs.«214700_g37623913513500_cont_8to1_b_1793_29_alg».proof.Proof.Bits.TileValue
import proofs.«214700_g37623913513500_cont_8to1_b_1793_29_alg».proof.Proof.Bits.TileSpec
import Idealize.ShloMosaic.Lib.SparseCore.Launch
import Idealize.ShloMosaic.Lib.Transfers
import Idealize.ShloMosaic.Lib.Writes
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

local notation "𝕄" => MT nD τ sig (HIx 1) (Elt F) ℕ UU ℕ

variable (d : Dev nD) (Lc : grid0.Coords)

theorem tile_body [FloatOps F] (q : PosShare TreeShare)
      (tab : Buf (Elt F) (tabLoc d)) (O : CellTallies nD τ sig (HIx 1)) (W : Waits sig (HIx 1)) (hO : ∀ g, O g none = 0) :
    (iprop(levAts (K (F := F)).L (K (F := F)).lev
        ∗ ((tabLoc d ↦{q} tab) ∗ ∃ f, stripLoc d ↦[partSet Lc]{fullShare} f)
        ∗ scopedBufs (V d (cV Lc) (jV Lc)) ∗ scopedSems0 (V d (cV Lc) (jV Lc)) ∗ owes (V d (cV Lc) (jV Lc)) O W) : sProp 𝕄)
      ⊢ wp frame (wpE (defs₀ (F := F)) 𝒱₀ (V d (cV Lc) (jV Lc)) none) Set.univ
          (cc0__sc_expand Lc (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(((tabLoc d ↦{q} tab) ∗ stripLoc d ↦[partSet Lc]{fullShare} (Cert.RelPos.strip tab))
            ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W') := by
  rw [(K (F := F)).scopedBufs_V facts d (cV Lc) (jV Lc), SparseCore.Cfg.scopedSems0_V (Val := Elt F) d (cV Lc) (jV Lc),
    ownSems0_tile, ownBufs_tile]
  iintro ⟨#Hlv, ⟨Htab, %f0, Hout⟩, ⟨⟨%fa, Ha⟩, ⟨%fb, Hb⟩, Hbufs⟩, ⟨HsemA, HsemB, Hsems⟩, HO⟩
  iapply (tileRun_spec (F := F) d Lc q tab O W hO f0 fa fb _)
  isplitl [Htab Hout Ha Hb HsemA HsemB HO]
  · isplitr; · iexact Hlv
    isplitl [Htab]; · iapply (Entails.of_eq (pts_tab (F := F) d Lc q tab).symm); iexact Htab
    isplitl [Hout]; · iapply (Entails.of_eq (pts_part (F := F) d Lc f0).symm); iexact Hout
    isplitl [Ha]; · iexact Ha
    isplitl [Hb]; · iexact Hb
    isplitl [HsemA]; · iexact HsemA
    isplitl [HsemB]; · iexact HsemB
    iexact HO
  iintro ⟨Htab', Hout', ⟨%fa', Ha'⟩, ⟨%fb', Hb'⟩, HsemA, HsemB, HO⟩
  isplitl [Htab' Hout']
  · isplitl [Htab']
    · iapply (Entails.of_eq (pts_tab (F := F) d Lc q tab)); iexact Htab'
    · iapply (Entails.of_eq ((pts_part (F := F) d Lc _).trans (pointsTo_congr (tileRun_strip (F := F) d Lc q tab f0 fa fb))))
      iexact Hout'
  isplitl [Ha' Hb' Hbufs]
  · isplitl [Ha']
    · iexists _; iexact Ha'
    isplitl [Hb']
    · iexists _; iexact Hb'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Tile

end Cert.Kernel.Hand

end
-- ==== Proof.Bits.TcPieces.lean ====
import proofs.«214700_g37623913513500_cont_8to1_b_1793_29_alg».proof.Proof.Bits.TcData
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

/-! ## The strip's slabs and the result's blocks, entry by entry

Every statement here is over an arbitrary strip `X` and plain index arithmetic: a load through a unit-stride rectangle
reads the buffer at offset + index, and the two shape casts around each load only add or drop a leading axis of
extent one. -/

open ValueIdx in
theorem ix2_congr {n0 n1 : ℕ} {a a' : Fin n0} {b b' : Fin n1} (ha : a.val = a'.val) (hb : b.val = b'.val) :
    ix2 a b = ix2 a' b' := by
  rw [Fin.ext ha, Fin.ext hb]

/-- Entry `y` of the slabs is the strip's entry `(y₀ + y₁, y₂)`. -/
theorem slabs_eq {α : Type} (X : S1056x256.Idx → α) (y : S8x1024x256.Idx) (g : S1056x256.Idx)
    (h0 : (g 0).val = (y 0).val + (y 1).val) (h1 : (g 1).val = (y 2).val) : slabs X y = X g := by
  unfold slabs
  refine congrArg X (funext fun a => ?_)
  match a with
  | ⟨0, _⟩ => exact Fin.ext h0.symm
  | ⟨1, _⟩ => exact Fin.ext h1.symm

/-- Entry `j` of block `t` of the result is the strip's entry `(511 − (8 t + j₀) + j₁, j₂)`. -/
theorem outBlk_eq {α : Type} (X : S1056x256.Idx → α) (t : ℕ) (j : S8x512x256.Idx) (g : S1056x256.Idx)
    (h0 : (g 0).val = 511 - (8 * t + (j 0).val) + (j 1).val) (h1 : (g 1).val = (j 2).val) : outBlk X t j = X g := by
  unfold outBlk
  refine congrArg X (funext fun a => ?_)
  have hg : (g 0).val < 1056 := (g 0).isLt
  match a with
  | ⟨0, _⟩ => exact Fin.ext (by show (511 - (8 * t + (j 0).val) + (j 1).val) % 1056 = (g 0).val; rw [← h0, Nat.mod_eq_of_lt hg])
  | ⟨1, _⟩ => exact Fin.ext h1.symm

/-- A vector cast to its own shape and then given a leading unit axis reads, at `(u, i, j)`, the vector at `(i, j)`. -/
theorem cast_ab_1ab {α : Type} {a b : ℕ} (v : (⟨2, ![a, b]⟩ : Shape).Idx → α)
    (h : (⟨2, ![a, b]⟩ : Shape).ShapeCasts ⟨2, ![a, b]⟩) (h' : (⟨2, ![a, b]⟩ : Shape).ShapeCasts ⟨3, ![1, a, b]⟩)
    (x : (⟨3, ![1, a, b]⟩ : Shape).Idx) :
    shapeCast ⟨3, ![1, a, b]⟩ (shapeCast ⟨2, ![a, b]⟩ v h) h' x = v (ValueIdx.ix2 (x 1) (x 2)) := by
  rw [shapeCast_self]
  have hx : x = ValueIdx.ix3 (x 0) (x 1) (x 2) := funext fun c => by
    match c with
    | ⟨0, _⟩ => rfl
    | ⟨1, _⟩ => rfl
    | ⟨2, _⟩ => rfl
  rw [hx]
  exact ValueIdx.shapeCast_ab_1ab_apply v h' (x 0) (x 1) (x 2)

/-- A vector with a leading unit axis, the axis dropped and restored, is the vector. -/
theorem cast_1ab_ab_1ab {α : Type} {a b : ℕ} (v : (⟨3, ![1, a, b]⟩ : Shape).Idx → α)
    (h : (⟨3, ![1, a, b]⟩ : Shape).ShapeCasts ⟨2, ![a, b]⟩) (h' : (⟨2, ![a, b]⟩ : Shape).ShapeCasts ⟨3, ![1, a, b]⟩)
    (x : (⟨3, ![1, a, b]⟩ : Shape).Idx) :
    shapeCast ⟨3, ![1, a, b]⟩ (shapeCast ⟨2, ![a, b]⟩ v h) h' x = v x :=
  congrFun (shapeCast_shapeCast v h h') x

/-- SLAB `k` OF THE SCRATCH: rows `k … k + 1023` of the strip, loaded as one 1024 × 256 vector and stored with a
    leading unit axis at slab `k`, are the slabs' entries there. -/
theorem scrPiece (X : Vec F S1056x256 .f32) (k : ℕ) (hk : k < 8)
    (inb : ∀ a, (![k, 0] : Fin 2 → ℕ) a + S1024x256.size a ≤ S1056x256.size a)
    (inb' : ∀ a, (![k, 0, 0] : Fin 3 → ℕ) a + S1x1024x256.size a ≤ S8x1024x256.size a)
    (h : S1024x256.ShapeCasts S1024x256) (h' : S1024x256.ShapeCasts S1x1024x256) (x : S1x1024x256.Idx) :
    shapeCast S1x1024x256 (shapeCast S1024x256 (View.ld (Val := Elt F) X (Rect.unit (s := S1056x256) ![k, 0] S1024x256.size inb)) h) h' x
      = slabs X ((Rect.unit (s := S8x1024x256) ![k, 0, 0] S1x1024x256.size inb').emb x) := by
  have h0 : (x 0).val < 1 := (x 0).isLt
  refine (cast_ab_1ab (a := 1024) (b := 256) (View.ld (Val := Elt F) X (Rect.unit (s := S1056x256) ![k, 0] S1024x256.size inb)) h h' x).trans ?_
  symm
  refine slabs_eq X _ _ ?_ ?_
  · show k + 1 * (x 1).val = (k + 1 * (x 0).val) + (0 + 1 * (x 1).val)
    omega
  · show 0 + 1 * (x 2).val = 0 + 1 * (x 2).val
    rfl

/-- ROW `r` OF BLOCK `t`: the 512 × 256 window of slab `7 − r` starting at row `504 − 8 t`, loaded with its leading unit
    axis, dropped and restored, and stored at row `r` of the block, is the block's entries there. -/
theorem outPiece (X : Vec F S1056x256 .f32) (fs : Vec F S8x1024x256 .f32) (hfs : ∀ y, fs y = slabs X y)
    (off : Fin 3 → ℕ) (r t : ℕ) (hr : r < 8) (ht : t < 64) (hoff : off = ![7 - r, 504 - 8 * t, 0])
    (inb : ∀ a, off a + S1x512x256.size a ≤ S8x1024x256.size a)
    (inb' : ∀ a, (![r, 0, 0] : Fin 3 → ℕ) a + S1x512x256.size a ≤ S8x512x256.size a)
    (h : S1x512x256.ShapeCasts S512x256) (h' : S512x256.ShapeCasts S1x512x256) (x : S1x512x256.Idx) :
    shapeCast S1x512x256 (shapeCast S512x256 (View.ld (Val := Elt F) fs (Rect.unit (s := S8x1024x256) off S1x512x256.size inb)) h) h' x
      = outBlk X t ((Rect.unit (s := S8x512x256) ![r, 0, 0] S1x512x256.size inb').emb x) := by
  subst hoff
  refine (cast_1ab_ab_1ab (a := 512) (b := 256) (View.ld (Val := Elt F) fs (Rect.unit (s := S8x1024x256) ![7 - r, 504 - 8 * t, 0] S1x512x256.size inb)) h h' x).trans ?_
  have h0 : (x 0).val < 1 := (x 0).isLt
  have h1 : (x 1).val < 512 := (x 1).isLt
  show fs _ = _
  rw [hfs]
  refine (slabs_eq X _ (ValueIdx.ix2 ⟨511 - (8 * t + r) + (x 1).val, by omega⟩ (x 2)) ?_ ?_).trans
    (outBlk_eq X t _ (ValueIdx.ix2 ⟨511 - (8 * t + r) + (x 1).val, by omega⟩ (x 2)) ?_ ?_).symm
  · show 511 - (8 * t + r) + (x 1).val = ((7 - r) + 1 * (x 0).val) + ((504 - 8 * t) + 1 * (x 1).val)
    omega
  · show (x 2).val = 0 + 1 * (x 2).val
    omega
  · show 511 - (8 * t + r) + (x 1).val = 511 - (8 * t + (r + 1 * (x 0).val)) + (0 + 1 * (x 1).val)
    omega
  · show (x 2).val = 0 + 1 * (x 2).val
    omega

end Cert.Kernel.Hand

end
-- ==== Proof.Bits.TcBodyN.lean ====
import proofs.«214700_g37623913513500_cont_8to1_b_1793_29_alg».proof.Proof.Bits.TcPieces
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

/-- The kernel's branch condition, over the grid: it holds at the first point only. -/
theorem tc_cond : ∀ i : grid1.Coords,
    (Scalar.cmpi .ne (Scalar.extui (Scalar.cmpi .eq (BitVec.ofNat 32 (i 0).val) 0#32)) 0#32 = 1#1) ↔ (i 0).val = 0 := by decide +kernel

set_option maxHeartbeats 1600000 in
/-- THE BODY AT A LATER POINT. The branch is not taken; each of the eight stores writes row `r` of the block from slab
    `7 − r` of the scratch, which holds the strip's slabs and is left as it was. -/
theorem tc_runN (c : Dev nD) (i : grid1.Coords) (hi : (i 0).val ≠ 0)
    (M1 : Memref sig .tc .vmem S1056x256 .f32) (h1 : M1.IsWhole) (M2 : Memref sig .tc .vmem S8x512x256 .f32) (h2 : M2.IsWhole)
    (X : Vec F S1056x256 .f32)
    (f1 : Buf (Elt F) (M1.view.loc (SparseCore.T c))) (f2 : Buf (Elt F) (M2.view.loc (SparseCore.T c))) (Q : PUnit → sProp 𝕄) :
    iprop((M1.view.loc (SparseCore.T c) ↦[M1.view.set]{fullShare} f1) ∗ (M2.view.loc (SparseCore.T c) ↦[M2.view.set]{fullShare} f2)
      ∗ ((Memref.whole cc1_scratch0).view.loc (SparseCore.T c) ↦{fullShare} (slabs X : Buf (Elt F) ((Memref.whole cc1_scratch0).view.loc (SparseCore.T c))))
      ∗ (iprop((M1.view.loc (SparseCore.T c) ↦[M1.view.set]{fullShare} f1) ∗ owns (SparseCore.T c) M2 fullShare (outBlk X (i 0).val)
          ∗ ((Memref.whole cc1_scratch0).view.loc (SparseCore.T c) ↦{fullShare} (slabs X : Buf (Elt F) ((Memref.whole cc1_scratch0).view.loc (SparseCore.T c))))) -∗ Q ⟨⟩))
    ⊢ wp frame (wpE (defs₀ (F := F)) 𝒱₀ (SparseCore.T c) none) Set.univ
        (cc1__tc_stream i M1 h1 M2 h2 (Memref.whole cc1_scratch0) (Memref.isWhole_whole _)) Q := by
  have hc : ¬ (Scalar.cmpi .ne (Scalar.extui (Scalar.cmpi .eq (BitVec.ofNat 32 (i 0).val) 0#32)) 0#32 = 1#1) := fun h => hi ((tc_cond i).mp h)
  have ht : (i 0).val < 64 := (i 0).isLt
  rw [cc1__tc_stream_eq_skeleton]; unfold cc1__tc_stream_skel
  iintro ⟨H1, H2, Hs, Hk⟩
  sl_exec
  sl_step
  iapply Hk
  isplitl [H1]; · iexact H1
  isplitr [Hs]; swap; · iexact Hs
  unfold owns; iexists _; isplitr; swap; · iexact H2
  ipureintro
  funext y
  refine View.read_writes_apply_of_pieces _ _ (outBlk X (i 0).val) _ ?_ y (View.cover_of_tiledL (s := S8x512x256) _ S1x512x256.size (by sl_kernel_rfl) y)
  intro p hp
  simp only [List.mem_cons, List.mem_nil_iff, or_false] at hp
  rcases hp with rfl | rfl | rfl | rfl | rfl | rfl | rfl | rfl <;> intro x
  · exact outPiece X (slabs X) (fun _ => rfl) (k1_off8 i) 7 (i 0).val (by omega) ht (k1_off8_eq i) (Gen.k1_off8_inb i) Gen.inb_S8x512x256_S1x512x256_7_0_0 Gen.shapeCasts_S1x512x256_S512x256 Gen.shapeCasts_S512x256_S1x512x256 x
  · exact outPiece X (slabs X) (fun _ => rfl) (k1_off7 i) 6 (i 0).val (by omega) ht (k1_off7_eq i) (Gen.k1_off7_inb i) Gen.inb_S8x512x256_S1x512x256_6_0_0 Gen.shapeCasts_S1x512x256_S512x256 Gen.shapeCasts_S512x256_S1x512x256 x
  · exact outPiece X (slabs X) (fun _ => rfl) (k1_off6 i) 5 (i 0).val (by omega) ht (k1_off6_eq i) (Gen.k1_off6_inb i) Gen.inb_S8x512x256_S1x512x256_5_0_0 Gen.shapeCasts_S1x512x256_S512x256 Gen.shapeCasts_S512x256_S1x512x256 x
  · exact outPiece X (slabs X) (fun _ => rfl) (k1_off5 i) 4 (i 0).val (by omega) ht (k1_off5_eq i) (Gen.k1_off5_inb i) Gen.inb_S8x512x256_S1x512x256_4_0_0 Gen.shapeCasts_S1x512x256_S512x256 Gen.shapeCasts_S512x256_S1x512x256 x
  · exact outPiece X (slabs X) (fun _ => rfl) (k1_off4 i) 3 (i 0).val (by omega) ht (k1_off4_eq i) (Gen.k1_off4_inb i) Gen.inb_S8x512x256_S1x512x256_3_0_0 Gen.shapeCasts_S1x512x256_S512x256 Gen.shapeCasts_S512x256_S1x512x256 x
  · exact outPiece X (slabs X) (fun _ => rfl) (k1_off3 i) 2 (i 0).val (by omega) ht (k1_off3_eq i) (Gen.k1_off3_inb i) Gen.inb_S8x512x256_S1x512x256_2_0_0 Gen.shapeCasts_S1x512x256_S512x256 Gen.shapeCasts_S512x256_S1x512x256 x
  · exact outPiece X (slabs X) (fun _ => rfl) (k1_off2 i) 1 (i 0).val (by omega) ht (k1_off2_eq i) (Gen.k1_off2_inb i) Gen.inb_S8x512x256_S1x512x256_1_0_0 Gen.shapeCasts_S1x512x256_S512x256 Gen.shapeCasts_S512x256_S1x512x256 x
  · exact outPiece X (slabs X) (fun _ => rfl) (k1_off1 i) 0 (i 0).val (by omega) ht (k1_off1_eq i) (Gen.k1_off1_inb i) Gen.inb_S8x512x256_S1x512x256_0_0_0 Gen.shapeCasts_S1x512x256_S512x256 Gen.shapeCasts_S512x256_S1x512x256 x

end Cert.Kernel.Hand

end
-- ==== Proof.Bits.TcBody0.lean ====
import proofs.«214700_g37623913513500_cont_8to1_b_1793_29_alg».proof.Proof.Bits.TcPieces
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

/-- The kernel's branch condition at the first point. -/
theorem tc_cond0 : ∀ i : grid1.Coords, (i 0).val = 0 →
    Scalar.cmpi .ne (Scalar.extui (Scalar.cmpi .eq (BitVec.ofNat 32 (i 0).val) 0#32)) 0#32 = 1#1 := by decide +kernel

/-- `outPiece` for a load through any view of a buffer whose contents READ the strip's slabs. -/
theorem outPieceAt {κ : Kind} {sp : Space} (v : View sig κ sp S8x1024x256 .f32) (g : v.ty.Contents (Elt F)) (X : Vec F S1056x256 .f32)
    (hfs : ∀ y, v.read (Elt F) g y = slabs X y)
    (off : Fin 3 → ℕ) (r t : ℕ) (hr : r < 8) (ht : t < 64) (hoff : off = ![7 - r, 504 - 8 * t, 0])
    (inb : ∀ a, off a + S1x512x256.size a ≤ S8x1024x256.size a)
    (inb' : ∀ a, (![r, 0, 0] : Fin 3 → ℕ) a + S1x512x256.size a ≤ S8x512x256.size a)
    (h : S1x512x256.ShapeCasts S512x256) (h' : S512x256.ShapeCasts S1x512x256) (x : S1x512x256.Idx) :
    shapeCast S1x512x256 (shapeCast S512x256 (v.readAt (Elt F) (Rect.unit (s := S8x1024x256) off S1x512x256.size inb).toLoadRect g) h) h' x
      = outBlk X t ((Rect.unit (s := S8x512x256) ![r, 0, 0] S1x512x256.size inb').emb x) :=
  outPiece X (v.read (Elt F) g) hfs off r t hr ht hoff inb inb' h h' x

set_option maxHeartbeats 3200000 in
/-- THE BODY AT THE FIRST POINT. The branch is taken: the eight stores into the scratch write the strip's eight slabs over
    whatever it held; then, as at every point, the eight stores into the block read those slabs back. -/
theorem tc_run0 (c : Dev nD) (i : grid1.Coords) (hi : (i 0).val = 0)
    (M1 : Memref sig .tc .vmem S1056x256 .f32) (h1 : M1.IsWhole) (M2 : Memref sig .tc .vmem S8x512x256 .f32) (h2 : M2.IsWhole)
    (f1 : Buf (Elt F) (M1.view.loc (SparseCore.T c))) (f2 : Buf (Elt F) (M2.view.loc (SparseCore.T c)))
    (fs : Buf (Elt F) ((Memref.whole cc1_scratch0).view.loc (SparseCore.T c))) (Q : PUnit → sProp 𝕄) :
    iprop((M1.view.loc (SparseCore.T c) ↦[M1.view.set]{fullShare} f1) ∗ (M2.view.loc (SparseCore.T c) ↦[M2.view.set]{fullShare} f2)
      ∗ ((Memref.whole cc1_scratch0).view.loc (SparseCore.T c) ↦{fullShare} fs)
      ∗ (iprop((M1.view.loc (SparseCore.T c) ↦[M1.view.set]{fullShare} f1)
          ∗ owns (SparseCore.T c) M2 fullShare (outBlk (M1.view.read (Elt F) f1) (i 0).val)
          ∗ (∃ g : Buf (Elt F) ((Memref.whole cc1_scratch0).view.loc (SparseCore.T c)), ⌜g = slabs (M1.view.read (Elt F) f1)⌝
              ∗ ((Memref.whole cc1_scratch0).view.loc (SparseCore.T c) ↦{fullShare} g))) -∗ Q ⟨⟩))
    ⊢ wp frame (wpE (defs₀ (F := F)) 𝒱₀ (SparseCore.T c) none) Set.univ
        (cc1__tc_stream i M1 h1 M2 h2 (Memref.whole cc1_scratch0) (Memref.isWhole_whole _)) Q := by
  have hc : (Scalar.cmpi .ne (Scalar.extui (Scalar.cmpi .eq (BitVec.ofNat 32 (i 0).val) 0#32)) 0#32 = 1#1) := tc_cond0 i hi
  have ht : (i 0).val < 64 := (i 0).isLt
  rw [cc1__tc_stream_eq_skeleton]; unfold cc1__tc_stream_skel
  iintro ⟨H1, H2, Hs, Hk⟩
  sl_exec
  sl_step
  -- the scratch after the eight stores: the strip's slabs, entry by entry
  have hS : ∀ y, (Memref.whole cc1_scratch0).view.read (Elt F)
      ((Memref.whole cc1_scratch0).view.writes (Elt F) (Memref.whole cc1_scratch0).view.junk (tc_run0.sl.Hs_8 c M1 f1)) y
        = slabs (M1.view.read (Elt F) f1) y := by
    intro y
    refine View.read_writes_apply_of_pieces _ _ (slabs (M1.view.read (Elt F) f1)) _ ?_ y
      (View.cover_of_tiledL (s := S8x1024x256) _ S1x1024x256.size (by sl_kernel_rfl) y)
    intro p hp
    unfold tc_run0.sl.Hs_8 at hp
    simp only [List.mem_cons, List.mem_nil_iff, _root_.or_false] at hp
    rcases hp with rfl | rfl | rfl | rfl | rfl | rfl | rfl | rfl <;> intro x
    · exact scrPiece (M1.view.read (Elt F) f1) 7 (by omega) Gen.inb_S1056x256_S1024x256_7_0 Gen.inb_S8x1024x256_S1x1024x256_7_0_0 Gen.shapeCasts_S1024x256_S1024x256 Gen.shapeCasts_S1024x256_S1x1024x256 x
    · exact scrPiece (M1.view.read (Elt F) f1) 6 (by omega) Gen.inb_S1056x256_S1024x256_6_0 Gen.inb_S8x1024x256_S1x1024x256_6_0_0 Gen.shapeCasts_S1024x256_S1024x256 Gen.shapeCasts_S1024x256_S1x1024x256 x
    · exact scrPiece (M1.view.read (Elt F) f1) 5 (by omega) Gen.inb_S1056x256_S1024x256_5_0 Gen.inb_S8x1024x256_S1x1024x256_5_0_0 Gen.shapeCasts_S1024x256_S1024x256 Gen.shapeCasts_S1024x256_S1x1024x256 x
    · exact scrPiece (M1.view.read (Elt F) f1) 4 (by omega) Gen.inb_S1056x256_S1024x256_4_0 Gen.inb_S8x1024x256_S1x1024x256_4_0_0 Gen.shapeCasts_S1024x256_S1024x256 Gen.shapeCasts_S1024x256_S1x1024x256 x
    · exact scrPiece (M1.view.read (Elt F) f1) 3 (by omega) Gen.inb_S1056x256_S1024x256_3_0 Gen.inb_S8x1024x256_S1x1024x256_3_0_0 Gen.shapeCasts_S1024x256_S1024x256 Gen.shapeCasts_S1024x256_S1x1024x256 x
    · exact scrPiece (M1.view.read (Elt F) f1) 2 (by omega) Gen.inb_S1056x256_S1024x256_2_0 Gen.inb_S8x1024x256_S1x1024x256_2_0_0 Gen.shapeCasts_S1024x256_S1024x256 Gen.shapeCasts_S1024x256_S1x1024x256 x
    · exact scrPiece (M1.view.read (Elt F) f1) 1 (by omega) Gen.inb_S1056x256_S1024x256_1_0 Gen.inb_S8x1024x256_S1x1024x256_1_0_0 Gen.shapeCasts_S1024x256_S1024x256 Gen.shapeCasts_S1024x256_S1x1024x256 x
    · exact scrPiece (M1.view.read (Elt F) f1) 0 (by omega) Gen.inb_S1056x256_S1024x256_0_0 Gen.inb_S8x1024x256_S1x1024x256_0_0_0 Gen.shapeCasts_S1024x256_S1024x256 Gen.shapeCasts_S1024x256_S1x1024x256 x
  -- from here on the scratch's contents are a name: every later load reads them through that name
  sl_unfold_run_names
  revert hS
  unfold tc_run0.sl.Hs_8
  sl_unfold_run_names
  generalize (Memref.whole cc1_scratch0).view.writes (Elt F) (Memref.whole cc1_scratch0).view.junk _ = W
  intro hS
  have hS' : W = (slabs (M1.view.read (Elt F) f1) : S8x1024x256.Idx → Elt F .f32) := funext hS
  iapply Hk
  isplitl [H1]; · iexact H1
  isplitr [Hs]; swap
  · iexists _; isplitr; swap; · iexact Hs
    ipureintro; exact hS'
  unfold owns; iexists _; isplitr; swap; · iexact H2
  ipureintro
  funext y
  refine View.read_writes_apply_of_pieces _ _ (outBlk (M1.view.read (Elt F) f1) (i 0).val) _ ?_ y
    (View.cover_of_tiledL (s := S8x512x256) _ S1x512x256.size (by sl_kernel_rfl) y)
  intro p hp
  simp only [List.mem_cons, List.mem_nil_iff, _root_.or_false] at hp
  rcases hp with rfl | rfl | rfl | rfl | rfl | rfl | rfl | rfl <;> intro x
  · exact outPieceAt (Memref.whole cc1_scratch0).view W (M1.view.read (Elt F) f1) hS (k1_off8 i) 7 (i 0).val (by omega) ht (k1_off8_eq i) (Gen.k1_off8_inb i) Gen.inb_S8x512x256_S1x512x256_7_0_0 Gen.shapeCasts_S1x512x256_S512x256 Gen.shapeCasts_S512x256_S1x512x256 x
  · exact outPieceAt (Memref.whole cc1_scratch0).view W (M1.view.read (Elt F) f1) hS (k1_off7 i) 6 (i 0).val (by omega) ht (k1_off7_eq i) (Gen.k1_off7_inb i) Gen.inb_S8x512x256_S1x512x256_6_0_0 Gen.shapeCasts_S1x512x256_S512x256 Gen.shapeCasts_S512x256_S1x512x256 x
  · exact outPieceAt (Memref.whole cc1_scratch0).view W (M1.view.read (Elt F) f1) hS (k1_off6 i) 5 (i 0).val (by omega) ht (k1_off6_eq i) (Gen.k1_off6_inb i) Gen.inb_S8x512x256_S1x512x256_5_0_0 Gen.shapeCasts_S1x512x256_S512x256 Gen.shapeCasts_S512x256_S1x512x256 x
  · exact outPieceAt (Memref.whole cc1_scratch0).view W (M1.view.read (Elt F) f1) hS (k1_off5 i) 4 (i 0).val (by omega) ht (k1_off5_eq i) (Gen.k1_off5_inb i) Gen.inb_S8x512x256_S1x512x256_4_0_0 Gen.shapeCasts_S1x512x256_S512x256 Gen.shapeCasts_S512x256_S1x512x256 x
  · exact outPieceAt (Memref.whole cc1_scratch0).view W (M1.view.read (Elt F) f1) hS (k1_off4 i) 3 (i 0).val (by omega) ht (k1_off4_eq i) (Gen.k1_off4_inb i) Gen.inb_S8x512x256_S1x512x256_3_0_0 Gen.shapeCasts_S1x512x256_S512x256 Gen.shapeCasts_S512x256_S1x512x256 x
  · exact outPieceAt (Memref.whole cc1_scratch0).view W (M1.view.read (Elt F) f1) hS (k1_off3 i) 2 (i 0).val (by omega) ht (k1_off3_eq i) (Gen.k1_off3_inb i) Gen.inb_S8x512x256_S1x512x256_2_0_0 Gen.shapeCasts_S1x512x256_S512x256 Gen.shapeCasts_S512x256_S1x512x256 x
  · exact outPieceAt (Memref.whole cc1_scratch0).view W (M1.view.read (Elt F) f1) hS (k1_off2 i) 1 (i 0).val (by omega) ht (k1_off2_eq i) (Gen.k1_off2_inb i) Gen.inb_S8x512x256_S1x512x256_1_0_0 Gen.shapeCasts_S1x512x256_S512x256 Gen.shapeCasts_S512x256_S1x512x256 x
  · exact outPieceAt (Memref.whole cc1_scratch0).view W (M1.view.read (Elt F) f1) hS (k1_off1 i) 0 (i 0).val (by omega) ht (k1_off1_eq i) (Gen.k1_off1_inb i) Gen.inb_S8x512x256_S1x512x256_0_0_0 Gen.shapeCasts_S1x512x256_S512x256 Gen.shapeCasts_S512x256_S1x512x256 x

end Cert.Kernel.Hand

end
-- ==== Proof.Bits.TcBody.lean ====
import proofs.«214700_g37623913513500_cont_8to1_b_1793_29_alg».proof.Proof.Bits.TcBodyN
import proofs.«214700_g37623913513500_cont_8to1_b_1793_29_alg».proof.Proof.Bits.TcBody0
import Idealize.ShloMosaic.Lib.Pipeline.FrameBody
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type}

local notation "𝕄" => MT nD τ sig (HIx 1) (Elt F) ℕ UU ℕ

variable [FloatOps F]

theorem tc_coord : ∀ t : Fin grid1.N, ((grid1.coords t) 0).val = t.val := by decide +kernel
theorem tc_index0 : ∀ t : Fin grid1.N, win1_0.index t = ![0, 0] := by decide +kernel

section
variable (rows : (c : Dev nD) → Buf (Elt F) (rowsLoc c)) (out₀ : (c : Dev nD) → Buf (Elt F) (outLoc c))
  (O : Dev nD → CellTallies nD τ sig (HIx 1))

/-- Window 0's one block is the whole strip. -/
theorem tc_blk0 (c : Dev nD) (t : Fin cfg1.N) :
    ((cfg1.win (0 : Fin 2)).blk t).view.read (Elt F) (rows c) = (rows c : S1056x256.Idx → Elt F .f32) := by
  have hz : (fun a => win1_0.index t a * main_v2.ty.shape.size a) = fun _ => 0 := funext fun a => by
    rw [tc_index0]
    match a with
    | ⟨0, _⟩ => rfl
    | ⟨1, _⟩ => rfl
  exact Memref.read_access_unit_zero (Elt F) main_v2 hz (fun a => by rw [congrFun hz a]; simp) (rows c)

/-- The strip's staging buffer holds the strip at every point: fetched at the first, kept since. -/
theorem tc_before0 (c : Dev nD) (t : Fin cfg1.N) (d : (cfg1.win (0 : Fin 2)).block.Idx → Elt F (cfg1.win (0 : Fin 2)).elt) :
    (tcDats rows out₀ O 0 c).before (0 : Fin 2) t d = (rows c : S1056x256.Idx → Elt F .f32) := by
  have hA : (tcDats rows out₀ O 0 c).A (0 : Fin 2) = rows c := by dsimp only [tcDats]
  have hafter : ∀ t, (tcDats rows out₀ O 0 c).after (0 : Fin 2) t = (rows c : S1056x256.Idx → Elt F .f32) := fun t => by dsimp only [tcDats]
  refine ((tcDats rows out₀ O 0 c).before_in_eq_fetched (0 : Fin 2) rfl (fun _ => rfl) (fun _ _ _ => rfl) (fun t => ?_) t d).trans ?_
  · rw [hafter]; unfold Dat.blockOf; rw [hA]; exact (tc_blk0 rows c t).symm
  · unfold Dat.fetched Dat.blockOf; rw [hA]; exact tc_blk0 rows c t

/-- The result's staging buffer holds anything when the body runs: every point writes it back. -/
theorem tc_before1 (c : Dev nD) (t : Fin cfg1.N) (d : (cfg1.win (1 : Fin 2)).block.Idx → Elt F (cfg1.win (1 : Fin 2)).elt) :
    (tcDats rows out₀ O 0 c).before (1 : Fin 2) t d = d :=
  (tcDats rows out₀ O 0 c).before_out_reset (1 : Fin 2) rfl t
    (by by_cases h : t.val = 0
        · exact .inl h
        · exact .inr ⟨h, flush1_1 _⟩) d

set_option maxHeartbeats 1600000 in
/-- THE BODY OBLIGATION, at every point: the first point by the run that fills the scratch, the others by the run that reads it. -/
theorem tc_body (c : Dev nD) : Pipeline.BodyObligationLoose (tcDats rows out₀ O 0 c) (defs₀ (F := F)) 𝒱₀ (none : HIx 1) Set.univ := fun t => by
  rw [bigSep_W1, bigSep_W1]
  show iprop((tcDats rows out₀ O 0 c).Φ t.castSucc ∗ (tcDats rows out₀ O 0 c).owesAt (none : HIx 1) t.castSucc
      ∗ (∃ d, owns (SparseCore.T c) (st1_0 t) fullShare ((tcDats rows out₀ O 0 c).before (0 : Fin 2) t d))
      ∗ (∃ d, owns (SparseCore.T c) (st1_1 t) fullShare ((tcDats rows out₀ O 0 c).before (1 : Fin 2) t d)))
    ⊢ wp frame (wpE (defs₀ (F := F)) 𝒱₀ (SparseCore.T c) none) Set.univ (bodyAt1 t) fun _ =>
      iprop((tcDats rows out₀ O 0 c).Φ t.succ ∗ (tcDats rows out₀ O 0 c).owesAt (none : HIx 1) t.castSucc
        ∗ owns (SparseCore.T c) (st1_0 t) fullShare ((tcDats rows out₀ O 0 c).after (0 : Fin 2) t)
        ∗ owns (SparseCore.T c) (st1_1 t) fullShare ((tcDats rows out₀ O 0 c).after (1 : Fin 2) t))
  have ha0 : (tcDats rows out₀ O 0 c).after (0 : Fin 2) t = (rows c : S1056x256.Idx → Elt F .f32) := by dsimp only [tcDats]
  have ha1 : (tcDats rows out₀ O 0 c).after (1 : Fin 2) t = outBlk (rows c : S1056x256.Idx → Elt F .f32) t.val := by dsimp only [tcDats]
  have hco : ((grid1.coords t) 0).val = t.val := tc_coord t
  rw [ha0, ha1, tcDats_Phi, tcDats_Phi, show (t.succ : Fin (cfg1.N + 1)).val = t.val + 1 from rfl, PhiT_succ,
    show (t.castSucc : Fin (cfg1.N + 1)).val = t.val from rfl]
  unfold owns
  by_cases hz : t.val = 0
  · rw [hz, PhiT_zero]
    iintro ⟨⟨%fs, Hs⟩, HO, ⟨%d0, %f0, %hf0, H0⟩, ⟨%d1, %f1, %hf1, H1⟩⟩
    rw [tc_before0] at hf0
    iapply (tc_run0 c (grid1.coords t) (hco.trans hz) (st1_0 t) _ (st1_1 t) _ f0 f1 fs _)
    isplitl [H0]; · iexact H0
    isplitl [H1]; · iexact H1
    isplitl [Hs]; · iexact Hs
    iintro ⟨H0, H2, ⟨%g, %hg, Hs⟩⟩
    subst hg
    rw [hf0, hco, hz]
    isplitl [Hs]; · iexact Hs
    isplitl [HO]; · iexact HO
    isplitl [H0]
    · iexists f0; isplitr; · ipureintro; exact hf0
      iexact H0
    · unfold owns; iexact H2
  · rw [PhiT_pos rows c _ hz]
    iintro ⟨Hs, HO, ⟨%d0, %f0, %hf0, H0⟩, ⟨%d1, %f1, %hf1, H1⟩⟩
    rw [tc_before0] at hf0
    iapply (tc_runN c (grid1.coords t) (fun h => hz (hco.symm.trans h)) (st1_0 t) _ (st1_1 t) _ (rows c) f0 f1 _)
    isplitl [H0]; · iexact H0
    isplitl [H1]; · iexact H1
    isplitl [Hs]; · iexact Hs
    iintro ⟨H0, H2, Hs⟩
    rw [hco]
    isplitl [Hs]; · iexact Hs
    isplitl [HO]; · iexact HO
    isplitl [H0]
    · iexists f0; isplitr; · ipureintro; exact hf0
      iexact H0
    · unfold owns; iexact H2
end

end Cert.Kernel.Hand

end
-- ==== Proof.Bits.TcValue.lean ====
import proofs.«214700_g37623913513500_cont_8to1_b_1793_29_alg».proof.Proof.Bits.TcPieces
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

variable [FloatOps F]

/-- Window 1's block index at point `t` is `(t, 0, 0`), and its blocks are never cut. -/
theorem tc_index1 : ∀ t : Fin grid1.N, win1_1.index t = ![t.val, 0, 0] := by decide +kernel
theorem tc_xsize1 : ∀ t : Fin grid1.N, win1_1.xsize (grid1.coords t) = ![8, 512, 256] := by decide +kernel

section
variable (rows : (c : Dev nD) → Buf (Elt F) (rowsLoc c)) (out₀ : (c : Dev nD) → Buf (Elt F) (outLoc c))
  (O : Dev nD → CellTallies nD τ sig (HIx 1))

/-- What point `t` writes back is block `t` of the result read off the strip. -/
theorem tc_flushed (c : Dev nD) (t : Fin cfg1.N) (hf : (cfg1.win (1 : Fin 2)).flush t = true) :
    (tcDats rows out₀ O 0 c).flushed (1 : Fin 2) t
      = ((cfg1.win (1 : Fin 2)).blk t).view.read (Elt F) (Cert.RelPos.relOfStrip (rows c) : Buf (Elt F) (outLoc c)) := by
  show (cfg1.win (1 : Fin 2)).cut (grid1.coords t) ((tcDats rows out₀ O 0 c).after (1 : Fin 2) t) = _
  have ha : (tcDats rows out₀ O 0 c).after (1 : Fin 2) t = outBlk (rows c : S1056x256.Idx → Elt F .f32) t.val := by dsimp only [tcDats]
  rw [ha]
  funext j
  rw [View.read_apply]
  have ht : t.val < 64 := t.isLt
  have h0 : (j 0).val < 8 := lt_of_lt_of_eq (j 0).isLt (congrFun (tc_xsize1 t) 0)
  have h1 : (j 1).val < 512 := lt_of_lt_of_eq (j 1).isLt (congrFun (tc_xsize1 t) 1)
  refine outBlk_eq (rows c) t.val _ _ ?_ ?_
  · show 511 - (win1_1.index t 0 * 8 + 1 * (j 0).val) + (win1_1.index t 1 * 512 + 1 * (j 1).val) = 511 - (8 * t.val + (j 0).val) + (j 1).val
    rw [tc_index1]
    show 511 - (t.val * 8 + 1 * (j 0).val) + (0 * 512 + 1 * (j 1).val) = _
    omega
  · show win1_1.index t 2 * 256 + 1 * (j 2).val = (j 2).val
    rw [tc_index1]
    show 0 * 256 + 1 * (j 2).val = _
    omega

/-- THE VALUE: the sixty-four blocks written back tile the result, so after the last point it is the strip read at
    row `511 − i + j`. -/
theorem tc_value (c : Dev nD) :
    (tcDats rows out₀ O 0 c).arrAt (1 : Fin 2) cfg1.N = (Cert.RelPos.relOfStrip (rows c) : Buf (Elt F) (outLoc c)) :=
  (tcDats rows out₀ O 0 c).arrAt_eq_of_cover (1 : Fin 2) _ (tc_flushed rows out₀ O c) fun i => by
    have h0 : (i 0).val < 512 := (i 0).isLt
    have h1 : (i 1).val < 512 := (i 1).isLt
    have h2 : (i 2).val < 256 := (i 2).isLt
    have ht : (i 0).val / 8 < 64 := by omega
    let t' : Fin cfg1.N := ⟨(i 0).val / 8, ht⟩
    have ht' : t'.val = (i 0).val / 8 := rfl
    refine ⟨t', flush1_1 t', ?_⟩
    show i ∈ ((View.whole main_v3).slice (win1_1.rect t')).set
    rw [View.set_slice_whole, Rect.mem_set_unit]
    intro a
    match a with
    | ⟨0, _⟩ =>
      show win1_1.index t' 0 * 8 ≤ (i 0).val ∧ (i 0).val < win1_1.index t' 0 * 8 + win1_1.xsize (grid1.coords t') 0
      rw [tc_index1, tc_xsize1]
      show t'.val * 8 ≤ (i 0).val ∧ (i 0).val < t'.val * 8 + 8
      omega
    | ⟨1, _⟩ =>
      show win1_1.index t' 1 * 512 ≤ (i 1).val ∧ (i 1).val < win1_1.index t' 1 * 512 + win1_1.xsize (grid1.coords t') 1
      rw [tc_index1, tc_xsize1]
      show 0 * 512 ≤ (i 1).val ∧ (i 1).val < 0 * 512 + 512
      omega
    | ⟨2, _⟩ =>
      show win1_1.index t' 2 * 256 ≤ (i 2).val ∧ (i 2).val < win1_1.index t' 2 * 256 + win1_1.xsize (grid1.coords t') 2
      rw [tc_index1, tc_xsize1]
      show 0 * 256 ≤ (i 2).val ∧ (i 2).val < 0 * 256 + 256
      omega
end

end Cert.Kernel.Hand

end
-- ==== Proof.Bits.TcRegion.lean ====
import proofs.«214700_g37623913513500_cont_8to1_b_1793_29_alg».proof.Proof.Bits.TcBody
import proofs.«214700_g37623913513500_cont_8to1_b_1793_29_alg».proof.Proof.Bits.TcValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

local notation "𝕄" => MT nD τ sig (HIx 1) (Elt F) ℕ UU ℕ

variable [FloatOps F]

/-- A whole buffer held at some contents, restated at an equal location. -/
theorem pt_congr {ℓ ℓ' : Loc nD τ sig} (h : ℓ = ℓ') {f : Buf (Elt F) ℓ} {f' : Buf (Elt F) ℓ'} (hf : HEq f f') :
    ((ℓ ↦{fullShare} f : sProp 𝕄)) = (ℓ' ↦{fullShare} f') := by
  subst h; rw [eq_of_heq hf]

section
variable (rows : (c : Dev nD) → Buf (Elt F) (rowsLoc c)) (out₀ : (c : Dev nD) → Buf (Elt F) (outLoc c))
  (O : Dev nD → CellTallies nD τ sig (HIx 1))

/-- The windows' arrays are the strip and the result. -/
theorem tc_loc0 (c : Dev nD) : (c.tc : Thread nD τ).loc (Pipeline.arrRef (Pipeline.pin (pcfgs (F := F)) adm 0).spec (0 : Fin 2)) = rowsLoc c := rfl
theorem tc_loc1 (c : Dev nD) : (c.tc : Thread nD τ).loc (Pipeline.arrRef (Pipeline.pin (pcfgs (F := F)) adm 0).spec (1 : Fin 2)) = outLoc c := rfl

theorem tc_entry0 (c : Dev nD) : (tcDats rows out₀ O 0 c).arrAt (0 : Fin 2) 0 = rows c := by
  show (tcDats rows out₀ O 0 c).A (0 : Fin 2) = rows c
  dsimp only [tcDats]
theorem tc_entry1 (c : Dev nD) : (tcDats rows out₀ O 0 c).arrAt (1 : Fin 2) 0 = out₀ c := by
  show (tcDats rows out₀ O 0 c).A (1 : Fin 2) = out₀ c
  dsimp only [tcDats]

/-- The strip is an input: never written. -/
theorem tc_rows_kept (c : Dev nD) (n : ℕ) : (tcDats rows out₀ O 0 c).arrAt (0 : Fin 2) n = rows c :=
  ((tcDats rows out₀ O 0 c).arrAt_in (0 : Fin 2) rfl n).trans (by dsimp only [tcDats])

/-- ENTRY: the strip and the result's array, held apart, are the pipeline's arrays at the proof data's entry contents. -/
theorem tc_arrays_entry (c : Dev nD) :
    iprop((rowsLoc c ↦{fullShare} rows c) ∗ (outLoc c ↦{fullShare} out₀ c))
      ⊢ ((tcDats rows out₀ O 0 c).arrays ((tcDats rows out₀ O 0 c).arrAt · 0) : sProp 𝕄) := by
  rw [Pipeline.arrays_eq (Pipeline.pin pcfgs adm) (tcDats rows out₀ O) 0 c launch1.arr_whole (tcDats_share rows out₀ O c), bigSep_W1]
  exact BIClass.sep_mono (Entails.of_eq (pt_congr (tc_loc0 (F := F) c) (heq_of_eq (tc_entry0 rows out₀ O c))).symm)
    (Entails.of_eq (pt_congr (tc_loc1 (F := F) c) (heq_of_eq (tc_entry1 rows out₀ O c))).symm)

/-- EXIT: the pipeline's arrays after the last write-back are the strip as it was and the result's array at `G`, once the
    blocks written back are known to make up `G`. -/
theorem tc_arrays_exit (c : Dev nD) (G : Buf (Elt F) (outLoc c)) (hG : (tcDats rows out₀ O 0 c).arrAt (1 : Fin 2) cfg1.N = G) :
    ((tcDats rows out₀ O 0 c).arrays ((tcDats rows out₀ O 0 c).arrAt · cfg1.N) : sProp 𝕄)
      ⊢ iprop((rowsLoc c ↦{fullShare} rows c) ∗ (outLoc c ↦{fullShare} G)) := by
  rw [Pipeline.arrays_eq (Pipeline.pin pcfgs adm) (tcDats rows out₀ O) 0 c launch1.arr_whole (tcDats_share rows out₀ O c), bigSep_W1]
  exact BIClass.sep_mono (Entails.of_eq (pt_congr (tc_loc0 (F := F) c) (heq_of_eq (tc_rows_kept rows out₀ O c cfg1.N))))
    (Entails.of_eq (pt_congr (tc_loc1 (F := F) c) (heq_of_eq hG)))
/-- What the TensorCore owes, as the pipeline's rule holds it: the recorded pairs within the bound are the pairs at
    level 8 or below (the pipeline's own waits sit at level 0). -/
theorem tc_owesAt (c : Dev nD) (t : Fin (cfg1.N + 1)) :
    ((tcDats rows out₀ O 0 c).owesAt (none : HIx 1) t : sProp 𝕄)
      ⊣⊢ iprop(∃ W, ⌜(K (F := F)).WBelow (SparseCore.T c) W 8⌝ ∗ owes (SparseCore.T c) (O c) W) := by
  unfold Pipeline.Dat.owesAt Pipeline.owesWithin
  rw [tcDats_owed]
  constructor
  · iintro ⟨%W, %hW, HO⟩; iexists W; isplitr
    · ipureintro
      intro p hp
      rcases hW hp with h | ⟨w, s, rfl⟩
      · exact h
      · exact Nat.zero_le _
    · iexact HO
  · iintro ⟨%W, %hW, HO⟩; iexists W; isplitr
    · ipureintro; exact fun p hp => Or.inl (hW p hp)
    · iexact HO

set_option maxHeartbeats 1600000 in
/-- THE REGION. Entered holding the strip, the result's array and what the TensorCore owes; left holding the strip as it
    was, the result read off the strip, and the same debt. Nothing else enters or leaves: the scratch and the staging
    buffers are the region boundary's. -/
def tcRegion (hO : ∀ c g, O c g none = 0) :
    Pipeline.RegionSeg (pcfgs (F := F)) adm (tcDats rows out₀ O) (none : HIx 1) (defs₀ (F := F)) 𝒱₀ (K (F := F)).L (K (F := F)).lev (0 : Fin 1) where
  win := launch1.win.to₀
  block_pos := launch1.block_pos
  stage_whole := launch1.stage_whole
  K := PEmpty
  osem := fun k => k.elim
  ho := Pipeline.OwnSemFacts.none _
  hbody c := tc_body rows out₀ O c
  hwaits c := Pipeline.cellsWaits_intro (Pipeline.pin pcfgs adm) (tcDats rows out₀ O) (none : HIx 1) 0 c
    fun w s t => (K (F := F)).mayWait_none _ (hO c)
  pre c := iprop((rowsLoc c ↦{fullShare} rows c) ∗ (outLoc c ↦{fullShare} out₀ c) ∗ (∃ W, ⌜(K (F := F)).WBelow (SparseCore.T c) W 8⌝ ∗ owes (SparseCore.T c) (O c) W))
  post c := iprop((rowsLoc c ↦{fullShare} rows c)
    ∗ (outLoc c ↦{fullShare} (Cert.RelPos.relOfStrip (rows c) : Buf (Elt F) (outLoc c))) ∗ (∃ W, ⌜(K (F := F)).WBelow (SparseCore.T c) W 8⌝ ∗ owes (SparseCore.T c) (O c) W))
  X _ := iprop(emp)
  Y _ := iprop(emp)
  Z _ := iprop(emp)
  hentry c := by
    iintro ⟨⟨Hr, Ho, HO⟩, -, -⟩
    imodintro
    isplitl [Hr Ho]
    · iapply (tc_arrays_entry rows out₀ O c)
      isplitl [Hr]
      · iexact Hr
      · iexact Ho
    isplitr
    · unfold Pipeline.prefHeld; rw [show (Finset.univ : Finset (Fin 0)) = ∅ from rfl, BI.bigSep_empty]; iempintro
    isplitl [HO]
    · iapply (tc_owesAt rows out₀ O c 0).2; iexact HO
    isplitr <;> iempintro
  hin c := by
    rw [tcDats_Phi, show ((0 : Fin (cfg1.N + 1)) : ℕ) = 0 from rfl, PhiT_zero]
    refine (show _ ⊢ (Pipeline.scopedRest (Ix := HIx 1) (Name := ℕ) (U := UU) (Lvl := ℕ) (Val := Elt F) spec1 c : sProp 𝕄) from ?_).trans
      (Entails.of_eq (scopedRest1_eq c))
    iintro ⟨-, -, Hr⟩; iexact Hr
  hout c := by
    rw [Pipeline.ownSems0_none, tcDats_Phi, PhiT_pos rows c _ (by rw [Fin.val_last]; exact (by decide : cfg1.N ≠ 0))]
    refine (show _ ⊢ iprop(emp ∗ emp ∗ (∃ f : Buf (Elt F) (scrLoc c), scrLoc c ↦{fullShare} f)) from ?_).trans
      (sep_mono .rfl (sep_mono .rfl (Entails.of_eq (scopedRest1_eq (Ix := HIx 1) (Name := ℕ) (U := UU) (Lvl := ℕ) (Val := Elt F) c).symm)))
    iintro Hs
    isplitr; · iempintro
    isplitr; · iempintro
    iexists _; iexact Hs
  hexit c := by
    iintro ⟨Ha, HO, -, -⟩
    ihave Hb := (tc_arrays_exit rows out₀ O c (Cert.RelPos.relOfStrip (rows c)) (tc_value rows out₀ O c)) $$ Ha
    icases Hb with ⟨Hr, Ho⟩
    imodintro
    isplitl [Hr]; · iexact Hr
    isplitl [Ho]; · iexact Ho
    iapply (tc_owesAt rows out₀ O c _).1; iexact HO

/-- What the region is entered from, -/
theorem tcRegion_pre (hO : ∀ c g, O c g none = 0) (c : Dev nD) :
    (tcRegion rows out₀ O hO).pre c
      = iprop((rowsLoc c ↦{fullShare} rows c) ∗ (outLoc c ↦{fullShare} out₀ c) ∗ (∃ W, ⌜(K (F := F)).WBelow (SparseCore.T c) W 8⌝ ∗ owes (SparseCore.T c) (O c) W)) := rfl
/-- and what it leaves. -/
theorem tcRegion_post (hO : ∀ c g, O c g none = 0) (c : Dev nD) :
    (tcRegion rows out₀ O hO).post c
      = iprop((rowsLoc c ↦{fullShare} rows c)
        ∗ (outLoc c ↦{fullShare} (Cert.RelPos.relOfStrip (rows c) : Buf (Elt F) (outLoc c))) ∗ (∃ W, ⌜(K (F := F)).WBelow (SparseCore.T c) W 8⌝ ∗ owes (SparseCore.T c) (O c) W)) := rfl

end

end Cert.Kernel.Hand

end
-- ==== Proof.lean ====
/-
  The claim: the relative-position lookup computed through a strip.

  A table of 65 rows is expanded into a 512 × 512 array of rows, entry (i, j) being the table's row for the
  offset j − i clipped to −32 … 32. The kernel goes through a strip of 1056 rows — row g the table's row
  min 64 (g − 479), written 33 rows at a time by thirty-two subcores — and then reads the strip at row
  511 − i + j; the reference reads the table at the clipped offset directly. The two agree because
  (511 − i + j) − 479 = j + 32 − i for i ≤ 511. Nothing is computed with the entries, so the equality holds
  for every reading of the floats and needs nothing of the inputs.

  Each program's run is proved with its result named; the frames are the runs with the result forgotten.
-/
import proofs.«214700_g37623913513500_cont_8to1_b_1793_29_alg».proof.Defs
import proofs.«214700_g37623913513500_cont_8to1_b_1793_29_alg».proof.Proof.Assemble
import proofs.«214700_g37623913513500_cont_8to1_b_1793_29_alg».proof.Proof.Ideal.TileBody
import proofs.«214700_g37623913513500_cont_8to1_b_1793_29_alg».proof.Proof.Ideal.TcRegion
import proofs.«214700_g37623913513500_cont_8to1_b_1793_29_alg».proof.Proof.Bits.TileBody
import proofs.«214700_g37623913513500_cont_8to1_b_1793_29_alg».proof.Proof.Bits.TcRegion
import Idealize.ShloMosaic.Adequacy
import Idealize.ShloMosaic.Init

noncomputable section

namespace Cert.Proof

open Idealize.ShloMosaic Idealize.SL.Sem

theorem claim : Cert.Claim :=
  Assemble.claim_of
    (fun d Lc q tab O W hO => Cert.Kernel.Hand.tile_body d Lc q tab O W hO)
    (fun rows out₀ O hO =>
      ⟨Cert.Kernel.Hand.tcRegion rows out₀ O hO, Cert.Kernel.Hand.tcRegion_pre rows out₀ O hO, Cert.Kernel.Hand.tcRegion_post rows out₀ O hO⟩)
    (fun d Lc q tab O W hO => Cert.KernelIdeal.Hand.tile_body d Lc q tab O W hO)
    (fun rows out₀ O hO =>
      ⟨Cert.KernelIdeal.Hand.tcRegion rows out₀ O hO, Cert.KernelIdeal.Hand.tcRegion_pre rows out₀ O hO, Cert.KernelIdeal.Hand.tcRegion_post rows out₀ O hO⟩)

end Cert.Proof

end
